-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S2x128 : Shape := ⟨2, ![2, 128]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x128 : S_.BroadcastsInDim S2x128 (![] : Fin 0 → Fin S2x128.rank)
  reducesTo_S2x128_S_d0_1 : S2x128.ReducesTo [0, 1] S_
  bcast_S_S2 : S_.BroadcastsInDim S2 (![] : Fin 0 → Fin S2.rank)
  reducesTo_S2_S_d0 : S2.ReducesTo [0] S_

variable [Facts]

def fn_part5 {F : FTy → Type} [FloatOps F] (main_arg19 : FVec F S2x128 .f32) (main_arg20 : FVec F S2 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S2x128 .f32 := Host.absf main_arg19
  let main_cst_34 : FVec F S_ .f32 := constant S_ .f32 0x7F800000#32
  let main_v90 : FVec F S2x128 .f32 := broadcastInDim S2x128 ![] bcast_S_S2x128 main_cst_34
  let main_v91 : IVec S2x128 1 := cmpf .olt main_v89 main_v90
  let main_c_35 : IVec S_ 1 := constantI S_ 1 1#1
  let main_v92 : IVec S_ 1 := (fun x v => Host.reduce IntOp.andi x v reducesTo_S2x128_S_d0_1 h_S_) main_v91 main_c_35
  let main_v93 : IVec S_ 1 := andi main_v88 main_v92
  let main_v94 : FVec F S2 .f32 := Host.absf main_arg20
  let main_cst_36 : FVec F S_ .f32 := constant S_ .f32 0x7F800000#32
  let main_v95 : FVec F S2 .f32 := broadcastInDim S2 ![] bcast_S_S2 main_cst_36
  let main_v96 : IVec S2 1 := cmpf .olt main_v94 main_v95
  let main_c_37 : IVec S_ 1 := constantI S_ 1 1#1
  let main_v97 : IVec S_ 1 := (fun x v => Host.reduce IntOp.andi x v reducesTo_S2_S_d0 h_S_) main_v96 main_c_37
  let main_v98 : IVec S_ 1 := andi main_v93 main_v97
  main_v98

def fn_part4 {F : FTy → Type} [FloatOps F] (main_arg15 : FVec F S128x128 .f32) (main_arg16 : FVec F S128 .f32) (main_arg17 : FVec F S128 .f32) (main_arg18 : FVec F S128 .f32) (main_arg19 : FVec F S2x128 .f32) (main_arg20 : FVec F S2 .f32) (main_v63 : IVec S_ 1) (main_v67 : IVec S_ 1) : IVec S_ 1 :=
  let main_v68 : IVec S_ 1 := andi main_v63 main_v67
  let main_v69 : FVec F S128x128 .f32 := Host.absf main_arg15
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg18
  let main_cst_32 : FVec F S_ .f32 := constant S_ .f32 0x7F800000#32
  fn_part5 (F := F) main_arg19 main_arg20 main_v83 main_v84 main_cst_32

def fn_part3 {F : FTy → Type} [FloatOps F] (main_arg12 : FVec F S128 .f32) (main_arg13 : FVec F S128 .f32) (main_arg14 : FVec F S128x128 .f32) (main_arg15 : FVec F S128x128 .f32) (main_arg16 : FVec F S128 .f32) (main_arg17 : FVec F S128 .f32) (main_arg18 : FVec F S128 .f32) (main_arg19 : FVec F S2x128 .f32) (main_arg20 : FVec F S2 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg14
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg15 main_arg16 main_arg17 main_arg18 main_arg19 main_arg20 main_v63 main_v67

def fn_part2 {F : FTy → Type} [FloatOps F] (main_arg8 : FVec F S128 .f32) (main_arg9 : FVec F S128x128 .f32) (main_arg10 : FVec F S128x128 .f32) (main_arg11 : FVec F S128 .f32) (main_arg12 : FVec F S128 .f32) (main_arg13 : FVec F S128 .f32) (main_arg14 : FVec F S128x128 .f32) (main_arg15 : FVec F S128x128 .f32) (main_arg16 : FVec F S128 .f32) (main_arg17 : FVec F S128 .f32) (main_arg18 : FVec F S128 .f32) (main_arg19 : FVec F S2x128 .f32) (main_arg20 : FVec F S2 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_arg18 main_arg19 main_arg20 main_v48 main_v49 main_v50

def fn_part1 {F : FTy → Type} [FloatOps F] (main_arg5 : FVec F S128x128 .f32) (main_arg6 : FVec F S128 .f32) (main_arg7 : FVec F S128 .f32) (main_arg8 : FVec F S128 .f32) (main_arg9 : FVec F S128x128 .f32) (main_arg10 : FVec F S128x128 .f32) (main_arg11 : FVec F S128 .f32) (main_arg12 : FVec F S128 .f32) (main_arg13 : FVec F S128 .f32) (main_arg14 : FVec F S128x128 .f32) (main_arg15 : FVec F S128x128 .f32) (main_arg16 : FVec F S128 .f32) (main_arg17 : FVec F S128 .f32) (main_arg18 : FVec F S128 .f32) (main_arg19 : FVec F S2x128 .f32) (main_arg20 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128 .f32) (main_arg8 : FVec F S128 .f32) (main_arg9 : FVec F S128x128 .f32) (main_arg10 : FVec F S128x128 .f32) (main_arg11 : FVec F S128 .f32) (main_arg12 : FVec F S128 .f32) (main_arg13 : FVec F S128 .f32) (main_arg14 : FVec F S128x128 .f32) (main_arg15 : FVec F S128x128 .f32) (main_arg16 : FVec F S128 .f32) (main_arg17 : FVec F S128 .f32) (main_arg18 : FVec F S128 .f32) (main_arg19 : FVec F S2x128 .f32) (main_arg20 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S2x128 : Shape := ⟨2, ![2, 128]⟩
abbrev S2 : Shape := ⟨1, ![2]⟩
abbrev S1x1600000 : Shape := ⟨2, ![1, 1600000]⟩
abbrev S1600000 : Shape := ⟨1, ![1600000]⟩
abbrev S1x128 : Shape := ⟨2, ![1, 128]⟩
abbrev S5000x128 : Shape := ⟨2, ![5000, 128]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x2 : Shape := ⟨2, ![1, 2]⟩
abbrev S100000x2 : Shape := ⟨2, ![100000, 2]⟩
abbrev S5000x2 : Shape := ⟨2, ![5000, 2]⟩
abbrev S128x2 : Shape := ⟨2, ![128, 2]⟩

abbrev nBuf : Space → Nat
  | .hbm => 146
  | .vmem => 69
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128x128, .f32⟩
  | 6 => ⟨S128, .f32⟩
  | 7 => ⟨S128, .f32⟩
  | 8 => ⟨S128, .f32⟩
  | 9 => ⟨S128x128, .f32⟩
  | 10 => ⟨S128x128, .f32⟩
  | 11 => ⟨S128, .f32⟩
  | 12 => ⟨S128, .f32⟩
  | 13 => ⟨S128, .f32⟩
  | 14 => ⟨S128x128, .f32⟩
  | 15 => ⟨S128x128, .f32⟩
  | 16 => ⟨S128, .f32⟩
  | 17 => ⟨S128, .f32⟩
  | 18 => ⟨S128, .f32⟩
  | 19 => ⟨S2x128, .f32⟩
  | 20 => ⟨S2, .f32⟩
  | 21 => ⟨S1x1600000, .i32⟩
  | 22 => ⟨S1600000, .i32⟩
  | 23 => ⟨S1x1600000, .i32⟩
  | 24 => ⟨S1600000, .i32⟩
  | 25 => ⟨S1x128, .f32⟩
  | 26 => ⟨S100000x128, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000x128, .f32⟩
  | 36 => ⟨S_, .f32⟩
  | 37 => ⟨S100000x128, .f32⟩
  | 38 => ⟨S1600000x1, .i32⟩
  | 39 => ⟨S100000x128, .f32⟩
  | 40 => ⟨S_, .f32⟩
  | 41 => ⟨S1600000x1, .f32⟩
  | 42 => ⟨S_, .f32⟩
  | 43 => ⟨S100000x1, .f32⟩
  | 44 => ⟨S1600000x1, .i32⟩
  | 45 => ⟨S100000x1, .f32⟩
  | 46 => ⟨S_, .f32⟩
  | 47 => ⟨S100000x1, .f32⟩
  | 48 => ⟨S100000x1, .f32⟩
  | 49 => ⟨S100000x128, .f32⟩
  | 50 => ⟨S100000x128, .f32⟩
  | 51 => ⟨S1x128, .f32⟩
  | 52 => ⟨S100000x128, .f32⟩
  | 53 => ⟨S1x128, .f32⟩
  | 54 => ⟨S1x128, .f32⟩
  | 55 => ⟨S_, .f32⟩
  | 56 => ⟨S1x128, .f32⟩
  | 57 => ⟨S1x128, .f32⟩
  | 58 => ⟨S_, .f32⟩
  | 59 => ⟨S1x128, .f32⟩
  | 60 => ⟨S1x128, .f32⟩
  | 61 => ⟨S1x128, .f32⟩
  | 62 => ⟨S1x128, .f32⟩
  | 63 => ⟨S1x128, .f32⟩
  | 64 => ⟨S1x128, .f32⟩
  | 65 => ⟨S100000x128, .f32⟩
  | 66 => ⟨S_, .i32⟩
  | 67 => ⟨S1600000, .i32⟩
  | 68 => ⟨S1600000, .i1⟩
  | 69 => ⟨S_, .i32⟩
  | 70 => ⟨S1600000, .i32⟩
  | 71 => ⟨S1600000, .i32⟩
  | 72 => ⟨S1600000, .i32⟩
  | 73 => ⟨S1600000x1, .i32⟩
  | 74 => ⟨S1600000x128, .f32⟩
  | 75 => ⟨S_, .f32⟩
  | 76 => ⟨S100000x128, .f32⟩
  | 77 => ⟨S1600000x1, .i32⟩
  | 78 => ⟨S100000x128, .f32⟩
  | 79 => ⟨S_, .f32⟩
  | 80 => ⟨S1600000x1, .f32⟩
  | 81 => ⟨S_, .f32⟩
  | 82 => ⟨S100000x1, .f32⟩
  | 83 => ⟨S1600000x1, .i32⟩
  | 84 => ⟨S100000x1, .f32⟩
  | 85 => ⟨S_, .f32⟩
  | 86 => ⟨S100000x1, .f32⟩
  | 87 => ⟨S100000x1, .f32⟩
  | 88 => ⟨S100000x128, .f32⟩
  | 89 => ⟨S100000x128, .f32⟩
  | 90 => ⟨S1x128, .f32⟩
  | 91 => ⟨S100000x128, .f32⟩
  | 92 => ⟨S1x128, .f32⟩
  | 93 => ⟨S1x128, .f32⟩
  | 94 => ⟨S_, .f32⟩
  | 95 => ⟨S1x128, .f32⟩
  | 96 => ⟨S1x128, .f32⟩
  | 97 => ⟨S_, .f32⟩
  | 98 => ⟨S1x128, .f32⟩
  | 99 => ⟨S1x128, .f32⟩
  | 100 => ⟨S1x128, .f32⟩
  | 101 => ⟨S1x128, .f32⟩
  | 102 => ⟨S1x128, .f32⟩
  | 103 => ⟨S1x128, .f32⟩
  | 104 => ⟨S100000x128, .f32⟩
  | 105 => ⟨S_, .i32⟩
  | 106 => ⟨S1600000, .i32⟩
  | 107 => ⟨S1600000, .i1⟩
  | 108 => ⟨S_, .i32⟩
  | 109 => ⟨S1600000, .i32⟩
  | 110 => ⟨S1600000, .i32⟩
  | 111 => ⟨S1600000, .i32⟩
  | 112 => ⟨S1600000x1, .i32⟩
  | 113 => ⟨S1600000x128, .f32⟩
  | 114 => ⟨S_, .f32⟩
  | 115 => ⟨S100000x128, .f32⟩
  | 116 => ⟨S1600000x1, .i32⟩
  | 117 => ⟨S100000x128, .f32⟩
  | 118 => ⟨S_, .f32⟩
  | 119 => ⟨S1600000x1, .f32⟩
  | 120 => ⟨S_, .f32⟩
  | 121 => ⟨S100000x1, .f32⟩
  | 122 => ⟨S1600000x1, .i32⟩
  | 123 => ⟨S100000x1, .f32⟩
  | 124 => ⟨S_, .f32⟩
  | 125 => ⟨S100000x1, .f32⟩
  | 126 => ⟨S100000x1, .f32⟩
  | 127 => ⟨S100000x128, .f32⟩
  | _ => ⟨S100000x128, .f32⟩

abbrev hbmTy0_1 (i : Nat) : BufTy := match i % 128 with
  | 0 => ⟨S100000x128, .f32⟩
  | 1 => ⟨S1x128, .f32⟩
  | 2 => ⟨S100000x128, .f32⟩
  | 3 => ⟨S1x128, .f32⟩
  | 4 => ⟨S1x128, .f32⟩
  | 5 => ⟨S_, .f32⟩
  | 6 => ⟨S1x128, .f32⟩
  | 7 => ⟨S1x128, .f32⟩
  | 8 => ⟨S_, .f32⟩
  | 9 => ⟨S1x128, .f32⟩
  | 10 => ⟨S1x128, .f32⟩
  | 11 => ⟨S1x128, .f32⟩
  | 12 => ⟨S1x128, .f32⟩
  | 13 => ⟨S1x128, .f32⟩
  | 14 => ⟨S1x128, .f32⟩
  | 15 => ⟨S100000x128, .f32⟩
  | 16 => ⟨S1x2, .f32⟩
  | 17 => ⟨S100000x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S128x128, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | .local _ .vmem, ⟨15, _⟩ => ⟨S1x128, .f32⟩
  | .local _ .vmem, ⟨16, _⟩ => ⟨S1x128, .f32⟩
  | .local _ .vmem, ⟨17, _⟩ => ⟨S5000x128, .f32⟩
  | .local _ .vmem, ⟨18, _⟩ => ⟨S5000x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S128x128, .f32⟩
  | .local _ .vmem, ⟨30, _⟩ => ⟨S128x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S1x128, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | .local _ .vmem, ⟨38, _⟩ => ⟨S1x128, .f32⟩
  | .local _ .vmem, ⟨39, _⟩ => ⟨S1x128, .f32⟩
  | .local _ .vmem, ⟨40, _⟩ => ⟨S1x128, .f32⟩
  | .local _ .vmem, ⟨41, _⟩ => ⟨S1x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S128x128, .f32⟩
  | .local _ .vmem, ⟨49, _⟩ => ⟨S128x128, .f32⟩
  | .local _ .vmem, ⟨50, _⟩ => ⟨S1x128, .f32⟩
  | .local _ .vmem, ⟨51, _⟩ => ⟨S5000x128, .f32⟩
  | .local _ .vmem, ⟨52, _⟩ => ⟨S5000x128, .f32⟩
  | .local _ .vmem, ⟨53, _⟩ => ⟨S1x128, .f32⟩
  | .local _ .vmem, ⟨54, _⟩ => ⟨S1x128, .f32⟩
  | .local _ .vmem, ⟨55, _⟩ => ⟨S5000x128, .f32⟩
  | .local _ .vmem, ⟨56, _⟩ => ⟨S5000x128, .f32⟩
  | .local _ .vmem, ⟨57, _⟩ => ⟨S1x128, .f32⟩
  | .local _ .vmem, ⟨58, _⟩ => ⟨S1x128, .f32⟩
  | .local _ .vmem, ⟨59, _⟩ => ⟨S1x128, .f32⟩
  | .local _ .vmem, ⟨60, _⟩ => ⟨S1x128, .f32⟩
  | .local _ .vmem, ⟨61, _⟩ => ⟨S5000x128, .f32⟩
  | .local _ .vmem, ⟨62, _⟩ => ⟨S5000x128, .f32⟩
  | .local _ .vmem, ⟨63, _⟩ => ⟨S5000x128, .f32⟩
  | .local _ .vmem, ⟨64, _⟩ => ⟨S5000x128, .f32⟩
  | .local _ .vmem, ⟨65, _⟩ => ⟨S2x128, .f32⟩
  | .local _ .vmem, ⟨66, _⟩ => ⟨S1x2, .f32⟩
  | .local _ .vmem, ⟨67, _⟩ => ⟨S5000x2, .f32⟩
  | .local _ .vmem, ⟨68, _⟩ => ⟨S5000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | _, _ => false

abbrev semScoped : Fin 0 → Bool
  | ⟨_, h⟩ => absurd h (Nat.not_lt_zero _)

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  ofTc nBuf bufTy 0 69 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_c : Ref sig .tc := ⟨.hbm, 27, rfl⟩
abbrev main_v6 : Ref sig .tc := ⟨.hbm, 28, rfl⟩
abbrev main_v7 : Ref sig .tc := ⟨.hbm, 29, rfl⟩
abbrev main_c_0 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_cst : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_cst_1 : Ref sig .tc := ⟨.hbm, 40, rfl⟩
abbrev main_v16 : Ref sig .tc := ⟨.hbm, 41, rfl⟩
abbrev main_cst_2 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_cst_3 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25_0 : Ref sig .tc := ⟨.hbm, 52, rfl⟩
abbrev main_v25_1 : Ref sig .tc := ⟨.hbm, 53, rfl⟩
abbrev main_v25_2 : Ref sig .tc := ⟨.hbm, 54, rfl⟩
abbrev main_cst_4 : Ref sig .tc := ⟨.hbm, 55, rfl⟩
abbrev main_v26 : Ref sig .tc := ⟨.hbm, 56, rfl⟩
abbrev main_v27 : Ref sig .tc := ⟨.hbm, 57, rfl⟩
abbrev main_cst_5 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_c_6 : Ref sig .tc := ⟨.hbm, 66, rfl⟩
abbrev main_v35 : Ref sig .tc := ⟨.hbm, 67, rfl⟩
abbrev main_v36 : Ref sig .tc := ⟨.hbm, 68, rfl⟩
abbrev main_c_7 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_cst_8 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_cst_9 : Ref sig .tc := ⟨.hbm, 79, rfl⟩
abbrev main_v45 : Ref sig .tc := ⟨.hbm, 80, rfl⟩
abbrev main_cst_10 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_cst_11 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54_0 : Ref sig .tc := ⟨.hbm, 91, rfl⟩
abbrev main_v54_1 : Ref sig .tc := ⟨.hbm, 92, rfl⟩
abbrev main_v54_2 : Ref sig .tc := ⟨.hbm, 93, rfl⟩
abbrev main_cst_12 : Ref sig .tc := ⟨.hbm, 94, rfl⟩
abbrev main_v55 : Ref sig .tc := ⟨.hbm, 95, rfl⟩
abbrev main_v56 : Ref sig .tc := ⟨.hbm, 96, rfl⟩
abbrev main_cst_13 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_c_14 : Ref sig .tc := ⟨.hbm, 105, rfl⟩
abbrev main_v64 : Ref sig .tc := ⟨.hbm, 106, rfl⟩
abbrev main_v65 : Ref sig .tc := ⟨.hbm, 107, rfl⟩
abbrev main_c_15 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_cst_16 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_cst_17 : Ref sig .tc := ⟨.hbm, 118, rfl⟩
abbrev main_v74 : Ref sig .tc := ⟨.hbm, 119, rfl⟩
abbrev main_cst_18 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_cst_19 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83_0 : Ref sig .tc := ⟨.hbm, 130, rfl⟩
abbrev main_v83_1 : Ref sig .tc := ⟨.hbm, 131, rfl⟩
abbrev main_v83_2 : Ref sig .tc := ⟨.hbm, 132, rfl⟩
abbrev main_cst_20 : Ref sig .tc := ⟨.hbm, 133, rfl⟩
abbrev main_v84 : Ref sig .tc := ⟨.hbm, 134, rfl⟩
abbrev main_v85 : Ref sig .tc := ⟨.hbm, 135, rfl⟩
abbrev main_cst_21 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg7_0 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg5_1 : Ref sig .tc := ⟨.vmem, 33, rfl⟩
abbrev cc3_stg6_0 : Ref sig .tc := ⟨.vmem, 34, rfl⟩
abbrev cc3_stg7_0 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg5_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg1_1 : Ref sig .tc := ⟨.vmem, 47, rfl⟩
abbrev cc5_stg2_0 : Ref sig .tc := ⟨.vmem, 48, rfl⟩
abbrev cc5_stg3_0 : Ref sig .tc := ⟨.vmem, 49, rfl⟩
abbrev cc5_stg4_0 : Ref sig .tc := ⟨.vmem, 50, rfl⟩
abbrev cc5_stg5_0 : Ref sig .tc := ⟨.vmem, 51, rfl⟩
abbrev cc5_stg5_1 : Ref sig .tc := ⟨.vmem, 52, rfl⟩
abbrev cc5_stg6_0 : Ref sig .tc := ⟨.vmem, 53, rfl⟩
abbrev cc5_stg7_0 : Ref sig .tc := ⟨.vmem, 54, rfl⟩
abbrev cc6_stg0_0 : Ref sig .tc := ⟨.vmem, 55, rfl⟩
abbrev cc6_stg0_1 : Ref sig .tc := ⟨.vmem, 56, rfl⟩
abbrev cc6_stg1_0 : Ref sig .tc := ⟨.vmem, 57, rfl⟩
abbrev cc6_stg2_0 : Ref sig .tc := ⟨.vmem, 58, rfl⟩
abbrev cc6_stg3_0 : Ref sig .tc := ⟨.vmem, 59, rfl⟩
abbrev cc6_stg4_0 : Ref sig .tc := ⟨.vmem, 60, rfl⟩
abbrev cc6_stg5_0 : Ref sig .tc := ⟨.vmem, 61, rfl⟩
abbrev cc6_stg5_1 : Ref sig .tc := ⟨.vmem, 62, rfl⟩
abbrev cc7_stg0_0 : Ref sig .tc := ⟨.vmem, 63, rfl⟩
abbrev cc7_stg0_1 : Ref sig .tc := ⟨.vmem, 64, rfl⟩
abbrev cc7_stg1_0 : Ref sig .tc := ⟨.vmem, 65, rfl⟩
abbrev cc7_stg2_0 : Ref sig .tc := ⟨.vmem, 66, rfl⟩
abbrev cc7_stg3_0 : Ref sig .tc := ⟨.vmem, 67, rfl⟩
abbrev cc7_stg3_1 : Ref sig .tc := ⟨.vmem, 68, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc1_sem6_0 : DmaSem sig := 15
abbrev cc1_sem7_0 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem5_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem5_1 : DmaSem sig := 33
abbrev cc3_sem6_0 : DmaSem sig := 34
abbrev cc3_sem7_0 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem4_0 : DmaSem sig := 41
abbrev cc4_sem5_0 : DmaSem sig := 42
abbrev cc4_sem5_1 : DmaSem sig := 43
abbrev cc5_sem0_0 : DmaSem sig := 44
abbrev cc5_sem0_1 : DmaSem sig := 45
abbrev cc5_sem1_0 : DmaSem sig := 46
abbrev cc5_sem1_1 : DmaSem sig := 47
abbrev cc5_sem2_0 : DmaSem sig := 48
abbrev cc5_sem3_0 : DmaSem sig := 49
abbrev cc5_sem4_0 : DmaSem sig := 50
abbrev cc5_sem5_0 : DmaSem sig := 51
abbrev cc5_sem5_1 : DmaSem sig := 52
abbrev cc5_sem6_0 : DmaSem sig := 53
abbrev cc5_sem7_0 : DmaSem sig := 54
abbrev cc6_sem0_0 : DmaSem sig := 55
abbrev cc6_sem0_1 : DmaSem sig := 56
abbrev cc6_sem1_0 : DmaSem sig := 57
abbrev cc6_sem2_0 : DmaSem sig := 58
abbrev cc6_sem3_0 : DmaSem sig := 59
abbrev cc6_sem4_0 : DmaSem sig := 60
abbrev cc6_sem5_0 : DmaSem sig := 61
abbrev cc6_sem5_1 : DmaSem sig := 62
abbrev cc7_sem0_0 : DmaSem sig := 63
abbrev cc7_sem0_1 : DmaSem sig := 64
abbrev cc7_sem1_0 : DmaSem sig := 65
abbrev cc7_sem2_0 : DmaSem sig := 66
abbrev cc7_sem3_0 : DmaSem sig := 67
abbrev cc7_sem3_1 : DmaSem sig := 68

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S2x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x2 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x2 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  shapeCasts_S5000x128_S5000x128 : S5000x128.ShapeCasts S5000x128
  reduces_S5000x128_S128 : S5000x128.Reduces [0] S128
  bcast_S_S1x128 : S_.BroadcastsInDim S1x128 (![] : Fin 0 → Fin S1x128.rank)
  shapeCasts_S2_S1x2 : S2.ShapeCasts S1x2
  inb_S2x128_S2x128_0_0 : ∀ a, (![0, 0] : Fin 2 → Nat) a + S2x128.size a ≤ S2x128.size a
  h_S2x128 : 0 < S2x128.numel
  transposes_S2x128_p1_0_S128x2 : S2x128.Transposes [1, 0] S128x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000x1_S1600000x1_S1600000x1_1_0_0_1_wf : ScatterDims.WF S100000x1 S1600000x1 S1600000x1 [1] [0] [0] 1
  dot_S5000x128_S128x2_S5000x2_1_0_0_1_n_n_wf : DotDims.WF S5000x128 S128x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S100000x128.size a
  hwx4_5 : ∀ i : grid4.Coords, EltTy.bits .f32 = 32 ∨ (Rect.block (s := S100000x128) S5000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S100000x128.size a
  hwx5_1 : ∀ i : grid5.Coords, EltTy.bits .f32 = 32 ∨ (Rect.block (s := S100000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .f32 = 32 ∨ (Rect.block (s := S100000x128) S5000x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x128.size a ≤ S1x128.size a
  hwx5_7 : ∀ i : grid5.Coords, EltTy.bits .f32 = 32 ∨ (Rect.block (s := S1x128) S1x128.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x128.size a ≤ S100000x128.size a
  hwx6_5 : ∀ i : grid6.Coords, EltTy.bits .f32 = 32 ∨ (Rect.block (s := S100000x128) S5000x128.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S2x128.size a ≤ S2x128.size a
  hwx7_1 : ∀ i : grid7.Coords, EltTy.bits .f32 = 32 ∨ (Rect.block (s := S2x128) S2x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x2.size a ≤ S1x2.size a
  hwx7_2 : ∀ i : grid7.Coords, EltTy.bits .f32 = 32 ∨ (Rect.block (s := S1x2) S1x2.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x2.size a ≤ S100000x2.size a
  hwx7_3 : ∀ i : grid7.Coords, EltTy.bits .f32 = 32 ∨ (Rect.block (s := S100000x2) S5000x2.size (cc7_transform_3 i) (hinb7_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25_0) S5000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v25_1) S1x128.size cc1_transform_6 reads1_6 true true 1 stage1_6 sem1_6
    hrank1 hreads1_6 hinb1_6 nbuf1_6 (Memref.isWhole_whole _) hwx1_6 hstage1_6

abbrev win1_7 : Pipeline.Window sig grid1 :=
  Pipeline.Window.ofSpec (Memref.whole main_v25_2) S1x128.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v25_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v31) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v32) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v33) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v34) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v34) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v52) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg10) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v53) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v54_0) S5000x128.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v54_1) S1x128.size cc3_transform_6 reads3_6 true true 1 stage3_6 sem3_6
    hrank3 hreads3_6 hinb3_6 nbuf3_6 (Memref.isWhole_whole _) hwx3_6 hstage3_6

abbrev win3_7 : Pipeline.Window sig grid3 :=
  Pipeline.Window.ofSpec (Memref.whole main_v54_2) S1x128.size cc3_transform_7 reads3_7 true true 1 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v54_0) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v56) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v60) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v61) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v62) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v63) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v63) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v81) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg14) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg15) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v82) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v83_0) S5000x128.size cc5_transform_5 reads5_5 true false 2 stage5_5 sem5_5
    hrank5 hreads5_5 hinb5_5 nbuf5_5 (Memref.isWhole_whole _) hwx5_5 hstage5_5

abbrev win5_6 : Pipeline.Window sig grid5 :=
  Pipeline.Window.ofSpec (Memref.whole main_v83_1) S1x128.size cc5_transform_6 reads5_6 true true 1 stage5_6 sem5_6
    hrank5 hreads5_6 hinb5_6 nbuf5_6 (Memref.isWhole_whole _) hwx5_6 hstage5_6

abbrev win5_7 : Pipeline.Window sig grid5 :=
  Pipeline.Window.ofSpec (Memref.whole main_v83_2) S1x128.size cc5_transform_7 reads5_7 true true 1 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v83_0) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v85) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v89) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v90) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v91) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v92) S5000x128.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v92) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg19) S2x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v93) S1x2.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v94) S5000x2.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S2x128 : Shape := ⟨2, ![2, 128]⟩
abbrev S2 : Shape := ⟨1, ![2]⟩
abbrev S1x1600000 : Shape := ⟨2, ![1, 1600000]⟩
abbrev S1600000 : Shape := ⟨1, ![1600000]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S128x2 : Shape := ⟨2, ![128, 2]⟩
abbrev S100000x2 : Shape := ⟨2, ![100000, 2]⟩
abbrev S1x2 : Shape := ⟨2, ![1, 2]⟩

abbrev nBuf : Space → Nat
  | .hbm => 272
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128x128, .f32⟩
  | 6 => ⟨S128, .f32⟩
  | 7 => ⟨S128, .f32⟩
  | 8 => ⟨S128, .f32⟩
  | 9 => ⟨S128x128, .f32⟩
  | 10 => ⟨S128x128, .f32⟩
  | 11 => ⟨S128, .f32⟩
  | 12 => ⟨S128, .f32⟩
  | 13 => ⟨S128, .f32⟩
  | 14 => ⟨S128x128, .f32⟩
  | 15 => ⟨S128x128, .f32⟩
  | 16 => ⟨S128, .f32⟩
  | 17 => ⟨S128, .f32⟩
  | 18 => ⟨S128, .f32⟩
  | 19 => ⟨S2x128, .f32⟩
  | 20 => ⟨S2, .f32⟩
  | 21 => ⟨S1x1600000, .i32⟩
  | 22 => ⟨S1600000, .i32⟩
  | 23 => ⟨S1x1600000, .i32⟩
  | 24 => ⟨S1600000, .i32⟩
  | 25 => ⟨S128x128, .f32⟩
  | 26 => ⟨S100000x128, .f32⟩
  | 27 => ⟨S1x128, .f32⟩
  | 28 => ⟨S100000x128, .f32⟩
  | 29 => ⟨S100000x128, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000x128, .f32⟩
  | 39 => ⟨S_, .f32⟩
  | 40 => ⟨S100000x128, .f32⟩
  | 41 => ⟨S1600000x1, .i32⟩
  | 42 => ⟨S100000x128, .f32⟩
  | 43 => ⟨S_, .f32⟩
  | 44 => ⟨S1600000x1, .f32⟩
  | 45 => ⟨S_, .f32⟩
  | 46 => ⟨S100000x1, .f32⟩
  | 47 => ⟨S1600000x1, .i32⟩
  | 48 => ⟨S100000x1, .f32⟩
  | 49 => ⟨S_, .f32⟩
  | 50 => ⟨S100000x1, .f32⟩
  | 51 => ⟨S100000x1, .f32⟩
  | 52 => ⟨S100000x128, .f32⟩
  | 53 => ⟨S100000x128, .f32⟩
  | 54 => ⟨S128x128, .f32⟩
  | 55 => ⟨S100000x128, .f32⟩
  | 56 => ⟨S1x128, .f32⟩
  | 57 => ⟨S100000x128, .f32⟩
  | 58 => ⟨S100000x128, .f32⟩
  | 59 => ⟨S128x128, .f32⟩
  | 60 => ⟨S100000x128, .f32⟩
  | 61 => ⟨S100000x128, .f32⟩
  | 62 => ⟨S_, .f32⟩
  | 63 => ⟨S128, .f32⟩
  | 64 => ⟨S_, .f32⟩
  | 65 => ⟨S128, .f32⟩
  | 66 => ⟨S128, .f32⟩
  | 67 => ⟨S_, .i32⟩
  | 68 => ⟨S_, .f32⟩
  | 69 => ⟨S128, .f32⟩
  | 70 => ⟨S1x128, .f32⟩
  | 71 => ⟨S_, .f32⟩
  | 72 => ⟨S1x128, .f32⟩
  | 73 => ⟨S1x128, .f32⟩
  | 74 => ⟨S100000x128, .f32⟩
  | 75 => ⟨S100000x128, .f32⟩
  | 76 => ⟨S100000x128, .f32⟩
  | 77 => ⟨S_, .f32⟩
  | 78 => ⟨S_, .f32⟩
  | 79 => ⟨S_, .f32⟩
  | 80 => ⟨S_, .f32⟩
  | 81 => ⟨S128, .f32⟩
  | 82 => ⟨S128, .f32⟩
  | 83 => ⟨S128, .f32⟩
  | 84 => ⟨S_, .f32⟩
  | 85 => ⟨S_, .i1⟩
  | 86 => ⟨S_, .f32⟩
  | 87 => ⟨S_, .f32⟩
  | 88 => ⟨S128, .f32⟩
  | 89 => ⟨S128, .f32⟩
  | 90 => ⟨S1x128, .f32⟩
  | 91 => ⟨S100000x128, .f32⟩
  | 92 => ⟨S100000x128, .f32⟩
  | 93 => ⟨S_, .f32⟩
  | 94 => ⟨S128, .f32⟩
  | 95 => ⟨S128, .f32⟩
  | 96 => ⟨S128, .f32⟩
  | 97 => ⟨S1x128, .f32⟩
  | 98 => ⟨S100000x128, .f32⟩
  | 99 => ⟨S100000x128, .f32⟩
  | 100 => ⟨S1x128, .f32⟩
  | 101 => ⟨S100000x128, .f32⟩
  | 102 => ⟨S100000x128, .f32⟩
  | 103 => ⟨S1x128, .f32⟩
  | 104 => ⟨S100000x128, .f32⟩
  | 105 => ⟨S100000x128, .f32⟩
  | 106 => ⟨S_, .f32⟩
  | 107 => ⟨S100000x128, .f32⟩
  | 108 => ⟨S100000x128, .f32⟩
  | 109 => ⟨S_, .i32⟩
  | 110 => ⟨S1600000, .i32⟩
  | 111 => ⟨S1600000, .i1⟩
  | 112 => ⟨S_, .i32⟩
  | 113 => ⟨S1600000, .i32⟩
  | 114 => ⟨S1600000, .i32⟩
  | 115 => ⟨S1600000, .i32⟩
  | 116 => ⟨S1600000x1, .i32⟩
  | 117 => ⟨S1600000x128, .f32⟩
  | 118 => ⟨S_, .f32⟩
  | 119 => ⟨S100000x128, .f32⟩
  | 120 => ⟨S1600000x1, .i32⟩
  | 121 => ⟨S100000x128, .f32⟩
  | 122 => ⟨S_, .f32⟩
  | 123 => ⟨S1600000x1, .f32⟩
  | 124 => ⟨S_, .f32⟩
  | 125 => ⟨S100000x1, .f32⟩
  | 126 => ⟨S1600000x1, .i32⟩
  | 127 => ⟨S100000x1, .f32⟩
  | _ => ⟨S100000x128, .f32⟩

abbrev hbmTy0_1 (i : Nat) : BufTy := match i % 128 with
  | 0 => ⟨S_, .f32⟩
  | 1 => ⟨S100000x1, .f32⟩
  | 2 => ⟨S100000x1, .f32⟩
  | 3 => ⟨S100000x128, .f32⟩
  | 4 => ⟨S100000x128, .f32⟩
  | 5 => ⟨S128x128, .f32⟩
  | 6 => ⟨S100000x128, .f32⟩
  | 7 => ⟨S1x128, .f32⟩
  | 8 => ⟨S100000x128, .f32⟩
  | 9 => ⟨S100000x128, .f32⟩
  | 10 => ⟨S128x128, .f32⟩
  | 11 => ⟨S100000x128, .f32⟩
  | 12 => ⟨S100000x128, .f32⟩
  | 13 => ⟨S_, .f32⟩
  | 14 => ⟨S128, .f32⟩
  | 15 => ⟨S_, .f32⟩
  | 16 => ⟨S128, .f32⟩
  | 17 => ⟨S128, .f32⟩
  | 18 => ⟨S_, .i32⟩
  | 19 => ⟨S_, .f32⟩
  | 20 => ⟨S128, .f32⟩
  | 21 => ⟨S1x128, .f32⟩
  | 22 => ⟨S_, .f32⟩
  | 23 => ⟨S1x128, .f32⟩
  | 24 => ⟨S1x128, .f32⟩
  | 25 => ⟨S100000x128, .f32⟩
  | 26 => ⟨S100000x128, .f32⟩
  | 27 => ⟨S100000x128, .f32⟩
  | 28 => ⟨S_, .f32⟩
  | 29 => ⟨S_, .f32⟩
  | 30 => ⟨S_, .f32⟩
  | 31 => ⟨S_, .f32⟩
  | 32 => ⟨S128, .f32⟩
  | 33 => ⟨S128, .f32⟩
  | 34 => ⟨S128, .f32⟩
  | 35 => ⟨S_, .f32⟩
  | 36 => ⟨S_, .i1⟩
  | 37 => ⟨S_, .f32⟩
  | 38 => ⟨S_, .f32⟩
  | 39 => ⟨S128, .f32⟩
  | 40 => ⟨S128, .f32⟩
  | 41 => ⟨S1x128, .f32⟩
  | 42 => ⟨S100000x128, .f32⟩
  | 43 => ⟨S100000x128, .f32⟩
  | 44 => ⟨S_, .f32⟩
  | 45 => ⟨S128, .f32⟩
  | 46 => ⟨S128, .f32⟩
  | 47 => ⟨S128, .f32⟩
  | 48 => ⟨S1x128, .f32⟩
  | 49 => ⟨S100000x128, .f32⟩
  | 50 => ⟨S100000x128, .f32⟩
  | 51 => ⟨S1x128, .f32⟩
  | 52 => ⟨S100000x128, .f32⟩
  | 53 => ⟨S100000x128, .f32⟩
  | 54 => ⟨S1x128, .f32⟩
  | 55 => ⟨S100000x128, .f32⟩
  | 56 => ⟨S100000x128, .f32⟩
  | 57 => ⟨S_, .f32⟩
  | 58 => ⟨S100000x128, .f32⟩
  | 59 => ⟨S100000x128, .f32⟩
  | 60 => ⟨S_, .i32⟩
  | 61 => ⟨S1600000, .i32⟩
  | 62 => ⟨S1600000, .i1⟩
  | 63 => ⟨S_, .i32⟩
  | 64 => ⟨S1600000, .i32⟩
  | 65 => ⟨S1600000, .i32⟩
  | 66 => ⟨S1600000, .i32⟩
  | 67 => ⟨S1600000x1, .i32⟩
  | 68 => ⟨S1600000x128, .f32⟩
  | 69 => ⟨S_, .f32⟩
  | 70 => ⟨S100000x128, .f32⟩
  | 71 => ⟨S1600000x1, .i32⟩
  | 72 => ⟨S100000x128, .f32⟩
  | 73 => ⟨S_, .f32⟩
  | 74 => ⟨S1600000x1, .f32⟩
  | 75 => ⟨S_, .f32⟩
  | 76 => ⟨S100000x1, .f32⟩
  | 77 => ⟨S1600000x1, .i32⟩
  | 78 => ⟨S100000x1, .f32⟩
  | 79 => ⟨S_, .f32⟩
  | 80 => ⟨S100000x1, .f32⟩
  | 81 => ⟨S100000x1, .f32⟩
  | 82 => ⟨S100000x128, .f32⟩
  | 83 => ⟨S100000x128, .f32⟩
  | 84 => ⟨S128x128, .f32⟩
  | 85 => ⟨S100000x128, .f32⟩
  | 86 => ⟨S1x128, .f32⟩
  | 87 => ⟨S100000x128, .f32⟩
  | 88 => ⟨S100000x128, .f32⟩
  | 89 => ⟨S128x128, .f32⟩
  | 90 => ⟨S100000x128, .f32⟩
  | 91 => ⟨S100000x128, .f32⟩
  | 92 => ⟨S_, .f32⟩
  | 93 => ⟨S128, .f32⟩
  | 94 => ⟨S_, .f32⟩
  | 95 => ⟨S128, .f32⟩
  | 96 => ⟨S128, .f32⟩
  | 97 => ⟨S_, .i32⟩
  | 98 => ⟨S_, .f32⟩
  | 99 => ⟨S128, .f32⟩
  | 100 => ⟨S1x128, .f32⟩
  | 101 => ⟨S_, .f32⟩
  | 102 => ⟨S1x128, .f32⟩
  | 103 => ⟨S1x128, .f32⟩
  | 104 => ⟨S100000x128, .f32⟩
  | 105 => ⟨S100000x128, .f32⟩
  | 106 => ⟨S100000x128, .f32⟩
  | 107 => ⟨S_, .f32⟩
  | 108 => ⟨S_, .f32⟩
  | 109 => ⟨S_, .f32⟩
  | 110 => ⟨S_, .f32⟩
  | 111 => ⟨S128, .f32⟩
  | 112 => ⟨S128, .f32⟩
  | 113 => ⟨S128, .f32⟩
  | 114 => ⟨S_, .f32⟩
  | 115 => ⟨S_, .i1⟩
  | 116 => ⟨S_, .f32⟩
  | 117 => ⟨S_, .f32⟩
  | 118 => ⟨S128, .f32⟩
  | 119 => ⟨S128, .f32⟩
  | 120 => ⟨S1x128, .f32⟩
  | 121 => ⟨S100000x128, .f32⟩
  | 122 => ⟨S100000x128, .f32⟩
  | 123 => ⟨S_, .f32⟩
  | 124 => ⟨S128, .f32⟩
  | 125 => ⟨S128, .f32⟩
  | 126 => ⟨S128, .f32⟩
  | 127 => ⟨S1x128, .f32⟩
  | _ => ⟨S100000x128, .f32⟩

abbrev hbmTy0_2 (i : Nat) : BufTy := match i % 128 with
  | 0 => ⟨S100000x128, .f32⟩
  | 1 => ⟨S100000x128, .f32⟩
  | 2 => ⟨S1x128, .f32⟩
  | 3 => ⟨S100000x128, .f32⟩
  | 4 => ⟨S100000x128, .f32⟩
  | 5 => ⟨S1x128, .f32⟩
  | 6 => ⟨S100000x128, .f32⟩
  | 7 => ⟨S100000x128, .f32⟩
  | 8 => ⟨S_, .f32⟩
  | 9 => ⟨S100000x128, .f32⟩
  | 10 => ⟨S100000x128, .f32⟩
  | 11 => ⟨S128x2, .f32⟩
  | 12 => ⟨S100000x2, .f32⟩
  | 13 => ⟨S1x2, .f32⟩
  | 14 => ⟨S100000x2, .f32⟩
  | 15 => ⟨S100000x2, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_c : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_cst_1 : Ref sig .tc := ⟨.hbm, 43, rfl⟩
abbrev main_v19 : Ref sig .tc := ⟨.hbm, 44, rfl⟩
abbrev main_cst_2 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_cst_3 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_4 : Ref sig .tc := ⟨.hbm, 62, rfl⟩
abbrev main_v35 : Ref sig .tc := ⟨.hbm, 63, rfl⟩
abbrev main_cst_5 : Ref sig .tc := ⟨.hbm, 64, rfl⟩
abbrev main_v36 : Ref sig .tc := ⟨.hbm, 65, rfl⟩
abbrev main_v37 : Ref sig .tc := ⟨.hbm, 66, rfl⟩
abbrev main_c_6 : Ref sig .tc := ⟨.hbm, 67, rfl⟩
abbrev main_call0_cst : Ref sig .tc := ⟨.hbm, 68, rfl⟩
abbrev main_call0_v0 : Ref sig .tc := ⟨.hbm, 69, rfl⟩
abbrev main_call0_v1 : Ref sig .tc := ⟨.hbm, 70, rfl⟩
abbrev main_call0_cst_0 : Ref sig .tc := ⟨.hbm, 71, rfl⟩
abbrev main_call0_v2 : Ref sig .tc := ⟨.hbm, 72, rfl⟩
abbrev main_call0_v3 : Ref sig .tc := ⟨.hbm, 73, rfl⟩
abbrev main_call0_v4 : Ref sig .tc := ⟨.hbm, 74, rfl⟩
abbrev main_call0_v5 : Ref sig .tc := ⟨.hbm, 75, rfl⟩
abbrev main_call0_v6 : Ref sig .tc := ⟨.hbm, 76, rfl⟩
abbrev main_call0_v7 : Ref sig .tc := ⟨.hbm, 77, rfl⟩
abbrev main_call0_cst_1 : Ref sig .tc := ⟨.hbm, 78, rfl⟩
abbrev main_call0_v8 : Ref sig .tc := ⟨.hbm, 79, rfl⟩
abbrev main_call0_cst_2 : Ref sig .tc := ⟨.hbm, 80, rfl⟩
abbrev main_call0_v9 : Ref sig .tc := ⟨.hbm, 81, rfl⟩
abbrev main_call0_v10 : Ref sig .tc := ⟨.hbm, 82, rfl⟩
abbrev main_call0_v11 : Ref sig .tc := ⟨.hbm, 83, rfl⟩
abbrev main_call0_cst_3 : Ref sig .tc := ⟨.hbm, 84, rfl⟩
abbrev main_call0_v12 : Ref sig .tc := ⟨.hbm, 85, rfl⟩
abbrev main_call0_cst_4 : Ref sig .tc := ⟨.hbm, 86, rfl⟩
abbrev main_call0_call0_v0 : Ref sig .tc := ⟨.hbm, 87, rfl⟩
abbrev main_call0_call0_v1 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_cst_7 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_call1_cst : Ref sig .tc := ⟨.hbm, 106, rfl⟩
abbrev main_call1_v0 : Ref sig .tc := ⟨.hbm, 107, rfl⟩
abbrev main_v54 : Ref sig .tc := ⟨.hbm, 108, rfl⟩
abbrev main_c_8 : Ref sig .tc := ⟨.hbm, 109, rfl⟩
abbrev main_v55 : Ref sig .tc := ⟨.hbm, 110, rfl⟩
abbrev main_v56 : Ref sig .tc := ⟨.hbm, 111, rfl⟩
abbrev main_c_9 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_cst_10 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_cst_11 : Ref sig .tc := ⟨.hbm, 122, rfl⟩
abbrev main_v65 : Ref sig .tc := ⟨.hbm, 123, rfl⟩
abbrev main_cst_12 : Ref sig .tc := ⟨.hbm, 124, rfl⟩
abbrev main_v66 : Ref sig .tc := ⟨.hbm, 125, rfl⟩
abbrev main_v67 : Ref sig .tc := ⟨.hbm, 126, rfl⟩
abbrev main_v68 : Ref sig .tc := ⟨.hbm, 127, rfl⟩
abbrev main_cst_13 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_cst_14 : Ref sig .tc := ⟨.hbm, 141, rfl⟩
abbrev main_v81 : Ref sig .tc := ⟨.hbm, 142, rfl⟩
abbrev main_cst_15 : Ref sig .tc := ⟨.hbm, 143, rfl⟩
abbrev main_v82 : Ref sig .tc := ⟨.hbm, 144, rfl⟩
abbrev main_v83 : Ref sig .tc := ⟨.hbm, 145, rfl⟩
abbrev main_c_16 : Ref sig .tc := ⟨.hbm, 146, rfl⟩
abbrev main_call2_cst : Ref sig .tc := ⟨.hbm, 147, rfl⟩
abbrev main_call2_v0 : Ref sig .tc := ⟨.hbm, 148, rfl⟩
abbrev main_call2_v1 : Ref sig .tc := ⟨.hbm, 149, rfl⟩
abbrev main_call2_cst_0 : Ref sig .tc := ⟨.hbm, 150, rfl⟩
abbrev main_call2_v2 : Ref sig .tc := ⟨.hbm, 151, rfl⟩
abbrev main_call2_v3 : Ref sig .tc := ⟨.hbm, 152, rfl⟩
abbrev main_call2_v4 : Ref sig .tc := ⟨.hbm, 153, rfl⟩
abbrev main_call2_v5 : Ref sig .tc := ⟨.hbm, 154, rfl⟩
abbrev main_call2_v6 : Ref sig .tc := ⟨.hbm, 155, rfl⟩
abbrev main_call2_v7 : Ref sig .tc := ⟨.hbm, 156, rfl⟩
abbrev main_call2_cst_1 : Ref sig .tc := ⟨.hbm, 157, rfl⟩
abbrev main_call2_v8 : Ref sig .tc := ⟨.hbm, 158, rfl⟩
abbrev main_call2_cst_2 : Ref sig .tc := ⟨.hbm, 159, rfl⟩
abbrev main_call2_v9 : Ref sig .tc := ⟨.hbm, 160, rfl⟩
abbrev main_call2_v10 : Ref sig .tc := ⟨.hbm, 161, rfl⟩
abbrev main_call2_v11 : Ref sig .tc := ⟨.hbm, 162, rfl⟩
abbrev main_call2_cst_3 : Ref sig .tc := ⟨.hbm, 163, rfl⟩
abbrev main_call2_v12 : Ref sig .tc := ⟨.hbm, 164, rfl⟩
abbrev main_call2_cst_4 : Ref sig .tc := ⟨.hbm, 165, rfl⟩
abbrev main_call2_call0_v0 : Ref sig .tc := ⟨.hbm, 166, rfl⟩
abbrev main_call2_call0_v1 : Ref sig .tc := ⟨.hbm, 167, rfl⟩
abbrev main_v84 : Ref sig .tc := ⟨.hbm, 168, rfl⟩
abbrev main_v85 : Ref sig .tc := ⟨.hbm, 169, rfl⟩
abbrev main_v86 : Ref sig .tc := ⟨.hbm, 170, rfl⟩
abbrev main_v87 : Ref sig .tc := ⟨.hbm, 171, rfl⟩
abbrev main_cst_17 : Ref sig .tc := ⟨.hbm, 172, rfl⟩
abbrev main_v88 : Ref sig .tc := ⟨.hbm, 173, rfl⟩
abbrev main_v89 : Ref sig .tc := ⟨.hbm, 174, rfl⟩
abbrev main_v90 : Ref sig .tc := ⟨.hbm, 175, rfl⟩
abbrev main_v91 : Ref sig .tc := ⟨.hbm, 176, rfl⟩
abbrev main_v92 : Ref sig .tc := ⟨.hbm, 177, rfl⟩
abbrev main_v93 : Ref sig .tc := ⟨.hbm, 178, rfl⟩
abbrev main_v94 : Ref sig .tc := ⟨.hbm, 179, rfl⟩
abbrev main_v95 : Ref sig .tc := ⟨.hbm, 180, rfl⟩
abbrev main_v96 : Ref sig .tc := ⟨.hbm, 181, rfl⟩
abbrev main_v97 : Ref sig .tc := ⟨.hbm, 182, rfl⟩
abbrev main_v98 : Ref sig .tc := ⟨.hbm, 183, rfl⟩
abbrev main_v99 : Ref sig .tc := ⟨.hbm, 184, rfl⟩
abbrev main_call3_cst : Ref sig .tc := ⟨.hbm, 185, rfl⟩
abbrev main_call3_v0 : Ref sig .tc := ⟨.hbm, 186, rfl⟩
abbrev main_v100 : Ref sig .tc := ⟨.hbm, 187, rfl⟩
abbrev main_c_18 : Ref sig .tc := ⟨.hbm, 188, rfl⟩
abbrev main_v101 : Ref sig .tc := ⟨.hbm, 189, rfl⟩
abbrev main_v102 : Ref sig .tc := ⟨.hbm, 190, rfl⟩
abbrev main_c_19 : Ref sig .tc := ⟨.hbm, 191, rfl⟩
abbrev main_v103 : Ref sig .tc := ⟨.hbm, 192, rfl⟩
abbrev main_v104 : Ref sig .tc := ⟨.hbm, 193, rfl⟩
abbrev main_v105 : Ref sig .tc := ⟨.hbm, 194, rfl⟩
abbrev main_v106 : Ref sig .tc := ⟨.hbm, 195, rfl⟩
abbrev main_v107 : Ref sig .tc := ⟨.hbm, 196, rfl⟩
abbrev main_cst_20 : Ref sig .tc := ⟨.hbm, 197, rfl⟩
abbrev main_v108 : Ref sig .tc := ⟨.hbm, 198, rfl⟩
abbrev main_v109 : Ref sig .tc := ⟨.hbm, 199, rfl⟩
abbrev main_v110 : Ref sig .tc := ⟨.hbm, 200, rfl⟩
abbrev main_cst_21 : Ref sig .tc := ⟨.hbm, 201, rfl⟩
abbrev main_v111 : Ref sig .tc := ⟨.hbm, 202, rfl⟩
abbrev main_cst_22 : Ref sig .tc := ⟨.hbm, 203, rfl⟩
abbrev main_v112 : Ref sig .tc := ⟨.hbm, 204, rfl⟩
abbrev main_v113 : Ref sig .tc := ⟨.hbm, 205, rfl⟩
abbrev main_v114 : Ref sig .tc := ⟨.hbm, 206, rfl⟩
abbrev main_cst_23 : Ref sig .tc := ⟨.hbm, 207, rfl⟩
abbrev main_v115 : Ref sig .tc := ⟨.hbm, 208, rfl⟩
abbrev main_v116 : Ref sig .tc := ⟨.hbm, 209, rfl⟩
abbrev main_v117 : Ref sig .tc := ⟨.hbm, 210, rfl⟩
abbrev main_v118 : Ref sig .tc := ⟨.hbm, 211, rfl⟩
abbrev main_v119 : Ref sig .tc := ⟨.hbm, 212, rfl⟩
abbrev main_v120 : Ref sig .tc := ⟨.hbm, 213, rfl⟩
abbrev main_v121 : Ref sig .tc := ⟨.hbm, 214, rfl⟩
abbrev main_v122 : Ref sig .tc := ⟨.hbm, 215, rfl⟩
abbrev main_v123 : Ref sig .tc := ⟨.hbm, 216, rfl⟩
abbrev main_v124 : Ref sig .tc := ⟨.hbm, 217, rfl⟩
abbrev main_v125 : Ref sig .tc := ⟨.hbm, 218, rfl⟩
abbrev main_v126 : Ref sig .tc := ⟨.hbm, 219, rfl⟩
abbrev main_cst_24 : Ref sig .tc := ⟨.hbm, 220, rfl⟩
abbrev main_v127 : Ref sig .tc := ⟨.hbm, 221, rfl⟩
abbrev main_cst_25 : Ref sig .tc := ⟨.hbm, 222, rfl⟩
abbrev main_v128 : Ref sig .tc := ⟨.hbm, 223, rfl⟩
abbrev main_v129 : Ref sig .tc := ⟨.hbm, 224, rfl⟩
abbrev main_c_26 : Ref sig .tc := ⟨.hbm, 225, rfl⟩
abbrev main_call4_cst : Ref sig .tc := ⟨.hbm, 226, rfl⟩
abbrev main_call4_v0 : Ref sig .tc := ⟨.hbm, 227, rfl⟩
abbrev main_call4_v1 : Ref sig .tc := ⟨.hbm, 228, rfl⟩
abbrev main_call4_cst_0 : Ref sig .tc := ⟨.hbm, 229, rfl⟩
abbrev main_call4_v2 : Ref sig .tc := ⟨.hbm, 230, rfl⟩
abbrev main_call4_v3 : Ref sig .tc := ⟨.hbm, 231, rfl⟩
abbrev main_call4_v4 : Ref sig .tc := ⟨.hbm, 232, rfl⟩
abbrev main_call4_v5 : Ref sig .tc := ⟨.hbm, 233, rfl⟩
abbrev main_call4_v6 : Ref sig .tc := ⟨.hbm, 234, rfl⟩
abbrev main_call4_v7 : Ref sig .tc := ⟨.hbm, 235, rfl⟩
abbrev main_call4_cst_1 : Ref sig .tc := ⟨.hbm, 236, rfl⟩
abbrev main_call4_v8 : Ref sig .tc := ⟨.hbm, 237, rfl⟩
abbrev main_call4_cst_2 : Ref sig .tc := ⟨.hbm, 238, rfl⟩
abbrev main_call4_v9 : Ref sig .tc := ⟨.hbm, 239, rfl⟩
abbrev main_call4_v10 : Ref sig .tc := ⟨.hbm, 240, rfl⟩
abbrev main_call4_v11 : Ref sig .tc := ⟨.hbm, 241, rfl⟩
abbrev main_call4_cst_3 : Ref sig .tc := ⟨.hbm, 242, rfl⟩
abbrev main_call4_v12 : Ref sig .tc := ⟨.hbm, 243, rfl⟩
abbrev main_call4_cst_4 : Ref sig .tc := ⟨.hbm, 244, rfl⟩
abbrev main_call4_call0_v0 : Ref sig .tc := ⟨.hbm, 245, rfl⟩
abbrev main_call4_call0_v1 : Ref sig .tc := ⟨.hbm, 246, rfl⟩
abbrev main_v130 : Ref sig .tc := ⟨.hbm, 247, rfl⟩
abbrev main_v131 : Ref sig .tc := ⟨.hbm, 248, rfl⟩
abbrev main_v132 : Ref sig .tc := ⟨.hbm, 249, rfl⟩
abbrev main_v133 : Ref sig .tc := ⟨.hbm, 250, rfl⟩
abbrev main_cst_27 : Ref sig .tc := ⟨.hbm, 251, rfl⟩
abbrev main_v134 : Ref sig .tc := ⟨.hbm, 252, rfl⟩
abbrev main_v135 : Ref sig .tc := ⟨.hbm, 253, rfl⟩
abbrev main_v136 : Ref sig .tc := ⟨.hbm, 254, rfl⟩
abbrev main_v137 : Ref sig .tc := ⟨.hbm, 255, rfl⟩
abbrev main_v138 : Ref sig .tc := ⟨.hbm, 256, rfl⟩
abbrev main_v139 : Ref sig .tc := ⟨.hbm, 257, rfl⟩
abbrev main_v140 : Ref sig .tc := ⟨.hbm, 258, rfl⟩
abbrev main_v141 : Ref sig .tc := ⟨.hbm, 259, rfl⟩
abbrev main_v142 : Ref sig .tc := ⟨.hbm, 260, rfl⟩
abbrev main_v143 : Ref sig .tc := ⟨.hbm, 261, rfl⟩
abbrev main_v144 : Ref sig .tc := ⟨.hbm, 262, rfl⟩
abbrev main_v145 : Ref sig .tc := ⟨.hbm, 263, rfl⟩
abbrev main_call5_cst : Ref sig .tc := ⟨.hbm, 264, rfl⟩
abbrev main_call5_v0 : Ref sig .tc := ⟨.hbm, 265, rfl⟩
abbrev main_v146 : Ref sig .tc := ⟨.hbm, 266, rfl⟩
abbrev main_v147 : Ref sig .tc := ⟨.hbm, 267, rfl⟩
abbrev main_v148 : Ref sig .tc := ⟨.hbm, 268, rfl⟩
abbrev main_v149 : Ref sig .tc := ⟨.hbm, 269, rfl⟩
abbrev main_v150 : Ref sig .tc := ⟨.hbm, 270, rfl⟩
abbrev main_v151 : Ref sig .tc := ⟨.hbm, 271, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  transposes_S2x128_S128x2_1_0 : S2x128.Transposes [1, 0] S128x2
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000x1_S1600000x1_S1600000x1_1_0_0_1_wf : ScatterDims.WF S100000x1 S1600000x1 S1600000x1 [1] [0] [0] 1
  dot_S100000x128_S128x2_S100000x2_1_0_0_1_n_n_wf : DotDims.WF S100000x128 S128x2 S100000x2 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf

class Facts : Prop extends Facts₀ where

variable [Facts]
-- ==== Proof.KRun.lean ====
/-
  The kernel's program run once more, now keeping what the run leaves in the result buffer: every weakly fair
  execution ends with the result buffer at the last boundary's contents of that buffer (the fold of the sixteen
  segments from the launch memory), and the arguments as launched.
-/
import proofs.«136904_j51402168598679_1_alg».proof.Proof.Gen.KernelIdeal.Frame

set_option maxRecDepth 16384

noncomputable section

namespace Cert.KernelIdeal.ValuedRun

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the result buffer's final contents kept: the segments' launch, the last thread state read against
    the final state, the result buffer left as the last boundary has it, each argument walked back to the launch. -/
theorem run_valued : θ_run defs (onTc (τ := τ) (main (F := F))) ⟨m, fun _ => 0, ρ⟩ (fun r => ∀ c : Dev nD,
      r.2.mem ((c.tc : Thread nD τ).loc main_v94) = W16 m ρ c (Proc.devRef .tc main_v94)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v94 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c),
       (h c _ (mem_uc main_arg12 (by decide))).trans (W16_main_arg12 m ρ c),
       (h c _ (mem_uc main_arg13 (by decide))).trans (W16_main_arg13 m ρ c),
       (h c _ (mem_uc main_arg14 (by decide))).trans (W16_main_arg14 m ρ c),
       (h c _ (mem_uc main_arg15 (by decide))).trans (W16_main_arg15 m ρ c),
       (h c _ (mem_uc main_arg16 (by decide))).trans (W16_main_arg16 m ρ c),
       (h c _ (mem_uc main_arg17 (by decide))).trans (W16_main_arg17 m ρ c),
       (h c _ (mem_uc main_arg18 (by decide))).trans (W16_main_arg18 m ρ c),
       (h c _ (mem_uc main_arg19 (by decide))).trans (W16_main_arg19 m ρ c),
       (h c _ (mem_uc main_arg20 (by decide))).trans (W16_main_arg20 m ρ c)⟩)

end Cert.KernelIdeal.ValuedRun

end
-- ==== Proof.KWalk.lean ====
/-
  Which buffers survive which segments. A host stretch leaves every buffer it does not write as it found it; a
  region leaves every buffer that is none of its arrays, and each of its input arrays, as it found it. Walking a
  buffer back segment by segment reaches the boundary where it was last written: the launch memory for an argument,
  the first stretch for the two edge-index vectors, a region's exit for a region's output.
-/
import proofs.«136904_j51402168598679_1_alg».proof.Proof.Gen.KernelIdeal.Frame

set_option maxRecDepth 16384

noncomputable section

namespace Cert.KernelIdeal.Walk

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

/-- One step back over a host stretch that does not write the buffer. -/
macro "host_down" : tactic => `(tactic| (
  refine Eq.trans (StableHlo.after_of_forall_not_mem _ _ (List.forall_iff_forall_mem.mp ?_)) ?_
  · simp only [hostOps0, hostOps1, hostOps2, hostOps3, hostOps4, hostOps5, hostOps6, hostOps7, List.flatten_cons,
      List.flatten_nil, List.append_nil, List.cons_append, List.nil_append, List.Forall, StableHlo.nullary_writes,
      StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide)))

/-- One step back over a region none of whose arrays is the buffer. -/
macro "reg_keep " h:ident : tactic => `(tactic| (refine Eq.trans ($h _ _ _ _ ?_) ?_; · decide))

end Cert.KernelIdeal.Walk

end
-- ==== Proof.KWalkTable.lean ====
/-
  The table of walk-back chains. An argument read at a boundary is the launch memory's: no segment before that
  boundary writes it. The two edge-index vectors read by each aggregation are what the first stretch left. A region's
  output read at the next region's entry is what the region left: the stretch between does not write it.
-/
import proofs.«136904_j51402168598679_1_alg».proof.Proof.KWalk

set_option maxRecDepth 16384

noncomputable section

namespace Cert.KernelIdeal.Walk

open Cert.KernelIdeal Cert.KernelIdeal.Gen
open Idealize.ShloMosaic Idealize.ShloMosaic.TcCoe Idealize.ShloMosaic.Tactic
open Idealize.SL Idealize.SL.Sem

variable {F : FTy → Type} [FloatOps F]
variable (m : (ℓ : Loc nD τ sig) → Buf (Elt F) ℓ) (ρ : Dev nD → PrngReg)

/-! ## The arguments, back to the launch memory -/

theorem arg0_at1 (c : Dev nD) : W1 m ρ c (Proc.devRef .tc main_arg0) = m ((c : Thread nD τ).loc main_arg0) := by
  host_down; rfl

theorem arg2_at1 (c : Dev nD) : W1 m ρ c (Proc.devRef .tc main_arg2) = m ((c : Thread nD τ).loc main_arg2) := by
  host_down; rfl

theorem arg6_at2 (c : Dev nD) : W2 m ρ c (Proc.devRef .tc main_arg6) = m ((c : Thread nD τ).loc main_arg6) := by
  reg_keep W2_of_ne; host_down; rfl

theorem arg4_at3 (c : Dev nD) : W3 m ρ c (Proc.devRef .tc main_arg4) = m ((c : Thread nD τ).loc main_arg4) := by
  host_down; reg_keep W2_of_ne; host_down; rfl

theorem arg5_at3 (c : Dev nD) : W3 m ρ c (Proc.devRef .tc main_arg5) = m ((c : Thread nD τ).loc main_arg5) := by
  host_down; reg_keep W2_of_ne; host_down; rfl

theorem arg7_at4 (c : Dev nD) : W4 m ρ c (Proc.devRef .tc main_arg7) = m ((c : Thread nD τ).loc main_arg7) := by
  reg_keep W4_of_ne; host_down; reg_keep W2_of_ne; host_down; rfl

theorem arg8_at4 (c : Dev nD) : W4 m ρ c (Proc.devRef .tc main_arg8) = m ((c : Thread nD τ).loc main_arg8) := by
  reg_keep W4_of_ne; host_down; reg_keep W2_of_ne; host_down; rfl

theorem arg11_at6 (c : Dev nD) : W6 m ρ c (Proc.devRef .tc main_arg11) = m ((c : Thread nD τ).loc main_arg11) := by
  reg_keep W6_of_ne; host_down; reg_keep W4_of_ne; host_down; reg_keep W2_of_ne; host_down; rfl

theorem arg9_at7 (c : Dev nD) : W7 m ρ c (Proc.devRef .tc main_arg9) = m ((c : Thread nD τ).loc main_arg9) := by
  host_down; reg_keep W6_of_ne; host_down; reg_keep W4_of_ne; host_down; reg_keep W2_of_ne; host_down; rfl

theorem arg10_at7 (c : Dev nD) : W7 m ρ c (Proc.devRef .tc main_arg10) = m ((c : Thread nD τ).loc main_arg10) := by
  host_down; reg_keep W6_of_ne; host_down; reg_keep W4_of_ne; host_down; reg_keep W2_of_ne; host_down; rfl

theorem arg12_at8 (c : Dev nD) : W8 m ρ c (Proc.devRef .tc main_arg12) = m ((c : Thread nD τ).loc main_arg12) := by
  reg_keep W8_of_ne; host_down; reg_keep W6_of_ne; host_down; reg_keep W4_of_ne; host_down; reg_keep W2_of_ne; host_down; rfl

theorem arg13_at8 (c : Dev nD) : W8 m ρ c (Proc.devRef .tc main_arg13) = m ((c : Thread nD τ).loc main_arg13) := by
  reg_keep W8_of_ne; host_down; reg_keep W6_of_ne; host_down; reg_keep W4_of_ne; host_down; reg_keep W2_of_ne; host_down; rfl

theorem arg16_at10 (c : Dev nD) : W10 m ρ c (Proc.devRef .tc main_arg16) = m ((c : Thread nD τ).loc main_arg16) := by
  reg_keep W10_of_ne; host_down; reg_keep W8_of_ne; host_down; reg_keep W6_of_ne; host_down; reg_keep W4_of_ne; host_down; reg_keep W2_of_ne; host_down; rfl

theorem arg14_at11 (c : Dev nD) : W11 m ρ c (Proc.devRef .tc main_arg14) = m ((c : Thread nD τ).loc main_arg14) := by
  host_down; reg_keep W10_of_ne; host_down; reg_keep W8_of_ne; host_down; reg_keep W6_of_ne; host_down; reg_keep W4_of_ne; host_down; reg_keep W2_of_ne; host_down; rfl

theorem arg15_at11 (c : Dev nD) : W11 m ρ c (Proc.devRef .tc main_arg15) = m ((c : Thread nD τ).loc main_arg15) := by
  host_down; reg_keep W10_of_ne; host_down; reg_keep W8_of_ne; host_down; reg_keep W6_of_ne; host_down; reg_keep W4_of_ne; host_down; reg_keep W2_of_ne; host_down; rfl

theorem arg17_at12 (c : Dev nD) : W12 m ρ c (Proc.devRef .tc main_arg17) = m ((c : Thread nD τ).loc main_arg17) := by
  reg_keep W12_of_ne; host_down; reg_keep W10_of_ne; host_down; reg_keep W8_of_ne; host_down; reg_keep W6_of_ne; host_down; reg_keep W4_of_ne; host_down; reg_keep W2_of_ne; host_down; rfl

theorem arg18_at12 (c : Dev nD) : W12 m ρ c (Proc.devRef .tc main_arg18) = m ((c : Thread nD τ).loc main_arg18) := by
  reg_keep W12_of_ne; host_down; reg_keep W10_of_ne; host_down; reg_keep W8_of_ne; host_down; reg_keep W6_of_ne; host_down; reg_keep W4_of_ne; host_down; reg_keep W2_of_ne; host_down; rfl

theorem arg20_at14 (c : Dev nD) : W14 m ρ c (Proc.devRef .tc main_arg20) = m ((c : Thread nD τ).loc main_arg20) := by
  reg_keep W14_of_ne; host_down; reg_keep W12_of_ne; host_down; reg_keep W10_of_ne; host_down; reg_keep W8_of_ne; host_down; reg_keep W6_of_ne; host_down; reg_keep W4_of_ne; host_down; reg_keep W2_of_ne; host_down; rfl

theorem arg19_at15 (c : Dev nD) : W15 m ρ c (Proc.devRef .tc main_arg19) = m ((c : Thread nD τ).loc main_arg19) := by
  host_down; reg_keep W14_of_ne; host_down; reg_keep W12_of_ne; host_down; reg_keep W10_of_ne; host_down; reg_keep W8_of_ne; host_down; reg_keep W6_of_ne; host_down; reg_keep W4_of_ne; host_down; reg_keep W2_of_ne; host_down; rfl

/-! ## The two edge-index vectors, back to the first stretch -/

theorem v1_at2 (c : Dev nD) : W2 m ρ c (Proc.devRef .tc main_v1) = W1 m ρ c (Proc.devRef .tc main_v1) := by
  reg_keep W2_of_ne; rfl

theorem v1_at6 (c : Dev nD) : W6 m ρ c (Proc.devRef .tc main_v1) = W1 m ρ c (Proc.devRef .tc main_v1) := by
  reg_keep W6_of_ne; host_down; reg_keep W4_of_ne; host_down; reg_keep W2_of_ne; rfl

theorem v1_at10 (c : Dev nD) : W10 m ρ c (Proc.devRef .tc main_v1) = W1 m ρ c (Proc.devRef .tc main_v1) := by
  reg_keep W10_of_ne; host_down; reg_keep W8_of_ne; host_down; reg_keep W6_of_ne; host_down; reg_keep W4_of_ne; host_down; reg_keep W2_of_ne; rfl

theorem v3_at2 (c : Dev nD) : W2 m ρ c (Proc.devRef .tc main_v3) = W1 m ρ c (Proc.devRef .tc main_v3) := by
  reg_keep W2_of_ne; rfl

theorem v3_at6 (c : Dev nD) : W6 m ρ c (Proc.devRef .tc main_v3) = W1 m ρ c (Proc.devRef .tc main_v3) := by
  reg_keep W6_of_ne; host_down; reg_keep W4_of_ne; host_down; reg_keep W2_of_ne; rfl

theorem v3_at10 (c : Dev nD) : W10 m ρ c (Proc.devRef .tc main_v3) = W1 m ρ c (Proc.devRef .tc main_v3) := by
  reg_keep W10_of_ne; host_down; reg_keep W8_of_ne; host_down; reg_keep W6_of_ne; host_down; reg_keep W4_of_ne; host_down; reg_keep W2_of_ne; rfl

/-! ## A region's output over the stretch after it -/

theorem v5_at3 (c : Dev nD) : W3 m ρ c (Proc.devRef .tc main_v5) = W2 m ρ c (Proc.devRef .tc main_v5) := by
  host_down; rfl

theorem v25_0_at5 (c : Dev nD) : W5 m ρ c (Proc.devRef .tc main_v25_0) = W4 m ρ c (Proc.devRef .tc main_v25_0) := by
  host_down; rfl

theorem v34_at7 (c : Dev nD) : W7 m ρ c (Proc.devRef .tc main_v34) = W6 m ρ c (Proc.devRef .tc main_v34) := by
  host_down; rfl

theorem v54_0_at9 (c : Dev nD) : W9 m ρ c (Proc.devRef .tc main_v54_0) = W8 m ρ c (Proc.devRef .tc main_v54_0) := by
  host_down; rfl

theorem v63_at11 (c : Dev nD) : W11 m ρ c (Proc.devRef .tc main_v63) = W10 m ρ c (Proc.devRef .tc main_v63) := by
  host_down; rfl

theorem v83_0_at13 (c : Dev nD) : W13 m ρ c (Proc.devRef .tc main_v83_0) = W12 m ρ c (Proc.devRef .tc main_v83_0) := by
  host_down; rfl

theorem v92_at15 (c : Dev nD) : W15 m ρ c (Proc.devRef .tc main_v92) = W14 m ρ c (Proc.devRef .tc main_v92) := by
  host_down; rfl

end Cert.KernelIdeal.Walk

end
-- ==== Proof.LibRealVar.lean ====
/-
  Facts about extended reals that happen to be reals: a finite sum of reals is the real sum; sums, products,
  differences, quotients by a nonzero real, maxima and the reciprocal square root of a positive real stay real;
  and the variance identity: for a real column y_1 … y_n with mean μ = (∑ y) / n,
      (∑ (y_p − μ)²) / n = (∑ y_p²) / n − μ²,
  which is distributivity and therefore needs every y_p to be a real. The deviation form is also nonnegative.
-/
import Idealize.ShloMosaic.PureOps.Ideal

noncomputable section

namespace Cert.RealMath

open Idealize.ShloMosaic

/-- x is (the coercion of) a real number. -/
def IsReal (x : EReal) : Prop := ∃ r : ℝ, x = (r : EReal)

theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem isReal_coe (r : ℝ) : IsReal (r : EReal) := ⟨r, rfl⟩

theorem isReal_zero : IsReal 0 := ⟨0, rfl⟩

theorem isReal_add {x y : EReal} (hx : IsReal x) (hy : IsReal y) : IsReal (x + y) := by
  obtain ⟨a, rfl⟩ := hx; obtain ⟨b, rfl⟩ := hy; exact ⟨a + b, (EReal.coe_add a b).symm⟩

theorem isReal_sub {x y : EReal} (hx : IsReal x) (hy : IsReal y) : IsReal (x - y) := by
  obtain ⟨a, rfl⟩ := hx; obtain ⟨b, rfl⟩ := hy; exact ⟨a - b, (EReal.coe_sub a b).symm⟩

theorem isReal_mul {x y : EReal} (hx : IsReal x) (hy : IsReal y) : IsReal (x * y) := by
  obtain ⟨a, rfl⟩ := hx; obtain ⟨b, rfl⟩ := hy; exact ⟨a * b, (EReal.coe_mul a b).symm⟩

theorem isReal_sum {ι : Type*} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact isReal_add (h a (Finset.mem_insert_self a s)) (ih fun i hi => h i (Finset.mem_insert_of_mem hi))

theorem isReal_div {x : EReal} {c : ℝ} (hx : IsReal x) (hc : c ≠ 0) : IsReal (Ideal.div x (c : EReal)) := by
  obtain ⟨a, rfl⟩ := hx
  exact ⟨a * (1 / c), by rw [Ideal.div_coe hc, ← EReal.coe_mul]⟩

theorem isReal_max {x y : EReal} (hx : IsReal x) (hy : IsReal y) : IsReal (max x y) := by
  rcases le_total x y with h | h
  · rw [max_eq_right h]; exact hy
  · rw [max_eq_left h]; exact hx

theorem isReal_rsqrt {r : ℝ} (h : 0 < r) : IsReal (Ideal.rsqrt (r : EReal)) :=
  ⟨(Real.sqrt r)⁻¹, by rw [Ideal.rsqrt_coe, if_neg (not_lt.mpr h.le), if_neg h.ne']⟩

section Variance

variable {n : ℕ} (y : Fin n → EReal) (c : ℝ)

/-- The variance identity on a real column. -/
theorem var_identity (hy : ∀ p, IsReal (y p)) (hc : c ≠ 0) (hn : (n : ℝ) = c) :
    Ideal.div (∑ p, (y p - Ideal.div (∑ p, y p) (c : EReal)) * (y p - Ideal.div (∑ p, y p) (c : EReal))) (c : EReal)
      = Ideal.div (∑ p, y p * y p) (c : EReal)
        - Ideal.div (∑ p, y p) (c : EReal) * Ideal.div (∑ p, y p) (c : EReal) := by
  choose yr hyr using hy
  simp only [hyr]
  have hS : ∑ p, ((yr p : ℝ) : EReal) = ((∑ p, yr p : ℝ) : EReal) := coe_sum _ _
  have hSS : ∑ p, ((yr p : ℝ) : EReal) * ((yr p : ℝ) : EReal) = ((∑ p, yr p * yr p : ℝ) : EReal) := by
    rw [← coe_sum]; exact Finset.sum_congr rfl fun p _ => (EReal.coe_mul _ _).symm
  obtain ⟨μ, hμ⟩ : ∃ μ : ℝ, μ = (∑ p, yr p) * (1 / c) := ⟨_, rfl⟩
  have hM : Ideal.div (∑ p, ((yr p : ℝ) : EReal)) (c : EReal) = ((μ : ℝ) : EReal) := by
    rw [hS, Ideal.div_coe hc, ← EReal.coe_mul, hμ]
  rw [hM, hSS]
  have hD : ∑ p, (((yr p : ℝ) : EReal) - (μ : EReal)) * (((yr p : ℝ) : EReal) - (μ : EReal))
      = ((∑ p, (yr p - μ) * (yr p - μ) : ℝ) : EReal) := by
    rw [← coe_sum]; exact Finset.sum_congr rfl fun p _ => by rw [← EReal.coe_sub, ← EReal.coe_mul]
  rw [hD, Ideal.div_coe hc, Ideal.div_coe hc, ← EReal.coe_mul, ← EReal.coe_mul, ← EReal.coe_mul, ← EReal.coe_sub]
  refine congrArg _ ?_
  have h1 : ∀ p, (yr p - μ) * (yr p - μ) = yr p * yr p - 2 * μ * yr p + μ * μ := fun p => by ring
  simp only [h1, Finset.sum_add_distrib, Finset.sum_sub_distrib, ← Finset.mul_sum, Finset.sum_const,
    Finset.card_univ, Fintype.card_fin, nsmul_eq_mul]
  rw [hn, hμ]
  field_simp
  ring

/-- The mean of squared deviations of a real column, over a positive count, is a nonnegative real. -/
theorem var_nonneg (hy : ∀ p, IsReal (y p)) (hc : 0 < c) :
    ∃ v : ℝ, 0 ≤ v ∧ Ideal.div (∑ p, (y p - Ideal.div (∑ p, y p) (c : EReal)) * (y p - Ideal.div (∑ p, y p) (c : EReal)))
      (c : EReal) = (v : EReal) := by
  choose yr hyr using hy
  simp only [hyr]
  have hS : ∑ p, ((yr p : ℝ) : EReal) = ((∑ p, yr p : ℝ) : EReal) := coe_sum _ _
  obtain ⟨μ, hμ⟩ : ∃ μ : ℝ, μ = (∑ p, yr p) * (1 / c) := ⟨_, rfl⟩
  have hM : Ideal.div (∑ p, ((yr p : ℝ) : EReal)) (c : EReal) = ((μ : ℝ) : EReal) := by
    rw [hS, Ideal.div_coe hc.ne', ← EReal.coe_mul, hμ]
  rw [hM]
  have hD : ∑ p, (((yr p : ℝ) : EReal) - (μ : EReal)) * (((yr p : ℝ) : EReal) - (μ : EReal))
      = ((∑ p, (yr p - μ) * (yr p - μ) : ℝ) : EReal) := by
    rw [← coe_sum]; exact Finset.sum_congr rfl fun p _ => by rw [← EReal.coe_sub, ← EReal.coe_mul]
  rw [hD, Ideal.div_coe hc.ne', ← EReal.coe_mul]
  exact ⟨_, mul_nonneg (Finset.sum_nonneg fun p _ => mul_self_nonneg _) (by positivity), rfl⟩

end Variance

end Cert.RealMath

end
-- ==== Proof.Consts.lean ====
/-
  The float words the two programs spell, as the extended reals they denote: 0, 1, the row count 100000, and the
  normalisation's small positive constant.
-/
import Idealize.ShloMosaic.PureOps.Ideal

noncomputable section

namespace Cert.Consts

open Idealize.ShloMosaic

/-- The word of +0.0 denotes 0. -/
theorem ofBits_zero : Ideal.ofBits .f32 0x00000000#32 = 0 := by
  simp [Ideal.ofBits, Ideal.ieee]

/-- The word of 1.0 denotes 1. -/
theorem ofBits_one : Ideal.ofBits .f32 0x3F800000#32 = ((1 : ℝ) : EReal) := by
  simp [Ideal.ofBits, Ideal.ieee, -EReal.coe_mul]; norm_num

/-- The word of 100000.0 denotes the real 100000. -/
theorem ofBits_rows : Ideal.ofBits .f32 0x47C35000#32 = ((100000 : ℝ) : EReal) := by
  simp [Ideal.ofBits, Ideal.ieee, -EReal.coe_mul]; norm_num

/-- The normalisation's constant denotes a positive real. -/
theorem ofBits_eps : ∃ e : ℝ, 0 < e ∧ Ideal.ofBits .f32 0x3727C5AC#32 = (e : EReal) := by
  refine ⟨_, ?_, by simp [Ideal.ofBits, Ideal.ieee, -EReal.coe_mul]; rfl⟩
  positivity

end Cert.Consts

end
-- ==== Proof.KAgg.lean ====
/-
  The mean aggregation over incoming edges, as the host computes it: gather the rows of h at the (wrapped) source
  indices, add them up at the destination indices on top of zero, and divide row by row by max (in-degree, 1), the
  in-degree being the same scatter-add of ones. On a matrix of reals it yields a matrix of reals: a gathered entry
  is an entry of h; a scatter-add of reals onto zero is a finite sum of reals; max (·, 1) of a real is a real that
  is at least 1, hence nonzero; a real divided by a nonzero real is real.
-/
import proofs.«136904_j51402168598679_1_alg».proof.KernelIdeal
import proofs.«136904_j51402168598679_1_alg».proof.Proof.Gen.KernelIdeal
import proofs.«136904_j51402168598679_1_alg».proof.Proof.LibRealVar
import proofs.«136904_j51402168598679_1_alg».proof.Proof.Consts
import Idealize.ShloMosaic.Lib.IdealHost
import Idealize.ShloMosaic.Lib.ValueIdx

set_option maxRecDepth 16384

noncomputable section

namespace Cert.KernelIdeal.Agg

open Idealize.ShloMosaic Idealize.ShloMosaic.ValueIdx Cert.KernelIdeal Cert.KernelIdeal.Facts₀ Cert.RealMath

abbrev NodeMat := FVec Ideal S100000x128 .f32

/-- The in-degree, floored at one, as a column [100000, 1]. -/
def degree (dst : IVec S1600000 32) : FVec Ideal S100000x1 .f32 :=
  maximumf
    (Host.scatterAdd scatter_S100000x1_S1600000x1_S1600000x1_1_0_0_1
      (broadcastInDim S100000x1 ![] bcast_S_S100000x1 (constant (F := Ideal) S_ .f32 0x00000000#32))
      (broadcastInDim S1600000x1 ![0] bcast_S1600000_S1600000x1_0 dst)
      (broadcastInDim S1600000x1 ![] bcast_S_S1600000x1 (constant (F := Ideal) S_ .f32 0x3F800000#32)))
    (broadcastInDim S100000x1 ![] bcast_S_S100000x1 (constant (F := Ideal) S_ .f32 0x3F800000#32))

/-- The sum of the neighbours' rows. -/
def neighbourSum (src dst : IVec S1600000 32) (h : NodeMat) : NodeMat :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The mean aggregation. -/
def aggBody (src dst : IVec S1600000 32) (h : NodeMat) : NodeMat :=
  Host.divf (neighbourSum src dst h)
    (broadcastInDim S100000x128 ![0, 1] bcast_S100000x1_S100000x128_0_1 (degree dst))

/-- A scatter-add of reals onto reals is real, entry by entry: each entry is the operand's plus a finite sum of
    updates. -/
theorem scatterAdd_real {s si su : Shape} {φ : FTy} {w : Nat} (d : ScatterDims s si su) (x : FVec Ideal s φ)
    (idx : IVec si w) (upd : FVec Ideal su φ) (hx : ∀ i, IsReal (x i)) (hu : ∀ k, IsReal (upd k)) (i : s.Idx) :
    IsReal (Host.scatterAdd d x idx upd i) := by
  unfold Host.scatterAdd
  rw [Ideal.hostScatterAdd_def]
  unfold Ideal.hostScatterAdd
  exact isReal_add (hx i) (isReal_sum _ _ fun k _ => hu k)

/-- A gathered entry is an entry of the operand. -/
theorem gather_real {s si t : Shape} {w : Nat} (d : GatherDims s si t) (x : s.Idx → EReal) (idx : IVec si w)
    (hx : ∀ i, IsReal (x i)) (k : t.Idx) : IsReal (Host.gather d x idx k) := by
  unfold Host.gather
  exact hx _

/-- A broadcast scalar word that denotes a real is real everywhere. -/
theorem splat_real {T : Shape} (h : (⟨0, ![]⟩ : Shape).BroadcastsInDim T ![]) (b : BitVec 32) {r : ℝ}
    (hb : Ideal.ofBits .f32 b = (r : EReal)) (j : T.Idx) :
    broadcastInDim T ![] h (constant (F := Ideal) ⟨0, ![]⟩ .f32 b) j = (r : EReal) := by
  rw [broadcastInDim_scalar_apply, constant_apply, hb]

theorem max_one_ne_zero (a : ℝ) : ∃ r : ℝ, r ≠ 0 ∧ max (a : EReal) ((1 : ℝ) : EReal) = (r : EReal) := by
  rcases le_total a 1 with h | h
  · exact ⟨1, one_ne_zero, max_eq_right (EReal.coe_le_coe_iff.mpr h)⟩
  · exact ⟨a, ne_of_gt (lt_of_lt_of_le one_pos h), max_eq_left (EReal.coe_le_coe_iff.mpr h)⟩

theorem degree_real (dst : IVec S1600000 32) (i : S100000x1.Idx) : ∃ r : ℝ, r ≠ 0 ∧ degree dst i = (r : EReal) := by
  unfold degree
  rw [maximumf_apply, splat_real bcast_S_S100000x1 0x3F800000#32 Cert.Consts.ofBits_one i]
  obtain ⟨a, ha⟩ := scatterAdd_real scatter_S100000x1_S1600000x1_S1600000x1_1_0_0_1 _
    (broadcastInDim S1600000x1 ![0] bcast_S1600000_S1600000x1_0 dst) _
    (fun i => ⟨0, splat_real bcast_S_S100000x1 0x00000000#32 Cert.Consts.ofBits_zero i⟩)
    (fun k => ⟨1, splat_real bcast_S_S1600000x1 0x3F800000#32 Cert.Consts.ofBits_one k⟩) i
  rw [ha]
  exact max_one_ne_zero a

/-- The aggregation of a real matrix is a real matrix. -/
theorem aggBody_real (src dst : IVec S1600000 32) (h : NodeMat) (hh : ∀ j, IsReal (h j)) (j : S100000x128.Idx) :
    IsReal (aggBody src dst h j) := by
  unfold aggBody
  rw [hostDivf_apply]
  have hden : ∃ r : ℝ, r ≠ 0 ∧ broadcastInDim S100000x128 ![0, 1] bcast_S100000x1_S100000x128_0_1 (degree dst) j
      = (r : EReal) := by
    unfold broadcastInDim
    exact degree_real dst _
  obtain ⟨r, hr, e⟩ := hden
  rw [e]
  refine isReal_div ?_ hr
  unfold neighbourSum
  exact scatterAdd_real _ _ _ _
    (fun i => ⟨0, splat_real bcast_S_S100000x128 0x00000000#32 Cert.Consts.ofBits_zero i⟩)
    (fun k => gather_real _ h _ hh k) j

end Cert.KernelIdeal.Agg

end
-- ==== Proof.Spec.lean ====
/-
  The mathematics of one graph-convolution network, stated once over the extended reals and index by index:
  a dense layer x · wᵀ + b; the convolution h · wlᵀ + a · wrᵀ + b of a node's own features h and its aggregated
  neighbours' features a; the column sums of a matrix and of its squares over all rows; the column mean; the
  variance in its two spellings (mean of squares minus squared mean, and mean of squared deviations); and the
  normalisation (y − mean) · rsqrt (var + ε) · g + be followed by the rectifier max (·, 0).
  Matrices are functions on the indices of a literal shape [a, b]; a per-column vector is a one-row matrix [1, b].
-/
import Idealize.ShloMosaic.PureOps.Ideal
import Idealize.ShloMosaic.Lib.ValueIdx

noncomputable section

namespace Cert.Spec

open Idealize.ShloMosaic Idealize.ShloMosaic.ValueIdx

/-- An a × b matrix of extended reals. -/
abbrev Mat (a b : ℕ) := (⟨2, ![a, b]⟩ : Shape).Idx → EReal

/-- Every entry is a real number. -/
def AllReal {a b : ℕ} (x : Mat a b) : Prop := ∀ j, ∃ r : ℝ, x j = (r : EReal)

/-- A length-d vector as a one-row matrix. -/
def row {d : ℕ} (v : (⟨1, ![d]⟩ : Shape).Idx → EReal) : Mat 1 d := fun j => v (ix1 (j 1))

@[simp] theorem row_apply {d : ℕ} (v : (⟨1, ![d]⟩ : Shape).Idx → EReal) (u : Fin 1) (q : Fin d) :
    row v (ix2 u q) = v (ix1 q) := rfl

/-- The dense layer: at (p, q), row p of x against row q of w, plus entry q of the bias row. -/
def dense {n k o : ℕ} (x : Mat n k) (w : Mat o k) (b : Mat 1 o) : Mat n o :=
  fun j => (∑ t : Fin k, x (ix2 (j 0) t) * w (ix2 (j 1) t)) + b (ix2 0 (j 1))

/-- The convolution: at (p, q), row p of the node features against row q of wl, plus row p of the aggregated
    neighbour features against row q of wr, plus entry q of the bias row. -/
def conv {n k o : ℕ} (h a : Mat n k) (wl wr : Mat o k) (b : Mat 1 o) : Mat n o :=
  fun j => ((∑ t : Fin k, h (ix2 (j 0) t) * wl (ix2 (j 1) t)) + (∑ t : Fin k, a (ix2 (j 0) t) * wr (ix2 (j 1) t)))
    + b (ix2 0 (j 1))

/-- The column sums, as a row. -/
def colSum {n d : ℕ} (y : Mat n d) : Mat 1 d := fun j => ∑ p : Fin n, y (ix2 p (j 1))

/-- The column sums of the squares, as a row. -/
def colSumSq {n d : ℕ} (y : Mat n d) : Mat 1 d := fun j => ∑ p : Fin n, y (ix2 p (j 1)) * y (ix2 p (j 1))

/-- The column mean: the column sum divided by c (the number of rows, as the program's constant). -/
def mean {n d : ℕ} (c : EReal) (y : Mat n d) : Mat 1 d := fun j => Ideal.div (colSum y j) c

/-- The variance as mean of squares minus squared mean. -/
def varOfSquares {n d : ℕ} (c : EReal) (y : Mat n d) : Mat 1 d :=
  fun j => Ideal.div (colSumSq y j) c - mean c y j * mean c y j

/-- The variance as mean of squared deviations from the mean. -/
def varOfDeviations {n d : ℕ} (c : EReal) (y : Mat n d) : Mat 1 d :=
  fun j => Ideal.div (∑ p : Fin n, (y (ix2 p (j 1)) - mean c y (ix2 0 (j 1))) * (y (ix2 p (j 1)) - mean c y (ix2 0 (j 1)))) c

/-- Normalise, scale, shift, rectify: at (p, q) only column q of the per-column rows enters. -/
def bnRelu {n d : ℕ} (eps : EReal) (y : Mat n d) (mu var g be : Mat 1 d) : Mat n d :=
  fun j => max (((y j - mu (ix2 0 (j 1))) * Ideal.rsqrt (var (ix2 0 (j 1)) + eps)) * g (ix2 0 (j 1)) + be (ix2 0 (j 1))) 0

@[simp] theorem dense_apply {n k o : ℕ} (x : Mat n k) (w : Mat o k) (b : Mat 1 o) (p : Fin n) (q : Fin o) :
    dense x w b (ix2 p q) = (∑ t : Fin k, x (ix2 p t) * w (ix2 q t)) + b (ix2 0 q) := rfl

@[simp] theorem conv_apply {n k o : ℕ} (h a : Mat n k) (wl wr : Mat o k) (b : Mat 1 o) (p : Fin n) (q : Fin o) :
    conv h a wl wr b (ix2 p q)
      = ((∑ t : Fin k, h (ix2 p t) * wl (ix2 q t)) + (∑ t : Fin k, a (ix2 p t) * wr (ix2 q t))) + b (ix2 0 q) := rfl

@[simp] theorem colSum_apply {n d : ℕ} (y : Mat n d) (u : Fin 1) (q : Fin d) :
    colSum y (ix2 u q) = ∑ p : Fin n, y (ix2 p q) := rfl

@[simp] theorem colSumSq_apply {n d : ℕ} (y : Mat n d) (u : Fin 1) (q : Fin d) :
    colSumSq y (ix2 u q) = ∑ p : Fin n, y (ix2 p q) * y (ix2 p q) := rfl

@[simp] theorem bnRelu_apply {n d : ℕ} (eps : EReal) (y : Mat n d) (mu var g be : Mat 1 d) (p : Fin n) (q : Fin d) :
    bnRelu eps y mu var g be (ix2 p q)
      = max (((y (ix2 p q) - mu (ix2 0 q)) * Ideal.rsqrt (var (ix2 0 q) + eps)) * g (ix2 0 q) + be (ix2 0 q)) 0 := rfl

end Cert.Spec

end
-- ==== Proof.KStretch.lean ====
/-
  What the kernel program's host stretches compute, each as a function of the buffer contents it starts from:
  the first slices the edge array into its source and destination vectors and lays the embedding bias out as a row;
  the stretch before a convolution kernel aggregates the neighbours' features and lays that layer's bias out as a
  row; the stretch after it divides the column sums and the column sums of squares by the row count, subtracts the
  squared mean, and lays the scale and the shift out as rows; the last lays the classifier bias out as a row.
-/
import proofs.«136904_j51402168598679_1_alg».proof.Proof.Gen.KernelIdeal.Launch
import proofs.«136904_j51402168598679_1_alg».proof.Proof.KAgg
import proofs.«136904_j51402168598679_1_alg».proof.Proof.Spec
import Idealize.ShloMosaic.Lib.StableHlo.Run
import Idealize.ShloMosaic.Lib.Pipeline.Value

set_option maxRecDepth 16384

noncomputable section

namespace Cert.KernelIdeal.Stretch

open Idealize.ShloMosaic Idealize.ShloMosaic.TcCoe Idealize.ShloMosaic.ValueIdx Cert.KernelIdeal Cert.KernelIdeal.Gen
  Cert.KernelIdeal.Agg Cert.Spec

/-- A vector of length d laid out as one row [1, d] reads, at (u, q), its entry q. -/
theorem shapeCast_row {d : ℕ} {α : Type} (x : (⟨1, ![d]⟩ : Shape).Idx → α)
    (h : (⟨1, ![d]⟩ : Shape).ShapeCasts ⟨2, ![1, d]⟩) (j : (⟨2, ![1, d]⟩ : Shape).Idx) :
    shapeCast ⟨2, ![1, d]⟩ x h j = x (ix1 (j 1)) :=
  shapeCast_apply x h j (ix1 (j 1)) (by
    rw [Shape.rowMajor_val_one, Shape.rowMajor_val_two]
    show (j 1).val = (j 0).val * d + (j 1).val
    have h0 : (j 0).val = 0 := by have := idx2_lt0 j; omega
    rw [h0, Nat.zero_mul, Nat.zero_add])

variable (W : Valuation τ sig (Elt Ideal))

/-- The first stretch lays the embedding bias out as a row. -/
theorem s0_v4 : (StableHlo.after (hostOps0 (F := Ideal)) W (Proc.devRef .tc main_v4) : Mat 1 128)
    = row (W (Proc.devRef .tc main_arg3) : (⟨1, ![128]⟩ : Shape).Idx → EReal) := by
  after_results
  funext j
  exact shapeCast_row _ _ j

/-- The stretch after the first convolution kernel: the column mean. -/
theorem s2_v27 : (StableHlo.after (hostOps2 (F := Ideal)) W (Proc.devRef .tc main_v27) : Mat 1 128)
    = fun j => Ideal.div ((W (Proc.devRef .tc main_v25_1) : Mat 1 128) j) (Ideal.ofBits .f32 0x47C35000#32) := by
  after_results
  funext j
  rw [hostDivf_apply, broadcastInDim_scalar_apply, constant_apply]

/-- The stretch after the first convolution kernel: the variance as mean of squares minus squared mean. -/
theorem s2_v31 : (StableHlo.after (hostOps2 (F := Ideal)) W (Proc.devRef .tc main_v31) : Mat 1 128)
    = fun j => Ideal.div ((W (Proc.devRef .tc main_v25_2) : Mat 1 128) j) (Ideal.ofBits .f32 0x47C35000#32)
        - Ideal.div ((W (Proc.devRef .tc main_v25_1) : Mat 1 128) j) (Ideal.ofBits .f32 0x47C35000#32)
          * Ideal.div ((W (Proc.devRef .tc main_v25_1) : Mat 1 128) j) (Ideal.ofBits .f32 0x47C35000#32) := by
  after_results
  funext j
  rw [subf_apply, mulf_apply, hostDivf_apply, hostDivf_apply, broadcastInDim_scalar_apply, constant_apply]

/-- The stretch before the first convolution kernel aggregates the neighbours' features. -/
theorem s1_v23 : (StableHlo.after (hostOps1 (F := Ideal)) W (Proc.devRef .tc main_v23) : NodeMat)
    = aggBody (W (Proc.devRef .tc main_v1)) (W (Proc.devRef .tc main_v3)) (W (Proc.devRef .tc main_v5)) := by
  after_results_simp
  rfl

/-- The source and destination index vectors: the two rows of the edge array. -/
def srcOf (e : IVec S2x1600000 32) : IVec S1600000 32 :=
  shapeCast S1600000 (extractStridedSlice S1x1600000 ![0, 0] e slices_S2x1600000_S1x1600000_0_0)
    shapeCasts_S1x1600000_S1600000

def dstOf (e : IVec S2x1600000 32) : IVec S1600000 32 :=
  shapeCast S1600000 (extractStridedSlice S1x1600000 ![1, 0] e slices_S2x1600000_S1x1600000_1_0)
    shapeCasts_S1x1600000_S1600000

theorem s0_v1 : StableHlo.after (hostOps0 (F := Ideal)) W (Proc.devRef .tc main_v1)
    = srcOf (W (Proc.devRef .tc main_arg1)) := by
  after_results
  rfl

theorem s0_v3 : StableHlo.after (hostOps0 (F := Ideal)) W (Proc.devRef .tc main_v3)
    = dstOf (W (Proc.devRef .tc main_arg1)) := by
  after_results
  rfl

/-! ## The first layer's remaining rows -/

theorem s1_v24 : (StableHlo.after (hostOps1 (F := Ideal)) W (Proc.devRef .tc main_v24) : Mat 1 128)
    = row (W (Proc.devRef .tc main_arg6) : (⟨1, ![128]⟩ : Shape).Idx → EReal) := by
  after_results_simp
  funext j
  exact shapeCast_row _ _ j

theorem s2_v32 : (StableHlo.after (hostOps2 (F := Ideal)) W (Proc.devRef .tc main_v32) : Mat 1 128)
    = row (W (Proc.devRef .tc main_arg7) : (⟨1, ![128]⟩ : Shape).Idx → EReal) := by
  after_results
  funext j
  exact shapeCast_row _ _ j

theorem s2_v33 : (StableHlo.after (hostOps2 (F := Ideal)) W (Proc.devRef .tc main_v33) : Mat 1 128)
    = row (W (Proc.devRef .tc main_arg8) : (⟨1, ![128]⟩ : Shape).Idx → EReal) := by
  after_results
  funext j
  exact shapeCast_row _ _ j

/-! ## The second layer -/

theorem s3_v52 : (StableHlo.after (hostOps3 (F := Ideal)) W (Proc.devRef .tc main_v52) : NodeMat)
    = aggBody (W (Proc.devRef .tc main_v1)) (W (Proc.devRef .tc main_v3)) (W (Proc.devRef .tc main_v34)) := by
  after_results_simp
  rfl

theorem s3_v53 : (StableHlo.after (hostOps3 (F := Ideal)) W (Proc.devRef .tc main_v53) : Mat 1 128)
    = row (W (Proc.devRef .tc main_arg11) : (⟨1, ![128]⟩ : Shape).Idx → EReal) := by
  after_results_simp
  funext j
  exact shapeCast_row _ _ j

theorem s4_v56 : (StableHlo.after (hostOps4 (F := Ideal)) W (Proc.devRef .tc main_v56) : Mat 1 128)
    = fun j => Ideal.div ((W (Proc.devRef .tc main_v54_1) : Mat 1 128) j) (Ideal.ofBits .f32 0x47C35000#32) := by
  after_results
  funext j
  rw [hostDivf_apply, broadcastInDim_scalar_apply, constant_apply]

theorem s4_v60 : (StableHlo.after (hostOps4 (F := Ideal)) W (Proc.devRef .tc main_v60) : Mat 1 128)
    = fun j => Ideal.div ((W (Proc.devRef .tc main_v54_2) : Mat 1 128) j) (Ideal.ofBits .f32 0x47C35000#32)
        - Ideal.div ((W (Proc.devRef .tc main_v54_1) : Mat 1 128) j) (Ideal.ofBits .f32 0x47C35000#32)
          * Ideal.div ((W (Proc.devRef .tc main_v54_1) : Mat 1 128) j) (Ideal.ofBits .f32 0x47C35000#32) := by
  after_results
  funext j
  rw [subf_apply, mulf_apply, hostDivf_apply, hostDivf_apply, broadcastInDim_scalar_apply, constant_apply]

theorem s4_v61 : (StableHlo.after (hostOps4 (F := Ideal)) W (Proc.devRef .tc main_v61) : Mat 1 128)
    = row (W (Proc.devRef .tc main_arg12) : (⟨1, ![128]⟩ : Shape).Idx → EReal) := by
  after_results
  funext j
  exact shapeCast_row _ _ j

theorem s4_v62 : (StableHlo.after (hostOps4 (F := Ideal)) W (Proc.devRef .tc main_v62) : Mat 1 128)
    = row (W (Proc.devRef .tc main_arg13) : (⟨1, ![128]⟩ : Shape).Idx → EReal) := by
  after_results
  funext j
  exact shapeCast_row _ _ j

/-! ## The third layer -/

theorem s5_v81 : (StableHlo.after (hostOps5 (F := Ideal)) W (Proc.devRef .tc main_v81) : NodeMat)
    = aggBody (W (Proc.devRef .tc main_v1)) (W (Proc.devRef .tc main_v3)) (W (Proc.devRef .tc main_v63)) := by
  after_results_simp
  rfl

theorem s5_v82 : (StableHlo.after (hostOps5 (F := Ideal)) W (Proc.devRef .tc main_v82) : Mat 1 128)
    = row (W (Proc.devRef .tc main_arg16) : (⟨1, ![128]⟩ : Shape).Idx → EReal) := by
  after_results_simp
  funext j
  exact shapeCast_row _ _ j

theorem s6_v85 : (StableHlo.after (hostOps6 (F := Ideal)) W (Proc.devRef .tc main_v85) : Mat 1 128)
    = fun j => Ideal.div ((W (Proc.devRef .tc main_v83_1) : Mat 1 128) j) (Ideal.ofBits .f32 0x47C35000#32) := by
  after_results
  funext j
  rw [hostDivf_apply, broadcastInDim_scalar_apply, constant_apply]

theorem s6_v89 : (StableHlo.after (hostOps6 (F := Ideal)) W (Proc.devRef .tc main_v89) : Mat 1 128)
    = fun j => Ideal.div ((W (Proc.devRef .tc main_v83_2) : Mat 1 128) j) (Ideal.ofBits .f32 0x47C35000#32)
        - Ideal.div ((W (Proc.devRef .tc main_v83_1) : Mat 1 128) j) (Ideal.ofBits .f32 0x47C35000#32)
          * Ideal.div ((W (Proc.devRef .tc main_v83_1) : Mat 1 128) j) (Ideal.ofBits .f32 0x47C35000#32) := by
  after_results
  funext j
  rw [subf_apply, mulf_apply, hostDivf_apply, hostDivf_apply, broadcastInDim_scalar_apply, constant_apply]

theorem s6_v90 : (StableHlo.after (hostOps6 (F := Ideal)) W (Proc.devRef .tc main_v90) : Mat 1 128)
    = row (W (Proc.devRef .tc main_arg17) : (⟨1, ![128]⟩ : Shape).Idx → EReal) := by
  after_results
  funext j
  exact shapeCast_row _ _ j

theorem s6_v91 : (StableHlo.after (hostOps6 (F := Ideal)) W (Proc.devRef .tc main_v91) : Mat 1 128)
    = row (W (Proc.devRef .tc main_arg18) : (⟨1, ![128]⟩ : Shape).Idx → EReal) := by
  after_results
  funext j
  exact shapeCast_row _ _ j

/-! ## The classifier's bias row -/

theorem s7_v93 : (StableHlo.after (hostOps7 (F := Ideal)) W (Proc.devRef .tc main_v93) : Mat 1 2)
    = row (W (Proc.devRef .tc main_arg20) : (⟨1, ![2]⟩ : Shape).Idx → EReal) := by
  after_results
  funext j
  exact shapeCast_row _ _ j

end Cert.KernelIdeal.Stretch

end
-- ==== Proof.Net.lean ====
/-
  The whole network as one function of its arguments, in its two spellings. Both start with a dense embedding,
  apply three convolution layers and end with a dense classifier. A layer aggregates the neighbours' features
  (the function A, the same on both sides and never opened here), convolves, takes the column mean and variance of
  the convolution over all rows, normalises, scales, shifts and rectifies. The two spellings differ only in the
  variance: mean of squares minus squared mean on one side, mean of squared deviations on the other.
-/
import proofs.«136904_j51402168598679_1_alg».proof.Proof.Spec

noncomputable section

namespace Cert.Net

open Idealize.ShloMosaic Idealize.ShloMosaic.ValueIdx Cert.Spec

variable {n k : ℕ}

/-- One layer with the variance as mean of squares minus squared mean. -/
def layerSq (A : Mat n k → Mat n k) (c eps : EReal) (h : Mat n k) (wl wr : Mat k k) (b g be : Mat 1 k) : Mat n k :=
  bnRelu eps (conv h (A h) wl wr b) (mean c (conv h (A h) wl wr b)) (varOfSquares c (conv h (A h) wl wr b)) g be

/-- One layer with the variance as mean of squared deviations. -/
def layerDev (A : Mat n k → Mat n k) (c eps : EReal) (h : Mat n k) (wl wr : Mat k k) (b g be : Mat 1 k) : Mat n k :=
  bnRelu eps (conv h (A h) wl wr b) (mean c (conv h (A h) wl wr b)) (varOfDeviations c (conv h (A h) wl wr b)) g be

/-- The network over layers of the first kind. -/
def netSq {f o : ℕ} (A : Mat n k → Mat n k) (c eps : EReal) (x : Mat n f) (ew : Mat k f) (eb : Mat 1 k)
    (w1l w1r : Mat k k) (b1 g1 be1 : Mat 1 k) (w2l w2r : Mat k k) (b2 g2 be2 : Mat 1 k)
    (w3l w3r : Mat k k) (b3 g3 be3 : Mat 1 k) (cw : Mat o k) (cb : Mat 1 o) : Mat n o :=
  dense (layerSq A c eps (layerSq A c eps (layerSq A c eps (dense x ew eb) w1l w1r b1 g1 be1) w2l w2r b2 g2 be2)
    w3l w3r b3 g3 be3) cw cb

/-- The network over layers of the second kind. -/
def netDev {f o : ℕ} (A : Mat n k → Mat n k) (c eps : EReal) (x : Mat n f) (ew : Mat k f) (eb : Mat 1 k)
    (w1l w1r : Mat k k) (b1 g1 be1 : Mat 1 k) (w2l w2r : Mat k k) (b2 g2 be2 : Mat 1 k)
    (w3l w3r : Mat k k) (b3 g3 be3 : Mat 1 k) (cw : Mat o k) (cb : Mat 1 o) : Mat n o :=
  dense (layerDev A c eps (layerDev A c eps (layerDev A c eps (dense x ew eb) w1l w1r b1 g1 be1) w2l w2r b2 g2 be2)
    w3l w3r b3 g3 be3) cw cb

end Cert.Net

end
-- ==== Proof.LibPlainDot.lean ====
/-
  The product of an [M, K] matrix with a [K, N] matrix, contracted on the left operand's second axis and the right
  operand's first, read at an output index. Independent of any program.

  With no batch axis the contraction index has one coordinate, running over the K shared positions; at the output index
  (p, q) the left operand is read at (p, k) and the right at (k, q). So the contraction's sum over its own index type is
  the familiar sum over k of l (p, k) · r (k, q).
-/
import Idealize.ShloMosaic.Lib.ValueIdx
import Idealize.ShloMosaic.PureOps.Ideal
import Idealize.ShloMosaic.PureOps.Ideal.Laws

noncomputable section

namespace Cert.Lib

open Idealize.ShloMosaic Idealize.ShloMosaic.ValueIdx

/-- The dimension numbers of a plain matrix product [M, K] × [K, N] → [M, N]. -/
abbrev plainDot (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- THE CONTRACTION AS A SUM OVER k: at the output index (p, q) the product's terms are l (p, k) · r (k, q). -/
theorem plainDot_sum {M K N : Nat}
    (wf : DotDims.WF ⟨2, ![M, K]⟩ ⟨2, ![K, N]⟩ ⟨2, ![M, N]⟩ [1] [0] [0] [1] [] [])
    (l : (⟨2, ![M, K]⟩ : Shape).Idx → EReal) (r : (⟨2, ![K, N]⟩ : Shape).Idx → EReal) (p : Fin M) (q : Fin N) :
    ∑ k : (plainDot M K N wf).contr.Idx,
        l ((plainDot M K N wf).lhsIdx (ix2 p q) k) * r ((plainDot M K N wf).rhsIdx (ix2 p q) k)
      = ∑ k : Fin K, l (ix2 p k) * r (ix2 k q) := by
  rw [← Equiv.sum_comp (contrEquiv1 (plainDot M K N wf) K rfl rfl).symm]
  refine Finset.sum_congr rfl fun k _ => ?_
  have hk := contrEquiv1_symm_val (plainDot M K N wf) K rfl rfl k
  have el : (plainDot M K N wf).lhsIdx (ix2 p q) ((contrEquiv1 (plainDot M K N wf) K rfl rfl).symm k) = ix2 p k :=
    funext fun a => Fin.ext (by
      match a with
      | ⟨0, _⟩ =>
        show ((plainDot M K N wf).lhsIdx (ix2 p q) ((contrEquiv1 (plainDot M K N wf) K rfl rfl).symm k) 0).val = p.val
        unfold DotDims.lhsIdx
        rw [dif_neg (show ¬ (0 : Fin 2) ∈ ([] : List (Fin 2)) from List.not_mem_nil),
          dif_pos (show (0 : Fin 2) ∈ ([0] : List (Fin 2)) from List.mem_singleton.mpr rfl)]
        rfl
      | ⟨1, _⟩ => exact ((plainDot M K N wf).lhsIdx_val_of_single rfl (ix2 p q) _).trans hk)
  have er : (plainDot M K N wf).rhsIdx (ix2 p q) ((contrEquiv1 (plainDot M K N wf) K rfl rfl).symm k) = ix2 k q :=
    funext fun a => Fin.ext (by
      match a with
      | ⟨0, _⟩ => exact ((plainDot M K N wf).rhsIdx_val_of_single rfl (ix2 p q) _).trans hk
      | ⟨1, _⟩ =>
        show ((plainDot M K N wf).rhsIdx (ix2 p q) ((contrEquiv1 (plainDot M K N wf) K rfl rfl).symm k) 1).val = q.val
        unfold DotDims.rhsIdx
        rw [dif_neg (show ¬ (1 : Fin 2) ∈ ([] : List (Fin 2)) from List.not_mem_nil),
          dif_pos (show (1 : Fin 2) ∈ ([1] : List (Fin 2)) from List.mem_singleton.mpr rfl)]
        rfl)
  rw [el, er]

/-- A kernel's matrix product into a zero accumulator, at (p, q). -/
theorem matmul_zero_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDot M K N wf) prec l r (constant (F := Ideal) ⟨2, ![M, N]⟩ .f32 0x00000000#32) (ix2 p q)
      = ∑ k : Fin K, l (ix2 p k) * r (ix2 k q) := by
  rw [Ideal.matmul_constant_zero_apply]
  exact plainDot_sum wf l r p q

/-- The host's matrix product, at (p, q). -/
theorem dotGeneral_plain_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule) (l : FVec Ideal ⟨2, ![M, K]⟩ φ₁) (r : FVec Ideal ⟨2, ![K, N]⟩ φ₂)
    (p : Fin M) (q : Fin N) :
    FloatOps.dotGeneral (plainDot M K N wf) prec sched l r (ix2 p q)
      = ∑ k : Fin K, l (ix2 p k) * r (ix2 k q) := by
  rw [Ideal.dotGeneral_apply]
  exact plainDot_sum wf l r p q

end Cert.Lib

end
-- ==== Proof.KRegionLin.lean ====
/-
  The value of a dense-layer region: for every row p of the node features and every output column q, the region
  leaves  ∑ t, x (p, t) · w (q, t) + b (0, q)  in its output array. The body sees one block of 5000 rows at a time
  together with the whole weight matrix and the whole bias row; it transposes the weights and multiplies into a zero
  accumulator, so at a block-local (p, q) it is the same sum over the block's row p. The twenty blocks tile the
  100000 rows, hence the whole array is the dense layer of the whole input.
-/
import proofs.«136904_j51402168598679_1_alg».proof.Proof.Gen.KernelIdeal.Frame
import proofs.«136904_j51402168598679_1_alg».proof.Proof.Spec
import proofs.«136904_j51402168598679_1_alg».proof.Proof.LibPlainDot
import Idealize.ShloMosaic.Lib.Pipeline.Value
import Idealize.ShloMosaic.Lib.ValueLayout

set_option maxRecDepth 16384

noncomputable section

namespace Cert.KernelIdeal.RegionValue

open Cert.KernelIdeal Cert.KernelIdeal.Gen Idealize.ShloMosaic Idealize.ShloMosaic.ValueIdx Idealize.ShloMosaic.TcCoe
open Idealize.SL.Sem
open Idealize.ShloMosaic.Pipeline (Dat)

/-! ## The body's arithmetic at a block-local index -/

/-- The transposed weight block at (k, q) is the weight block at (q, k). -/
theorem transpose0_apply (x1 : FVec Ideal S128x128 .bf16) (h : S128x128.Transposes [1, 0] S128x128) (k : Fin 128) (q : Fin 128) :
    transpose S128x128 [1, 0] x1 h (ix2 k q) = x1 (ix2 q k) := by
  refine transpose_apply [1, 0] x1 h (ix2 k q) (ix2 q k) fun b => ?_
  match b with
  | ⟨0, _⟩ => rfl
  | ⟨1, _⟩ => rfl

/-- The bias row broadcast along the rows reads, at (p, q), its entry q. -/
theorem bias0_apply (x2 : FVec Ideal S1x128 .f32) (h2 : S1x128.Broadcasts S5000x128)
    (p : Fin 5000) (q : Fin 128) :
    broadcastTo S5000x128 x2 h2 (ix2 p q) = x2 (ix2 0 q) := by
  refine broadcastTo_apply x2 h2 (ix2 p q) (ix2 0 q) fun a => ?_
  match a with
  | ⟨0, _⟩ => rfl
  | ⟨1, _⟩ => rfl

/-- The body's stored value at (p, q): row p of the feature block against row q of the weights, plus bias q. -/
theorem pay0_apply (x0 : Vec Ideal S5000x128 .f32) (x1 : Vec Ideal S128x128 .f32) (x2 : Vec Ideal S1x128 .f32)
    (p : Fin 5000) (q : Fin 128) :
    k0_pay1 (F := Ideal) x0 x1 x2 (ix2 p q) = (∑ k : Fin 128, x0 (ix2 p k) * x1 (ix2 q k)) + x2 (ix2 0 q) := by
  unfold k0_pay1
  dsimp only
  simp only [shapeCast_self]
  rw [addf_apply, bias0_apply]
  congr 1
  refine (Cert.Lib.matmul_zero_apply (M := 5000) (K := 128) (N := 128) dot_S5000x128_S128x128_S5000x128_1_0_0_1_n_n_wf none _ _ p q).trans ?_
  refine Finset.sum_congr rfl fun k _ => ?_
  rw [transpose0_apply, truncf_apply, truncf_apply]

/-- A block's stored value is the dense layer of the whole arrays at the array index i, as soon as the block's row p
    is the features' row i 0, and the weight and bias blocks are the whole weight matrix and bias row. -/
theorem block0_dense (X : Cert.Spec.Mat 100000 128) (W : Cert.Spec.Mat 128 128) (B : Cert.Spec.Mat 1 128)
    (x0 : Vec Ideal S5000x128 .f32) (x1 : Vec Ideal S128x128 .f32) (x2 : Vec Ideal S1x128 .f32)
    (i : S100000x128.Idx) (p : Fin 5000) (q : Fin 128)
    (h0 : ∀ k : Fin 128, x0 (ix2 p k) = X (ix2 (i 0) k)) (h1 : ∀ k : Fin 128, x1 (ix2 q k) = W (ix2 (i 1) k))
    (h2 : x2 (ix2 0 q) = B (ix2 0 (i 1))) :
    k0_pay1 (F := Ideal) x0 x1 x2 (ix2 p q) = Cert.Spec.dense X W B i := by
  rw [pay0_apply, h2]
  show _ = (∑ k : Fin 128, X (ix2 (i 0) k) * W (ix2 (i 1) k)) + B (ix2 0 (i 1))
  congr 1
  exact Finset.sum_congr rfl fun k _ => by rw [h0, h1]

/-! ## From the blocks to the array -/

section Region
variable (V : (c : Dev nD) → (b : Ref sig .tc) → Buf (Elt Ideal) ((c : Thread nD τ).loc b))

theorem zero_offsets0 : (![0, 0] : Fin 2 → Nat) = fun _ => 0 := funext fun a => by fin_cases a <;> rfl

/-- The windows' index maps over the grid: the feature and output windows sit at block (t, 0), the weight and bias
    windows at block (0, 0). -/
theorem index_maps0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the dense layer of the arrays as the region finds them. -/
theorem flushed0_eq (c : Dev nD) (t : Fin cfg0.N) :
    (dat0 V c).flushed 3 t = ((cfg0.win 3).blk t).view.read (Elt Ideal)
      (Cert.Spec.dense (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero zero_offsets0]
  simp only [View.ld_unit_zero (S := S5000x128) zero_offsets0, View.ld_unit_zero (S := S128x128) zero_offsets0,
    View.ld_unit_zero (S := S1x128) zero_offsets0]
  obtain ⟨e00, e01, e10, e11, e20, e21, e30, e31⟩ := index_maps0 t
  funext j
  obtain ⟨p, q, rfl⟩ : ∃ (p : Fin 5000) (q : Fin 128), j = ix2 p q := ⟨j 0, j 1, eq_ix2 j⟩
  refine block0_dense (V c (Pipeline.arrRef spec0 0)) (V c (Pipeline.arrRef spec0 1)) (V c (Pipeline.arrRef spec0 2))
    (iblk0 V c 0 t) (iblk0 V c 1 t) (iblk0 V c 2 t) (((cfg0.win 3).blk t).view.emb (ix2 p q)) p q ?_ ?_ ?_
  · intro k
    show V c (Pipeline.arrRef spec0 0) (((cfg0.win 0).blk t).view.emb (ix2 p k)) = _
    refine congrArg (V c (Pipeline.arrRef spec0 0)) (funext fun a => Fin.ext ?_)
    match a with
    | ⟨0, _⟩ =>
      show win0_0.index t (0 : Fin 2) * 5000 + 1 * p.val = win0_3.index t (0 : Fin 2) * 5000 + 1 * p.val
      omega
    | ⟨1, _⟩ =>
      show win0_0.index t (1 : Fin 2) * 128 + 1 * k.val = k.val
      omega
  · intro k
    show V c (Pipeline.arrRef spec0 1) (((cfg0.win 1).blk t).view.emb (ix2 q k)) = _
    refine congrArg (V c (Pipeline.arrRef spec0 1)) (funext fun a => Fin.ext ?_)
    match a with
    | ⟨0, _⟩ =>
      show win0_1.index t (0 : Fin 2) * 128 + 1 * q.val = win0_3.index t (1 : Fin 2) * 128 + 1 * q.val
      omega
    | ⟨1, _⟩ =>
      show win0_1.index t (1 : Fin 2) * 128 + 1 * k.val = k.val
      omega
  · show V c (Pipeline.arrRef spec0 2) (((cfg0.win 2).blk t).view.emb (ix2 0 q)) = _
    refine congrArg (V c (Pipeline.arrRef spec0 2)) (funext fun a => Fin.ext ?_)
    match a with
    | ⟨0, _⟩ =>
      show win0_2.index t (0 : Fin 2) * 1 + 1 * 0 = 0
      omega
    | ⟨1, _⟩ =>
      show win0_2.index t (1 : Fin 2) * 128 + 1 * q.val = win0_3.index t (1 : Fin 2) * 128 + 1 * q.val
      omega

/-- An index of the output array is in point t's block iff each coordinate is in the block's range on its axis. -/
theorem mem_block0 (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v5).slice (win0_3.rect t)).set ↔ _
  rw [View.set_slice_whole, Rect.mem_set_unit]
  exact Iff.rfl

/-- Row r of the output lies in the block of point r / 5000: the twenty blocks tile the array. -/
theorem covered0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_3 _, ?_⟩
  obtain ⟨e00, e01, e10, e11, e20, e21, e30, e31⟩ := index_maps0 ⟨(i 0).val / 5000, by rw [hN]; omega⟩
  rw [mem_block0]
  intro a
  match a with
  | ⟨0, _⟩ =>
    show win0_3.index _ (0 : Fin 2) * 5000 ≤ (i 0).val ∧ (i 0).val < win0_3.index _ (0 : Fin 2) * 5000 + 5000
    rw [e30]
    show (i 0).val / 5000 * 5000 ≤ (i 0).val ∧ (i 0).val < (i 0).val / 5000 * 5000 + 5000
    omega
  | ⟨1, _⟩ =>
    show win0_3.index _ (1 : Fin 2) * 128 ≤ (i 1).val ∧ (i 1).val < win0_3.index _ (1 : Fin 2) * 128 + 128
    rw [e31]
    omega

/-- The output array after the region is the dense layer of the feature array, the weights and the bias row. -/
theorem final0 (c : Dev nD) :
    (dat0 V c).arrAt 3 cfg0.N
      = Cert.Spec.dense (V c (Pipeline.arrRef spec0 0)) (V c (Pipeline.arrRef spec0 1)) (V c (Pipeline.arrRef spec0 2)) :=
  (dat0 V c).arrAt_eq_of_cover 3 _ (fun t _ => flushed0_eq V c t) (covered0)

end Region

end Cert.KernelIdeal.RegionValue

end
-- ==== Proof.KRegionBn.lean ====
/-
  The value of a normalise-and-rectify region: for every row p and column q the region leaves
  max (((y (p, q) − mean q) · rsqrt (var q + ε)) · g q + be q, 0) in its output array, where mean, var, g and be are
  one-row arrays seen whole at every grid point and y is seen one block of 5000 rows at a time. Every operation of the
  body is pointwise once the rows are broadcast along the block, and the twenty blocks tile the 100000 rows.
-/
import proofs.«136904_j51402168598679_1_alg».proof.Proof.Gen.KernelIdeal.Frame
import proofs.«136904_j51402168598679_1_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.ValueIdx Idealize.ShloMosaic.TcCoe
open Idealize.SL.Sem
open Idealize.ShloMosaic.Pipeline (Dat)

/-! ## The body's arithmetic at a block-local index -/

/-- A one-row array broadcast along the rows of a block reads, at (p, q), its entry q. -/
theorem rowBcast2_apply (x : FVec Ideal S1x128 .f32) (h : S1x128.Broadcasts S5000x128) (p : Fin 5000) (q : Fin 128) :
    broadcastTo S5000x128 x h (ix2 p q) = x (ix2 0 q) := by
  refine broadcastTo_apply x h (ix2 p q) (ix2 0 q) fun a => ?_
  match a with
  | ⟨0, _⟩ => rfl
  | ⟨1, _⟩ => rfl

/-- The body's stored value at (p, q), from the block of y and the four rows (variance first, as the body loads them). -/
theorem pay2_apply (x0 : Vec Ideal S5000x128 .f32) (xv xm xg xb : Vec Ideal S1x128 .f32) (p : Fin 5000) (q : Fin 128) :
    k2_pay1 (F := Ideal) x0 xv xm xg xb (ix2 p q)
      = max (((x0 (ix2 p q) - xm (ix2 0 q)) * Ideal.rsqrt (xv (ix2 0 q) + Ideal.ofBits .f32 0x3727C5AC#32)) * xg (ix2 0 q)
          + xb (ix2 0 q)) 0 := by
  unfold k2_pay1
  simp only [shapeCast_self]
  rw [maximumf_apply, addf_apply, mulf_apply, mulf_apply, subf_apply, rowBcast2_apply, rowBcast2_apply,
    rowBcast2_apply, rowBcast2_apply, broadcast_apply]
  show max (((x0 (ix2 p q) - xm (ix2 0 q)) * Ideal.rsqrt (xv (ix2 0 q) + Ideal.ofBits .f32 0x3727C5AC#32)) * xg (ix2 0 q)
      + xb (ix2 0 q)) (Ideal.ofBits .f32 0x00000000#32) = _
  rw [Ideal.ofBits_zero_f32]

/-- A block's stored value is the normalised and rectified array at the array index i, as soon as the block's entry
    (p, q) is y's entry i and the four row blocks are the whole rows. -/
theorem block2_bnRelu (Y : Cert.Spec.Mat 100000 128) (M Vr G B : Cert.Spec.Mat 1 128)
    (x0 : Vec Ideal S5000x128 .f32) (xv xm xg xb : Vec Ideal S1x128 .f32)
    (i : S100000x128.Idx) (p : Fin 5000) (q : Fin 128)
    (h0 : x0 (ix2 p q) = Y i) (hm : xm (ix2 0 q) = M (ix2 0 (i 1))) (hv : xv (ix2 0 q) = Vr (ix2 0 (i 1)))
    (hg : xg (ix2 0 q) = G (ix2 0 (i 1))) (hb : xb (ix2 0 q) = B (ix2 0 (i 1))) :
    k2_pay1 (F := Ideal) x0 xv xm xg xb (ix2 p q)
      = Cert.Spec.bnRelu (Ideal.ofBits .f32 0x3727C5AC#32) Y M Vr G B i := by
  rw [pay2_apply, h0, hm, hv, hg, hb]
  rfl

/-! ## From the blocks to the array -/

section Region
variable (V : (c : Dev nD) → (b : Ref sig .tc) → Buf (Elt Ideal) ((c : Thread nD τ).loc b))

theorem zero_offsets2 : (![0, 0] : Fin 2 → Nat) = fun _ => 0 := funext fun a => by fin_cases a <;> rfl

/-- The windows' index maps over the grid: the y and output windows sit at block (t, 0), the four row windows at
    block (0, 0). -/
theorem index_maps2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

set_option maxHeartbeats 1600000 in
/-- What point t writes back is block t of the normalised and rectified array of the arrays as the region finds them. -/
theorem flushed2_eq (c : Dev nD) (t : Fin cfg2.N) :
    (dat2 V c).flushed 5 t = ((cfg2.win 5).blk t).view.read (Elt Ideal)
      (Cert.Spec.bnRelu (Ideal.ofBits .f32 0x3727C5AC#32) (V c (Pipeline.arrRef spec2 0)) (V c (Pipeline.arrRef spec2 1))
        (V c (Pipeline.arrRef spec2 2)) (V c (Pipeline.arrRef spec2 3)) (V c (Pipeline.arrRef spec2 4))) := by
  show (cfg2.win 5).cut (grid2.coords t) ((dat2 V c).after 5 t) = _
  rw [after2_5]
  unfold out2_5
  rw [View.canon_unit_zero zero_offsets2]
  simp only [View.ld_unit_zero (S := S5000x128) zero_offsets2, View.ld_unit_zero (S := S1x128) zero_offsets2]
  obtain ⟨e00, e01, e10, e11, e20, e21, e30, e31, e40, e41, e50, e51⟩ := index_maps2 t
  funext j
  obtain ⟨p, q, rfl⟩ : ∃ (p : Fin 5000) (q : Fin 128), j = ix2 p q := ⟨j 0, j 1, eq_ix2 j⟩
  refine block2_bnRelu (V c (Pipeline.arrRef spec2 0)) (V c (Pipeline.arrRef spec2 1)) (V c (Pipeline.arrRef spec2 2))
    (V c (Pipeline.arrRef spec2 3)) (V c (Pipeline.arrRef spec2 4))
    (iblk2 V c 0 t) (iblk2 V c 2 t) (iblk2 V c 1 t) (iblk2 V c 3 t) (iblk2 V c 4 t)
    (((cfg2.win 5).blk t).view.emb (ix2 p q)) p q ?_ ?_ ?_ ?_ ?_
  · show V c (Pipeline.arrRef spec2 0) (((cfg2.win 0).blk t).view.emb (ix2 p q)) = _
    refine congrArg (V c (Pipeline.arrRef spec2 0)) (funext fun a => Fin.ext ?_)
    match a with
    | ⟨0, _⟩ =>
      show win2_0.index t (0 : Fin 2) * 5000 + 1 * p.val = win2_5.index t (0 : Fin 2) * 5000 + 1 * p.val
      omega
    | ⟨1, _⟩ =>
      show win2_0.index t (1 : Fin 2) * 128 + 1 * q.val = win2_5.index t (1 : Fin 2) * 128 + 1 * q.val
      omega
  · show V c (Pipeline.arrRef spec2 1) (((cfg2.win 1).blk t).view.emb (ix2 0 q)) = _
    refine congrArg (V c (Pipeline.arrRef spec2 1)) (funext fun a => Fin.ext ?_)
    match a with
    | ⟨0, _⟩ =>
      show win2_1.index t (0 : Fin 2) * 1 + 1 * 0 = 0
      omega
    | ⟨1, _⟩ =>
      show win2_1.index t (1 : Fin 2) * 128 + 1 * q.val = win2_5.index t (1 : Fin 2) * 128 + 1 * q.val
      omega
  · show V c (Pipeline.arrRef spec2 2) (((cfg2.win 2).blk t).view.emb (ix2 0 q)) = _
    refine congrArg (V c (Pipeline.arrRef spec2 2)) (funext fun a => Fin.ext ?_)
    match a with
    | ⟨0, _⟩ =>
      show win2_2.index t (0 : Fin 2) * 1 + 1 * 0 = 0
      omega
    | ⟨1, _⟩ =>
      show win2_2.index t (1 : Fin 2) * 128 + 1 * q.val = win2_5.index t (1 : Fin 2) * 128 + 1 * q.val
      omega
  · show V c (Pipeline.arrRef spec2 3) (((cfg2.win 3).blk t).view.emb (ix2 0 q)) = _
    refine congrArg (V c (Pipeline.arrRef spec2 3)) (funext fun a => Fin.ext ?_)
    match a with
    | ⟨0, _⟩ =>
      show win2_3.index t (0 : Fin 2) * 1 + 1 * 0 = 0
      omega
    | ⟨1, _⟩ =>
      show win2_3.index t (1 : Fin 2) * 128 + 1 * q.val = win2_5.index t (1 : Fin 2) * 128 + 1 * q.val
      omega
  · show V c (Pipeline.arrRef spec2 4) (((cfg2.win 4).blk t).view.emb (ix2 0 q)) = _
    refine congrArg (V c (Pipeline.arrRef spec2 4)) (funext fun a => Fin.ext ?_)
    match a with
    | ⟨0, _⟩ =>
      show win2_4.index t (0 : Fin 2) * 1 + 1 * 0 = 0
      omega
    | ⟨1, _⟩ =>
      show win2_4.index t (1 : Fin 2) * 128 + 1 * q.val = win2_5.index t (1 : Fin 2) * 128 + 1 * q.val
      omega

/-- An index of the output array is in point t's block iff each coordinate is in the block's range on its axis. -/
theorem mem_block2 (t : Fin cfg2.N) (i : S100000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v34).slice (win2_5.rect t)).set ↔ _
  rw [View.set_slice_whole, Rect.mem_set_unit]
  exact Iff.rfl

/-- Row r of the output lies in the block of point r / 5000: the twenty blocks tile the array. -/
theorem covered2 (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 20 := N_2
  refine ⟨⟨(i 0).val / 5000, by rw [hN]; omega⟩, flush2_5 _, ?_⟩
  obtain ⟨e00, e01, e10, e11, e20, e21, e30, e31, e40, e41, e50, e51⟩ :=
    index_maps2 ⟨(i 0).val / 5000, by rw [hN]; omega⟩
  rw [mem_block2]
  intro a
  match a with
  | ⟨0, _⟩ =>
    show win2_5.index _ (0 : Fin 2) * 5000 ≤ (i 0).val ∧ (i 0).val < win2_5.index _ (0 : Fin 2) * 5000 + 5000
    rw [e50]
    show (i 0).val / 5000 * 5000 ≤ (i 0).val ∧ (i 0).val < (i 0).val / 5000 * 5000 + 5000
    omega
  | ⟨1, _⟩ =>
    show win2_5.index _ (1 : Fin 2) * 128 ≤ (i 1).val ∧ (i 1).val < win2_5.index _ (1 : Fin 2) * 128 + 128
    rw [e51]
    omega

/-- The output array after the region is the normalised and rectified input array. -/
theorem final2 (c : Dev nD) :
    (dat2 V c).arrAt 5 cfg2.N
      = Cert.Spec.bnRelu (Ideal.ofBits .f32 0x3727C5AC#32) (V c (Pipeline.arrRef spec2 0)) (V c (Pipeline.arrRef spec2 1))
          (V c (Pipeline.arrRef spec2 2)) (V c (Pipeline.arrRef spec2 3)) (V c (Pipeline.arrRef spec2 4)) :=
  (dat2 V c).arrAt_eq_of_cover 5 _ (fun t _ => flushed2_eq V c t) (covered2)

end Region

end Cert.KernelIdeal.RegionValue

end
-- ==== Proof.KSagePayload.lean ====
/-
  One grid point of the convolution kernel, read entry by entry on the extended reals.

  The body holds a 5000-row block of the node features h and of the aggregated neighbour features a, the two
  128 × 128 weights wl, wr and the bias row b. It forms  y = h · wlᵀ + a · wrᵀ + b  (each product a contraction over
  the 128 input features against the transposed weight, the narrowing to a shorter float format being the identity
  on extended reals), adds to the running row of column sums the sums of y's columns over the block's 5000 rows, and to
  the running row of sums of squares the column sums of y · y. At the first grid point the two running rows are
  first set to zero.

  Each value is read at a row r and a column q.
-/
import proofs.«136904_j51402168598679_1_alg».proof.Proof.Gen.KernelIdeal.Skeleton
import proofs.«136904_j51402168598679_1_alg».proof.Proof.LibPlainDot
import Idealize.ShloMosaic.Lib.Pipeline.Value
import Idealize.ShloMosaic.Lib.ValueIdx
import Idealize.ShloMosaic.PureOps.Ideal.Laws

noncomputable section

namespace Cert.KernelIdeal.RegionValue

open Idealize.ShloMosaic Idealize.ShloMosaic.ValueIdx Cert.KernelIdeal Cert.KernelIdeal.Gen

/-- The transposed square weight at (k, q) is the weight at (q, k). -/
theorem transpose_sq_apply {α : Type} (x : S128x128.Idx → α) (h : S128x128.Transposes [1, 0] S128x128) (k q : Fin 128) :
    transpose S128x128 [1, 0] x h (ix2 k q) = x (ix2 q k) := by
  refine transpose_apply [1, 0] x h (ix2 k q) (ix2 q k) fun b => ?_
  match b with
  | ⟨0, _⟩ => rfl
  | ⟨1, _⟩ => rfl

/-- A row [1, 128] broadcast along the 5000 rows of a block reads, at (r, q), the row's entry q. -/
theorem bcast_row_apply {α : Type} (x : S1x128.Idx → α) (h : S1x128.Broadcasts S5000x128) (r : Fin 5000) (q : Fin 128) :
    broadcastTo S5000x128 x h (ix2 r q) = x (ix2 (0 : Fin 1) q) := by
  refine broadcastTo_apply x h (ix2 r q) (ix2 (0 : Fin 1) q) fun a => ?_
  match a with
  | ⟨0, _⟩ => rfl
  | ⟨1, _⟩ => rfl

/-- A length-128 vector viewed as one row reads, at (u, q), its entry q. -/
theorem row_of_vec_apply {α : Type} (v : S128.Idx → α) (h : S128.ShapeCasts S1x128) (u : Fin 1) (q : Fin 128) :
    shapeCast S1x128 v h (ix2 u q) = v (ix1 q) := by
  refine (shapeCast_addUnit_apply ![128] v h (ix2 u q)).trans (congrArg v ?_)
  funext a
  match a with
  | ⟨0, _⟩ => rfl

/-- The sum over the block's rows: at column q, the sum over r of the entries (r, q). -/
theorem colsum_apply (v : FVec Ideal S5000x128 .f32) (h : S5000x128.Reduces [0] S128) (hφ : FKind.Formats .f32)
    (hacc : (0x00000000#32 : BitVec 32) = FKind.add.neutral .f32 hφ) (q : Fin 128) :
    multiReduction (F := Ideal) .add [0] S128 v 0x00000000#32 h hφ hacc (ix1 q) = ∑ r : Fin 5000, v (ix2 r q) := by
  refine (Ideal.multiReduction_add_single v 0x00000000#32 h hφ hacc (ix1 q)).trans ?_
  refine Finset.sum_congr rfl fun r _ => congrArg v ?_
  funext a
  match a with
  | ⟨0, _⟩ => rfl
  | ⟨1, _⟩ => rfl

/-- One product of the block against a transposed weight, at (r, q): row r of the block against row q of the weight. -/
theorem prod_apply (x : Vec Ideal S5000x128 .f32) (w : Vec Ideal S128x128 .f32) (hc : S5000x128.ShapeCasts S5000x128)
    (hb : FTy.bits .bf16 < FTy.bits .f32) (ht : S128x128.Transposes [1, 0] S128x128) (r : Fin 5000) (q : Fin 128) :
    FloatOps.matmul dot_S5000x128_S128x128_S5000x128_1_0_0_1_n_n none
        (truncf .bf16 (shapeCast S5000x128 x hc) hb : FVec Ideal S5000x128 .bf16)
        (transpose S128x128 [1, 0] (truncf .bf16 w hb : FVec Ideal S128x128 .bf16) ht)
        (constant (F := Ideal) S5000x128 .f32 0x00000000#32) (ix2 r q)
      = ∑ t : Fin 128, x (ix2 r t) * w (ix2 q t) := by
  refine (Cert.Lib.matmul_zero_apply (M := 5000) (K := 128) (N := 128)
    dot_S5000x128_S128x128_S5000x128_1_0_0_1_n_n.wf none _ _ r q).trans ?_
  refine Finset.sum_congr rfl fun t _ => ?_
  rw [transpose_sq_apply, shapeCast_self]
  rfl

/-! ## Region 1 -/

/-- THE CONVOLUTION BLOCK at (r, q). -/
theorem conv1_pay_apply (x0 x1 : Vec Ideal S5000x128 .f32) (x2 x3 : Vec Ideal S128x128 .f32) (x4 : Vec Ideal S1x128 .f32)
    (r : Fin 5000) (q : Fin 128) :
    k1_pay4 (F := Ideal) x0 x1 x2 x3 x4 (ix2 r q)
      = ((∑ t : Fin 128, x0 (ix2 r t) * x2 (ix2 q t)) + (∑ t : Fin 128, x1 (ix2 r t) * x3 (ix2 q t)))
        + x4 (ix2 (0 : Fin 1) q) := by
  unfold k1_pay4
  refine congrArg₂ (· + ·) (congrArg₂ (· + ·) ?_ ?_) ?_
  · exact prod_apply x0 x2 _ _ _ r q
  · exact prod_apply x1 x3 _ _ _ r q
  · refine (bcast_row_apply _ _ r q).trans ?_
    rw [shapeCast_self]

/-- THE RUNNING ROW OF COLUMN SUMS after the body, at column q: the row before, plus the sum over the block's rows of
    the convolution block's column q. -/
theorem sum1_pay_apply (x0 x1 : Vec Ideal S5000x128 .f32) (x2 x3 : Vec Ideal S128x128 .f32) (x4 xo : Vec Ideal S1x128 .f32)
    (u : Fin 1) (q : Fin 128) :
    k1_pay5 (F := Ideal) x0 x1 x2 x3 x4 xo (ix2 u q)
      = xo (ix2 u q) + ∑ r : Fin 5000, k1_pay4 (F := Ideal) x0 x1 x2 x3 x4 (ix2 r q) := by
  unfold k1_pay5
  refine congrArg₂ (· + ·) ?_ ?_
  · rw [shapeCast_self]
  · exact (row_of_vec_apply _ _ u q).trans (colsum_apply _ _ _ _ q)

/-- THE RUNNING ROW OF SUMS OF SQUARES after the body, at column q: the row before, plus the sum over the block's rows
    of the squared block's column q. -/
theorem sq1_pay_apply (xo : FVec Ideal S1x128 .f32) (y : FVec Ideal S5000x128 .f32) (u : Fin 1) (q : Fin 128) :
    k1_pay1 (F := Ideal) xo y (ix2 u q) = xo (ix2 u q) + ∑ r : Fin 5000, y (ix2 r q) := by
  unfold k1_pay1
  refine congrArg₂ (· + ·) rfl ?_
  exact (row_of_vec_apply _ _ u q).trans (colsum_apply _ _ _ _ q)

/-- The row of sums of squares is carried to the last store unchanged. -/
theorem carry1_eq (xo : Vec Ideal S1x128 .f32) : k1_pay6 (F := Ideal) xo = xo := by
  unfold k1_pay6
  exact shapeCast_self _ _

/-- The squared block, entry by entry. -/
theorem sqblk1_apply (x0 x1 : Vec Ideal S5000x128 .f32) (x2 x3 : Vec Ideal S128x128 .f32) (x4 : Vec Ideal S1x128 .f32)
    (j : S5000x128.Idx) :
    k1_pay7 (F := Ideal) x0 x1 x2 x3 x4 j
      = k1_pay4 (F := Ideal) x0 x1 x2 x3 x4 j * k1_pay4 (F := Ideal) x0 x1 x2 x3 x4 j := rfl

/-- The row stored into the column sums at the first grid point is zero; -/
theorem zero1a_apply (j : S1x128.Idx) : k1_pay2 (F := Ideal) j = 0 := by
  unfold k1_pay2
  exact Ideal.ofBits_zero_f32

/-- and so is the one stored into the sums of squares. -/
theorem zero1b_apply (j : S1x128.Idx) : k1_pay3 (F := Ideal) j = 0 := by
  unfold k1_pay3
  exact Ideal.ofBits_zero_f32

/-! ## Region 3 -/

/-- THE CONVOLUTION BLOCK at (r, q). -/
theorem conv3_pay_apply (x0 x1 : Vec Ideal S5000x128 .f32) (x2 x3 : Vec Ideal S128x128 .f32) (x4 : Vec Ideal S1x128 .f32)
    (r : Fin 5000) (q : Fin 128) :
    k3_pay4 (F := Ideal) x0 x1 x2 x3 x4 (ix2 r q)
      = ((∑ t : Fin 128, x0 (ix2 r t) * x2 (ix2 q t)) + (∑ t : Fin 128, x1 (ix2 r t) * x3 (ix2 q t)))
        + x4 (ix2 (0 : Fin 1) q) := by
  unfold k3_pay4
  refine congrArg₂ (· + ·) (congrArg₂ (· + ·) ?_ ?_) ?_
  · exact prod_apply x0 x2 _ _ _ r q
  · exact prod_apply x1 x3 _ _ _ r q
  · refine (bcast_row_apply _ _ r q).trans ?_
    rw [shapeCast_self]

/-- THE RUNNING ROW OF COLUMN SUMS after the body, at column q: the row before, plus the sum over the block's rows of
    the convolution block's column q. -/
theorem sum3_pay_apply (x0 x1 : Vec Ideal S5000x128 .f32) (x2 x3 : Vec Ideal S128x128 .f32) (x4 xo : Vec Ideal S1x128 .f32)
    (u : Fin 1) (q : Fin 128) :
    k3_pay5 (F := Ideal) x0 x1 x2 x3 x4 xo (ix2 u q)
      = xo (ix2 u q) + ∑ r : Fin 5000, k3_pay4 (F := Ideal) x0 x1 x2 x3 x4 (ix2 r q) := by
  unfold k3_pay5
  refine congrArg₂ (· + ·) ?_ ?_
  · rw [shapeCast_self]
  · exact (row_of_vec_apply _ _ u q).trans (colsum_apply _ _ _ _ q)

/-- THE RUNNING ROW OF SUMS OF SQUARES after the body, at column q: the row before, plus the sum over the block's rows
    of the squared block's column q. -/
theorem sq3_pay_apply (xo : FVec Ideal S1x128 .f32) (y : FVec Ideal S5000x128 .f32) (u : Fin 1) (q : Fin 128) :
    k3_pay1 (F := Ideal) xo y (ix2 u q) = xo (ix2 u q) + ∑ r : Fin 5000, y (ix2 r q) := by
  unfold k3_pay1
  refine congrArg₂ (· + ·) rfl ?_
  exact (row_of_vec_apply _ _ u q).trans (colsum_apply _ _ _ _ q)

/-- The row of sums of squares is carried to the last store unchanged. -/
theorem carry3_eq (xo : Vec Ideal S1x128 .f32) : k3_pay6 (F := Ideal) xo = xo := by
  unfold k3_pay6
  exact shapeCast_self _ _

/-- The squared block, entry by entry. -/
theorem sqblk3_apply (x0 x1 : Vec Ideal S5000x128 .f32) (x2 x3 : Vec Ideal S128x128 .f32) (x4 : Vec Ideal S1x128 .f32)
    (j : S5000x128.Idx) :
    k3_pay7 (F := Ideal) x0 x1 x2 x3 x4 j
      = k3_pay4 (F := Ideal) x0 x1 x2 x3 x4 j * k3_pay4 (F := Ideal) x0 x1 x2 x3 x4 j := rfl

/-- The row stored into the column sums at the first grid point is zero; -/
theorem zero3a_apply (j : S1x128.Idx) : k3_pay2 (F := Ideal) j = 0 := by
  unfold k3_pay2
  exact Ideal.ofBits_zero_f32

/-- and so is the one stored into the sums of squares. -/
theorem zero3b_apply (j : S1x128.Idx) : k3_pay3 (F := Ideal) j = 0 := by
  unfold k3_pay3
  exact Ideal.ofBits_zero_f32

/-! ## Region 5 -/

/-- THE CONVOLUTION BLOCK at (r, q). -/
theorem conv5_pay_apply (x0 x1 : Vec Ideal S5000x128 .f32) (x2 x3 : Vec Ideal S128x128 .f32) (x4 : Vec Ideal S1x128 .f32)
    (r : Fin 5000) (q : Fin 128) :
    k5_pay4 (F := Ideal) x0 x1 x2 x3 x4 (ix2 r q)
      = ((∑ t : Fin 128, x0 (ix2 r t) * x2 (ix2 q t)) + (∑ t : Fin 128, x1 (ix2 r t) * x3 (ix2 q t)))
        + x4 (ix2 (0 : Fin 1) q) := by
  unfold k5_pay4
  refine congrArg₂ (· + ·) (congrArg₂ (· + ·) ?_ ?_) ?_
  · exact prod_apply x0 x2 _ _ _ r q
  · exact prod_apply x1 x3 _ _ _ r q
  · refine (bcast_row_apply _ _ r q).trans ?_
    rw [shapeCast_self]

/-- THE RUNNING ROW OF COLUMN SUMS after the body, at column q: the row before, plus the sum over the block's rows of
    the convolution block's column q. -/
theorem sum5_pay_apply (x0 x1 : Vec Ideal S5000x128 .f32) (x2 x3 : Vec Ideal S128x128 .f32) (x4 xo : Vec Ideal S1x128 .f32)
    (u : Fin 1) (q : Fin 128) :
    k5_pay5 (F := Ideal) x0 x1 x2 x3 x4 xo (ix2 u q)
      = xo (ix2 u q) + ∑ r : Fin 5000, k5_pay4 (F := Ideal) x0 x1 x2 x3 x4 (ix2 r q) := by
  unfold k5_pay5
  refine congrArg₂ (· + ·) ?_ ?_
  · rw [shapeCast_self]
  · exact (row_of_vec_apply _ _ u q).trans (colsum_apply _ _ _ _ q)

/-- THE RUNNING ROW OF SUMS OF SQUARES after the body, at column q: the row before, plus the sum over the block's rows
    of the squared block's column q. -/
theorem sq5_pay_apply (xo : FVec Ideal S1x128 .f32) (y : FVec Ideal S5000x128 .f32) (u : Fin 1) (q : Fin 128) :
    k5_pay1 (F := Ideal) xo y (ix2 u q) = xo (ix2 u q) + ∑ r : Fin 5000, y (ix2 r q) := by
  unfold k5_pay1
  refine congrArg₂ (· + ·) rfl ?_
  exact (row_of_vec_apply _ _ u q).trans (colsum_apply _ _ _ _ q)

/-- The row of sums of squares is carried to the last store unchanged. -/
theorem carry5_eq (xo : Vec Ideal S1x128 .f32) : k5_pay6 (F := Ideal) xo = xo := by
  unfold k5_pay6
  exact shapeCast_self _ _

/-- The squared block, entry by entry. -/
theorem sqblk5_apply (x0 x1 : Vec Ideal S5000x128 .f32) (x2 x3 : Vec Ideal S128x128 .f32) (x4 : Vec Ideal S1x128 .f32)
    (j : S5000x128.Idx) :
    k5_pay7 (F := Ideal) x0 x1 x2 x3 x4 j
      = k5_pay4 (F := Ideal) x0 x1 x2 x3 x4 j * k5_pay4 (F := Ideal) x0 x1 x2 x3 x4 j := rfl

/-- The row stored into the column sums at the first grid point is zero; -/
theorem zero5a_apply (j : S1x128.Idx) : k5_pay2 (F := Ideal) j = 0 := by
  unfold k5_pay2
  exact Ideal.ofBits_zero_f32

/-- and so is the one stored into the sums of squares. -/
theorem zero5b_apply (j : S1x128.Idx) : k5_pay3 (F := Ideal) j = 0 := by
  unfold k5_pay3
  exact Ideal.ofBits_zero_f32

end Cert.KernelIdeal.RegionValue

end
-- ==== Proof.KSagePieces.lean ====
/-
  What one grid point of the convolution kernel leaves in its three output buffers, as values.

  The body's stores into each output buffer cover the whole buffer, so what is left is the last store's value, and a
  load that follows a covering store of the same buffer reads that store's value back. At the first grid point the two
  running rows are first overwritten with zero rows, so the sums start from zero; at every later point they start from
  what the point before left. In both cases the convolution block depends on the point's input blocks only.
  Stated for any float instance.
-/
import proofs.«136904_j51402168598679_1_alg».proof.Proof.Gen.KernelIdeal.Frame
import Idealize.ShloMosaic.Lib.Pipeline.Value
import Idealize.ShloMosaic.Lib.Tactic

noncomputable section

namespace Cert.KernelIdeal.RegionValue

open Idealize.ShloMosaic Idealize.ShloMosaic.TcCoe Idealize.SL.Sem Cert.KernelIdeal Cert.KernelIdeal.Gen

variable {F : FTy → Type} [FloatOps F]

/-- The zero offsets of a whole-buffer access. -/
theorem hz2 : (![0, 0] : Fin 2 → Nat) = fun _ => 0 := funext fun a => by fin_cases a <;> rfl

/-! ## Region 1 -/

/-- First point: the convolution output buffer holds the convolution block of the point's input blocks. -/
theorem piece1_A_5 (c : Dev nD) (i : grid1.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond1_0 i) (x0 x1 : Vec F S5000x128 .f32) (x2 x3 : Vec F S128x128 .f32) (x4 : Vec F S1x128 .f32) :
    out1_A_5 c i a1 h1 a2 h2 a3 h3 a4 h4 a5 h5 a6 h6 a7 h7 a8 h8 hc x0 x1 x2 x3 x4 = k1_pay4 x0 x1 x2 x3 x4 := by
  unfold out1_A_5
  rw [View.read_writes_eq_canon _ _ _ (cover1_A_5 c i a1 h1 a2 h2 a3 h3 a4 h4 a5 h5 a6 h6 a7 h7 a8 h8 hc x0 x1 x2 x3 x4)]
  unfold kernelRun1_A
  dsimp only
  sl_unfold_words
  rw [View.canon_unit_zero hz2]
  simp only [View.readAt_eq_ld, h1.read_unread, h2.read_unread, h3.read_unread, h4.read_unread, h5.read_unread,
    View.ld_unit_zero (S := S5000x128) hz2, View.ld_unit_zero (S := S128x128) hz2, View.ld_unit_zero (S := S1x128) hz2]

/-- Later points: the same. -/
theorem piece1_B_5 (c : Dev nD) (i : grid1.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond1_0 i) (x0 x1 : Vec F S5000x128 .f32) (x2 x3 : Vec F S128x128 .f32) (x4 xo6 xo7 : Vec F S1x128 .f32) :
    out1_B_5 c i a1 h1 a2 h2 a3 h3 a4 h4 a5 h5 a6 h6 a7 h7 a8 h8 hc x0 x1 x2 x3 x4 xo6 xo7 = k1_pay4 x0 x1 x2 x3 x4 := by
  unfold out1_B_5
  rw [View.read_writes_eq_canon _ _ _ (cover1_B_5 c i a1 h1 a2 h2 a3 h3 a4 h4 a5 h5 a6 h6 a7 h7 a8 h8 hc x0 x1 x2 x3 x4 xo6 xo7)]
  unfold kernelRun1_B
  dsimp only
  sl_unfold_words
  rw [View.canon_unit_zero hz2]
  simp only [View.readAt_eq_ld, h1.read_unread, h2.read_unread, h3.read_unread, h4.read_unread, h5.read_unread,
    h7.read_unread, h8.read_unread,
    View.ld_unit_zero (S := S5000x128) hz2, View.ld_unit_zero (S := S128x128) hz2, View.ld_unit_zero (S := S1x128) hz2]

/-- First point: the row of column sums is the body's update of the zero row it has just stored. -/
theorem piece1_A_6 (c : Dev nD) (i : grid1.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond1_0 i) (x0 x1 : Vec F S5000x128 .f32) (x2 x3 : Vec F S128x128 .f32) (x4 : Vec F S1x128 .f32) :
    out1_A_6 c i a1 h1 a2 h2 a3 h3 a4 h4 a5 h5 a6 h6 a7 h7 a8 h8 hc x0 x1 x2 x3 x4 = k1_pay5 x0 x1 x2 x3 x4 (k1_pay2 (F := F)) := by
  unfold out1_A_6
  rw [View.read_writes_eq_canon _ _ _ (cover1_A_6 c i a1 h1 a2 h2 a3 h3 a4 h4 a5 h5 a6 h6 a7 h7 a8 h8 hc x0 x1 x2 x3 x4)]
  unfold kernelRun1_A
  dsimp only
  sl_unfold_words
  rw [View.canon_cons_unit_zero (S := S1x128) hz2, View.readCov_unit_zero (S := S1x128) _ hz2]
  simp only [View.readAt_eq_ld, h1.read_unread, h2.read_unread, h3.read_unread, h4.read_unread, h5.read_unread,
    View.ld_unit_zero (S := S5000x128) hz2, View.ld_unit_zero (S := S128x128) hz2, View.ld_unit_zero (S := S1x128) hz2]

/-- Later points: the body's update of the row the point before left. -/
theorem piece1_B_6 (c : Dev nD) (i : grid1.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond1_0 i) (x0 x1 : Vec F S5000x128 .f32) (x2 x3 : Vec F S128x128 .f32) (x4 xo6 xo7 : Vec F S1x128 .f32) :
    out1_B_6 c i a1 h1 a2 h2 a3 h3 a4 h4 a5 h5 a6 h6 a7 h7 a8 h8 hc x0 x1 x2 x3 x4 xo6 xo7 = k1_pay5 x0 x1 x2 x3 x4 xo6 := by
  unfold out1_B_6
  rw [View.read_writes_eq_canon _ _ _ (cover1_B_6 c i a1 h1 a2 h2 a3 h3 a4 h4 a5 h5 a6 h6 a7 h7 a8 h8 hc x0 x1 x2 x3 x4 xo6 xo7)]
  unfold kernelRun1_B
  dsimp only
  sl_unfold_words
  rw [View.canon_unit_zero hz2]
  simp only [View.readAt_eq_ld, h1.read_unread, h2.read_unread, h3.read_unread, h4.read_unread, h5.read_unread,
    h7.read_unread, h8.read_unread,
    View.ld_unit_zero (S := S5000x128) hz2, View.ld_unit_zero (S := S128x128) hz2, View.ld_unit_zero (S := S1x128) hz2]

/-- First point: the row of sums of squares is the update of the zero row just stored, by the squared block. -/
theorem piece1_A_7 (c : Dev nD) (i : grid1.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond1_0 i) (x0 x1 : Vec F S5000x128 .f32) (x2 x3 : Vec F S128x128 .f32) (x4 : Vec F S1x128 .f32) :
    out1_A_7 c i a1 h1 a2 h2 a3 h3 a4 h4 a5 h5 a6 h6 a7 h7 a8 h8 hc x0 x1 x2 x3 x4
      = k1_pay1 (k1_pay6 (k1_pay3 (F := F))) (k1_pay7 x0 x1 x2 x3 x4) := by
  unfold out1_A_7
  rw [View.read_writes_eq_canon _ _ _ (cover1_A_7 c i a1 h1 a2 h2 a3 h3 a4 h4 a5 h5 a6 h6 a7 h7 a8 h8 hc x0 x1 x2 x3 x4)]
  unfold kernelRun1_A
  dsimp only
  sl_unfold_words
  rw [View.canon_cons_unit_zero (S := S1x128) hz2, View.readCov_unit_zero (S := S1x128) _ hz2]
  simp only [View.readAt_eq_ld, h1.read_unread, h2.read_unread, h3.read_unread, h4.read_unread, h5.read_unread,
    View.ld_unit_zero (S := S5000x128) hz2, View.ld_unit_zero (S := S128x128) hz2, View.ld_unit_zero (S := S1x128) hz2]

/-- Later points: the update of the row the point before left. -/
theorem piece1_B_7 (c : Dev nD) (i : grid1.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond1_0 i) (x0 x1 : Vec F S5000x128 .f32) (x2 x3 : Vec F S128x128 .f32) (x4 xo6 xo7 : Vec F S1x128 .f32) :
    out1_B_7 c i a1 h1 a2 h2 a3 h3 a4 h4 a5 h5 a6 h6 a7 h7 a8 h8 hc x0 x1 x2 x3 x4 xo6 xo7
      = k1_pay1 (k1_pay6 xo7) (k1_pay7 x0 x1 x2 x3 x4) := by
  unfold out1_B_7
  rw [View.read_writes_eq_canon _ _ _ (cover1_B_7 c i a1 h1 a2 h2 a3 h3 a4 h4 a5 h5 a6 h6 a7 h7 a8 h8 hc x0 x1 x2 x3 x4 xo6 xo7)]
  unfold kernelRun1_B
  dsimp only
  sl_unfold_words
  rw [View.canon_unit_zero hz2]
  simp only [View.readAt_eq_ld, h1.read_unread, h2.read_unread, h3.read_unread, h4.read_unread, h5.read_unread,
    h7.read_unread, h8.read_unread,
    View.ld_unit_zero (S := S5000x128) hz2, View.ld_unit_zero (S := S128x128) hz2, View.ld_unit_zero (S := S1x128) hz2]

/-! ## Region 3 -/

/-- First point: the convolution output buffer holds the convolution block of the point's input blocks. -/
theorem piece3_A_5 (c : Dev nD) (i : grid3.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond3_0 i) (x0 x1 : Vec F S5000x128 .f32) (x2 x3 : Vec F S128x128 .f32) (x4 : Vec F S1x128 .f32) :
    out3_A_5 c i a1 h1 a2 h2 a3 h3 a4 h4 a5 h5 a6 h6 a7 h7 a8 h8 hc x0 x1 x2 x3 x4 = k3_pay4 x0 x1 x2 x3 x4 := by
  unfold out3_A_5
  rw [View.read_writes_eq_canon _ _ _ (cover3_A_5 c i a1 h1 a2 h2 a3 h3 a4 h4 a5 h5 a6 h6 a7 h7 a8 h8 hc x0 x1 x2 x3 x4)]
  unfold kernelRun3_A
  dsimp only
  sl_unfold_words
  rw [View.canon_unit_zero hz2]
  simp only [View.readAt_eq_ld, h1.read_unread, h2.read_unread, h3.read_unread, h4.read_unread, h5.read_unread,
    View.ld_unit_zero (S := S5000x128) hz2, View.ld_unit_zero (S := S128x128) hz2, View.ld_unit_zero (S := S1x128) hz2]

/-- Later points: the same. -/
theorem piece3_B_5 (c : Dev nD) (i : grid3.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond3_0 i) (x0 x1 : Vec F S5000x128 .f32) (x2 x3 : Vec F S128x128 .f32) (x4 xo6 xo7 : Vec F S1x128 .f32) :
    out3_B_5 c i a1 h1 a2 h2 a3 h3 a4 h4 a5 h5 a6 h6 a7 h7 a8 h8 hc x0 x1 x2 x3 x4 xo6 xo7 = k3_pay4 x0 x1 x2 x3 x4 := by
  unfold out3_B_5
  rw [View.read_writes_eq_canon _ _ _ (cover3_B_5 c i a1 h1 a2 h2 a3 h3 a4 h4 a5 h5 a6 h6 a7 h7 a8 h8 hc x0 x1 x2 x3 x4 xo6 xo7)]
  unfold kernelRun3_B
  dsimp only
  sl_unfold_words
  rw [View.canon_unit_zero hz2]
  simp only [View.readAt_eq_ld, h1.read_unread, h2.read_unread, h3.read_unread, h4.read_unread, h5.read_unread,
    h7.read_unread, h8.read_unread,
    View.ld_unit_zero (S := S5000x128) hz2, View.ld_unit_zero (S := S128x128) hz2, View.ld_unit_zero (S := S1x128) hz2]

/-- First point: the row of column sums is the body's update of the zero row it has just stored. -/
theorem piece3_A_6 (c : Dev nD) (i : grid3.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond3_0 i) (x0 x1 : Vec F S5000x128 .f32) (x2 x3 : Vec F S128x128 .f32) (x4 : Vec F S1x128 .f32) :
    out3_A_6 c i a1 h1 a2 h2 a3 h3 a4 h4 a5 h5 a6 h6 a7 h7 a8 h8 hc x0 x1 x2 x3 x4 = k3_pay5 x0 x1 x2 x3 x4 (k3_pay2 (F := F)) := by
  unfold out3_A_6
  rw [View.read_writes_eq_canon _ _ _ (cover3_A_6 c i a1 h1 a2 h2 a3 h3 a4 h4 a5 h5 a6 h6 a7 h7 a8 h8 hc x0 x1 x2 x3 x4)]
  unfold kernelRun3_A
  dsimp only
  sl_unfold_words
  rw [View.canon_cons_unit_zero (S := S1x128) hz2, View.readCov_unit_zero (S := S1x128) _ hz2]
  simp only [View.readAt_eq_ld, h1.read_unread, h2.read_unread, h3.read_unread, h4.read_unread, h5.read_unread,
    View.ld_unit_zero (S := S5000x128) hz2, View.ld_unit_zero (S := S128x128) hz2, View.ld_unit_zero (S := S1x128) hz2]

/-- Later points: the body's update of the row the point before left. -/
theorem piece3_B_6 (c : Dev nD) (i : grid3.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond3_0 i) (x0 x1 : Vec F S5000x128 .f32) (x2 x3 : Vec F S128x128 .f32) (x4 xo6 xo7 : Vec F S1x128 .f32) :
    out3_B_6 c i a1 h1 a2 h2 a3 h3 a4 h4 a5 h5 a6 h6 a7 h7 a8 h8 hc x0 x1 x2 x3 x4 xo6 xo7 = k3_pay5 x0 x1 x2 x3 x4 xo6 := by
  unfold out3_B_6
  rw [View.read_writes_eq_canon _ _ _ (cover3_B_6 c i a1 h1 a2 h2 a3 h3 a4 h4 a5 h5 a6 h6 a7 h7 a8 h8 hc x0 x1 x2 x3 x4 xo6 xo7)]
  unfold kernelRun3_B
  dsimp only
  sl_unfold_words
  rw [View.canon_unit_zero hz2]
  simp only [View.readAt_eq_ld, h1.read_unread, h2.read_unread, h3.read_unread, h4.read_unread, h5.read_unread,
    h7.read_unread, h8.read_unread,
    View.ld_unit_zero (S := S5000x128) hz2, View.ld_unit_zero (S := S128x128) hz2, View.ld_unit_zero (S := S1x128) hz2]

/-- First point: the row of sums of squares is the update of the zero row just stored, by the squared block. -/
theorem piece3_A_7 (c : Dev nD) (i : grid3.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond3_0 i) (x0 x1 : Vec F S5000x128 .f32) (x2 x3 : Vec F S128x128 .f32) (x4 : Vec F S1x128 .f32) :
    out3_A_7 c i a1 h1 a2 h2 a3 h3 a4 h4 a5 h5 a6 h6 a7 h7 a8 h8 hc x0 x1 x2 x3 x4
      = k3_pay1 (k3_pay6 (k3_pay3 (F := F))) (k3_pay7 x0 x1 x2 x3 x4) := by
  unfold out3_A_7
  rw [View.read_writes_eq_canon _ _ _ (cover3_A_7 c i a1 h1 a2 h2 a3 h3 a4 h4 a5 h5 a6 h6 a7 h7 a8 h8 hc x0 x1 x2 x3 x4)]
  unfold kernelRun3_A
  dsimp only
  sl_unfold_words
  rw [View.canon_cons_unit_zero (S := S1x128) hz2, View.readCov_unit_zero (S := S1x128) _ hz2]
  simp only [View.readAt_eq_ld, h1.read_unread, h2.read_unread, h3.read_unread, h4.read_unread, h5.read_unread,
    View.ld_unit_zero (S := S5000x128) hz2, View.ld_unit_zero (S := S128x128) hz2, View.ld_unit_zero (S := S1x128) hz2]

/-- Later points: the update of the row the point before left. -/
theorem piece3_B_7 (c : Dev nD) (i : grid3.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond3_0 i) (x0 x1 : Vec F S5000x128 .f32) (x2 x3 : Vec F S128x128 .f32) (x4 xo6 xo7 : Vec F S1x128 .f32) :
    out3_B_7 c i a1 h1 a2 h2 a3 h3 a4 h4 a5 h5 a6 h6 a7 h7 a8 h8 hc x0 x1 x2 x3 x4 xo6 xo7
      = k3_pay1 (k3_pay6 xo7) (k3_pay7 x0 x1 x2 x3 x4) := by
  unfold out3_B_7
  rw [View.read_writes_eq_canon _ _ _ (cover3_B_7 c i a1 h1 a2 h2 a3 h3 a4 h4 a5 h5 a6 h6 a7 h7 a8 h8 hc x0 x1 x2 x3 x4 xo6 xo7)]
  unfold kernelRun3_B
  dsimp only
  sl_unfold_words
  rw [View.canon_unit_zero hz2]
  simp only [View.readAt_eq_ld, h1.read_unread, h2.read_unread, h3.read_unread, h4.read_unread, h5.read_unread,
    h7.read_unread, h8.read_unread,
    View.ld_unit_zero (S := S5000x128) hz2, View.ld_unit_zero (S := S128x128) hz2, View.ld_unit_zero (S := S1x128) hz2]

/-! ## Region 5 -/

/-- First point: the convolution output buffer holds the convolution block of the point's input blocks. -/
theorem piece5_A_5 (c : Dev nD) (i : grid5.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond5_0 i) (x0 x1 : Vec F S5000x128 .f32) (x2 x3 : Vec F S128x128 .f32) (x4 : Vec F S1x128 .f32) :
    out5_A_5 c i a1 h1 a2 h2 a3 h3 a4 h4 a5 h5 a6 h6 a7 h7 a8 h8 hc x0 x1 x2 x3 x4 = k5_pay4 x0 x1 x2 x3 x4 := by
  unfold out5_A_5
  rw [View.read_writes_eq_canon _ _ _ (cover5_A_5 c i a1 h1 a2 h2 a3 h3 a4 h4 a5 h5 a6 h6 a7 h7 a8 h8 hc x0 x1 x2 x3 x4)]
  unfold kernelRun5_A
  dsimp only
  sl_unfold_words
  rw [View.canon_unit_zero hz2]
  simp only [View.readAt_eq_ld, h1.read_unread, h2.read_unread, h3.read_unread, h4.read_unread, h5.read_unread,
    View.ld_unit_zero (S := S5000x128) hz2, View.ld_unit_zero (S := S128x128) hz2, View.ld_unit_zero (S := S1x128) hz2]

/-- Later points: the same. -/
theorem piece5_B_5 (c : Dev nD) (i : grid5.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond5_0 i) (x0 x1 : Vec F S5000x128 .f32) (x2 x3 : Vec F S128x128 .f32) (x4 xo6 xo7 : Vec F S1x128 .f32) :
    out5_B_5 c i a1 h1 a2 h2 a3 h3 a4 h4 a5 h5 a6 h6 a7 h7 a8 h8 hc x0 x1 x2 x3 x4 xo6 xo7 = k5_pay4 x0 x1 x2 x3 x4 := by
  unfold out5_B_5
  rw [View.read_writes_eq_canon _ _ _ (cover5_B_5 c i a1 h1 a2 h2 a3 h3 a4 h4 a5 h5 a6 h6 a7 h7 a8 h8 hc x0 x1 x2 x3 x4 xo6 xo7)]
  unfold kernelRun5_B
  dsimp only
  sl_unfold_words
  rw [View.canon_unit_zero hz2]
  simp only [View.readAt_eq_ld, h1.read_unread, h2.read_unread, h3.read_unread, h4.read_unread, h5.read_unread,
    h7.read_unread, h8.read_unread,
    View.ld_unit_zero (S := S5000x128) hz2, View.ld_unit_zero (S := S128x128) hz2, View.ld_unit_zero (S := S1x128) hz2]

/-- First point: the row of column sums is the body's update of the zero row it has just stored. -/
theorem piece5_A_6 (c : Dev nD) (i : grid5.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond5_0 i) (x0 x1 : Vec F S5000x128 .f32) (x2 x3 : Vec F S128x128 .f32) (x4 : Vec F S1x128 .f32) :
    out5_A_6 c i a1 h1 a2 h2 a3 h3 a4 h4 a5 h5 a6 h6 a7 h7 a8 h8 hc x0 x1 x2 x3 x4 = k5_pay5 x0 x1 x2 x3 x4 (k5_pay2 (F := F)) := by
  unfold out5_A_6
  rw [View.read_writes_eq_canon _ _ _ (cover5_A_6 c i a1 h1 a2 h2 a3 h3 a4 h4 a5 h5 a6 h6 a7 h7 a8 h8 hc x0 x1 x2 x3 x4)]
  unfold kernelRun5_A
  dsimp only
  sl_unfold_words
  rw [View.canon_cons_unit_zero (S := S1x128) hz2, View.readCov_unit_zero (S := S1x128) _ hz2]
  simp only [View.readAt_eq_ld, h1.read_unread, h2.read_unread, h3.read_unread, h4.read_unread, h5.read_unread,
    View.ld_unit_zero (S := S5000x128) hz2, View.ld_unit_zero (S := S128x128) hz2, View.ld_unit_zero (S := S1x128) hz2]

/-- Later points: the body's update of the row the point before left. -/
theorem piece5_B_6 (c : Dev nD) (i : grid5.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond5_0 i) (x0 x1 : Vec F S5000x128 .f32) (x2 x3 : Vec F S128x128 .f32) (x4 xo6 xo7 : Vec F S1x128 .f32) :
    out5_B_6 c i a1 h1 a2 h2 a3 h3 a4 h4 a5 h5 a6 h6 a7 h7 a8 h8 hc x0 x1 x2 x3 x4 xo6 xo7 = k5_pay5 x0 x1 x2 x3 x4 xo6 := by
  unfold out5_B_6
  rw [View.read_writes_eq_canon _ _ _ (cover5_B_6 c i a1 h1 a2 h2 a3 h3 a4 h4 a5 h5 a6 h6 a7 h7 a8 h8 hc x0 x1 x2 x3 x4 xo6 xo7)]
  unfold kernelRun5_B
  dsimp only
  sl_unfold_words
  rw [View.canon_unit_zero hz2]
  simp only [View.readAt_eq_ld, h1.read_unread, h2.read_unread, h3.read_unread, h4.read_unread, h5.read_unread,
    h7.read_unread, h8.read_unread,
    View.ld_unit_zero (S := S5000x128) hz2, View.ld_unit_zero (S := S128x128) hz2, View.ld_unit_zero (S := S1x128) hz2]

/-- First point: the row of sums of squares is the update of the zero row just stored, by the squared block. -/
theorem piece5_A_7 (c : Dev nD) (i : grid5.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond5_0 i) (x0 x1 : Vec F S5000x128 .f32) (x2 x3 : Vec F S128x128 .f32) (x4 : Vec F S1x128 .f32) :
    out5_A_7 c i a1 h1 a2 h2 a3 h3 a4 h4 a5 h5 a6 h6 a7 h7 a8 h8 hc x0 x1 x2 x3 x4
      = k5_pay1 (k5_pay6 (k5_pay3 (F := F))) (k5_pay7 x0 x1 x2 x3 x4) := by
  unfold out5_A_7
  rw [View.read_writes_eq_canon _ _ _ (cover5_A_7 c i a1 h1 a2 h2 a3 h3 a4 h4 a5 h5 a6 h6 a7 h7 a8 h8 hc x0 x1 x2 x3 x4)]
  unfold kernelRun5_A
  dsimp only
  sl_unfold_words
  rw [View.canon_cons_unit_zero (S := S1x128) hz2, View.readCov_unit_zero (S := S1x128) _ hz2]
  simp only [View.readAt_eq_ld, h1.read_unread, h2.read_unread, h3.read_unread, h4.read_unread, h5.read_unread,
    View.ld_unit_zero (S := S5000x128) hz2, View.ld_unit_zero (S := S128x128) hz2, View.ld_unit_zero (S := S1x128) hz2]

/-- Later points: the update of the row the point before left. -/
theorem piece5_B_7 (c : Dev nD) (i : grid5.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S128x128 .f32) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond5_0 i) (x0 x1 : Vec F S5000x128 .f32) (x2 x3 : Vec F S128x128 .f32) (x4 xo6 xo7 : Vec F S1x128 .f32) :
    out5_B_7 c i a1 h1 a2 h2 a3 h3 a4 h4 a5 h5 a6 h6 a7 h7 a8 h8 hc x0 x1 x2 x3 x4 xo6 xo7
      = k5_pay1 (k5_pay6 xo7) (k5_pay7 x0 x1 x2 x3 x4) := by
  unfold out5_B_7
  rw [View.read_writes_eq_canon _ _ _ (cover5_B_7 c i a1 h1 a2 h2 a3 h3 a4 h4 a5 h5 a6 h6 a7 h7 a8 h8 hc x0 x1 x2 x3 x4 xo6 xo7)]
  unfold kernelRun5_B
  dsimp only
  sl_unfold_words
  rw [View.canon_unit_zero hz2]
  simp only [View.readAt_eq_ld, h1.read_unread, h2.read_unread, h3.read_unread, h4.read_unread, h5.read_unread,
    h7.read_unread, h8.read_unread,
    View.ld_unit_zero (S := S5000x128) hz2, View.ld_unit_zero (S := S128x128) hz2, View.ld_unit_zero (S := S1x128) hz2]

end Cert.KernelIdeal.RegionValue

end
-- ==== Proof.KSageArray1.lean ====
/-
  The three output arrays of the convolution kernel after its twenty grid points, as functions of the arrays the
  region finds.

  Point t holds rows 5000·t … 5000·t + 4999 of the node features and of the aggregated neighbour features, and the
  whole of the two weights and of the bias row; so the convolution block it computes is rows 5000·t … 5000·t + 4999 of
  the whole convolution Y, and writing every block back gives Y. The two accumulator rows are reset at point 0 and
  added into at every point, so after point n they hold, per column, the sum over the points s ≤ n and the block
  rows r of Y (5000·s + r, ·), respectively of its square — by induction on the point; they are written back after
  the last point only, when those sums run over all 100000 rows (a sum over 20 × 5000 pairs regrouped as one sum
  over the rows: a bijection of index sets, no finiteness needed).
-/
import proofs.«136904_j51402168598679_1_alg».proof.Proof.Gen.KernelIdeal.Frame
import proofs.«136904_j51402168598679_1_alg».proof.Proof.Spec
import proofs.«136904_j51402168598679_1_alg».proof.Proof.KSagePayload
import proofs.«136904_j51402168598679_1_alg».proof.Proof.KSagePieces
import Idealize.ShloMosaic.Lib.Pipeline.Value

noncomputable section

namespace Cert.KernelIdeal.RegionValue

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## The arrays, and the whole convolution -/

/-- The node features, the aggregated neighbour features, the two weights and the bias row as the region finds them. -/
abbrev arrH1 (c : Dev nD) : Cert.Spec.Mat 100000 128 := V c (Pipeline.arrRef spec1 0)
abbrev arrA1 (c : Dev nD) : Cert.Spec.Mat 100000 128 := V c (Pipeline.arrRef spec1 1)
abbrev arrWl1 (c : Dev nD) : Cert.Spec.Mat 128 128 := V c (Pipeline.arrRef spec1 2)
abbrev arrWr1 (c : Dev nD) : Cert.Spec.Mat 128 128 := V c (Pipeline.arrRef spec1 3)
abbrev arrB1 (c : Dev nD) : Cert.Spec.Mat 1 128 := V c (Pipeline.arrRef spec1 4)

/-- The whole convolution. -/
abbrev convY1 (c : Dev nD) : Cert.Spec.Mat 100000 128 :=
  Cert.Spec.conv (arrH1 V c) (arrA1 V c) (arrWl1 V c) (arrWr1 V c) (arrB1 V c)

/-! ## The blocks -/

/-- The windows' index maps over the grid: the row-blocked windows are at block (t, 0) at point t, the others
    at block (0, 0). -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0 :=
  (by decide +kernel : ∀ t : Fin grid1.N, _)

/-- Row r of point t's block is row 5000·t + r of the array. -/
def row1 (t : Fin cfg1.N) (r : Fin 5000) : Fin 100000 :=
  ⟨5000 * t.val + r.val, by
    have hN : t.val < 20 := lt_of_lt_of_eq t.isLt (show cfg1.N = 20 from N_1)
    have := r.isLt
    omega⟩

theorem blk1_0_apply (c : Dev nD) (t : Fin cfg1.N) (r : Fin 5000) (k : Fin 128) :
    (iblk1 V c 0 t : Vec Ideal S5000x128 .f32) (ix2 r k) = arrH1 V c (ix2 (row1 t r) k) := by
  obtain ⟨e00, e01, e10, e11, e20, e21, e30, e31, e40, e41, e50, e51, e60, e61, e70, e71⟩ := idx1 t
  show V c (Pipeline.arrRef spec1 0) (((cfg1.win 0).blk t).view.emb (ix2 r k)) = V c (Pipeline.arrRef spec1 0) _
  refine congrArg _ (funext fun a => Fin.ext ?_)
  match a with
  | ⟨0, _⟩ => show win1_0.index t (0 : Fin 2) * 5000 + 1 * r.val = 5000 * t.val + r.val; rw [e00]; omega
  | ⟨1, _⟩ => show win1_0.index t (1 : Fin 2) * 128 + 1 * k.val = k.val; rw [e01]; omega

theorem blk1_1_apply (c : Dev nD) (t : Fin cfg1.N) (r : Fin 5000) (k : Fin 128) :
    (iblk1 V c 1 t : Vec Ideal S5000x128 .f32) (ix2 r k) = arrA1 V c (ix2 (row1 t r) k) := by
  obtain ⟨e00, e01, e10, e11, e20, e21, e30, e31, e40, e41, e50, e51, e60, e61, e70, e71⟩ := idx1 t
  show V c (Pipeline.arrRef spec1 1) (((cfg1.win 1).blk t).view.emb (ix2 r k)) = V c (Pipeline.arrRef spec1 1) _
  refine congrArg _ (funext fun a => Fin.ext ?_)
  match a with
  | ⟨0, _⟩ => show win1_1.index t (0 : Fin 2) * 5000 + 1 * r.val = 5000 * t.val + r.val; rw [e10]; omega
  | ⟨1, _⟩ => show win1_1.index t (1 : Fin 2) * 128 + 1 * k.val = k.val; rw [e11]; omega

theorem blk1_2_apply (c : Dev nD) (t : Fin cfg1.N) (q k : Fin 128) :
    (iblk1 V c 2 t : Vec Ideal S128x128 .f32) (ix2 q k) = arrWl1 V c (ix2 q k) := by
  obtain ⟨e00, e01, e10, e11, e20, e21, e30, e31, e40, e41, e50, e51, e60, e61, e70, e71⟩ := idx1 t
  show V c (Pipeline.arrRef spec1 2) (((cfg1.win 2).blk t).view.emb (ix2 q k)) = V c (Pipeline.arrRef spec1 2) _
  refine congrArg _ (funext fun a => Fin.ext ?_)
  match a with
  | ⟨0, _⟩ => show win1_2.index t (0 : Fin 2) * 128 + 1 * q.val = q.val; rw [e20]; omega
  | ⟨1, _⟩ => show win1_2.index t (1 : Fin 2) * 128 + 1 * k.val = k.val; rw [e21]; omega

theorem blk1_3_apply (c : Dev nD) (t : Fin cfg1.N) (q k : Fin 128) :
    (iblk1 V c 3 t : Vec Ideal S128x128 .f32) (ix2 q k) = arrWr1 V c (ix2 q k) := by
  obtain ⟨e00, e01, e10, e11, e20, e21, e30, e31, e40, e41, e50, e51, e60, e61, e70, e71⟩ := idx1 t
  show V c (Pipeline.arrRef spec1 3) (((cfg1.win 3).blk t).view.emb (ix2 q k)) = V c (Pipeline.arrRef spec1 3) _
  refine congrArg _ (funext fun a => Fin.ext ?_)
  match a with
  | ⟨0, _⟩ => show win1_3.index t (0 : Fin 2) * 128 + 1 * q.val = q.val; rw [e30]; omega
  | ⟨1, _⟩ => show win1_3.index t (1 : Fin 2) * 128 + 1 * k.val = k.val; rw [e31]; omega

theorem blk1_4_apply (c : Dev nD) (t : Fin cfg1.N) (u : Fin 1) (q : Fin 128) :
    (iblk1 V c 4 t : Vec Ideal S1x128 .f32) (ix2 u q) = arrB1 V c (ix2 u q) := by
  obtain ⟨e00, e01, e10, e11, e20, e21, e30, e31, e40, e41, e50, e51, e60, e61, e70, e71⟩ := idx1 t
  show V c (Pipeline.arrRef spec1 4) (((cfg1.win 4).blk t).view.emb (ix2 u q)) = V c (Pipeline.arrRef spec1 4) _
  refine congrArg _ (funext fun a => Fin.ext ?_)
  match a with
  | ⟨0, _⟩ => show win1_4.index t (0 : Fin 2) * 1 + 1 * u.val = u.val; rw [e40]; omega
  | ⟨1, _⟩ => show win1_4.index t (1 : Fin 2) * 128 + 1 * q.val = q.val; rw [e41]; omega

/-- The convolution block point t computes from its input blocks. -/
abbrev yblk1 (c : Dev nD) (t : Fin cfg1.N) : FVec Ideal S5000x128 .f32 :=
  k1_pay4 (F := Ideal) (iblk1 V c 0 t) (iblk1 V c 1 t) (iblk1 V c 2 t) (iblk1 V c 3 t) (iblk1 V c 4 t)

/-- It is rows 5000·t … 5000·t + 4999 of the whole convolution. -/
theorem yblk1_apply (c : Dev nD) (t : Fin cfg1.N) (r : Fin 5000) (q : Fin 128) :
    yblk1 V c t (ix2 r q) = convY1 V c (ix2 (row1 t r) q) := by
  refine (conv1_pay_apply (iblk1 V c 0 t) (iblk1 V c 1 t) (iblk1 V c 2 t) (iblk1 V c 3 t) (iblk1 V c 4 t) r q).trans ?_
  refine Eq.trans ?_ (Cert.Spec.conv_apply (arrH1 V c) (arrA1 V c) (arrWl1 V c) (arrWr1 V c) (arrB1 V c) (row1 t r) q).symm
  refine congrArg₂ (· + ·) (congrArg₂ (· + ·) (Finset.sum_congr rfl fun k _ => ?_) (Finset.sum_congr rfl fun k _ => ?_)) ?_
  · exact congrArg₂ (· * ·) (blk1_0_apply V c t r k) (blk1_2_apply V c t q k)
  · exact congrArg₂ (· * ·) (blk1_1_apply V c t r k) (blk1_3_apply V c t q k)
  · exact blk1_4_apply V c t 0 q

/-! ## What the output buffers hold after each point -/

/-- At the first point: the convolution block, and the two rows updated from zero rows. -/
theorem step1_A (c : Dev nD) (t : Fin cfg1.N) (h0 : t.val % 20 = 0) :
    outsAt1 V c t.val t.isLt
      = (yblk1 V c t,
         k1_pay5 (F := Ideal) (iblk1 V c 0 t) (iblk1 V c 1 t) (iblk1 V c 2 t) (iblk1 V c 3 t) (iblk1 V c 4 t) (k1_pay2 (F := Ideal)),
         k1_pay1 (F := Ideal) (k1_pay6 (F := Ideal) (k1_pay3 (F := Ideal))) (k1_pay7 (F := Ideal) (iblk1 V c 0 t) (iblk1 V c 1 t) (iblk1 V c 2 t) (iblk1 V c 3 t) (iblk1 V c 4 t))) := by
  rw [outsAt1_A V c t h0]
  exact congrArg₂ Prod.mk
    (piece1_A_5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (iblk1 V c 0 t) (iblk1 V c 1 t) (iblk1 V c 2 t) (iblk1 V c 3 t) (iblk1 V c 4 t))
    (congrArg₂ Prod.mk
      (piece1_A_6 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (iblk1 V c 0 t) (iblk1 V c 1 t) (iblk1 V c 2 t) (iblk1 V c 3 t) (iblk1 V c 4 t))
      (piece1_A_7 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) ((hcond1_0 t).mpr h0) (iblk1 V c 0 t) (iblk1 V c 1 t) (iblk1 V c 2 t) (iblk1 V c 3 t) (iblk1 V c 4 t)))

/-- At a later point: the convolution block, and the two rows updated from what the point before left. -/
theorem step1_B (c : Dev nD) (t : Fin cfg1.N) (h0 : ¬t.val % 20 = 0) :
    outsAt1 V c t.val t.isLt
      = (yblk1 V c t,
         k1_pay5 (F := Ideal) (iblk1 V c 0 t) (iblk1 V c 1 t) (iblk1 V c 2 t) (iblk1 V c 3 t) (iblk1 V c 4 t) (outsAt1 V c (t.val - 1) (Nat.lt_of_le_of_lt (Nat.sub_le _ _) t.isLt)).2.1,
         k1_pay1 (F := Ideal) (k1_pay6 (F := Ideal) (outsAt1 V c (t.val - 1) (Nat.lt_of_le_of_lt (Nat.sub_le _ _) t.isLt)).2.2) (k1_pay7 (F := Ideal) (iblk1 V c 0 t) (iblk1 V c 1 t) (iblk1 V c 2 t) (iblk1 V c 3 t) (iblk1 V c 4 t))) := by
  rw [outsAt1_B V c t h0]
  exact congrArg₂ Prod.mk
    (piece1_B_5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2)
    (congrArg₂ Prod.mk
      (piece1_B_6 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2)
      (piece1_B_7 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (fun h => h0 ((hcond1_0 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2))

/-- The convolution output buffer after point t holds point t's block. -/
theorem conv_after1 (c : Dev nD) (t : Fin cfg1.N) : (outsAt1 V c t.val t.isLt).1 = yblk1 V c t := by
  by_cases h0 : t.val % 20 = 0
  · rw [step1_A V c t h0]
  · rw [step1_B V c t h0]

/-- THE COLUMN SUMS after point n: over the points s ≤ n and the block rows r. -/
theorem sum_after1 (c : Dev nD) : ∀ (n : ℕ) (hn : n < cfg1.N) (u : Fin 1) (q : Fin 128),
    (outsAt1 V c n hn).2.1 (ix2 u q)
      = ∑ s : Fin (n + 1), ∑ r : Fin 5000, yblk1 V c ⟨s.val, Nat.lt_of_lt_of_le s.isLt hn⟩ (ix2 r q)
  | 0, hn, u, q => by
    rw [step1_A V c ⟨0, hn⟩ (Nat.zero_mod _)]
    refine (sum1_pay_apply (iblk1 V c 0 ⟨0, hn⟩) (iblk1 V c 1 ⟨0, hn⟩) (iblk1 V c 2 ⟨0, hn⟩) (iblk1 V c 3 ⟨0, hn⟩) (iblk1 V c 4 ⟨0, hn⟩) (k1_pay2 (F := Ideal)) u q).trans ?_
    rw [zero1a_apply, zero_add, Fin.sum_univ_one]
    rfl
  | n + 1, hn, u, q => by
    have hN : n + 1 < 20 := lt_of_lt_of_eq hn (show cfg1.N = 20 from N_1)
    have hB : ¬(⟨n + 1, hn⟩ : Fin cfg1.N).val % 20 = 0 := by dsimp only; omega
    rw [step1_B V c ⟨n + 1, hn⟩ hB]
    refine (sum1_pay_apply (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) _ u q).trans ?_
    refine Eq.trans ?_ (Fin.sum_univ_castSucc _).symm
    exact congrArg₂ (· + ·) (sum_after1 c n (Nat.lt_of_succ_lt hn) u q) rfl

/-- THE COLUMN SUMS OF SQUARES after point n, likewise. -/
theorem sq_after1 (c : Dev nD) : ∀ (n : ℕ) (hn : n < cfg1.N) (u : Fin 1) (q : Fin 128),
    (outsAt1 V c n hn).2.2 (ix2 u q)
      = ∑ s : Fin (n + 1), ∑ r : Fin 5000,
          yblk1 V c ⟨s.val, Nat.lt_of_lt_of_le s.isLt hn⟩ (ix2 r q) * yblk1 V c ⟨s.val, Nat.lt_of_lt_of_le s.isLt hn⟩ (ix2 r q)
  | 0, hn, u, q => by
    rw [step1_A V c ⟨0, hn⟩ (Nat.zero_mod _)]
    refine (sq1_pay_apply (k1_pay6 (F := Ideal) (k1_pay3 (F := Ideal))) (k1_pay7 (F := Ideal) (iblk1 V c 0 ⟨0, hn⟩) (iblk1 V c 1 ⟨0, hn⟩) (iblk1 V c 2 ⟨0, hn⟩) (iblk1 V c 3 ⟨0, hn⟩) (iblk1 V c 4 ⟨0, hn⟩)) u q).trans ?_
    rw [carry1_eq, zero1b_apply, zero_add, Fin.sum_univ_one]
    rfl
  | n + 1, hn, u, q => by
    have hN : n + 1 < 20 := lt_of_lt_of_eq hn (show cfg1.N = 20 from N_1)
    have hB : ¬(⟨n + 1, hn⟩ : Fin cfg1.N).val % 20 = 0 := by dsimp only; omega
    rw [step1_B V c ⟨n + 1, hn⟩ hB]
    refine (sq1_pay_apply _ (k1_pay7 (F := Ideal) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩)) u q).trans ?_
    rw [carry1_eq]
    refine Eq.trans ?_ (Fin.sum_univ_castSucc _).symm
    exact congrArg₂ (· + ·) (sq_after1 c n (Nat.lt_of_succ_lt hn) u q) rfl

/-! ## From blocks to arrays -/

/-- A sum over the 100000 rows is the sum over the 20 blocks of the sums over each block's 5000 rows. -/
theorem sum_rows1 (f : Fin 100000 → EReal) :
    ∑ p : Fin 100000, f p
      = ∑ s : Fin (19 + 1), ∑ r : Fin 5000, f ⟨5000 * s.val + r.val, by have := s.isLt; have := r.isLt; omega⟩ := by
  rw [← Equiv.sum_comp (finProdFinEquiv (m := 20) (n := 5000)) f, Fintype.sum_prod_type]
  refine Finset.sum_congr rfl fun s _ => Finset.sum_congr rfl fun r _ => congrArg f (Fin.ext ?_)
  show r.val + 5000 * s.val = 5000 * s.val + r.val
  omega

/-- WHAT POINT t WRITES BACK into the convolution array is block t of the whole convolution. -/
theorem flushed1_5_eq (c : Dev nD) (t : Fin cfg1.N) :
    (dat1 V c).flushed 5 t = ((cfg1.win 5).blk t).view.read (Elt Ideal) (convY1 V c) := by
  obtain ⟨e00, e01, e10, e11, e20, e21, e30, e31, e40, e41, e50, e51, e60, e61, e70, e71⟩ := idx1 t
  show (cfg1.win 5).cut (grid1.coords t) ((dat1 V c).after 5 t) = _
  rw [after1_5, conv_after1]
  funext j
  obtain ⟨r, q, rfl⟩ : ∃ (r : Fin 5000) (q : Fin 128), j = ix2 r q := ⟨j 0, j 1, eq_ix2 j⟩
  show yblk1 V c t (ix2 r q) = convY1 V c (((cfg1.win 5).blk t).view.emb (ix2 r q))
  rw [yblk1_apply]
  refine congrArg (convY1 V c) (funext fun a => Fin.ext ?_)
  match a with
  | ⟨0, _⟩ => show 5000 * t.val + r.val = win1_5.index t (0 : Fin 2) * 5000 + 1 * r.val; rw [e50]; omega
  | ⟨1, _⟩ => show q.val = win1_5.index t (1 : Fin 2) * 128 + 1 * q.val; rw [e51]; omega

theorem mem_blk1_5 (t : Fin cfg1.N) (i : S100000x128.Idx) :
    i ∈ ((cfg1.win 5).blk t).view.set
      ↔ ∀ a : Fin 2, win1_5.index t a * S5000x128.size a ≤ (i a).val ∧ (i a).val < win1_5.index t a * S5000x128.size a + S5000x128.size a := by
  show i ∈ ((View.whole main_v25_0).slice (win1_5.rect t)).set ↔ _
  rw [View.set_slice_whole, Rect.mem_set_unit]
  exact Iff.rfl

/-- Row p of the array is in the block of point p / 5000. -/
theorem cover1_5 (c : Dev nD) (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have ht : (i 0).val / 5000 < cfg1.N := by rw [show cfg1.N = 20 from N_1]; omega
  obtain ⟨e00, e01, e10, e11, e20, e21, e30, e31, e40, e41, e50, e51, e60, e61, e70, e71⟩ := idx1 ⟨(i 0).val / 5000, ht⟩
  refine ⟨⟨(i 0).val / 5000, ht⟩, flush1_5 _, ?_⟩
  rw [mem_blk1_5]
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win1_5.index ⟨(i 0).val / 5000, ht⟩ (1 : Fin 2) * 128 ≤ (i 1).val
      ∧ (i 1).val < win1_5.index ⟨(i 0).val / 5000, ht⟩ (1 : Fin 2) * 128 + 128
    rw [e51]; omega

/-- THE CONVOLUTION ARRAY after the region: the whole convolution of the arrays the region finds. -/
theorem final1_5 (c : Dev nD) :
    (dat1 V c).arrAt 5 cfg1.N = Cert.Spec.conv (V c (Pipeline.arrRef spec1 0)) (V c (Pipeline.arrRef spec1 1)) (V c (Pipeline.arrRef spec1 2)) (V c (Pipeline.arrRef spec1 3)) (V c (Pipeline.arrRef spec1 4)) :=
  (dat1 V c).arrAt_eq_of_cover 5 (convY1 V c) (fun t _ => flushed1_5_eq V c t) (cover1_5 c)

/-! ## The two accumulator rows: written back after the last point -/

theorem total1_6 (c : Dev nD) (n : ℕ) (hn : n < cfg1.N) (h19 : n = 19) (q : Fin 128) :
    (∑ s : Fin (n + 1), ∑ r : Fin 5000,
        yblk1 V c ⟨s.val, Nat.lt_of_lt_of_le s.isLt hn⟩ (ix2 r q))
      = ∑ p : Fin 100000, convY1 V c (ix2 p q) := by
  subst h19
  refine Eq.trans ?_ (sum_rows1 (fun p => convY1 V c (ix2 p q))).symm
  refine Finset.sum_congr rfl fun s _ => Finset.sum_congr rfl fun r _ => ?_
  rw [yblk1_apply]
  rfl

theorem row1_6_eq (c : Dev nD) (t : Fin cfg1.N) (h19 : t.val = 19) :
    (outsAt1 V c t.val t.isLt).2.1 = (Cert.Spec.colSum (convY1 V c) : Vec Ideal S1x128 .f32) := by
  funext j
  obtain ⟨u, q, rfl⟩ : ∃ (u : Fin 1) (q : Fin 128), j = ix2 u q := ⟨j 0, j 1, eq_ix2 j⟩
  rw [Cert.Spec.colSum_apply, sum_after1 V c t.val t.isLt u q]
  exact total1_6 V c t.val t.isLt h19 q

/-- The accumulator row's one block is its whole array: written back, any row is read through it unchanged. -/
theorem whole1_6 (t : Fin cfg1.N) (G : S1x128.Idx → EReal) :
    (cfg1.win 6).cut (grid1.coords t) G = ((cfg1.win 6).blk t).view.read (Elt Ideal) G := by
  obtain ⟨e00, e01, e10, e11, e20, e21, e30, e31, e40, e41, e50, e51, e60, e61, e70, e71⟩ := idx1 t
  funext j
  show G _ = G (((cfg1.win 6).blk t).view.emb j)
  refine congrArg G (funext fun a => Fin.ext ?_)
  match a with
  | ⟨0, _⟩ => show (j 0).val = win1_6.index t (0 : Fin 2) * 1 + 1 * (j 0).val; rw [e60]; omega
  | ⟨1, _⟩ => show (j 1).val = win1_6.index t (1 : Fin 2) * 128 + 1 * (j 1).val; rw [e61]; omega

theorem flushed1_6_eq (c : Dev nD) (t : Fin cfg1.N) (hf : (cfg1.win 6).flush t = true) :
    (dat1 V c).flushed 6 t = ((cfg1.win 6).blk t).view.read (Elt Ideal) (Cert.Spec.colSum (convY1 V c)) := by
  have hN : t.val < 20 := lt_of_lt_of_eq t.isLt (show cfg1.N = 20 from N_1)
  have h19 : t.val = 19 := by have := (flush1_6 t).mp hf; omega
  show (cfg1.win 6).cut (grid1.coords t) ((dat1 V c).after 6 t) = _
  rw [after1_6, row1_6_eq V c t h19]
  exact whole1_6 t _

theorem mem_blk1_6 (t : Fin cfg1.N) (i : S1x128.Idx) :
    i ∈ ((cfg1.win 6).blk t).view.set
      ↔ ∀ a : Fin 2, win1_6.index t a * S1x128.size a ≤ (i a).val ∧ (i a).val < win1_6.index t a * S1x128.size a + S1x128.size a := by
  show i ∈ ((View.whole main_v25_1).slice (win1_6.rect t)).set ↔ _
  rw [View.set_slice_whole, Rect.mem_set_unit]
  exact Iff.rfl

theorem cover1_6 (c : Dev nD) (i : S1x128.Idx) :
    ∃ t : Fin cfg1.N, (cfg1.win 6).flush t = true ∧ i ∈ ((cfg1.win 6).blk t).view.set := by
  have h19 : 19 < cfg1.N := by rw [show cfg1.N = 20 from N_1]; decide
  obtain ⟨e00, e01, e10, e11, e20, e21, e30, e31, e40, e41, e50, e51, e60, e61, e70, e71⟩ := idx1 ⟨19, h19⟩
  have hi0 : (i 0).val < 1 := (i 0).isLt
  have hi1 : (i 1).val < 128 := (i 1).isLt
  refine ⟨⟨19, h19⟩, (flush1_6 ⟨19, h19⟩).mpr rfl, ?_⟩
  rw [mem_blk1_6]
  intro a
  match a with
  | ⟨0, _⟩ =>
    show win1_6.index ⟨19, h19⟩ (0 : Fin 2) * 1 ≤ (i 0).val ∧ (i 0).val < win1_6.index ⟨19, h19⟩ (0 : Fin 2) * 1 + 1
    rw [e60]; omega
  | ⟨1, _⟩ =>
    show win1_6.index ⟨19, h19⟩ (1 : Fin 2) * 128 ≤ (i 1).val ∧ (i 1).val < win1_6.index ⟨19, h19⟩ (1 : Fin 2) * 128 + 128
    rw [e61]; omega

/-- THE ROW OF COLUMN SUMS after the region. -/
theorem final1_6 (c : Dev nD) :
    (dat1 V c).arrAt 6 cfg1.N = Cert.Spec.colSum (Cert.Spec.conv (V c (Pipeline.arrRef spec1 0)) (V c (Pipeline.arrRef spec1 1)) (V c (Pipeline.arrRef spec1 2)) (V c (Pipeline.arrRef spec1 3)) (V c (Pipeline.arrRef spec1 4))) :=
  (dat1 V c).arrAt_eq_of_cover 6 (Cert.Spec.colSum (convY1 V c)) (flushed1_6_eq V c) (cover1_6 c)

theorem total1_7 (c : Dev nD) (n : ℕ) (hn : n < cfg1.N) (h19 : n = 19) (q : Fin 128) :
    (∑ s : Fin (n + 1), ∑ r : Fin 5000,
        yblk1 V c ⟨s.val, Nat.lt_of_lt_of_le s.isLt hn⟩ (ix2 r q) * yblk1 V c ⟨s.val, Nat.lt_of_lt_of_le s.isLt hn⟩ (ix2 r q))
      = ∑ p : Fin 100000, convY1 V c (ix2 p q) * convY1 V c (ix2 p q) := by
  subst h19
  refine Eq.trans ?_ (sum_rows1 (fun p => convY1 V c (ix2 p q) * convY1 V c (ix2 p q))).symm
  refine Finset.sum_congr rfl fun s _ => Finset.sum_congr rfl fun r _ => ?_
  rw [yblk1_apply]
  rfl

theorem row1_7_eq (c : Dev nD) (t : Fin cfg1.N) (h19 : t.val = 19) :
    (outsAt1 V c t.val t.isLt).2.2 = (Cert.Spec.colSumSq (convY1 V c) : Vec Ideal S1x128 .f32) := by
  funext j
  obtain ⟨u, q, rfl⟩ : ∃ (u : Fin 1) (q : Fin 128), j = ix2 u q := ⟨j 0, j 1, eq_ix2 j⟩
  rw [Cert.Spec.colSumSq_apply, sq_after1 V c t.val t.isLt u q]
  exact total1_7 V c t.val t.isLt h19 q

/-- The accumulator row's one block is its whole array: written back, any row is read through it unchanged. -/
theorem whole1_7 (t : Fin cfg1.N) (G : S1x128.Idx → EReal) :
    (cfg1.win 7).cut (grid1.coords t) G = ((cfg1.win 7).blk t).view.read (Elt Ideal) G := by
  obtain ⟨e00, e01, e10, e11, e20, e21, e30, e31, e40, e41, e50, e51, e60, e61, e70, e71⟩ := idx1 t
  funext j
  show G _ = G (((cfg1.win 7).blk t).view.emb j)
  refine congrArg G (funext fun a => Fin.ext ?_)
  match a with
  | ⟨0, _⟩ => show (j 0).val = win1_7.index t (0 : Fin 2) * 1 + 1 * (j 0).val; rw [e70]; omega
  | ⟨1, _⟩ => show (j 1).val = win1_7.index t (1 : Fin 2) * 128 + 1 * (j 1).val; rw [e71]; omega

theorem flushed1_7_eq (c : Dev nD) (t : Fin cfg1.N) (hf : (cfg1.win 7).flush t = true) :
    (dat1 V c).flushed 7 t = ((cfg1.win 7).blk t).view.read (Elt Ideal) (Cert.Spec.colSumSq (convY1 V c)) := by
  have hN : t.val < 20 := lt_of_lt_of_eq t.isLt (show cfg1.N = 20 from N_1)
  have h19 : t.val = 19 := by have := (flush1_7 t).mp hf; omega
  show (cfg1.win 7).cut (grid1.coords t) ((dat1 V c).after 7 t) = _
  rw [after1_7, row1_7_eq V c t h19]
  exact whole1_7 t _

theorem mem_blk1_7 (t : Fin cfg1.N) (i : S1x128.Idx) :
    i ∈ ((cfg1.win 7).blk t).view.set
      ↔ ∀ a : Fin 2, win1_7.index t a * S1x128.size a ≤ (i a).val ∧ (i a).val < win1_7.index t a * S1x128.size a + S1x128.size a := by
  show i ∈ ((View.whole main_v25_2).slice (win1_7.rect t)).set ↔ _
  rw [View.set_slice_whole, Rect.mem_set_unit]
  exact Iff.rfl

theorem cover1_7 (c : Dev nD) (i : S1x128.Idx) :
    ∃ t : Fin cfg1.N, (cfg1.win 7).flush t = true ∧ i ∈ ((cfg1.win 7).blk t).view.set := by
  have h19 : 19 < cfg1.N := by rw [show cfg1.N = 20 from N_1]; decide
  obtain ⟨e00, e01, e10, e11, e20, e21, e30, e31, e40, e41, e50, e51, e60, e61, e70, e71⟩ := idx1 ⟨19, h19⟩
  have hi0 : (i 0).val < 1 := (i 0).isLt
  have hi1 : (i 1).val < 128 := (i 1).isLt
  refine ⟨⟨19, h19⟩, (flush1_7 ⟨19, h19⟩).mpr rfl, ?_⟩
  rw [mem_blk1_7]
  intro a
  match a with
  | ⟨0, _⟩ =>
    show win1_7.index ⟨19, h19⟩ (0 : Fin 2) * 1 ≤ (i 0).val ∧ (i 0).val < win1_7.index ⟨19, h19⟩ (0 : Fin 2) * 1 + 1
    rw [e70]; omega
  | ⟨1, _⟩ =>
    show win1_7.index ⟨19, h19⟩ (1 : Fin 2) * 128 ≤ (i 1).val ∧ (i 1).val < win1_7.index ⟨19, h19⟩ (1 : Fin 2) * 128 + 128
    rw [e71]; omega

/-- THE ROW OF COLUMN SUMS OF SQUARES after the region. -/
theorem final1_7 (c : Dev nD) :
    (dat1 V c).arrAt 7 cfg1.N = Cert.Spec.colSumSq (Cert.Spec.conv (V c (Pipeline.arrRef spec1 0)) (V c (Pipeline.arrRef spec1 1)) (V c (Pipeline.arrRef spec1 2)) (V c (Pipeline.arrRef spec1 3)) (V c (Pipeline.arrRef spec1 4))) :=
  (dat1 V c).arrAt_eq_of_cover 7 (Cert.Spec.colSumSq (convY1 V c)) (flushed1_7_eq V c) (cover1_7 c)

end Cert.KernelIdeal.RegionValue

end
-- ==== Proof.KFold.lean ====
/-
  The kernel program's result as one function of its arguments. Boundary by boundary: the embedding kernel leaves
  the dense layer of x; each layer's stretch aggregates the previous array over the edges, its convolution kernel
  leaves the convolution and the column sums of it and of its squares, the next stretch turns the sums into mean and
  variance (mean of squares minus squared mean), its normalisation kernel leaves the normalised, rectified array;
  the classifier kernel leaves the dense layer of the last array. Every other operand is an argument, or a row laid
  out from one, walked back to the launch memory.
-/
import proofs.«136904_j51402168598679_1_alg».proof.Proof.KWalkTable
import proofs.«136904_j51402168598679_1_alg».proof.Proof.KStretch
import proofs.«136904_j51402168598679_1_alg».proof.Proof.Net
import proofs.«136904_j51402168598679_1_alg».proof.Proof.KRegionLin
import proofs.«136904_j51402168598679_1_alg».proof.Proof.KRegionBn
import proofs.«136904_j51402168598679_1_alg».proof.Proof.KSageArray1

set_option maxRecDepth 16384

noncomputable section

namespace Cert.KernelIdeal.Fold

open Cert.KernelIdeal Cert.KernelIdeal.Gen Cert.KernelIdeal.Walk Cert.KernelIdeal.Stretch Cert.KernelIdeal.Agg
  Cert.KernelIdeal.RegionValue Cert.Spec Cert.Net
open Idealize.ShloMosaic Idealize.ShloMosaic.TcCoe Idealize.SL.Sem

variable (m : (ℓ : Loc nD τ sig) → Buf (Elt Ideal) ℓ) (ρ : Dev nD → PrngReg) (c : Dev nD)

/-- After the first stretch the source vector is the edge array's first row. -/
theorem src_at1 : W1 m ρ c (Proc.devRef .tc main_v1) = srcOf (m ((c : Thread nD τ).loc main_arg1)) :=
  s0_v1 (W0 m ρ c)

/-- After the first stretch the destination vector is the edge array's second row. -/
theorem dst_at1 : W1 m ρ c (Proc.devRef .tc main_v3) = dstOf (m ((c : Thread nD τ).loc main_arg1)) :=
  s0_v3 (W0 m ρ c)

/-- The embedding kernel leaves the dense layer of x. -/
theorem emb_eq : (W2 m ρ c (Proc.devRef .tc main_v5) : Mat 100000 128)
    = dense (m ((c : Thread nD τ).loc main_arg0)) (m ((c : Thread nD τ).loc main_arg2))
        (row (m ((c : Thread nD τ).loc main_arg3))) := by
  have r4 : (W1 m ρ c (Proc.devRef .tc main_v4) : Mat 1 128) = row (m ((c : Thread nD τ).loc main_arg3)) :=
    s0_v4 (W0 m ρ c)
  refine ((W2_arr m ρ c 3).trans (final0 (V1 m ρ) c)).trans ?_
  show dense (W1 m ρ c (Proc.devRef .tc main_arg0)) (W1 m ρ c (Proc.devRef .tc main_arg2))
    (W1 m ρ c (Proc.devRef .tc main_v4)) = _
  rw [arg0_at1 m ρ c, arg2_at1 m ρ c, r4]

/-- Layer 1: from the embedding's array to the first normalisation kernel's output. -/
theorem layer1_eq (H : Mat 100000 128) (hH : (W2 m ρ c (Proc.devRef .tc main_v5) : Mat 100000 128) = H) :
    (W6 m ρ c (Proc.devRef .tc main_v34) : Mat 100000 128)
      = layerSq (aggBody (srcOf (m ((c : Thread nD τ).loc main_arg1))) (dstOf (m ((c : Thread nD τ).loc main_arg1))))
          (Ideal.ofBits .f32 0x47C35000#32) (Ideal.ofBits .f32 0x3727C5AC#32) H
          (m ((c : Thread nD τ).loc main_arg4)) (m ((c : Thread nD τ).loc main_arg5))
          (row (m ((c : Thread nD τ).loc main_arg6))) (row (m ((c : Thread nD τ).loc main_arg7)))
          (row (m ((c : Thread nD τ).loc main_arg8))) := by
  -- the convolution kernel's operands as it finds them
  have i0 : (W3 m ρ c (Proc.devRef .tc main_v5) : Mat 100000 128) = H := (v5_at3 m ρ c).trans hH
  have i1 : (W3 m ρ c (Proc.devRef .tc main_v23) : Mat 100000 128)
      = aggBody (srcOf (m ((c : Thread nD τ).loc main_arg1))) (dstOf (m ((c : Thread nD τ).loc main_arg1))) H := by
    refine (s1_v23 (W2 m ρ c)).trans ?_
    rw [v1_at2 m ρ c, v3_at2 m ρ c, src_at1 m ρ c, dst_at1 m ρ c, hH]
  have i4 : (W3 m ρ c (Proc.devRef .tc main_v24) : Mat 1 128) = row (m ((c : Thread nD τ).loc main_arg6)) := by
    refine (s1_v24 (W2 m ρ c)).trans ?_
    rw [arg6_at2 m ρ c]
  -- what the convolution kernel leaves: the convolution Y, its column sums and the column sums of its squares
  obtain ⟨Y, hYdef⟩ : ∃ Y : Mat 100000 128, Y = conv H
      (aggBody (srcOf (m ((c : Thread nD τ).loc main_arg1))) (dstOf (m ((c : Thread nD τ).loc main_arg1))) H)
      (m ((c : Thread nD τ).loc main_arg4)) (m ((c : Thread nD τ).loc main_arg5))
      (row (m ((c : Thread nD τ).loc main_arg6))) := ⟨_, rfl⟩
  have hY : (W4 m ρ c (Proc.devRef .tc main_v25_0) : Mat 100000 128) = Y := by
    refine ((W4_arr m ρ c 5).trans (final1_5 (V3 m ρ) c)).trans ?_
    show conv (W3 m ρ c (Proc.devRef .tc main_v5)) (W3 m ρ c (Proc.devRef .tc main_v23))
      (W3 m ρ c (Proc.devRef .tc main_arg4)) (W3 m ρ c (Proc.devRef .tc main_arg5))
      (W3 m ρ c (Proc.devRef .tc main_v24)) = _
    rw [i0, i1, arg4_at3 m ρ c, arg5_at3 m ρ c, i4, hYdef]
  have hS : (W4 m ρ c (Proc.devRef .tc main_v25_1) : Mat 1 128) = colSum Y := by
    refine ((W4_arr m ρ c 6).trans (final1_6 (V3 m ρ) c)).trans ?_
    show colSum (conv (W3 m ρ c (Proc.devRef .tc main_v5)) (W3 m ρ c (Proc.devRef .tc main_v23))
      (W3 m ρ c (Proc.devRef .tc main_arg4)) (W3 m ρ c (Proc.devRef .tc main_arg5))
      (W3 m ρ c (Proc.devRef .tc main_v24))) = _
    rw [i0, i1, arg4_at3 m ρ c, arg5_at3 m ρ c, i4, hYdef]
  have hSS : (W4 m ρ c (Proc.devRef .tc main_v25_2) : Mat 1 128) = colSumSq Y := by
    refine ((W4_arr m ρ c 7).trans (final1_7 (V3 m ρ) c)).trans ?_
    show colSumSq (conv (W3 m ρ c (Proc.devRef .tc main_v5)) (W3 m ρ c (Proc.devRef .tc main_v23))
      (W3 m ρ c (Proc.devRef .tc main_arg4)) (W3 m ρ c (Proc.devRef .tc main_arg5))
      (W3 m ρ c (Proc.devRef .tc main_v24))) = _
    rw [i0, i1, arg4_at3 m ρ c, arg5_at3 m ρ c, i4, hYdef]
  -- the normalisation kernel's operands as it finds them
  have j0 : (W5 m ρ c (Proc.devRef .tc main_v25_0) : Mat 100000 128) = Y := (v25_0_at5 m ρ c).trans hY
  have j1 : (W5 m ρ c (Proc.devRef .tc main_v27) : Mat 1 128) = mean (Ideal.ofBits .f32 0x47C35000#32) Y := by
    refine (s2_v27 (W4 m ρ c)).trans ?_
    rw [hS]; rfl
  have j2 : (W5 m ρ c (Proc.devRef .tc main_v31) : Mat 1 128)
      = varOfSquares (Ideal.ofBits .f32 0x47C35000#32) Y := by
    refine (s2_v31 (W4 m ρ c)).trans ?_
    rw [hS, hSS]; rfl
  have j3 : (W5 m ρ c (Proc.devRef .tc main_v32) : Mat 1 128) = row (m ((c : Thread nD τ).loc main_arg7)) := by
    refine (s2_v32 (W4 m ρ c)).trans ?_
    rw [arg7_at4 m ρ c]
  have j4 : (W5 m ρ c (Proc.devRef .tc main_v33) : Mat 1 128) = row (m ((c : Thread nD τ).loc main_arg8)) := by
    refine (s2_v33 (W4 m ρ c)).trans ?_
    rw [arg8_at4 m ρ c]
  -- what the normalisation kernel leaves
  refine ((W6_arr m ρ c 5).trans (final2 (V5 m ρ) c)).trans ?_
  show bnRelu (Ideal.ofBits .f32 0x3727C5AC#32) (W5 m ρ c (Proc.devRef .tc main_v25_0))
    (W5 m ρ c (Proc.devRef .tc main_v27)) (W5 m ρ c (Proc.devRef .tc main_v31))
    (W5 m ρ c (Proc.devRef .tc main_v32)) (W5 m ρ c (Proc.devRef .tc main_v33)) = _
  rw [j0, j1, j2, j3, j4, hYdef]
  rfl

end Cert.KernelIdeal.Fold

end
-- ==== Proof.KRegionBn4.lean ====
/-
  The value of a normalise-and-rectify region: for every row p and column q the region leaves
  max (((y (p, q) − mean q) · rsqrt (var q + ε)) · g q + be q, 0) in its output array, where mean, var, g and be are
  one-row arrays seen whole at every grid point and y is seen one block of 5000 rows at a time. Every operation of the
  body is pointwise once the rows are broadcast along the block, and the twenty blocks tile the 100000 rows.
-/
import proofs.«136904_j51402168598679_1_alg».proof.Proof.Gen.KernelIdeal.Frame
import proofs.«136904_j51402168598679_1_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.ValueIdx Idealize.ShloMosaic.TcCoe
open Idealize.SL.Sem
open Idealize.ShloMosaic.Pipeline (Dat)

/-! ## The body's arithmetic at a block-local index -/

/-- A one-row array broadcast along the rows of a block reads, at (p, q), its entry q. -/
theorem rowBcast4_apply (x : FVec Ideal S1x128 .f32) (h : S1x128.Broadcasts S5000x128) (p : Fin 5000) (q : Fin 128) :
    broadcastTo S5000x128 x h (ix2 p q) = x (ix2 0 q) := by
  refine broadcastTo_apply x h (ix2 p q) (ix2 0 q) fun a => ?_
  match a with
  | ⟨0, _⟩ => rfl
  | ⟨1, _⟩ => rfl

/-- The body's stored value at (p, q), from the block of y and the four rows (variance first, as the body loads them). -/
theorem pay4_apply (x0 : Vec Ideal S5000x128 .f32) (xv xm xg xb : Vec Ideal S1x128 .f32) (p : Fin 5000) (q : Fin 128) :
    k4_pay1 (F := Ideal) x0 xv xm xg xb (ix2 p q)
      = max (((x0 (ix2 p q) - xm (ix2 0 q)) * Ideal.rsqrt (xv (ix2 0 q) + Ideal.ofBits .f32 0x3727C5AC#32)) * xg (ix2 0 q)
          + xb (ix2 0 q)) 0 := by
  unfold k4_pay1
  simp only [shapeCast_self]
  rw [maximumf_apply, addf_apply, mulf_apply, mulf_apply, subf_apply, rowBcast4_apply, rowBcast4_apply,
    rowBcast4_apply, rowBcast4_apply, broadcast_apply]
  show max (((x0 (ix2 p q) - xm (ix2 0 q)) * Ideal.rsqrt (xv (ix2 0 q) + Ideal.ofBits .f32 0x3727C5AC#32)) * xg (ix2 0 q)
      + xb (ix2 0 q)) (Ideal.ofBits .f32 0x00000000#32) = _
  rw [Ideal.ofBits_zero_f32]

/-- A block's stored value is the normalised and rectified array at the array index i, as soon as the block's entry
    (p, q) is y's entry i and the four row blocks are the whole rows. -/
theorem block4_bnRelu (Y : Cert.Spec.Mat 100000 128) (M Vr G B : Cert.Spec.Mat 1 128)
    (x0 : Vec Ideal S5000x128 .f32) (xv xm xg xb : Vec Ideal S1x128 .f32)
    (i : S100000x128.Idx) (p : Fin 5000) (q : Fin 128)
    (h0 : x0 (ix2 p q) = Y i) (hm : xm (ix2 0 q) = M (ix2 0 (i 1))) (hv : xv (ix2 0 q) = Vr (ix2 0 (i 1)))
    (hg : xg (ix2 0 q) = G (ix2 0 (i 1))) (hb : xb (ix2 0 q) = B (ix2 0 (i 1))) :
    k4_pay1 (F := Ideal) x0 xv xm xg xb (ix2 p q)
      = Cert.Spec.bnRelu (Ideal.ofBits .f32 0x3727C5AC#32) Y M Vr G B i := by
  rw [pay4_apply, h0, hm, hv, hg, hb]
  rfl

/-! ## From the blocks to the array -/

section Region
variable (V : (c : Dev nD) → (b : Ref sig .tc) → Buf (Elt Ideal) ((c : Thread nD τ).loc b))

theorem zero_offsets4 : (![0, 0] : Fin 2 → Nat) = fun _ => 0 := funext fun a => by fin_cases a <;> rfl

/-- The windows' index maps over the grid: the y and output windows sit at block (t, 0), the four row windows at
    block (0, 0). -/
theorem index_maps4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

set_option maxHeartbeats 1600000 in
/-- What point t writes back is block t of the normalised and rectified array of the arrays as the region finds them. -/
theorem flushed4_eq (c : Dev nD) (t : Fin cfg4.N) :
    (dat4 V c).flushed 5 t = ((cfg4.win 5).blk t).view.read (Elt Ideal)
      (Cert.Spec.bnRelu (Ideal.ofBits .f32 0x3727C5AC#32) (V c (Pipeline.arrRef spec4 0)) (V c (Pipeline.arrRef spec4 1))
        (V c (Pipeline.arrRef spec4 2)) (V c (Pipeline.arrRef spec4 3)) (V c (Pipeline.arrRef spec4 4))) := by
  show (cfg4.win 5).cut (grid4.coords t) ((dat4 V c).after 5 t) = _
  rw [after4_5]
  unfold out4_5
  rw [View.canon_unit_zero zero_offsets4]
  simp only [View.ld_unit_zero (S := S5000x128) zero_offsets4, View.ld_unit_zero (S := S1x128) zero_offsets4]
  obtain ⟨e00, e01, e10, e11, e20, e21, e30, e31, e40, e41, e50, e51⟩ := index_maps4 t
  funext j
  obtain ⟨p, q, rfl⟩ : ∃ (p : Fin 5000) (q : Fin 128), j = ix2 p q := ⟨j 0, j 1, eq_ix2 j⟩
  refine block4_bnRelu (V c (Pipeline.arrRef spec4 0)) (V c (Pipeline.arrRef spec4 1)) (V c (Pipeline.arrRef spec4 2))
    (V c (Pipeline.arrRef spec4 3)) (V c (Pipeline.arrRef spec4 4))
    (iblk4 V c 0 t) (iblk4 V c 2 t) (iblk4 V c 1 t) (iblk4 V c 3 t) (iblk4 V c 4 t)
    (((cfg4.win 5).blk t).view.emb (ix2 p q)) p q ?_ ?_ ?_ ?_ ?_
  · show V c (Pipeline.arrRef spec4 0) (((cfg4.win 0).blk t).view.emb (ix2 p q)) = _
    refine congrArg (V c (Pipeline.arrRef spec4 0)) (funext fun a => Fin.ext ?_)
    match a with
    | ⟨0, _⟩ =>
      show win4_0.index t (0 : Fin 2) * 5000 + 1 * p.val = win4_5.index t (0 : Fin 2) * 5000 + 1 * p.val
      omega
    | ⟨1, _⟩ =>
      show win4_0.index t (1 : Fin 2) * 128 + 1 * q.val = win4_5.index t (1 : Fin 2) * 128 + 1 * q.val
      omega
  · show V c (Pipeline.arrRef spec4 1) (((cfg4.win 1).blk t).view.emb (ix2 0 q)) = _
    refine congrArg (V c (Pipeline.arrRef spec4 1)) (funext fun a => Fin.ext ?_)
    match a with
    | ⟨0, _⟩ =>
      show win4_1.index t (0 : Fin 2) * 1 + 1 * 0 = 0
      omega
    | ⟨1, _⟩ =>
      show win4_1.index t (1 : Fin 2) * 128 + 1 * q.val = win4_5.index t (1 : Fin 2) * 128 + 1 * q.val
      omega
  · show V c (Pipeline.arrRef spec4 2) (((cfg4.win 2).blk t).view.emb (ix2 0 q)) = _
    refine congrArg (V c (Pipeline.arrRef spec4 2)) (funext fun a => Fin.ext ?_)
    match a with
    | ⟨0, _⟩ =>
      show win4_2.index t (0 : Fin 2) * 1 + 1 * 0 = 0
      omega
    | ⟨1, _⟩ =>
      show win4_2.index t (1 : Fin 2) * 128 + 1 * q.val = win4_5.index t (1 : Fin 2) * 128 + 1 * q.val
      omega
  · show V c (Pipeline.arrRef spec4 3) (((cfg4.win 3).blk t).view.emb (ix2 0 q)) = _
    refine congrArg (V c (Pipeline.arrRef spec4 3)) (funext fun a => Fin.ext ?_)
    match a with
    | ⟨0, _⟩ =>
      show win4_3.index t (0 : Fin 2) * 1 + 1 * 0 = 0
      omega
    | ⟨1, _⟩ =>
      show win4_3.index t (1 : Fin 2) * 128 + 1 * q.val = win4_5.index t (1 : Fin 2) * 128 + 1 * q.val
      omega
  · show V c (Pipeline.arrRef spec4 4) (((cfg4.win 4).blk t).view.emb (ix2 0 q)) = _
    refine congrArg (V c (Pipeline.arrRef spec4 4)) (funext fun a => Fin.ext ?_)
    match a with
    | ⟨0, _⟩ =>
      show win4_4.index t (0 : Fin 2) * 1 + 1 * 0 = 0
      omega
    | ⟨1, _⟩ =>
      show win4_4.index t (1 : Fin 2) * 128 + 1 * q.val = win4_5.index t (1 : Fin 2) * 128 + 1 * q.val
      omega

/-- An index of the output array is in point t's block iff each coordinate is in the block's range on its axis. -/
theorem mem_block4 (t : Fin cfg4.N) (i : S100000x128.Idx) :
    i ∈ ((cfg4.win 5).blk t).view.set ↔ ∀ a : Fin 2, win4_5.index t a * S5000x128.size a ≤ (i a).val
      ∧ (i a).val < win4_5.index t a * S5000x128.size a + S5000x128.size a := by
  show i ∈ ((View.whole main_v63).slice (win4_5.rect t)).set ↔ _
  rw [View.set_slice_whole, Rect.mem_set_unit]
  exact Iff.rfl

/-- Row r of the output lies in the block of point r / 5000: the twenty blocks tile the array. -/
theorem covered4 (i : S100000x128.Idx) :
    ∃ t : Fin cfg4.N, (cfg4.win 5).flush t = true ∧ i ∈ ((cfg4.win 5).blk t).view.set := by
  have hi0 : (i 0).val < 100000 := (i 0).isLt
  have hi1 : (i 1).val < 128 := (i 1).isLt
  have hN : cfg4.N = 20 := N_4
  refine ⟨⟨(i 0).val / 5000, by rw [hN]; omega⟩, flush4_5 _, ?_⟩
  obtain ⟨e00, e01, e10, e11, e20, e21, e30, e31, e40, e41, e50, e51⟩ :=
    index_maps4 ⟨(i 0).val / 5000, by rw [hN]; omega⟩
  rw [mem_block4]
  intro a
  match a with
  | ⟨0, _⟩ =>
    show win4_5.index _ (0 : Fin 2) * 5000 ≤ (i 0).val ∧ (i 0).val < win4_5.index _ (0 : Fin 2) * 5000 + 5000
    rw [e50]
    show (i 0).val / 5000 * 5000 ≤ (i 0).val ∧ (i 0).val < (i 0).val / 5000 * 5000 + 5000
    omega
  | ⟨1, _⟩ =>
    show win4_5.index _ (1 : Fin 2) * 128 ≤ (i 1).val ∧ (i 1).val < win4_5.index _ (1 : Fin 2) * 128 + 128
    rw [e51]
    omega

/-- The output array after the region is the normalised and rectified input array. -/
theorem final4 (c : Dev nD) :
    (dat4 V c).arrAt 5 cfg4.N
      = Cert.Spec.bnRelu (Ideal.ofBits .f32 0x3727C5AC#32) (V c (Pipeline.arrRef spec4 0)) (V c (Pipeline.arrRef spec4 1))
          (V c (Pipeline.arrRef spec4 2)) (V c (Pipeline.arrRef spec4 3)) (V c (Pipeline.arrRef spec4 4)) :=
  (dat4 V c).arrAt_eq_of_cover 5 _ (fun t _ => flushed4_eq V c t) (covered4)

end Region

end Cert.KernelIdeal.RegionValue

end
-- ==== Proof.KRegionBn6.lean ====
/-
  The value of a normalise-and-rectify region: for every row p and column q the region leaves
  max (((y (p, q) − mean q) · rsqrt (var q + ε)) · g q + be q, 0) in its output array, where mean, var, g and be are
  one-row arrays seen whole at every grid point and y is seen one block of 5000 rows at a time. Every operation of the
  body is pointwise once the rows are broadcast along the block, and the twenty blocks tile the 100000 rows.
-/
import proofs.«136904_j51402168598679_1_alg».proof.Proof.Gen.KernelIdeal.Frame
import proofs.«136904_j51402168598679_1_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.ValueIdx Idealize.ShloMosaic.TcCoe
open Idealize.SL.Sem
open Idealize.ShloMosaic.Pipeline (Dat)

/-! ## The body's arithmetic at a block-local index -/

/-- A one-row array broadcast along the rows of a block reads, at (p, q), its entry q. -/
theorem rowBcast6_apply (x : FVec Ideal S1x128 .f32) (h : S1x128.Broadcasts S5000x128) (p : Fin 5000) (q : Fin 128) :
    broadcastTo S5000x128 x h (ix2 p q) = x (ix2 0 q) := by
  refine broadcastTo_apply x h (ix2 p q) (ix2 0 q) fun a => ?_
  match a with
  | ⟨0, _⟩ => rfl
  | ⟨1, _⟩ => rfl

/-- The body's stored value at (p, q), from the block of y and the four rows (variance first, as the body loads them). -/
theorem pay6_apply (x0 : Vec Ideal S5000x128 .f32) (xv xm xg xb : Vec Ideal S1x128 .f32) (p : Fin 5000) (q : Fin 128) :
    k6_pay1 (F := Ideal) x0 xv xm xg xb (ix2 p q)
      = max (((x0 (ix2 p q) - xm (ix2 0 q)) * Ideal.rsqrt (xv (ix2 0 q) + Ideal.ofBits .f32 0x3727C5AC#32)) * xg (ix2 0 q)
          + xb (ix2 0 q)) 0 := by
  unfold k6_pay1
  simp only [shapeCast_self]
  rw [maximumf_apply, addf_apply, mulf_apply, mulf_apply, subf_apply, rowBcast6_apply, rowBcast6_apply,
    rowBcast6_apply, rowBcast6_apply, broadcast_apply]
  show max (((x0 (ix2 p q) - xm (ix2 0 q)) * Ideal.rsqrt (xv (ix2 0 q) + Ideal.ofBits .f32 0x3727C5AC#32)) * xg (ix2 0 q)
      + xb (ix2 0 q)) (Ideal.ofBits .f32 0x00000000#32) = _
  rw [Ideal.ofBits_zero_f32]

/-- A block's stored value is the normalised and rectified array at the array index i, as soon as the block's entry
    (p, q) is y's entry i and the four row blocks are the whole rows. -/
theorem block6_bnRelu (Y : Cert.Spec.Mat 100000 128) (M Vr G B : Cert.Spec.Mat 1 128)
    (x0 : Vec Ideal S5000x128 .f32) (xv xm xg xb : Vec Ideal S1x128 .f32)
    (i : S100000x128.Idx) (p : Fin 5000) (q : Fin 128)
    (h0 : x0 (ix2 p q) = Y i) (hm : xm (ix2 0 q) = M (ix2 0 (i 1))) (hv : xv (ix2 0 q) = Vr (ix2 0 (i 1)))
    (hg : xg (ix2 0 q) = G (ix2 0 (i 1))) (hb : xb (ix2 0 q) = B (ix2 0 (i 1))) :
    k6_pay1 (F := Ideal) x0 xv xm xg xb (ix2 p q)
      = Cert.Spec.bnRelu (Ideal.ofBits .f32 0x3727C5AC#32) Y M Vr G B i := by
  rw [pay6_apply, h0, hm, hv, hg, hb]
  rfl

/-! ## From the blocks to the array -/

section Region
variable (V : (c : Dev nD) → (b : Ref sig .tc) → Buf (Elt Ideal) ((c : Thread nD τ).loc b))

theorem zero_offsets6 : (![0, 0] : Fin 2 → Nat) = fun _ => 0 := funext fun a => by fin_cases a <;> rfl

/-- The windows' index maps over the grid: the y and output windows sit at block (t, 0), the four row windows at
    block (0, 0). -/
theorem index_maps6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

set_option maxHeartbeats 1600000 in
/-- What point t writes back is block t of the normalised and rectified array of the arrays as the region finds them. -/
theorem flushed6_eq (c : Dev nD) (t : Fin cfg6.N) :
    (dat6 V c).flushed 5 t = ((cfg6.win 5).blk t).view.read (Elt Ideal)
      (Cert.Spec.bnRelu (Ideal.ofBits .f32 0x3727C5AC#32) (V c (Pipeline.arrRef spec6 0)) (V c (Pipeline.arrRef spec6 1))
        (V c (Pipeline.arrRef spec6 2)) (V c (Pipeline.arrRef spec6 3)) (V c (Pipeline.arrRef spec6 4))) := by
  show (cfg6.win 5).cut (grid6.coords t) ((dat6 V c).after 5 t) = _
  rw [after6_5]
  unfold out6_5
  rw [View.canon_unit_zero zero_offsets6]
  simp only [View.ld_unit_zero (S := S5000x128) zero_offsets6, View.ld_unit_zero (S := S1x128) zero_offsets6]
  obtain ⟨e00, e01, e10, e11, e20, e21, e30, e31, e40, e41, e50, e51⟩ := index_maps6 t
  funext j
  obtain ⟨p, q, rfl⟩ : ∃ (p : Fin 5000) (q : Fin 128), j = ix2 p q := ⟨j 0, j 1, eq_ix2 j⟩
  refine block6_bnRelu (V c (Pipeline.arrRef spec6 0)) (V c (Pipeline.arrRef spec6 1)) (V c (Pipeline.arrRef spec6 2))
    (V c (Pipeline.arrRef spec6 3)) (V c (Pipeline.arrRef spec6 4))
    (iblk6 V c 0 t) (iblk6 V c 2 t) (iblk6 V c 1 t) (iblk6 V c 3 t) (iblk6 V c 4 t)
    (((cfg6.win 5).blk t).view.emb (ix2 p q)) p q ?_ ?_ ?_ ?_ ?_
  · show V c (Pipeline.arrRef spec6 0) (((cfg6.win 0).blk t).view.emb (ix2 p q)) = _
    refine congrArg (V c (Pipeline.arrRef spec6 0)) (funext fun a => Fin.ext ?_)
    match a with
    | ⟨0, _⟩ =>
      show win6_0.index t (0 : Fin 2) * 5000 + 1 * p.val = win6_5.index t (0 : Fin 2) * 5000 + 1 * p.val
      omega
    | ⟨1, _⟩ =>
      show win6_0.index t (1 : Fin 2) * 128 + 1 * q.val = win6_5.index t (1 : Fin 2) * 128 + 1 * q.val
      omega
  · show V c (Pipeline.arrRef spec6 1) (((cfg6.win 1).blk t).view.emb (ix2 0 q)) = _
    refine congrArg (V c (Pipeline.arrRef spec6 1)) (funext fun a => Fin.ext ?_)
    match a with
    | ⟨0, _⟩ =>
      show win6_1.index t (0 : Fin 2) * 1 + 1 * 0 = 0
      omega
    | ⟨1, _⟩ =>
      show win6_1.index t (1 : Fin 2) * 128 + 1 * q.val = win6_5.index t (1 : Fin 2) * 128 + 1 * q.val
      omega
  · show V c (Pipeline.arrRef spec6 2) (((cfg6.win 2).blk t).view.emb (ix2 0 q)) = _
    refine congrArg (V c (Pipeline.arrRef spec6 2)) (funext fun a => Fin.ext ?_)
    match a with
    | ⟨0, _⟩ =>
      show win6_2.index t (0 : Fin 2) * 1 + 1 * 0 = 0
      omega
    | ⟨1, _⟩ =>
      show win6_2.index t (1 : Fin 2) * 128 + 1 * q.val = win6_5.index t (1 : Fin 2) * 128 + 1 * q.val
      omega
  · show V c (Pipeline.arrRef spec6 3) (((cfg6.win 3).blk t).view.emb (ix2 0 q)) = _
    refine congrArg (V c (Pipeline.arrRef spec6 3)) (funext fun a => Fin.ext ?_)
    match a with
    | ⟨0, _⟩ =>
      show win6_3.index t (0 : Fin 2) * 1 + 1 * 0 = 0
      omega
    | ⟨1, _⟩ =>
      show win6_3.index t (1 : Fin 2) * 128 + 1 * q.val = win6_5.index t (1 : Fin 2) * 128 + 1 * q.val
      omega
  · show V c (Pipeline.arrRef spec6 4) (((cfg6.win 4).blk t).view.emb (ix2 0 q)) = _
    refine congrArg (V c (Pipeline.arrRef spec6 4)) (funext fun a => Fin.ext ?_)
    match a with
    | ⟨0, _⟩ =>
      show win6_4.index t (0 : Fin 2) * 1 + 1 * 0 = 0
      omega
    | ⟨1, _⟩ =>
      show win6_4.index t (1 : Fin 2) * 128 + 1 * q.val = win6_5.index t (1 : Fin 2) * 128 + 1 * q.val
      omega

/-- An index of the output array is in point t's block iff each coordinate is in the block's range on its axis. -/
theorem mem_block6 (t : Fin cfg6.N) (i : S100000x128.Idx) :
    i ∈ ((cfg6.win 5).blk t).view.set ↔ ∀ a : Fin 2, win6_5.index t a * S5000x128.size a ≤ (i a).val
      ∧ (i a).val < win6_5.index t a * S5000x128.size a + S5000x128.size a := by
  show i ∈ ((View.whole main_v92).slice (win6_5.rect t)).set ↔ _
  rw [View.set_slice_whole, Rect.mem_set_unit]
  exact Iff.rfl

/-- Row r of the output lies in the block of point r / 5000: the twenty blocks tile the array. -/
theorem covered6 (i : S100000x128.Idx) :
    ∃ t : Fin cfg6.N, (cfg6.win 5).flush t = true ∧ i ∈ ((cfg6.win 5).blk t).view.set := by
  have hi0 : (i 0).val < 100000 := (i 0).isLt
  have hi1 : (i 1).val < 128 := (i 1).isLt
  have hN : cfg6.N = 20 := N_6
  refine ⟨⟨(i 0).val / 5000, by rw [hN]; omega⟩, flush6_5 _, ?_⟩
  obtain ⟨e00, e01, e10, e11, e20, e21, e30, e31, e40, e41, e50, e51⟩ :=
    index_maps6 ⟨(i 0).val / 5000, by rw [hN]; omega⟩
  rw [mem_block6]
  intro a
  match a with
  | ⟨0, _⟩ =>
    show win6_5.index _ (0 : Fin 2) * 5000 ≤ (i 0).val ∧ (i 0).val < win6_5.index _ (0 : Fin 2) * 5000 + 5000
    rw [e50]
    show (i 0).val / 5000 * 5000 ≤ (i 0).val ∧ (i 0).val < (i 0).val / 5000 * 5000 + 5000
    omega
  | ⟨1, _⟩ =>
    show win6_5.index _ (1 : Fin 2) * 128 ≤ (i 1).val ∧ (i 1).val < win6_5.index _ (1 : Fin 2) * 128 + 128
    rw [e51]
    omega

/-- The output array after the region is the normalised and rectified input array. -/
theorem final6 (c : Dev nD) :
    (dat6 V c).arrAt 5 cfg6.N
      = Cert.Spec.bnRelu (Ideal.ofBits .f32 0x3727C5AC#32) (V c (Pipeline.arrRef spec6 0)) (V c (Pipeline.arrRef spec6 1))
          (V c (Pipeline.arrRef spec6 2)) (V c (Pipeline.arrRef spec6 3)) (V c (Pipeline.arrRef spec6 4)) :=
  (dat6 V c).arrAt_eq_of_cover 5 _ (fun t _ => flushed6_eq V c t) (covered6)

end Region

end Cert.KernelIdeal.RegionValue

end
-- ==== Proof.KRegionLinOut.lean ====
/-
  The value of the classifier's dense-layer region (two output columns): for every row p of the node features and every output column q, the region
  leaves  ∑ t, x (p, t) · w (q, t) + b (0, q)  in its output array. The body sees one block of 5000 rows at a time
  together with the whole weight matrix and the whole bias row; it transposes the weights and multiplies into a zero
  accumulator, so at a block-local (p, q) it is the same sum over the block's row p. The twenty blocks tile the
  100000 rows, hence the whole array is the dense layer of the whole input.
-/
import proofs.«136904_j51402168598679_1_alg».proof.Proof.Gen.KernelIdeal.Frame
import proofs.«136904_j51402168598679_1_alg».proof.Proof.Spec
import proofs.«136904_j51402168598679_1_alg».proof.Proof.LibPlainDot
import Idealize.ShloMosaic.Lib.Pipeline.Value
import Idealize.ShloMosaic.Lib.ValueLayout

set_option maxRecDepth 16384

noncomputable section

namespace Cert.KernelIdeal.RegionValue

open Cert.KernelIdeal Cert.KernelIdeal.Gen Idealize.ShloMosaic Idealize.ShloMosaic.ValueIdx Idealize.ShloMosaic.TcCoe
open Idealize.SL.Sem
open Idealize.ShloMosaic.Pipeline (Dat)

/-! ## The body's arithmetic at a block-local index -/

/-- The transposed weight block at (k, q) is the weight block at (q, k). -/
theorem transpose7_apply (x1 : FVec Ideal S2x128 .bf16) (h : S2x128.Transposes [1, 0] S128x2) (k : Fin 128) (q : Fin 2) :
    transpose S128x2 [1, 0] x1 h (ix2 k q) = x1 (ix2 q k) := by
  refine transpose_apply [1, 0] x1 h (ix2 k q) (ix2 q k) fun b => ?_
  match b with
  | ⟨0, _⟩ => rfl
  | ⟨1, _⟩ => rfl

/-- The bias row broadcast along the rows reads, at (p, q), its entry q. -/
theorem bias7_apply (x2 : FVec Ideal S1x2 .f32) (h2 : S1x2.Broadcasts S5000x2)
    (p : Fin 5000) (q : Fin 2) :
    broadcastTo S5000x2 x2 h2 (ix2 p q) = x2 (ix2 0 q) := by
  refine broadcastTo_apply x2 h2 (ix2 p q) (ix2 0 q) fun a => ?_
  match a with
  | ⟨0, _⟩ => rfl
  | ⟨1, _⟩ => rfl

/-- The body's stored value at (p, q): row p of the feature block against row q of the weights, plus bias q. -/
theorem pay7_apply (x0 : Vec Ideal S5000x128 .f32) (x1 : Vec Ideal S2x128 .f32) (x2 : Vec Ideal S1x2 .f32)
    (p : Fin 5000) (q : Fin 2) :
    k7_pay1 (F := Ideal) x0 x1 x2 (ix2 p q) = (∑ k : Fin 128, x0 (ix2 p k) * x1 (ix2 q k)) + x2 (ix2 0 q) := by
  unfold k7_pay1
  dsimp only
  simp only [shapeCast_self]
  rw [addf_apply, bias7_apply]
  congr 1
  refine (Cert.Lib.matmul_zero_apply (M := 5000) (K := 128) (N := 2) dot_S5000x128_S128x2_S5000x2_1_0_0_1_n_n_wf none _ _ p q).trans ?_
  refine Finset.sum_congr rfl fun k _ => ?_
  rw [transpose7_apply, truncf_apply, truncf_apply]

/-- A block's stored value is the dense layer of the whole arrays at the array index i, as soon as the block's row p
    is the features' row i 0, and the weight and bias blocks are the whole weight matrix and bias row. -/
theorem block7_dense (X : Cert.Spec.Mat 100000 128) (W : Cert.Spec.Mat 2 128) (B : Cert.Spec.Mat 1 2)
    (x0 : Vec Ideal S5000x128 .f32) (x1 : Vec Ideal S2x128 .f32) (x2 : Vec Ideal S1x2 .f32)
    (i : S100000x2.Idx) (p : Fin 5000) (q : Fin 2)
    (h0 : ∀ k : Fin 128, x0 (ix2 p k) = X (ix2 (i 0) k)) (h1 : ∀ k : Fin 128, x1 (ix2 q k) = W (ix2 (i 1) k))
    (h2 : x2 (ix2 0 q) = B (ix2 0 (i 1))) :
    k7_pay1 (F := Ideal) x0 x1 x2 (ix2 p q) = Cert.Spec.dense X W B i := by
  rw [pay7_apply, h2]
  show _ = (∑ k : Fin 128, X (ix2 (i 0) k) * W (ix2 (i 1) k)) + B (ix2 0 (i 1))
  congr 1
  exact Finset.sum_congr rfl fun k _ => by rw [h0, h1]

/-! ## From the blocks to the array -/

section Region
variable (V : (c : Dev nD) → (b : Ref sig .tc) → Buf (Elt Ideal) ((c : Thread nD τ).loc b))

theorem zero_offsets7 : (![0, 0] : Fin 2 → Nat) = fun _ => 0 := funext fun a => by fin_cases a <;> rfl

/-- The windows' index maps over the grid: the feature and output windows sit at block (t, 0), the weight and bias
    windows at block (0, 0). -/
theorem index_maps7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- What point t writes back is block t of the dense layer of the arrays as the region finds them. -/
theorem flushed7_eq (c : Dev nD) (t : Fin cfg7.N) :
    (dat7 V c).flushed 3 t = ((cfg7.win 3).blk t).view.read (Elt Ideal)
      (Cert.Spec.dense (V c (Pipeline.arrRef spec7 0)) (V c (Pipeline.arrRef spec7 1)) (V c (Pipeline.arrRef spec7 2))) := by
  show (cfg7.win 3).cut (grid7.coords t) ((dat7 V c).after 3 t) = _
  rw [after7_3]
  unfold out7_3
  rw [View.canon_unit_zero zero_offsets7]
  simp only [View.ld_unit_zero (S := S5000x128) zero_offsets7, View.ld_unit_zero (S := S2x128) zero_offsets7,
    View.ld_unit_zero (S := S1x2) zero_offsets7]
  obtain ⟨e00, e01, e10, e11, e20, e21, e30, e31⟩ := index_maps7 t
  funext j
  obtain ⟨p, q, rfl⟩ : ∃ (p : Fin 5000) (q : Fin 2), j = ix2 p q := ⟨j 0, j 1, eq_ix2 j⟩
  refine block7_dense (V c (Pipeline.arrRef spec7 0)) (V c (Pipeline.arrRef spec7 1)) (V c (Pipeline.arrRef spec7 2))
    (iblk7 V c 0 t) (iblk7 V c 1 t) (iblk7 V c 2 t) (((cfg7.win 3).blk t).view.emb (ix2 p q)) p q ?_ ?_ ?_
  · intro k
    show V c (Pipeline.arrRef spec7 0) (((cfg7.win 0).blk t).view.emb (ix2 p k)) = _
    refine congrArg (V c (Pipeline.arrRef spec7 0)) (funext fun a => Fin.ext ?_)
    match a with
    | ⟨0, _⟩ =>
      show win7_0.index t (0 : Fin 2) * 5000 + 1 * p.val = win7_3.index t (0 : Fin 2) * 5000 + 1 * p.val
      omega
    | ⟨1, _⟩ =>
      show win7_0.index t (1 : Fin 2) * 128 + 1 * k.val = k.val
      omega
  · intro k
    show V c (Pipeline.arrRef spec7 1) (((cfg7.win 1).blk t).view.emb (ix2 q k)) = _
    refine congrArg (V c (Pipeline.arrRef spec7 1)) (funext fun a => Fin.ext ?_)
    match a with
    | ⟨0, _⟩ =>
      show win7_1.index t (0 : Fin 2) * 2 + 1 * q.val = win7_3.index t (1 : Fin 2) * 2 + 1 * q.val
      omega
    | ⟨1, _⟩ =>
      show win7_1.index t (1 : Fin 2) * 128 + 1 * k.val = k.val
      omega
  · show V c (Pipeline.arrRef spec7 2) (((cfg7.win 2).blk t).view.emb (ix2 0 q)) = _
    refine congrArg (V c (Pipeline.arrRef spec7 2)) (funext fun a => Fin.ext ?_)
    match a with
    | ⟨0, _⟩ =>
      show win7_2.index t (0 : Fin 2) * 1 + 1 * 0 = 0
      omega
    | ⟨1, _⟩ =>
      show win7_2.index t (1 : Fin 2) * 2 + 1 * q.val = win7_3.index t (1 : Fin 2) * 2 + 1 * q.val
      omega

/-- An index of the output array is in point t's block iff each coordinate is in the block's range on its axis. -/
theorem mem_block7 (t : Fin cfg7.N) (i : S100000x2.Idx) :
    i ∈ ((cfg7.win 3).blk t).view.set ↔ ∀ a : Fin 2, win7_3.index t a * S5000x2.size a ≤ (i a).val
      ∧ (i a).val < win7_3.index t a * S5000x2.size a + S5000x2.size a := by
  show i ∈ ((View.whole main_v94).slice (win7_3.rect t)).set ↔ _
  rw [View.set_slice_whole, Rect.mem_set_unit]
  exact Iff.rfl

/-- Row r of the output lies in the block of point r / 5000: the twenty blocks tile the array. -/
theorem covered7 (i : S100000x2.Idx) :
    ∃ t : Fin cfg7.N, (cfg7.win 3).flush t = true ∧ i ∈ ((cfg7.win 3).blk t).view.set := by
  have hi0 : (i 0).val < 100000 := (i 0).isLt
  have hi1 : (i 1).val < 2 := (i 1).isLt
  have hN : cfg7.N = 20 := N_7
  refine ⟨⟨(i 0).val / 5000, by rw [hN]; omega⟩, flush7_3 _, ?_⟩
  obtain ⟨e00, e01, e10, e11, e20, e21, e30, e31⟩ := index_maps7 ⟨(i 0).val / 5000, by rw [hN]; omega⟩
  rw [mem_block7]
  intro a
  match a with
  | ⟨0, _⟩ =>
    show win7_3.index _ (0 : Fin 2) * 5000 ≤ (i 0).val ∧ (i 0).val < win7_3.index _ (0 : Fin 2) * 5000 + 5000
    rw [e30]
    show (i 0).val / 5000 * 5000 ≤ (i 0).val ∧ (i 0).val < (i 0).val / 5000 * 5000 + 5000
    omega
  | ⟨1, _⟩ =>
    show win7_3.index _ (1 : Fin 2) * 2 ≤ (i 1).val ∧ (i 1).val < win7_3.index _ (1 : Fin 2) * 2 + 2
    rw [e31]
    omega

/-- The output array after the region is the dense layer of the feature array, the weights and the bias row. -/
theorem final7 (c : Dev nD) :
    (dat7 V c).arrAt 3 cfg7.N
      = Cert.Spec.dense (V c (Pipeline.arrRef spec7 0)) (V c (Pipeline.arrRef spec7 1)) (V c (Pipeline.arrRef spec7 2)) :=
  (dat7 V c).arrAt_eq_of_cover 3 _ (fun t _ => flushed7_eq V c t) (covered7)

end Region

end Cert.KernelIdeal.RegionValue

end
-- ==== Proof.KSageArray3.lean ====
/-
  The three output arrays of the convolution kernel after its twenty grid points, as functions of the arrays the
  region finds.

  Point t holds rows 5000·t … 5000·t + 4999 of the node features and of the aggregated neighbour features, and the
  whole of the two weights and of the bias row; so the convolution block it computes is rows 5000·t … 5000·t + 4999 of
  the whole convolution Y, and writing every block back gives Y. The two accumulator rows are reset at point 0 and
  added into at every point, so after point n they hold, per column, the sum over the points s ≤ n and the block
  rows r of Y (5000·s + r, ·), respectively of its square — by induction on the point; they are written back after
  the last point only, when those sums run over all 100000 rows (a sum over 20 × 5000 pairs regrouped as one sum
  over the rows: a bijection of index sets, no finiteness needed).
-/
import proofs.«136904_j51402168598679_1_alg».proof.Proof.Gen.KernelIdeal.Frame
import proofs.«136904_j51402168598679_1_alg».proof.Proof.Spec
import proofs.«136904_j51402168598679_1_alg».proof.Proof.KSagePayload
import proofs.«136904_j51402168598679_1_alg».proof.Proof.KSagePieces
import Idealize.ShloMosaic.Lib.Pipeline.Value

noncomputable section

namespace Cert.KernelIdeal.RegionValue

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## The arrays, and the whole convolution -/

/-- The node features, the aggregated neighbour features, the two weights and the bias row as the region finds them. -/
abbrev arrH3 (c : Dev nD) : Cert.Spec.Mat 100000 128 := V c (Pipeline.arrRef spec3 0)
abbrev arrA3 (c : Dev nD) : Cert.Spec.Mat 100000 128 := V c (Pipeline.arrRef spec3 1)
abbrev arrWl3 (c : Dev nD) : Cert.Spec.Mat 128 128 := V c (Pipeline.arrRef spec3 2)
abbrev arrWr3 (c : Dev nD) : Cert.Spec.Mat 128 128 := V c (Pipeline.arrRef spec3 3)
abbrev arrB3 (c : Dev nD) : Cert.Spec.Mat 1 128 := V c (Pipeline.arrRef spec3 4)

/-- The whole convolution. -/
abbrev convY3 (c : Dev nD) : Cert.Spec.Mat 100000 128 :=
  Cert.Spec.conv (arrH3 V c) (arrA3 V c) (arrWl3 V c) (arrWr3 V c) (arrB3 V c)

/-! ## The blocks -/

/-- The windows' index maps over the grid: the row-blocked windows are at block (t, 0) at point t, the others
    at block (0, 0). -/
theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0 :=
  (by decide +kernel : ∀ t : Fin grid3.N, _)

/-- Row r of point t's block is row 5000·t + r of the array. -/
def row3 (t : Fin cfg3.N) (r : Fin 5000) : Fin 100000 :=
  ⟨5000 * t.val + r.val, by
    have hN : t.val < 20 := lt_of_lt_of_eq t.isLt (show cfg3.N = 20 from N_3)
    have := r.isLt
    omega⟩

theorem blk3_0_apply (c : Dev nD) (t : Fin cfg3.N) (r : Fin 5000) (k : Fin 128) :
    (iblk3 V c 0 t : Vec Ideal S5000x128 .f32) (ix2 r k) = arrH3 V c (ix2 (row3 t r) k) := by
  obtain ⟨e00, e01, e10, e11, e20, e21, e30, e31, e40, e41, e50, e51, e60, e61, e70, e71⟩ := idx3 t
  show V c (Pipeline.arrRef spec3 0) (((cfg3.win 0).blk t).view.emb (ix2 r k)) = V c (Pipeline.arrRef spec3 0) _
  refine congrArg _ (funext fun a => Fin.ext ?_)
  match a with
  | ⟨0, _⟩ => show win3_0.index t (0 : Fin 2) * 5000 + 1 * r.val = 5000 * t.val + r.val; rw [e00]; omega
  | ⟨1, _⟩ => show win3_0.index t (1 : Fin 2) * 128 + 1 * k.val = k.val; rw [e01]; omega

theorem blk3_1_apply (c : Dev nD) (t : Fin cfg3.N) (r : Fin 5000) (k : Fin 128) :
    (iblk3 V c 1 t : Vec Ideal S5000x128 .f32) (ix2 r k) = arrA3 V c (ix2 (row3 t r) k) := by
  obtain ⟨e00, e01, e10, e11, e20, e21, e30, e31, e40, e41, e50, e51, e60, e61, e70, e71⟩ := idx3 t
  show V c (Pipeline.arrRef spec3 1) (((cfg3.win 1).blk t).view.emb (ix2 r k)) = V c (Pipeline.arrRef spec3 1) _
  refine congrArg _ (funext fun a => Fin.ext ?_)
  match a with
  | ⟨0, _⟩ => show win3_1.index t (0 : Fin 2) * 5000 + 1 * r.val = 5000 * t.val + r.val; rw [e10]; omega
  | ⟨1, _⟩ => show win3_1.index t (1 : Fin 2) * 128 + 1 * k.val = k.val; rw [e11]; omega

theorem blk3_2_apply (c : Dev nD) (t : Fin cfg3.N) (q k : Fin 128) :
    (iblk3 V c 2 t : Vec Ideal S128x128 .f32) (ix2 q k) = arrWl3 V c (ix2 q k) := by
  obtain ⟨e00, e01, e10, e11, e20, e21, e30, e31, e40, e41, e50, e51, e60, e61, e70, e71⟩ := idx3 t
  show V c (Pipeline.arrRef spec3 2) (((cfg3.win 2).blk t).view.emb (ix2 q k)) = V c (Pipeline.arrRef spec3 2) _
  refine congrArg _ (funext fun a => Fin.ext ?_)
  match a with
  | ⟨0, _⟩ => show win3_2.index t (0 : Fin 2) * 128 + 1 * q.val = q.val; rw [e20]; omega
  | ⟨1, _⟩ => show win3_2.index t (1 : Fin 2) * 128 + 1 * k.val = k.val; rw [e21]; omega

theorem blk3_3_apply (c : Dev nD) (t : Fin cfg3.N) (q k : Fin 128) :
    (iblk3 V c 3 t : Vec Ideal S128x128 .f32) (ix2 q k) = arrWr3 V c (ix2 q k) := by
  obtain ⟨e00, e01, e10, e11, e20, e21, e30, e31, e40, e41, e50, e51, e60, e61, e70, e71⟩ := idx3 t
  show V c (Pipeline.arrRef spec3 3) (((cfg3.win 3).blk t).view.emb (ix2 q k)) = V c (Pipeline.arrRef spec3 3) _
  refine congrArg _ (funext fun a => Fin.ext ?_)
  match a with
  | ⟨0, _⟩ => show win3_3.index t (0 : Fin 2) * 128 + 1 * q.val = q.val; rw [e30]; omega
  | ⟨1, _⟩ => show win3_3.index t (1 : Fin 2) * 128 + 1 * k.val = k.val; rw [e31]; omega

theorem blk3_4_apply (c : Dev nD) (t : Fin cfg3.N) (u : Fin 1) (q : Fin 128) :
    (iblk3 V c 4 t : Vec Ideal S1x128 .f32) (ix2 u q) = arrB3 V c (ix2 u q) := by
  obtain ⟨e00, e01, e10, e11, e20, e21, e30, e31, e40, e41, e50, e51, e60, e61, e70, e71⟩ := idx3 t
  show V c (Pipeline.arrRef spec3 4) (((cfg3.win 4).blk t).view.emb (ix2 u q)) = V c (Pipeline.arrRef spec3 4) _
  refine congrArg _ (funext fun a => Fin.ext ?_)
  match a with
  | ⟨0, _⟩ => show win3_4.index t (0 : Fin 2) * 1 + 1 * u.val = u.val; rw [e40]; omega
  | ⟨1, _⟩ => show win3_4.index t (1 : Fin 2) * 128 + 1 * q.val = q.val; rw [e41]; omega

/-- The convolution block point t computes from its input blocks. -/
abbrev yblk3 (c : Dev nD) (t : Fin cfg3.N) : FVec Ideal S5000x128 .f32 :=
  k3_pay4 (F := Ideal) (iblk3 V c 0 t) (iblk3 V c 1 t) (iblk3 V c 2 t) (iblk3 V c 3 t) (iblk3 V c 4 t)

/-- It is rows 5000·t … 5000·t + 4999 of the whole convolution. -/
theorem yblk3_apply (c : Dev nD) (t : Fin cfg3.N) (r : Fin 5000) (q : Fin 128) :
    yblk3 V c t (ix2 r q) = convY3 V c (ix2 (row3 t r) q) := by
  refine (conv3_pay_apply (iblk3 V c 0 t) (iblk3 V c 1 t) (iblk3 V c 2 t) (iblk3 V c 3 t) (iblk3 V c 4 t) r q).trans ?_
  refine Eq.trans ?_ (Cert.Spec.conv_apply (arrH3 V c) (arrA3 V c) (arrWl3 V c) (arrWr3 V c) (arrB3 V c) (row3 t r) q).symm
  refine congrArg₂ (· + ·) (congrArg₂ (· + ·) (Finset.sum_congr rfl fun k _ => ?_) (Finset.sum_congr rfl fun k _ => ?_)) ?_
  · exact congrArg₂ (· * ·) (blk3_0_apply V c t r k) (blk3_2_apply V c t q k)
  · exact congrArg₂ (· * ·) (blk3_1_apply V c t r k) (blk3_3_apply V c t q k)
  · exact blk3_4_apply V c t 0 q

/-! ## What the output buffers hold after each point -/

/-- At the first point: the convolution block, and the two rows updated from zero rows. -/
theorem step3_A (c : Dev nD) (t : Fin cfg3.N) (h0 : t.val % 20 = 0) :
    outsAt3 V c t.val t.isLt
      = (yblk3 V c t,
         k3_pay5 (F := Ideal) (iblk3 V c 0 t) (iblk3 V c 1 t) (iblk3 V c 2 t) (iblk3 V c 3 t) (iblk3 V c 4 t) (k3_pay2 (F := Ideal)),
         k3_pay1 (F := Ideal) (k3_pay6 (F := Ideal) (k3_pay3 (F := Ideal))) (k3_pay7 (F := Ideal) (iblk3 V c 0 t) (iblk3 V c 1 t) (iblk3 V c 2 t) (iblk3 V c 3 t) (iblk3 V c 4 t))) := by
  rw [outsAt3_A V c t h0]
  exact congrArg₂ Prod.mk
    (piece3_A_5 (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) ((hcond3_0 t).mpr h0) (iblk3 V c 0 t) (iblk3 V c 1 t) (iblk3 V c 2 t) (iblk3 V c 3 t) (iblk3 V c 4 t))
    (congrArg₂ Prod.mk
      (piece3_A_6 (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) ((hcond3_0 t).mpr h0) (iblk3 V c 0 t) (iblk3 V c 1 t) (iblk3 V c 2 t) (iblk3 V c 3 t) (iblk3 V c 4 t))
      (piece3_A_7 (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) ((hcond3_0 t).mpr h0) (iblk3 V c 0 t) (iblk3 V c 1 t) (iblk3 V c 2 t) (iblk3 V c 3 t) (iblk3 V c 4 t)))

/-- At a later point: the convolution block, and the two rows updated from what the point before left. -/
theorem step3_B (c : Dev nD) (t : Fin cfg3.N) (h0 : ¬t.val % 20 = 0) :
    outsAt3 V c t.val t.isLt
      = (yblk3 V c t,
         k3_pay5 (F := Ideal) (iblk3 V c 0 t) (iblk3 V c 1 t) (iblk3 V c 2 t) (iblk3 V c 3 t) (iblk3 V c 4 t) (outsAt3 V c (t.val - 1) (Nat.lt_of_le_of_lt (Nat.sub_le _ _) t.isLt)).2.1,
         k3_pay1 (F := Ideal) (k3_pay6 (F := Ideal) (outsAt3 V c (t.val - 1) (Nat.lt_of_le_of_lt (Nat.sub_le _ _) t.isLt)).2.2) (k3_pay7 (F := Ideal) (iblk3 V c 0 t) (iblk3 V c 1 t) (iblk3 V c 2 t) (iblk3 V c 3 t) (iblk3 V c 4 t))) := by
  rw [outsAt3_B V c t h0]
  exact congrArg₂ Prod.mk
    (piece3_B_5 (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (fun h => h0 ((hcond3_0 t).mp h)) (iblk3 V c 0 t) (iblk3 V c 1 t) (iblk3 V c 2 t) (iblk3 V c 3 t) (iblk3 V c 4 t) (outsAt3 V c (t.val - 1) (Nat.lt_of_le_of_lt (Nat.sub_le _ _) t.isLt)).2.1 (outsAt3 V c (t.val - 1) (Nat.lt_of_le_of_lt (Nat.sub_le _ _) t.isLt)).2.2)
    (congrArg₂ Prod.mk
      (piece3_B_6 (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (fun h => h0 ((hcond3_0 t).mp h)) (iblk3 V c 0 t) (iblk3 V c 1 t) (iblk3 V c 2 t) (iblk3 V c 3 t) (iblk3 V c 4 t) (outsAt3 V c (t.val - 1) (Nat.lt_of_le_of_lt (Nat.sub_le _ _) t.isLt)).2.1 (outsAt3 V c (t.val - 1) (Nat.lt_of_le_of_lt (Nat.sub_le _ _) t.isLt)).2.2)
      (piece3_B_7 (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (fun h => h0 ((hcond3_0 t).mp h)) (iblk3 V c 0 t) (iblk3 V c 1 t) (iblk3 V c 2 t) (iblk3 V c 3 t) (iblk3 V c 4 t) (outsAt3 V c (t.val - 1) (Nat.lt_of_le_of_lt (Nat.sub_le _ _) t.isLt)).2.1 (outsAt3 V c (t.val - 1) (Nat.lt_of_le_of_lt (Nat.sub_le _ _) t.isLt)).2.2))

/-- The convolution output buffer after point t holds point t's block. -/
theorem conv_after3 (c : Dev nD) (t : Fin cfg3.N) : (outsAt3 V c t.val t.isLt).1 = yblk3 V c t := by
  by_cases h0 : t.val % 20 = 0
  · rw [step3_A V c t h0]
  · rw [step3_B V c t h0]

/-- THE COLUMN SUMS after point n: over the points s ≤ n and the block rows r. -/
theorem sum_after3 (c : Dev nD) : ∀ (n : ℕ) (hn : n < cfg3.N) (u : Fin 1) (q : Fin 128),
    (outsAt3 V c n hn).2.1 (ix2 u q)
      = ∑ s : Fin (n + 1), ∑ r : Fin 5000, yblk3 V c ⟨s.val, Nat.lt_of_lt_of_le s.isLt hn⟩ (ix2 r q)
  | 0, hn, u, q => by
    rw [step3_A V c ⟨0, hn⟩ (Nat.zero_mod _)]
    refine (sum3_pay_apply (iblk3 V c 0 ⟨0, hn⟩) (iblk3 V c 1 ⟨0, hn⟩) (iblk3 V c 2 ⟨0, hn⟩) (iblk3 V c 3 ⟨0, hn⟩) (iblk3 V c 4 ⟨0, hn⟩) (k3_pay2 (F := Ideal)) u q).trans ?_
    rw [zero3a_apply, zero_add, Fin.sum_univ_one]
    rfl
  | n + 1, hn, u, q => by
    have hN : n + 1 < 20 := lt_of_lt_of_eq hn (show cfg3.N = 20 from N_3)
    have hB : ¬(⟨n + 1, hn⟩ : Fin cfg3.N).val % 20 = 0 := by dsimp only; omega
    rw [step3_B V c ⟨n + 1, hn⟩ hB]
    refine (sum3_pay_apply (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) _ u q).trans ?_
    refine Eq.trans ?_ (Fin.sum_univ_castSucc _).symm
    exact congrArg₂ (· + ·) (sum_after3 c n (Nat.lt_of_succ_lt hn) u q) rfl

/-- THE COLUMN SUMS OF SQUARES after point n, likewise. -/
theorem sq_after3 (c : Dev nD) : ∀ (n : ℕ) (hn : n < cfg3.N) (u : Fin 1) (q : Fin 128),
    (outsAt3 V c n hn).2.2 (ix2 u q)
      = ∑ s : Fin (n + 1), ∑ r : Fin 5000,
          yblk3 V c ⟨s.val, Nat.lt_of_lt_of_le s.isLt hn⟩ (ix2 r q) * yblk3 V c ⟨s.val, Nat.lt_of_lt_of_le s.isLt hn⟩ (ix2 r q)
  | 0, hn, u, q => by
    rw [step3_A V c ⟨0, hn⟩ (Nat.zero_mod _)]
    refine (sq3_pay_apply (k3_pay6 (F := Ideal) (k3_pay3 (F := Ideal))) (k3_pay7 (F := Ideal) (iblk3 V c 0 ⟨0, hn⟩) (iblk3 V c 1 ⟨0, hn⟩) (iblk3 V c 2 ⟨0, hn⟩) (iblk3 V c 3 ⟨0, hn⟩) (iblk3 V c 4 ⟨0, hn⟩)) u q).trans ?_
    rw [carry3_eq, zero3b_apply, zero_add, Fin.sum_univ_one]
    rfl
  | n + 1, hn, u, q => by
    have hN : n + 1 < 20 := lt_of_lt_of_eq hn (show cfg3.N = 20 from N_3)
    have hB : ¬(⟨n + 1, hn⟩ : Fin cfg3.N).val % 20 = 0 := by dsimp only; omega
    rw [step3_B V c ⟨n + 1, hn⟩ hB]
    refine (sq3_pay_apply _ (k3_pay7 (F := Ideal) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩)) u q).trans ?_
    rw [carry3_eq]
    refine Eq.trans ?_ (Fin.sum_univ_castSucc _).symm
    exact congrArg₂ (· + ·) (sq_after3 c n (Nat.lt_of_succ_lt hn) u q) rfl

/-! ## From blocks to arrays -/

/-- A sum over the 100000 rows is the sum over the 20 blocks of the sums over each block's 5000 rows. -/
theorem sum_rows3 (f : Fin 100000 → EReal) :
    ∑ p : Fin 100000, f p
      = ∑ s : Fin (19 + 1), ∑ r : Fin 5000, f ⟨5000 * s.val + r.val, by have := s.isLt; have := r.isLt; omega⟩ := by
  rw [← Equiv.sum_comp (finProdFinEquiv (m := 20) (n := 5000)) f, Fintype.sum_prod_type]
  refine Finset.sum_congr rfl fun s _ => Finset.sum_congr rfl fun r _ => congrArg f (Fin.ext ?_)
  show r.val + 5000 * s.val = 5000 * s.val + r.val
  omega

/-- WHAT POINT t WRITES BACK into the convolution array is block t of the whole convolution. -/
theorem flushed3_5_eq (c : Dev nD) (t : Fin cfg3.N) :
    (dat3 V c).flushed 5 t = ((cfg3.win 5).blk t).view.read (Elt Ideal) (convY3 V c) := by
  obtain ⟨e00, e01, e10, e11, e20, e21, e30, e31, e40, e41, e50, e51, e60, e61, e70, e71⟩ := idx3 t
  show (cfg3.win 5).cut (grid3.coords t) ((dat3 V c).after 5 t) = _
  rw [after3_5, conv_after3]
  funext j
  obtain ⟨r, q, rfl⟩ : ∃ (r : Fin 5000) (q : Fin 128), j = ix2 r q := ⟨j 0, j 1, eq_ix2 j⟩
  show yblk3 V c t (ix2 r q) = convY3 V c (((cfg3.win 5).blk t).view.emb (ix2 r q))
  rw [yblk3_apply]
  refine congrArg (convY3 V c) (funext fun a => Fin.ext ?_)
  match a with
  | ⟨0, _⟩ => show 5000 * t.val + r.val = win3_5.index t (0 : Fin 2) * 5000 + 1 * r.val; rw [e50]; omega
  | ⟨1, _⟩ => show q.val = win3_5.index t (1 : Fin 2) * 128 + 1 * q.val; rw [e51]; omega

theorem mem_blk3_5 (t : Fin cfg3.N) (i : S100000x128.Idx) :
    i ∈ ((cfg3.win 5).blk t).view.set
      ↔ ∀ a : Fin 2, win3_5.index t a * S5000x128.size a ≤ (i a).val ∧ (i a).val < win3_5.index t a * S5000x128.size a + S5000x128.size a := by
  show i ∈ ((View.whole main_v54_0).slice (win3_5.rect t)).set ↔ _
  rw [View.set_slice_whole, Rect.mem_set_unit]
  exact Iff.rfl

/-- Row p of the array is in the block of point p / 5000. -/
theorem cover3_5 (c : Dev nD) (i : S100000x128.Idx) :
    ∃ t : Fin cfg3.N, (cfg3.win 5).flush t = true ∧ i ∈ ((cfg3.win 5).blk t).view.set := by
  have hi0 : (i 0).val < 100000 := (i 0).isLt
  have hi1 : (i 1).val < 128 := (i 1).isLt
  have ht : (i 0).val / 5000 < cfg3.N := by rw [show cfg3.N = 20 from N_3]; omega
  obtain ⟨e00, e01, e10, e11, e20, e21, e30, e31, e40, e41, e50, e51, e60, e61, e70, e71⟩ := idx3 ⟨(i 0).val / 5000, ht⟩
  refine ⟨⟨(i 0).val / 5000, ht⟩, flush3_5 _, ?_⟩
  rw [mem_blk3_5]
  intro a
  match a with
  | ⟨0, _⟩ =>
    show win3_5.index ⟨(i 0).val / 5000, ht⟩ (0 : Fin 2) * 5000 ≤ (i 0).val
      ∧ (i 0).val < win3_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win3_5.index ⟨(i 0).val / 5000, ht⟩ (1 : Fin 2) * 128 ≤ (i 1).val
      ∧ (i 1).val < win3_5.index ⟨(i 0).val / 5000, ht⟩ (1 : Fin 2) * 128 + 128
    rw [e51]; omega

/-- THE CONVOLUTION ARRAY after the region: the whole convolution of the arrays the region finds. -/
theorem final3_5 (c : Dev nD) :
    (dat3 V c).arrAt 5 cfg3.N = Cert.Spec.conv (V c (Pipeline.arrRef spec3 0)) (V c (Pipeline.arrRef spec3 1)) (V c (Pipeline.arrRef spec3 2)) (V c (Pipeline.arrRef spec3 3)) (V c (Pipeline.arrRef spec3 4)) :=
  (dat3 V c).arrAt_eq_of_cover 5 (convY3 V c) (fun t _ => flushed3_5_eq V c t) (cover3_5 c)

/-! ## The two accumulator rows: written back after the last point -/

theorem total3_6 (c : Dev nD) (n : ℕ) (hn : n < cfg3.N) (h19 : n = 19) (q : Fin 128) :
    (∑ s : Fin (n + 1), ∑ r : Fin 5000,
        yblk3 V c ⟨s.val, Nat.lt_of_lt_of_le s.isLt hn⟩ (ix2 r q))
      = ∑ p : Fin 100000, convY3 V c (ix2 p q) := by
  subst h19
  refine Eq.trans ?_ (sum_rows3 (fun p => convY3 V c (ix2 p q))).symm
  refine Finset.sum_congr rfl fun s _ => Finset.sum_congr rfl fun r _ => ?_
  rw [yblk3_apply]
  rfl

theorem row3_6_eq (c : Dev nD) (t : Fin cfg3.N) (h19 : t.val = 19) :
    (outsAt3 V c t.val t.isLt).2.1 = (Cert.Spec.colSum (convY3 V c) : Vec Ideal S1x128 .f32) := by
  funext j
  obtain ⟨u, q, rfl⟩ : ∃ (u : Fin 1) (q : Fin 128), j = ix2 u q := ⟨j 0, j 1, eq_ix2 j⟩
  rw [Cert.Spec.colSum_apply, sum_after3 V c t.val t.isLt u q]
  exact total3_6 V c t.val t.isLt h19 q

/-- The accumulator row's one block is its whole array: written back, any row is read through it unchanged. -/
theorem whole3_6 (t : Fin cfg3.N) (G : S1x128.Idx → EReal) :
    (cfg3.win 6).cut (grid3.coords t) G = ((cfg3.win 6).blk t).view.read (Elt Ideal) G := by
  obtain ⟨e00, e01, e10, e11, e20, e21, e30, e31, e40, e41, e50, e51, e60, e61, e70, e71⟩ := idx3 t
  funext j
  show G _ = G (((cfg3.win 6).blk t).view.emb j)
  refine congrArg G (funext fun a => Fin.ext ?_)
  match a with
  | ⟨0, _⟩ => show (j 0).val = win3_6.index t (0 : Fin 2) * 1 + 1 * (j 0).val; rw [e60]; omega
  | ⟨1, _⟩ => show (j 1).val = win3_6.index t (1 : Fin 2) * 128 + 1 * (j 1).val; rw [e61]; omega

theorem flushed3_6_eq (c : Dev nD) (t : Fin cfg3.N) (hf : (cfg3.win 6).flush t = true) :
    (dat3 V c).flushed 6 t = ((cfg3.win 6).blk t).view.read (Elt Ideal) (Cert.Spec.colSum (convY3 V c)) := by
  have hN : t.val < 20 := lt_of_lt_of_eq t.isLt (show cfg3.N = 20 from N_3)
  have h19 : t.val = 19 := by have := (flush3_6 t).mp hf; omega
  show (cfg3.win 6).cut (grid3.coords t) ((dat3 V c).after 6 t) = _
  rw [after3_6, row3_6_eq V c t h19]
  exact whole3_6 t _

theorem mem_blk3_6 (t : Fin cfg3.N) (i : S1x128.Idx) :
    i ∈ ((cfg3.win 6).blk t).view.set
      ↔ ∀ a : Fin 2, win3_6.index t a * S1x128.size a ≤ (i a).val ∧ (i a).val < win3_6.index t a * S1x128.size a + S1x128.size a := by
  show i ∈ ((View.whole main_v54_1).slice (win3_6.rect t)).set ↔ _
  rw [View.set_slice_whole, Rect.mem_set_unit]
  exact Iff.rfl

theorem cover3_6 (c : Dev nD) (i : S1x128.Idx) :
    ∃ t : Fin cfg3.N, (cfg3.win 6).flush t = true ∧ i ∈ ((cfg3.win 6).blk t).view.set := by
  have h19 : 19 < cfg3.N := by rw [show cfg3.N = 20 from N_3]; decide
  obtain ⟨e00, e01, e10, e11, e20, e21, e30, e31, e40, e41, e50, e51, e60, e61, e70, e71⟩ := idx3 ⟨19, h19⟩
  have hi0 : (i 0).val < 1 := (i 0).isLt
  have hi1 : (i 1).val < 128 := (i 1).isLt
  refine ⟨⟨19, h19⟩, (flush3_6 ⟨19, h19⟩).mpr rfl, ?_⟩
  rw [mem_blk3_6]
  intro a
  match a with
  | ⟨0, _⟩ =>
    show win3_6.index ⟨19, h19⟩ (0 : Fin 2) * 1 ≤ (i 0).val ∧ (i 0).val < win3_6.index ⟨19, h19⟩ (0 : Fin 2) * 1 + 1
    rw [e60]; omega
  | ⟨1, _⟩ =>
    show win3_6.index ⟨19, h19⟩ (1 : Fin 2) * 128 ≤ (i 1).val ∧ (i 1).val < win3_6.index ⟨19, h19⟩ (1 : Fin 2) * 128 + 128
    rw [e61]; omega

/-- THE ROW OF COLUMN SUMS after the region. -/
theorem final3_6 (c : Dev nD) :
    (dat3 V c).arrAt 6 cfg3.N = Cert.Spec.colSum (Cert.Spec.conv (V c (Pipeline.arrRef spec3 0)) (V c (Pipeline.arrRef spec3 1)) (V c (Pipeline.arrRef spec3 2)) (V c (Pipeline.arrRef spec3 3)) (V c (Pipeline.arrRef spec3 4))) :=
  (dat3 V c).arrAt_eq_of_cover 6 (Cert.Spec.colSum (convY3 V c)) (flushed3_6_eq V c) (cover3_6 c)

theorem total3_7 (c : Dev nD) (n : ℕ) (hn : n < cfg3.N) (h19 : n = 19) (q : Fin 128) :
    (∑ s : Fin (n + 1), ∑ r : Fin 5000,
        yblk3 V c ⟨s.val, Nat.lt_of_lt_of_le s.isLt hn⟩ (ix2 r q) * yblk3 V c ⟨s.val, Nat.lt_of_lt_of_le s.isLt hn⟩ (ix2 r q))
      = ∑ p : Fin 100000, convY3 V c (ix2 p q) * convY3 V c (ix2 p q) := by
  subst h19
  refine Eq.trans ?_ (sum_rows3 (fun p => convY3 V c (ix2 p q) * convY3 V c (ix2 p q))).symm
  refine Finset.sum_congr rfl fun s _ => Finset.sum_congr rfl fun r _ => ?_
  rw [yblk3_apply]
  rfl

theorem row3_7_eq (c : Dev nD) (t : Fin cfg3.N) (h19 : t.val = 19) :
    (outsAt3 V c t.val t.isLt).2.2 = (Cert.Spec.colSumSq (convY3 V c) : Vec Ideal S1x128 .f32) := by
  funext j
  obtain ⟨u, q, rfl⟩ : ∃ (u : Fin 1) (q : Fin 128), j = ix2 u q := ⟨j 0, j 1, eq_ix2 j⟩
  rw [Cert.Spec.colSumSq_apply, sq_after3 V c t.val t.isLt u q]
  exact total3_7 V c t.val t.isLt h19 q

/-- The accumulator row's one block is its whole array: written back, any row is read through it unchanged. -/
theorem whole3_7 (t : Fin cfg3.N) (G : S1x128.Idx → EReal) :
    (cfg3.win 7).cut (grid3.coords t) G = ((cfg3.win 7).blk t).view.read (Elt Ideal) G := by
  obtain ⟨e00, e01, e10, e11, e20, e21, e30, e31, e40, e41, e50, e51, e60, e61, e70, e71⟩ := idx3 t
  funext j
  show G _ = G (((cfg3.win 7).blk t).view.emb j)
  refine congrArg G (funext fun a => Fin.ext ?_)
  match a with
  | ⟨0, _⟩ => show (j 0).val = win3_7.index t (0 : Fin 2) * 1 + 1 * (j 0).val; rw [e70]; omega
  | ⟨1, _⟩ => show (j 1).val = win3_7.index t (1 : Fin 2) * 128 + 1 * (j 1).val; rw [e71]; omega

theorem flushed3_7_eq (c : Dev nD) (t : Fin cfg3.N) (hf : (cfg3.win 7).flush t = true) :
    (dat3 V c).flushed 7 t = ((cfg3.win 7).blk t).view.read (Elt Ideal) (Cert.Spec.colSumSq (convY3 V c)) := by
  have hN : t.val < 20 := lt_of_lt_of_eq t.isLt (show cfg3.N = 20 from N_3)
  have h19 : t.val = 19 := by have := (flush3_7 t).mp hf; omega
  show (cfg3.win 7).cut (grid3.coords t) ((dat3 V c).after 7 t) = _
  rw [after3_7, row3_7_eq V c t h19]
  exact whole3_7 t _

theorem mem_blk3_7 (t : Fin cfg3.N) (i : S1x128.Idx) :
    i ∈ ((cfg3.win 7).blk t).view.set
      ↔ ∀ a : Fin 2, win3_7.index t a * S1x128.size a ≤ (i a).val ∧ (i a).val < win3_7.index t a * S1x128.size a + S1x128.size a := by
  show i ∈ ((View.whole main_v54_2).slice (win3_7.rect t)).set ↔ _
  rw [View.set_slice_whole, Rect.mem_set_unit]
  exact Iff.rfl

theorem cover3_7 (c : Dev nD) (i : S1x128.Idx) :
    ∃ t : Fin cfg3.N, (cfg3.win 7).flush t = true ∧ i ∈ ((cfg3.win 7).blk t).view.set := by
  have h19 : 19 < cfg3.N := by rw [show cfg3.N = 20 from N_3]; decide
  obtain ⟨e00, e01, e10, e11, e20, e21, e30, e31, e40, e41, e50, e51, e60, e61, e70, e71⟩ := idx3 ⟨19, h19⟩
  have hi0 : (i 0).val < 1 := (i 0).isLt
  have hi1 : (i 1).val < 128 := (i 1).isLt
  refine ⟨⟨19, h19⟩, (flush3_7 ⟨19, h19⟩).mpr rfl, ?_⟩
  rw [mem_blk3_7]
  intro a
  match a with
  | ⟨0, _⟩ =>
    show win3_7.index ⟨19, h19⟩ (0 : Fin 2) * 1 ≤ (i 0).val ∧ (i 0).val < win3_7.index ⟨19, h19⟩ (0 : Fin 2) * 1 + 1
    rw [e70]; omega
  | ⟨1, _⟩ =>
    show win3_7.index ⟨19, h19⟩ (1 : Fin 2) * 128 ≤ (i 1).val ∧ (i 1).val < win3_7.index ⟨19, h19⟩ (1 : Fin 2) * 128 + 128
    rw [e71]; omega

/-- THE ROW OF COLUMN SUMS OF SQUARES after the region. -/
theorem final3_7 (c : Dev nD) :
    (dat3 V c).arrAt 7 cfg3.N = Cert.Spec.colSumSq (Cert.Spec.conv (V c (Pipeline.arrRef spec3 0)) (V c (Pipeline.arrRef spec3 1)) (V c (Pipeline.arrRef spec3 2)) (V c (Pipeline.arrRef spec3 3)) (V c (Pipeline.arrRef spec3 4))) :=
  (dat3 V c).arrAt_eq_of_cover 7 (Cert.Spec.colSumSq (convY3 V c)) (flushed3_7_eq V c) (cover3_7 c)

end Cert.KernelIdeal.RegionValue

end
-- ==== Proof.KSageArray5.lean ====
/-
  The three output arrays of the convolution kernel after its twenty grid points, as functions of the arrays the
  region finds.

  Point t holds rows 5000·t … 5000·t + 4999 of the node features and of the aggregated neighbour features, and the
  whole of the two weights and of the bias row; so the convolution block it computes is rows 5000·t … 5000·t + 4999 of
  the whole convolution Y, and writing every block back gives Y. The two accumulator rows are reset at point 0 and
  added into at every point, so after point n they hold, per column, the sum over the points s ≤ n and the block
  rows r of Y (5000·s + r, ·), respectively of its square — by induction on the point; they are written back after
  the last point only, when those sums run over all 100000 rows (a sum over 20 × 5000 pairs regrouped as one sum
  over the rows: a bijection of index sets, no finiteness needed).
-/
import proofs.«136904_j51402168598679_1_alg».proof.Proof.Gen.KernelIdeal.Frame
import proofs.«136904_j51402168598679_1_alg».proof.Proof.Spec
import proofs.«136904_j51402168598679_1_alg».proof.Proof.KSagePayload
import proofs.«136904_j51402168598679_1_alg».proof.Proof.KSagePieces
import Idealize.ShloMosaic.Lib.Pipeline.Value

noncomputable section

namespace Cert.KernelIdeal.RegionValue

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## The arrays, and the whole convolution -/

/-- The node features, the aggregated neighbour features, the two weights and the bias row as the region finds them. -/
abbrev arrH5 (c : Dev nD) : Cert.Spec.Mat 100000 128 := V c (Pipeline.arrRef spec5 0)
abbrev arrA5 (c : Dev nD) : Cert.Spec.Mat 100000 128 := V c (Pipeline.arrRef spec5 1)
abbrev arrWl5 (c : Dev nD) : Cert.Spec.Mat 128 128 := V c (Pipeline.arrRef spec5 2)
abbrev arrWr5 (c : Dev nD) : Cert.Spec.Mat 128 128 := V c (Pipeline.arrRef spec5 3)
abbrev arrB5 (c : Dev nD) : Cert.Spec.Mat 1 128 := V c (Pipeline.arrRef spec5 4)

/-- The whole convolution. -/
abbrev convY5 (c : Dev nD) : Cert.Spec.Mat 100000 128 :=
  Cert.Spec.conv (arrH5 V c) (arrA5 V c) (arrWl5 V c) (arrWr5 V c) (arrB5 V c)

/-! ## The blocks -/

/-- The windows' index maps over the grid: the row-blocked windows are at block (t, 0) at point t, the others
    at block (0, 0). -/
theorem idx5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0
    ∧ win5_6.index t (0 : Fin 2) = 0 ∧ win5_6.index t (1 : Fin 2) = 0
    ∧ win5_7.index t (0 : Fin 2) = 0 ∧ win5_7.index t (1 : Fin 2) = 0 :=
  (by decide +kernel : ∀ t : Fin grid5.N, _)

/-- Row r of point t's block is row 5000·t + r of the array. -/
def row5 (t : Fin cfg5.N) (r : Fin 5000) : Fin 100000 :=
  ⟨5000 * t.val + r.val, by
    have hN : t.val < 20 := lt_of_lt_of_eq t.isLt (show cfg5.N = 20 from N_5)
    have := r.isLt
    omega⟩

theorem blk5_0_apply (c : Dev nD) (t : Fin cfg5.N) (r : Fin 5000) (k : Fin 128) :
    (iblk5 V c 0 t : Vec Ideal S5000x128 .f32) (ix2 r k) = arrH5 V c (ix2 (row5 t r) k) := by
  obtain ⟨e00, e01, e10, e11, e20, e21, e30, e31, e40, e41, e50, e51, e60, e61, e70, e71⟩ := idx5 t
  show V c (Pipeline.arrRef spec5 0) (((cfg5.win 0).blk t).view.emb (ix2 r k)) = V c (Pipeline.arrRef spec5 0) _
  refine congrArg _ (funext fun a => Fin.ext ?_)
  match a with
  | ⟨0, _⟩ => show win5_0.index t (0 : Fin 2) * 5000 + 1 * r.val = 5000 * t.val + r.val; rw [e00]; omega
  | ⟨1, _⟩ => show win5_0.index t (1 : Fin 2) * 128 + 1 * k.val = k.val; rw [e01]; omega

theorem blk5_1_apply (c : Dev nD) (t : Fin cfg5.N) (r : Fin 5000) (k : Fin 128) :
    (iblk5 V c 1 t : Vec Ideal S5000x128 .f32) (ix2 r k) = arrA5 V c (ix2 (row5 t r) k) := by
  obtain ⟨e00, e01, e10, e11, e20, e21, e30, e31, e40, e41, e50, e51, e60, e61, e70, e71⟩ := idx5 t
  show V c (Pipeline.arrRef spec5 1) (((cfg5.win 1).blk t).view.emb (ix2 r k)) = V c (Pipeline.arrRef spec5 1) _
  refine congrArg _ (funext fun a => Fin.ext ?_)
  match a with
  | ⟨0, _⟩ => show win5_1.index t (0 : Fin 2) * 5000 + 1 * r.val = 5000 * t.val + r.val; rw [e10]; omega
  | ⟨1, _⟩ => show win5_1.index t (1 : Fin 2) * 128 + 1 * k.val = k.val; rw [e11]; omega

theorem blk5_2_apply (c : Dev nD) (t : Fin cfg5.N) (q k : Fin 128) :
    (iblk5 V c 2 t : Vec Ideal S128x128 .f32) (ix2 q k) = arrWl5 V c (ix2 q k) := by
  obtain ⟨e00, e01, e10, e11, e20, e21, e30, e31, e40, e41, e50, e51, e60, e61, e70, e71⟩ := idx5 t
  show V c (Pipeline.arrRef spec5 2) (((cfg5.win 2).blk t).view.emb (ix2 q k)) = V c (Pipeline.arrRef spec5 2) _
  refine congrArg _ (funext fun a => Fin.ext ?_)
  match a with
  | ⟨0, _⟩ => show win5_2.index t (0 : Fin 2) * 128 + 1 * q.val = q.val; rw [e20]; omega
  | ⟨1, _⟩ => show win5_2.index t (1 : Fin 2) * 128 + 1 * k.val = k.val; rw [e21]; omega

theorem blk5_3_apply (c : Dev nD) (t : Fin cfg5.N) (q k : Fin 128) :
    (iblk5 V c 3 t : Vec Ideal S128x128 .f32) (ix2 q k) = arrWr5 V c (ix2 q k) := by
  obtain ⟨e00, e01, e10, e11, e20, e21, e30, e31, e40, e41, e50, e51, e60, e61, e70, e71⟩ := idx5 t
  show V c (Pipeline.arrRef spec5 3) (((cfg5.win 3).blk t).view.emb (ix2 q k)) = V c (Pipeline.arrRef spec5 3) _
  refine congrArg _ (funext fun a => Fin.ext ?_)
  match a with
  | ⟨0, _⟩ => show win5_3.index t (0 : Fin 2) * 128 + 1 * q.val = q.val; rw [e30]; omega
  | ⟨1, _⟩ => show win5_3.index t (1 : Fin 2) * 128 + 1 * k.val = k.val; rw [e31]; omega

theorem blk5_4_apply (c : Dev nD) (t : Fin cfg5.N) (u : Fin 1) (q : Fin 128) :
    (iblk5 V c 4 t : Vec Ideal S1x128 .f32) (ix2 u q) = arrB5 V c (ix2 u q) := by
  obtain ⟨e00, e01, e10, e11, e20, e21, e30, e31, e40, e41, e50, e51, e60, e61, e70, e71⟩ := idx5 t
  show V c (Pipeline.arrRef spec5 4) (((cfg5.win 4).blk t).view.emb (ix2 u q)) = V c (Pipeline.arrRef spec5 4) _
  refine congrArg _ (funext fun a => Fin.ext ?_)
  match a with
  | ⟨0, _⟩ => show win5_4.index t (0 : Fin 2) * 1 + 1 * u.val = u.val; rw [e40]; omega
  | ⟨1, _⟩ => show win5_4.index t (1 : Fin 2) * 128 + 1 * q.val = q.val; rw [e41]; omega

/-- The convolution block point t computes from its input blocks. -/
abbrev yblk5 (c : Dev nD) (t : Fin cfg5.N) : FVec Ideal S5000x128 .f32 :=
  k5_pay4 (F := Ideal) (iblk5 V c 0 t) (iblk5 V c 1 t) (iblk5 V c 2 t) (iblk5 V c 3 t) (iblk5 V c 4 t)

/-- It is rows 5000·t … 5000·t + 4999 of the whole convolution. -/
theorem yblk5_apply (c : Dev nD) (t : Fin cfg5.N) (r : Fin 5000) (q : Fin 128) :
    yblk5 V c t (ix2 r q) = convY5 V c (ix2 (row5 t r) q) := by
  refine (conv5_pay_apply (iblk5 V c 0 t) (iblk5 V c 1 t) (iblk5 V c 2 t) (iblk5 V c 3 t) (iblk5 V c 4 t) r q).trans ?_
  refine Eq.trans ?_ (Cert.Spec.conv_apply (arrH5 V c) (arrA5 V c) (arrWl5 V c) (arrWr5 V c) (arrB5 V c) (row5 t r) q).symm
  refine congrArg₂ (· + ·) (congrArg₂ (· + ·) (Finset.sum_congr rfl fun k _ => ?_) (Finset.sum_congr rfl fun k _ => ?_)) ?_
  · exact congrArg₂ (· * ·) (blk5_0_apply V c t r k) (blk5_2_apply V c t q k)
  · exact congrArg₂ (· * ·) (blk5_1_apply V c t r k) (blk5_3_apply V c t q k)
  · exact blk5_4_apply V c t 0 q

/-! ## What the output buffers hold after each point -/

/-- At the first point: the convolution block, and the two rows updated from zero rows. -/
theorem step5_A (c : Dev nD) (t : Fin cfg5.N) (h0 : t.val % 20 = 0) :
    outsAt5 V c t.val t.isLt
      = (yblk5 V c t,
         k5_pay5 (F := Ideal) (iblk5 V c 0 t) (iblk5 V c 1 t) (iblk5 V c 2 t) (iblk5 V c 3 t) (iblk5 V c 4 t) (k5_pay2 (F := Ideal)),
         k5_pay1 (F := Ideal) (k5_pay6 (F := Ideal) (k5_pay3 (F := Ideal))) (k5_pay7 (F := Ideal) (iblk5 V c 0 t) (iblk5 V c 1 t) (iblk5 V c 2 t) (iblk5 V c 3 t) (iblk5 V c 4 t))) := by
  rw [outsAt5_A V c t h0]
  exact congrArg₂ Prod.mk
    (piece5_A_5 (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) ((hcond5_0 t).mpr h0) (iblk5 V c 0 t) (iblk5 V c 1 t) (iblk5 V c 2 t) (iblk5 V c 3 t) (iblk5 V c 4 t))
    (congrArg₂ Prod.mk
      (piece5_A_6 (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) ((hcond5_0 t).mpr h0) (iblk5 V c 0 t) (iblk5 V c 1 t) (iblk5 V c 2 t) (iblk5 V c 3 t) (iblk5 V c 4 t))
      (piece5_A_7 (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) ((hcond5_0 t).mpr h0) (iblk5 V c 0 t) (iblk5 V c 1 t) (iblk5 V c 2 t) (iblk5 V c 3 t) (iblk5 V c 4 t)))

/-- At a later point: the convolution block, and the two rows updated from what the point before left. -/
theorem step5_B (c : Dev nD) (t : Fin cfg5.N) (h0 : ¬t.val % 20 = 0) :
    outsAt5 V c t.val t.isLt
      = (yblk5 V c t,
         k5_pay5 (F := Ideal) (iblk5 V c 0 t) (iblk5 V c 1 t) (iblk5 V c 2 t) (iblk5 V c 3 t) (iblk5 V c 4 t) (outsAt5 V c (t.val - 1) (Nat.lt_of_le_of_lt (Nat.sub_le _ _) t.isLt)).2.1,
         k5_pay1 (F := Ideal) (k5_pay6 (F := Ideal) (outsAt5 V c (t.val - 1) (Nat.lt_of_le_of_lt (Nat.sub_le _ _) t.isLt)).2.2) (k5_pay7 (F := Ideal) (iblk5 V c 0 t) (iblk5 V c 1 t) (iblk5 V c 2 t) (iblk5 V c 3 t) (iblk5 V c 4 t))) := by
  rw [outsAt5_B V c t h0]
  exact congrArg₂ Prod.mk
    (piece5_B_5 (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (fun h => h0 ((hcond5_0 t).mp h)) (iblk5 V c 0 t) (iblk5 V c 1 t) (iblk5 V c 2 t) (iblk5 V c 3 t) (iblk5 V c 4 t) (outsAt5 V c (t.val - 1) (Nat.lt_of_le_of_lt (Nat.sub_le _ _) t.isLt)).2.1 (outsAt5 V c (t.val - 1) (Nat.lt_of_le_of_lt (Nat.sub_le _ _) t.isLt)).2.2)
    (congrArg₂ Prod.mk
      (piece5_B_6 (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (fun h => h0 ((hcond5_0 t).mp h)) (iblk5 V c 0 t) (iblk5 V c 1 t) (iblk5 V c 2 t) (iblk5 V c 3 t) (iblk5 V c 4 t) (outsAt5 V c (t.val - 1) (Nat.lt_of_le_of_lt (Nat.sub_le _ _) t.isLt)).2.1 (outsAt5 V c (t.val - 1) (Nat.lt_of_le_of_lt (Nat.sub_le _ _) t.isLt)).2.2)
      (piece5_B_7 (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) (ms5_7 t) (hs5_7 t) (fun h => h0 ((hcond5_0 t).mp h)) (iblk5 V c 0 t) (iblk5 V c 1 t) (iblk5 V c 2 t) (iblk5 V c 3 t) (iblk5 V c 4 t) (outsAt5 V c (t.val - 1) (Nat.lt_of_le_of_lt (Nat.sub_le _ _) t.isLt)).2.1 (outsAt5 V c (t.val - 1) (Nat.lt_of_le_of_lt (Nat.sub_le _ _) t.isLt)).2.2))

/-- The convolution output buffer after point t holds point t's block. -/
theorem conv_after5 (c : Dev nD) (t : Fin cfg5.N) : (outsAt5 V c t.val t.isLt).1 = yblk5 V c t := by
  by_cases h0 : t.val % 20 = 0
  · rw [step5_A V c t h0]
  · rw [step5_B V c t h0]

/-- THE COLUMN SUMS after point n: over the points s ≤ n and the block rows r. -/
theorem sum_after5 (c : Dev nD) : ∀ (n : ℕ) (hn : n < cfg5.N) (u : Fin 1) (q : Fin 128),
    (outsAt5 V c n hn).2.1 (ix2 u q)
      = ∑ s : Fin (n + 1), ∑ r : Fin 5000, yblk5 V c ⟨s.val, Nat.lt_of_lt_of_le s.isLt hn⟩ (ix2 r q)
  | 0, hn, u, q => by
    rw [step5_A V c ⟨0, hn⟩ (Nat.zero_mod _)]
    refine (sum5_pay_apply (iblk5 V c 0 ⟨0, hn⟩) (iblk5 V c 1 ⟨0, hn⟩) (iblk5 V c 2 ⟨0, hn⟩) (iblk5 V c 3 ⟨0, hn⟩) (iblk5 V c 4 ⟨0, hn⟩) (k5_pay2 (F := Ideal)) u q).trans ?_
    rw [zero5a_apply, zero_add, Fin.sum_univ_one]
    rfl
  | n + 1, hn, u, q => by
    have hN : n + 1 < 20 := lt_of_lt_of_eq hn (show cfg5.N = 20 from N_5)
    have hB : ¬(⟨n + 1, hn⟩ : Fin cfg5.N).val % 20 = 0 := by dsimp only; omega
    rw [step5_B V c ⟨n + 1, hn⟩ hB]
    refine (sum5_pay_apply (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) _ u q).trans ?_
    refine Eq.trans ?_ (Fin.sum_univ_castSucc _).symm
    exact congrArg₂ (· + ·) (sum_after5 c n (Nat.lt_of_succ_lt hn) u q) rfl

/-- THE COLUMN SUMS OF SQUARES after point n, likewise. -/
theorem sq_after5 (c : Dev nD) : ∀ (n : ℕ) (hn : n < cfg5.N) (u : Fin 1) (q : Fin 128),
    (outsAt5 V c n hn).2.2 (ix2 u q)
      = ∑ s : Fin (n + 1), ∑ r : Fin 5000,
          yblk5 V c ⟨s.val, Nat.lt_of_lt_of_le s.isLt hn⟩ (ix2 r q) * yblk5 V c ⟨s.val, Nat.lt_of_lt_of_le s.isLt hn⟩ (ix2 r q)
  | 0, hn, u, q => by
    rw [step5_A V c ⟨0, hn⟩ (Nat.zero_mod _)]
    refine (sq5_pay_apply (k5_pay6 (F := Ideal) (k5_pay3 (F := Ideal))) (k5_pay7 (F := Ideal) (iblk5 V c 0 ⟨0, hn⟩) (iblk5 V c 1 ⟨0, hn⟩) (iblk5 V c 2 ⟨0, hn⟩) (iblk5 V c 3 ⟨0, hn⟩) (iblk5 V c 4 ⟨0, hn⟩)) u q).trans ?_
    rw [carry5_eq, zero5b_apply, zero_add, Fin.sum_univ_one]
    rfl
  | n + 1, hn, u, q => by
    have hN : n + 1 < 20 := lt_of_lt_of_eq hn (show cfg5.N = 20 from N_5)
    have hB : ¬(⟨n + 1, hn⟩ : Fin cfg5.N).val % 20 = 0 := by dsimp only; omega
    rw [step5_B V c ⟨n + 1, hn⟩ hB]
    refine (sq5_pay_apply _ (k5_pay7 (F := Ideal) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩)) u q).trans ?_
    rw [carry5_eq]
    refine Eq.trans ?_ (Fin.sum_univ_castSucc _).symm
    exact congrArg₂ (· + ·) (sq_after5 c n (Nat.lt_of_succ_lt hn) u q) rfl

/-! ## From blocks to arrays -/

/-- A sum over the 100000 rows is the sum over the 20 blocks of the sums over each block's 5000 rows. -/
theorem sum_rows5 (f : Fin 100000 → EReal) :
    ∑ p : Fin 100000, f p
      = ∑ s : Fin (19 + 1), ∑ r : Fin 5000, f ⟨5000 * s.val + r.val, by have := s.isLt; have := r.isLt; omega⟩ := by
  rw [← Equiv.sum_comp (finProdFinEquiv (m := 20) (n := 5000)) f, Fintype.sum_prod_type]
  refine Finset.sum_congr rfl fun s _ => Finset.sum_congr rfl fun r _ => congrArg f (Fin.ext ?_)
  show r.val + 5000 * s.val = 5000 * s.val + r.val
  omega

/-- WHAT POINT t WRITES BACK into the convolution array is block t of the whole convolution. -/
theorem flushed5_5_eq (c : Dev nD) (t : Fin cfg5.N) :
    (dat5 V c).flushed 5 t = ((cfg5.win 5).blk t).view.read (Elt Ideal) (convY5 V c) := by
  obtain ⟨e00, e01, e10, e11, e20, e21, e30, e31, e40, e41, e50, e51, e60, e61, e70, e71⟩ := idx5 t
  show (cfg5.win 5).cut (grid5.coords t) ((dat5 V c).after 5 t) = _
  rw [after5_5, conv_after5]
  funext j
  obtain ⟨r, q, rfl⟩ : ∃ (r : Fin 5000) (q : Fin 128), j = ix2 r q := ⟨j 0, j 1, eq_ix2 j⟩
  show yblk5 V c t (ix2 r q) = convY5 V c (((cfg5.win 5).blk t).view.emb (ix2 r q))
  rw [yblk5_apply]
  refine congrArg (convY5 V c) (funext fun a => Fin.ext ?_)
  match a with
  | ⟨0, _⟩ => show 5000 * t.val + r.val = win5_5.index t (0 : Fin 2) * 5000 + 1 * r.val; rw [e50]; omega
  | ⟨1, _⟩ => show q.val = win5_5.index t (1 : Fin 2) * 128 + 1 * q.val; rw [e51]; omega

theorem mem_blk5_5 (t : Fin cfg5.N) (i : S100000x128.Idx) :
    i ∈ ((cfg5.win 5).blk t).view.set
      ↔ ∀ a : Fin 2, win5_5.index t a * S5000x128.size a ≤ (i a).val ∧ (i a).val < win5_5.index t a * S5000x128.size a + S5000x128.size a := by
  show i ∈ ((View.whole main_v83_0).slice (win5_5.rect t)).set ↔ _
  rw [View.set_slice_whole, Rect.mem_set_unit]
  exact Iff.rfl

/-- Row p of the array is in the block of point p / 5000. -/
theorem cover5_5 (c : Dev nD) (i : S100000x128.Idx) :
    ∃ t : Fin cfg5.N, (cfg5.win 5).flush t = true ∧ i ∈ ((cfg5.win 5).blk t).view.set := by
  have hi0 : (i 0).val < 100000 := (i 0).isLt
  have hi1 : (i 1).val < 128 := (i 1).isLt
  have ht : (i 0).val / 5000 < cfg5.N := by rw [show cfg5.N = 20 from N_5]; omega
  obtain ⟨e00, e01, e10, e11, e20, e21, e30, e31, e40, e41, e50, e51, e60, e61, e70, e71⟩ := idx5 ⟨(i 0).val / 5000, ht⟩
  refine ⟨⟨(i 0).val / 5000, ht⟩, flush5_5 _, ?_⟩
  rw [mem_blk5_5]
  intro a
  match a with
  | ⟨0, _⟩ =>
    show win5_5.index ⟨(i 0).val / 5000, ht⟩ (0 : Fin 2) * 5000 ≤ (i 0).val
      ∧ (i 0).val < win5_5.index ⟨(i 0).val / 5000, ht⟩ (0 : Fin 2) * 5000 + 5000
    rw [e50]; show (i 0).val / 5000 * 5000 ≤ (i 0).val ∧ (i 0).val < (i 0).val / 5000 * 5000 + 5000; omega
  | ⟨1, _⟩ =>
    show win5_5.index ⟨(i 0).val / 5000, ht⟩ (1 : Fin 2) * 128 ≤ (i 1).val
      ∧ (i 1).val < win5_5.index ⟨(i 0).val / 5000, ht⟩ (1 : Fin 2) * 128 + 128
    rw [e51]; omega

/-- THE CONVOLUTION ARRAY after the region: the whole convolution of the arrays the region finds. -/
theorem final5_5 (c : Dev nD) :
    (dat5 V c).arrAt 5 cfg5.N = Cert.Spec.conv (V c (Pipeline.arrRef spec5 0)) (V c (Pipeline.arrRef spec5 1)) (V c (Pipeline.arrRef spec5 2)) (V c (Pipeline.arrRef spec5 3)) (V c (Pipeline.arrRef spec5 4)) :=
  (dat5 V c).arrAt_eq_of_cover 5 (convY5 V c) (fun t _ => flushed5_5_eq V c t) (cover5_5 c)

/-! ## The two accumulator rows: written back after the last point -/

theorem total5_6 (c : Dev nD) (n : ℕ) (hn : n < cfg5.N) (h19 : n = 19) (q : Fin 128) :
    (∑ s : Fin (n + 1), ∑ r : Fin 5000,
        yblk5 V c ⟨s.val, Nat.lt_of_lt_of_le s.isLt hn⟩ (ix2 r q))
      = ∑ p : Fin 100000, convY5 V c (ix2 p q) := by
  subst h19
  refine Eq.trans ?_ (sum_rows5 (fun p => convY5 V c (ix2 p q))).symm
  refine Finset.sum_congr rfl fun s _ => Finset.sum_congr rfl fun r _ => ?_
  rw [yblk5_apply]
  rfl

theorem row5_6_eq (c : Dev nD) (t : Fin cfg5.N) (h19 : t.val = 19) :
    (outsAt5 V c t.val t.isLt).2.1 = (Cert.Spec.colSum (convY5 V c) : Vec Ideal S1x128 .f32) := by
  funext j
  obtain ⟨u, q, rfl⟩ : ∃ (u : Fin 1) (q : Fin 128), j = ix2 u q := ⟨j 0, j 1, eq_ix2 j⟩
  rw [Cert.Spec.colSum_apply, sum_after5 V c t.val t.isLt u q]
  exact total5_6 V c t.val t.isLt h19 q

/-- The accumulator row's one block is its whole array: written back, any row is read through it unchanged. -/
theorem whole5_6 (t : Fin cfg5.N) (G : S1x128.Idx → EReal) :
    (cfg5.win 6).cut (grid5.coords t) G = ((cfg5.win 6).blk t).view.read (Elt Ideal) G := by
  obtain ⟨e00, e01, e10, e11, e20, e21, e30, e31, e40, e41, e50, e51, e60, e61, e70, e71⟩ := idx5 t
  funext j
  show G _ = G (((cfg5.win 6).blk t).view.emb j)
  refine congrArg G (funext fun a => Fin.ext ?_)
  match a with
  | ⟨0, _⟩ => show (j 0).val = win5_6.index t (0 : Fin 2) * 1 + 1 * (j 0).val; rw [e60]; omega
  | ⟨1, _⟩ => show (j 1).val = win5_6.index t (1 : Fin 2) * 128 + 1 * (j 1).val; rw [e61]; omega

theorem flushed5_6_eq (c : Dev nD) (t : Fin cfg5.N) (hf : (cfg5.win 6).flush t = true) :
    (dat5 V c).flushed 6 t = ((cfg5.win 6).blk t).view.read (Elt Ideal) (Cert.Spec.colSum (convY5 V c)) := by
  have hN : t.val < 20 := lt_of_lt_of_eq t.isLt (show cfg5.N = 20 from N_5)
  have h19 : t.val = 19 := by have := (flush5_6 t).mp hf; omega
  show (cfg5.win 6).cut (grid5.coords t) ((dat5 V c).after 6 t) = _
  rw [after5_6, row5_6_eq V c t h19]
  exact whole5_6 t _

theorem mem_blk5_6 (t : Fin cfg5.N) (i : S1x128.Idx) :
    i ∈ ((cfg5.win 6).blk t).view.set
      ↔ ∀ a : Fin 2, win5_6.index t a * S1x128.size a ≤ (i a).val ∧ (i a).val < win5_6.index t a * S1x128.size a + S1x128.size a := by
  show i ∈ ((View.whole main_v83_1).slice (win5_6.rect t)).set ↔ _
  rw [View.set_slice_whole, Rect.mem_set_unit]
  exact Iff.rfl

theorem cover5_6 (c : Dev nD) (i : S1x128.Idx) :
    ∃ t : Fin cfg5.N, (cfg5.win 6).flush t = true ∧ i ∈ ((cfg5.win 6).blk t).view.set := by
  have h19 : 19 < cfg5.N := by rw [show cfg5.N = 20 from N_5]; decide
  obtain ⟨e00, e01, e10, e11, e20, e21, e30, e31, e40, e41, e50, e51, e60, e61, e70, e71⟩ := idx5 ⟨19, h19⟩
  have hi0 : (i 0).val < 1 := (i 0).isLt
  have hi1 : (i 1).val < 128 := (i 1).isLt
  refine ⟨⟨19, h19⟩, (flush5_6 ⟨19, h19⟩).mpr rfl, ?_⟩
  rw [mem_blk5_6]
  intro a
  match a with
  | ⟨0, _⟩ =>
    show win5_6.index ⟨19, h19⟩ (0 : Fin 2) * 1 ≤ (i 0).val ∧ (i 0).val < win5_6.index ⟨19, h19⟩ (0 : Fin 2) * 1 + 1
    rw [e60]; omega
  | ⟨1, _⟩ =>
    show win5_6.index ⟨19, h19⟩ (1 : Fin 2) * 128 ≤ (i 1).val ∧ (i 1).val < win5_6.index ⟨19, h19⟩ (1 : Fin 2) * 128 + 128
    rw [e61]; omega

/-- THE ROW OF COLUMN SUMS after the region. -/
theorem final5_6 (c : Dev nD) :
    (dat5 V c).arrAt 6 cfg5.N = Cert.Spec.colSum (Cert.Spec.conv (V c (Pipeline.arrRef spec5 0)) (V c (Pipeline.arrRef spec5 1)) (V c (Pipeline.arrRef spec5 2)) (V c (Pipeline.arrRef spec5 3)) (V c (Pipeline.arrRef spec5 4))) :=
  (dat5 V c).arrAt_eq_of_cover 6 (Cert.Spec.colSum (convY5 V c)) (flushed5_6_eq V c) (cover5_6 c)

theorem total5_7 (c : Dev nD) (n : ℕ) (hn : n < cfg5.N) (h19 : n = 19) (q : Fin 128) :
    (∑ s : Fin (n + 1), ∑ r : Fin 5000,
        yblk5 V c ⟨s.val, Nat.lt_of_lt_of_le s.isLt hn⟩ (ix2 r q) * yblk5 V c ⟨s.val, Nat.lt_of_lt_of_le s.isLt hn⟩ (ix2 r q))
      = ∑ p : Fin 100000, convY5 V c (ix2 p q) * convY5 V c (ix2 p q) := by
  subst h19
  refine Eq.trans ?_ (sum_rows5 (fun p => convY5 V c (ix2 p q) * convY5 V c (ix2 p q))).symm
  refine Finset.sum_congr rfl fun s _ => Finset.sum_congr rfl fun r _ => ?_
  rw [yblk5_apply]
  rfl

theorem row5_7_eq (c : Dev nD) (t : Fin cfg5.N) (h19 : t.val = 19) :
    (outsAt5 V c t.val t.isLt).2.2 = (Cert.Spec.colSumSq (convY5 V c) : Vec Ideal S1x128 .f32) := by
  funext j
  obtain ⟨u, q, rfl⟩ : ∃ (u : Fin 1) (q : Fin 128), j = ix2 u q := ⟨j 0, j 1, eq_ix2 j⟩
  rw [Cert.Spec.colSumSq_apply, sq_after5 V c t.val t.isLt u q]
  exact total5_7 V c t.val t.isLt h19 q

/-- The accumulator row's one block is its whole array: written back, any row is read through it unchanged. -/
theorem whole5_7 (t : Fin cfg5.N) (G : S1x128.Idx → EReal) :
    (cfg5.win 7).cut (grid5.coords t) G = ((cfg5.win 7).blk t).view.read (Elt Ideal) G := by
  obtain ⟨e00, e01, e10, e11, e20, e21, e30, e31, e40, e41, e50, e51, e60, e61, e70, e71⟩ := idx5 t
  funext j
  show G _ = G (((cfg5.win 7).blk t).view.emb j)
  refine congrArg G (funext fun a => Fin.ext ?_)
  match a with
  | ⟨0, _⟩ => show (j 0).val = win5_7.index t (0 : Fin 2) * 1 + 1 * (j 0).val; rw [e70]; omega
  | ⟨1, _⟩ => show (j 1).val = win5_7.index t (1 : Fin 2) * 128 + 1 * (j 1).val; rw [e71]; omega

theorem flushed5_7_eq (c : Dev nD) (t : Fin cfg5.N) (hf : (cfg5.win 7).flush t = true) :
    (dat5 V c).flushed 7 t = ((cfg5.win 7).blk t).view.read (Elt Ideal) (Cert.Spec.colSumSq (convY5 V c)) := by
  have hN : t.val < 20 := lt_of_lt_of_eq t.isLt (show cfg5.N = 20 from N_5)
  have h19 : t.val = 19 := by have := (flush5_7 t).mp hf; omega
  show (cfg5.win 7).cut (grid5.coords t) ((dat5 V c).after 7 t) = _
  rw [after5_7, row5_7_eq V c t h19]
  exact whole5_7 t _

theorem mem_blk5_7 (t : Fin cfg5.N) (i : S1x128.Idx) :
    i ∈ ((cfg5.win 7).blk t).view.set
      ↔ ∀ a : Fin 2, win5_7.index t a * S1x128.size a ≤ (i a).val ∧ (i a).val < win5_7.index t a * S1x128.size a + S1x128.size a := by
  show i ∈ ((View.whole main_v83_2).slice (win5_7.rect t)).set ↔ _
  rw [View.set_slice_whole, Rect.mem_set_unit]
  exact Iff.rfl

theorem cover5_7 (c : Dev nD) (i : S1x128.Idx) :
    ∃ t : Fin cfg5.N, (cfg5.win 7).flush t = true ∧ i ∈ ((cfg5.win 7).blk t).view.set := by
  have h19 : 19 < cfg5.N := by rw [show cfg5.N = 20 from N_5]; decide
  obtain ⟨e00, e01, e10, e11, e20, e21, e30, e31, e40, e41, e50, e51, e60, e61, e70, e71⟩ := idx5 ⟨19, h19⟩
  have hi0 : (i 0).val < 1 := (i 0).isLt
  have hi1 : (i 1).val < 128 := (i 1).isLt
  refine ⟨⟨19, h19⟩, (flush5_7 ⟨19, h19⟩).mpr rfl, ?_⟩
  rw [mem_blk5_7]
  intro a
  match a with
  | ⟨0, _⟩ =>
    show win5_7.index ⟨19, h19⟩ (0 : Fin 2) * 1 ≤ (i 0).val ∧ (i 0).val < win5_7.index ⟨19, h19⟩ (0 : Fin 2) * 1 + 1
    rw [e70]; omega
  | ⟨1, _⟩ =>
    show win5_7.index ⟨19, h19⟩ (1 : Fin 2) * 128 ≤ (i 1).val ∧ (i 1).val < win5_7.index ⟨19, h19⟩ (1 : Fin 2) * 128 + 128
    rw [e71]; omega

/-- THE ROW OF COLUMN SUMS OF SQUARES after the region. -/
theorem final5_7 (c : Dev nD) :
    (dat5 V c).arrAt 7 cfg5.N = Cert.Spec.colSumSq (Cert.Spec.conv (V c (Pipeline.arrRef spec5 0)) (V c (Pipeline.arrRef spec5 1)) (V c (Pipeline.arrRef spec5 2)) (V c (Pipeline.arrRef spec5 3)) (V c (Pipeline.arrRef spec5 4))) :=
  (dat5 V c).arrAt_eq_of_cover 7 (Cert.Spec.colSumSq (convY5 V c)) (flushed5_7_eq V c) (cover5_7 c)

end Cert.KernelIdeal.RegionValue

end
-- ==== Proof.KValue.lean ====
/-
  Layers 2 and 3, the classifier, and the kernel program's result as the network (variance as mean of squares minus
  squared mean) of its arguments. Each layer repeats the first one's reading at its own boundaries and buffers.
-/
import proofs.«136904_j51402168598679_1_alg».proof.Proof.KFold
import proofs.«136904_j51402168598679_1_alg».proof.Proof.KRegionBn4
import proofs.«136904_j51402168598679_1_alg».proof.Proof.KRegionBn6
import proofs.«136904_j51402168598679_1_alg».proof.Proof.KRegionLinOut
import proofs.«136904_j51402168598679_1_alg».proof.Proof.KSageArray3
import proofs.«136904_j51402168598679_1_alg».proof.Proof.KSageArray5

set_option maxRecDepth 16384

noncomputable section

namespace Cert.KernelIdeal.Fold

open Cert.KernelIdeal Cert.KernelIdeal.Gen Cert.KernelIdeal.Walk Cert.KernelIdeal.Stretch Cert.KernelIdeal.Agg
  Cert.KernelIdeal.RegionValue Cert.Spec Cert.Net
open Idealize.ShloMosaic Idealize.ShloMosaic.TcCoe Idealize.SL.Sem

variable (m : (ℓ : Loc nD τ sig) → Buf (Elt Ideal) ℓ) (ρ : Dev nD → PrngReg) (c : Dev nD)

/-- Layer 2: from the first normalisation kernel's output to the second's. -/
theorem layer2_eq (H : Mat 100000 128) (hH : (W6 m ρ c (Proc.devRef .tc main_v34) : Mat 100000 128) = H) :
    (W10 m ρ c (Proc.devRef .tc main_v63) : Mat 100000 128)
      = layerSq (aggBody (srcOf (m ((c : Thread nD τ).loc main_arg1))) (dstOf (m ((c : Thread nD τ).loc main_arg1))))
          (Ideal.ofBits .f32 0x47C35000#32) (Ideal.ofBits .f32 0x3727C5AC#32) H
          (m ((c : Thread nD τ).loc main_arg9)) (m ((c : Thread nD τ).loc main_arg10))
          (row (m ((c : Thread nD τ).loc main_arg11))) (row (m ((c : Thread nD τ).loc main_arg12)))
          (row (m ((c : Thread nD τ).loc main_arg13))) := by
  have i0 : (W7 m ρ c (Proc.devRef .tc main_v34) : Mat 100000 128) = H := (v34_at7 m ρ c).trans hH
  have i1 : (W7 m ρ c (Proc.devRef .tc main_v52) : Mat 100000 128)
      = aggBody (srcOf (m ((c : Thread nD τ).loc main_arg1))) (dstOf (m ((c : Thread nD τ).loc main_arg1))) H := by
    refine (s3_v52 (W6 m ρ c)).trans ?_
    rw [v1_at6 m ρ c, v3_at6 m ρ c, src_at1 m ρ c, dst_at1 m ρ c, hH]
  have i4 : (W7 m ρ c (Proc.devRef .tc main_v53) : Mat 1 128) = row (m ((c : Thread nD τ).loc main_arg11)) := by
    refine (s3_v53 (W6 m ρ c)).trans ?_
    rw [arg11_at6 m ρ c]
  obtain ⟨Y, hYdef⟩ : ∃ Y : Mat 100000 128, Y = conv H
      (aggBody (srcOf (m ((c : Thread nD τ).loc main_arg1))) (dstOf (m ((c : Thread nD τ).loc main_arg1))) H)
      (m ((c : Thread nD τ).loc main_arg9)) (m ((c : Thread nD τ).loc main_arg10))
      (row (m ((c : Thread nD τ).loc main_arg11))) := ⟨_, rfl⟩
  have hY : (W8 m ρ c (Proc.devRef .tc main_v54_0) : Mat 100000 128) = Y := by
    refine ((W8_arr m ρ c 5).trans (final3_5 (V7 m ρ) c)).trans ?_
    show conv (W7 m ρ c (Proc.devRef .tc main_v34)) (W7 m ρ c (Proc.devRef .tc main_v52))
      (W7 m ρ c (Proc.devRef .tc main_arg9)) (W7 m ρ c (Proc.devRef .tc main_arg10))
      (W7 m ρ c (Proc.devRef .tc main_v53)) = _
    rw [i0, i1, arg9_at7 m ρ c, arg10_at7 m ρ c, i4, hYdef]
  have hS : (W8 m ρ c (Proc.devRef .tc main_v54_1) : Mat 1 128) = colSum Y := by
    refine ((W8_arr m ρ c 6).trans (final3_6 (V7 m ρ) c)).trans ?_
    show colSum (conv (W7 m ρ c (Proc.devRef .tc main_v34)) (W7 m ρ c (Proc.devRef .tc main_v52))
      (W7 m ρ c (Proc.devRef .tc main_arg9)) (W7 m ρ c (Proc.devRef .tc main_arg10))
      (W7 m ρ c (Proc.devRef .tc main_v53))) = _
    rw [i0, i1, arg9_at7 m ρ c, arg10_at7 m ρ c, i4, hYdef]
  have hSS : (W8 m ρ c (Proc.devRef .tc main_v54_2) : Mat 1 128) = colSumSq Y := by
    refine ((W8_arr m ρ c 7).trans (final3_7 (V7 m ρ) c)).trans ?_
    show colSumSq (conv (W7 m ρ c (Proc.devRef .tc main_v34)) (W7 m ρ c (Proc.devRef .tc main_v52))
      (W7 m ρ c (Proc.devRef .tc main_arg9)) (W7 m ρ c (Proc.devRef .tc main_arg10))
      (W7 m ρ c (Proc.devRef .tc main_v53))) = _
    rw [i0, i1, arg9_at7 m ρ c, arg10_at7 m ρ c, i4, hYdef]
  have j0 : (W9 m ρ c (Proc.devRef .tc main_v54_0) : Mat 100000 128) = Y := (v54_0_at9 m ρ c).trans hY
  have j1 : (W9 m ρ c (Proc.devRef .tc main_v56) : Mat 1 128) = mean (Ideal.ofBits .f32 0x47C35000#32) Y := by
    refine (s4_v56 (W8 m ρ c)).trans ?_
    rw [hS]; rfl
  have j2 : (W9 m ρ c (Proc.devRef .tc main_v60) : Mat 1 128)
      = varOfSquares (Ideal.ofBits .f32 0x47C35000#32) Y := by
    refine (s4_v60 (W8 m ρ c)).trans ?_
    rw [hS, hSS]; rfl
  have j3 : (W9 m ρ c (Proc.devRef .tc main_v61) : Mat 1 128) = row (m ((c : Thread nD τ).loc main_arg12)) := by
    refine (s4_v61 (W8 m ρ c)).trans ?_
    rw [arg12_at8 m ρ c]
  have j4 : (W9 m ρ c (Proc.devRef .tc main_v62) : Mat 1 128) = row (m ((c : Thread nD τ).loc main_arg13)) := by
    refine (s4_v62 (W8 m ρ c)).trans ?_
    rw [arg13_at8 m ρ c]
  refine ((W10_arr m ρ c 5).trans (final4 (V9 m ρ) c)).trans ?_
  show bnRelu (Ideal.ofBits .f32 0x3727C5AC#32) (W9 m ρ c (Proc.devRef .tc main_v54_0))
    (W9 m ρ c (Proc.devRef .tc main_v56)) (W9 m ρ c (Proc.devRef .tc main_v60))
    (W9 m ρ c (Proc.devRef .tc main_v61)) (W9 m ρ c (Proc.devRef .tc main_v62)) = _
  rw [j0, j1, j2, j3, j4, hYdef]
  rfl

/-- Layer 3: from the second normalisation kernel's output to the third's. -/
theorem layer3_eq (H : Mat 100000 128) (hH : (W10 m ρ c (Proc.devRef .tc main_v63) : Mat 100000 128) = H) :
    (W14 m ρ c (Proc.devRef .tc main_v92) : Mat 100000 128)
      = layerSq (aggBody (srcOf (m ((c : Thread nD τ).loc main_arg1))) (dstOf (m ((c : Thread nD τ).loc main_arg1))))
          (Ideal.ofBits .f32 0x47C35000#32) (Ideal.ofBits .f32 0x3727C5AC#32) H
          (m ((c : Thread nD τ).loc main_arg14)) (m ((c : Thread nD τ).loc main_arg15))
          (row (m ((c : Thread nD τ).loc main_arg16))) (row (m ((c : Thread nD τ).loc main_arg17)))
          (row (m ((c : Thread nD τ).loc main_arg18))) := by
  have i0 : (W11 m ρ c (Proc.devRef .tc main_v63) : Mat 100000 128) = H := (v63_at11 m ρ c).trans hH
  have i1 : (W11 m ρ c (Proc.devRef .tc main_v81) : Mat 100000 128)
      = aggBody (srcOf (m ((c : Thread nD τ).loc main_arg1))) (dstOf (m ((c : Thread nD τ).loc main_arg1))) H := by
    refine (s5_v81 (W10 m ρ c)).trans ?_
    rw [v1_at10 m ρ c, v3_at10 m ρ c, src_at1 m ρ c, dst_at1 m ρ c, hH]
  have i4 : (W11 m ρ c (Proc.devRef .tc main_v82) : Mat 1 128) = row (m ((c : Thread nD τ).loc main_arg16)) := by
    refine (s5_v82 (W10 m ρ c)).trans ?_
    rw [arg16_at10 m ρ c]
  obtain ⟨Y, hYdef⟩ : ∃ Y : Mat 100000 128, Y = conv H
      (aggBody (srcOf (m ((c : Thread nD τ).loc main_arg1))) (dstOf (m ((c : Thread nD τ).loc main_arg1))) H)
      (m ((c : Thread nD τ).loc main_arg14)) (m ((c : Thread nD τ).loc main_arg15))
      (row (m ((c : Thread nD τ).loc main_arg16))) := ⟨_, rfl⟩
  have hY : (W12 m ρ c (Proc.devRef .tc main_v83_0) : Mat 100000 128) = Y := by
    refine ((W12_arr m ρ c 5).trans (final5_5 (V11 m ρ) c)).trans ?_
    show conv (W11 m ρ c (Proc.devRef .tc main_v63)) (W11 m ρ c (Proc.devRef .tc main_v81))
      (W11 m ρ c (Proc.devRef .tc main_arg14)) (W11 m ρ c (Proc.devRef .tc main_arg15))
      (W11 m ρ c (Proc.devRef .tc main_v82)) = _
    rw [i0, i1, arg14_at11 m ρ c, arg15_at11 m ρ c, i4, hYdef]
  have hS : (W12 m ρ c (Proc.devRef .tc main_v83_1) : Mat 1 128) = colSum Y := by
    refine ((W12_arr m ρ c 6).trans (final5_6 (V11 m ρ) c)).trans ?_
    show colSum (conv (W11 m ρ c (Proc.devRef .tc main_v63)) (W11 m ρ c (Proc.devRef .tc main_v81))
      (W11 m ρ c (Proc.devRef .tc main_arg14)) (W11 m ρ c (Proc.devRef .tc main_arg15))
      (W11 m ρ c (Proc.devRef .tc main_v82))) = _
    rw [i0, i1, arg14_at11 m ρ c, arg15_at11 m ρ c, i4, hYdef]
  have hSS : (W12 m ρ c (Proc.devRef .tc main_v83_2) : Mat 1 128) = colSumSq Y := by
    refine ((W12_arr m ρ c 7).trans (final5_7 (V11 m ρ) c)).trans ?_
    show colSumSq (conv (W11 m ρ c (Proc.devRef .tc main_v63)) (W11 m ρ c (Proc.devRef .tc main_v81))
      (W11 m ρ c (Proc.devRef .tc main_arg14)) (W11 m ρ c (Proc.devRef .tc main_arg15))
      (W11 m ρ c (Proc.devRef .tc main_v82))) = _
    rw [i0, i1, arg14_at11 m ρ c, arg15_at11 m ρ c, i4, hYdef]
  have j0 : (W13 m ρ c (Proc.devRef .tc main_v83_0) : Mat 100000 128) = Y := (v83_0_at13 m ρ c).trans hY
  have j1 : (W13 m ρ c (Proc.devRef .tc main_v85) : Mat 1 128) = mean (Ideal.ofBits .f32 0x47C35000#32) Y := by
    refine (s6_v85 (W12 m ρ c)).trans ?_
    rw [hS]; rfl
  have j2 : (W13 m ρ c (Proc.devRef .tc main_v89) : Mat 1 128)
      = varOfSquares (Ideal.ofBits .f32 0x47C35000#32) Y := by
    refine (s6_v89 (W12 m ρ c)).trans ?_
    rw [hS, hSS]; rfl
  have j3 : (W13 m ρ c (Proc.devRef .tc main_v90) : Mat 1 128) = row (m ((c : Thread nD τ).loc main_arg17)) := by
    refine (s6_v90 (W12 m ρ c)).trans ?_
    rw [arg17_at12 m ρ c]
  have j4 : (W13 m ρ c (Proc.devRef .tc main_v91) : Mat 1 128) = row (m ((c : Thread nD τ).loc main_arg18)) := by
    refine (s6_v91 (W12 m ρ c)).trans ?_
    rw [arg18_at12 m ρ c]
  refine ((W14_arr m ρ c 5).trans (final6 (V13 m ρ) c)).trans ?_
  show bnRelu (Ideal.ofBits .f32 0x3727C5AC#32) (W13 m ρ c (Proc.devRef .tc main_v83_0))
    (W13 m ρ c (Proc.devRef .tc main_v85)) (W13 m ρ c (Proc.devRef .tc main_v89))
    (W13 m ρ c (Proc.devRef .tc main_v90)) (W13 m ρ c (Proc.devRef .tc main_v91)) = _
  rw [j0, j1, j2, j3, j4, hYdef]
  rfl

/-- The classifier kernel leaves the dense layer of the last array. -/
theorem cls_eq (H : Mat 100000 128) (hH : (W14 m ρ c (Proc.devRef .tc main_v92) : Mat 100000 128) = H) :
    (W16 m ρ c (Proc.devRef .tc main_v94) : Mat 100000 2)
      = dense H (m ((c : Thread nD τ).loc main_arg19)) (row (m ((c : Thread nD τ).loc main_arg20))) := by
  have i0 : (W15 m ρ c (Proc.devRef .tc main_v92) : Mat 100000 128) = H := (v92_at15 m ρ c).trans hH
  have i2 : (W15 m ρ c (Proc.devRef .tc main_v93) : Mat 1 2) = row (m ((c : Thread nD τ).loc main_arg20)) := by
    refine (s7_v93 (W14 m ρ c)).trans ?_
    rw [arg20_at14 m ρ c]
  refine ((W16_arr m ρ c 3).trans (final7 (V15 m ρ) c)).trans ?_
  show dense (W15 m ρ c (Proc.devRef .tc main_v92)) (W15 m ρ c (Proc.devRef .tc main_arg19))
    (W15 m ρ c (Proc.devRef .tc main_v93)) = _
  rw [i0, arg19_at15 m ρ c, i2]

/-- The kernel program's result buffer at the last boundary is the network of the arguments. -/
theorem kernel_value : (W16 m ρ c (Proc.devRef .tc main_v94) : Mat 100000 2)
    = netSq (aggBody (srcOf (m ((c : Thread nD τ).loc main_arg1))) (dstOf (m ((c : Thread nD τ).loc main_arg1))))
        (Ideal.ofBits .f32 0x47C35000#32) (Ideal.ofBits .f32 0x3727C5AC#32)
        (m ((c : Thread nD τ).loc main_arg0)) (m ((c : Thread nD τ).loc main_arg2))
        (row (m ((c : Thread nD τ).loc main_arg3)))
        (m ((c : Thread nD τ).loc main_arg4)) (m ((c : Thread nD τ).loc main_arg5))
        (row (m ((c : Thread nD τ).loc main_arg6))) (row (m ((c : Thread nD τ).loc main_arg7)))
        (row (m ((c : Thread nD τ).loc main_arg8)))
        (m ((c : Thread nD τ).loc main_arg9)) (m ((c : Thread nD τ).loc main_arg10))
        (row (m ((c : Thread nD τ).loc main_arg11))) (row (m ((c : Thread nD τ).loc main_arg12)))
        (row (m ((c : Thread nD τ).loc main_arg13)))
        (m ((c : Thread nD τ).loc main_arg14)) (m ((c : Thread nD τ).loc main_arg15))
        (row (m ((c : Thread nD τ).loc main_arg16))) (row (m ((c : Thread nD τ).loc main_arg17)))
        (row (m ((c : Thread nD τ).loc main_arg18)))
        (m ((c : Thread nD τ).loc main_arg19)) (row (m ((c : Thread nD τ).loc main_arg20))) :=
  cls_eq m ρ c _ (layer3_eq m ρ c _ (layer2_eq m ρ c _ (layer1_eq m ρ c _ (emb_eq m ρ c))))

end Cert.KernelIdeal.Fold

end
-- ==== Proof.RefStages.lean ====
/-
  The reference network's stages, each as the composition of the host operations that compute it, at the ideal
  instance: a float is an extended real and every operation is its textbook one. The three layers apply the same
  stages to different arguments. The edge array's two rows are the source and the destination node of each edge.
-/
import proofs.«136904_j51402168598679_1_alg».proof.Proof.Gen.ReferenceIdeal
import Idealize.ShloMosaic.PureOps.Ideal

noncomputable section

namespace Cert.ReferenceIdeal.HandRun

open Cert.ReferenceIdeal Cert.ReferenceIdeal.Gen Idealize.ShloMosaic

/-- A node-feature matrix: one row per node. -/
abbrev NodeMat := FVec Ideal S100000x128 .f32
/-- A per-feature vector. -/
abbrev FeatVec := FVec Ideal S128 .f32

/-- A per-feature vector as one row. -/
abbrev asRow (v : FeatVec) : FVec Ideal S1x128 .f32 := broadcastInDim S1x128 ![1] bcast_S128_S1x128_1 v
/-- One row repeated for every node. -/
abbrev overNodes (v : FVec Ideal S1x128 .f32) : NodeMat := broadcastInDim S100000x128 ![0, 1] bcast_S1x128_S100000x128_0_1 v

/-- The source node of each edge: row 0 of the edge array, as a vector. -/
def srcR (e : IVec S2x1600000 32) : IVec S1600000 32 :=
  fun i => shapeCast S1600000 (extractStridedSlice S1x1600000 ![0, 0] e slices_S2x1600000_S1x1600000_0_0) shapeCasts_S1x1600000_S1600000 i

/-- The destination node of each edge: row 1 of the edge array, as a vector. -/
def dstR (e : IVec S2x1600000 32) : IVec S1600000 32 :=
  fun i => shapeCast S1600000 (extractStridedSlice S1x1600000 ![1, 0] e slices_S2x1600000_S1x1600000_1_0) shapeCasts_S1x1600000_S1600000 i

/-- The dense layer x · wᵀ + b: the weight transposed, the product, the bias as a row repeated for every node. -/
def denseR (x : NodeMat) (w : FVec Ideal S128x128 .f32) (b : FeatVec) : NodeMat :=
  addf (Host.dotGeneral dot_S100000x128_S128x128_S100000x128_1_0_0_1_n_n none x
      (transpose S128x128 [1, 0] w transposes_S128x128_S128x128_1_0))
    (overNodes (asRow b))

/-- The mean of the neighbours' features. A negative source index is wrapped by the node count; the rows of h at the
    sources are gathered, added into the destinations' rows of a zero matrix, and divided by the number of edges that
    arrive at the node (a sum of ones), taken to be at least one. -/
def aggBody (src dst : IVec S1600000 32) (h : NodeMat) : NodeMat :=
  Host.divf
    (Host.scatterAdd scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 dst)
      (Host.gather gather_S100000x128_S1600000x1_S1600000x128_1_0_n_n_0_1_1128 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))))
    (broadcastInDim S100000x128 ![0, 1] bcast_S100000x1_S100000x128_0_1
      (maximumf
        (Host.scatterAdd scatter_S100000x1_S1600000x1_S1600000x1_1_0_0_1
          (broadcastInDim S100000x1 ![] bcast_S_S100000x1 (constant (F := Ideal) S_ .f32 0x00000000#32))
          (broadcastInDim S1600000x1 ![0] bcast_S1600000_S1600000x1_0 dst)
          (broadcastInDim S1600000x1 ![] bcast_S_S1600000x1 (constant (F := Ideal) S_ .f32 0x3F800000#32)))
        (broadcastInDim S100000x1 ![] bcast_S_S100000x1 (constant (F := Ideal) S_ .f32 0x3F800000#32))))

/-- The aggregation as a function of the edge array. -/
def aggR (e : IVec S2x1600000 32) (h : NodeMat) : NodeMat := aggBody (srcR e) (dstR e) h

/-- The convolution (h · wlᵀ + b) + a · wrᵀ of a node's own features h and the aggregated features a. -/
def convR (h a : NodeMat) (wl wr : FVec Ideal S128x128 .f32) (b : FeatVec) : NodeMat :=
  addf
    (addf (Host.dotGeneral dot_S100000x128_S128x128_S100000x128_1_0_0_1_n_n none h
        (transpose S128x128 [1, 0] wl transposes_S128x128_S128x128_1_0))
      (overNodes (asRow b)))
    (Host.dotGeneral dot_S100000x128_S128x128_S100000x128_1_0_0_1_n_n none a
      (transpose S128x128 [1, 0] wr transposes_S128x128_S128x128_1_0))

/-- The column mean: the sum over the nodes divided by the node count. -/
def meanR (y : NodeMat) : FeatVec :=
  Host.divf (Host.reduceAdd y (constant (F := Ideal) S_ .f32 0x00000000#32) reducesTo_S100000x128_S128_d0 h_S_)
    (broadcastInDim S128 ![] bcast_S_S128 (constant (F := Ideal) S_ .f32 0x47C35000#32))

/-- The deviations from the column mean, as the variance computes them. -/
def devR (y : NodeMat) : NodeMat :=
  subf y (overNodes (Host.divf
    (asRow (Host.reduceAdd y (constant (F := Ideal) S_ .f32 0x00000000#32) reducesTo_S100000x128_S128_d0 h_S_))
    (broadcastInDim S1x128 ![] bcast_S_S1x128 (constant (F := Ideal) S_ .f32 0x47C35000#32))))

/-- The divisor of the variance: the node count minus a correction that is the integer zero. -/
def cntR : FVec Ideal S_ .f32 :=
  subf (constant (F := Ideal) S_ .f32 0x47C35000#32) (sitofp (F := Ideal) .f32 (constantI S_ 32 0#32))

/-- The column variance: the mean of the squared deviations where the divisor is positive, a fixed word otherwise. -/
def varR (y : NodeMat) : FeatVec :=
  select (broadcastInDim S128 ![] bcast_S_S128 (cmpf .ogt cntR (constant (F := Ideal) S_ .f32 0x00000000#32)))
    (Host.divf
      (Host.reduceAdd (mulf (devR y) (devR y)) (constant (F := Ideal) S_ .f32 0x00000000#32) reducesTo_S100000x128_S128_d0 h_S_)
      (broadcastInDim S128 ![] bcast_S_S128 cntR))
    (broadcastInDim S128 ![] bcast_S_S128 (id (constant (F := Ideal) S_ .f32 0x7FC00000#32)))

/-- Normalise, scale, shift, rectify: max ((y − mu) · rsqrt (var + ε) · g + be, 0). -/
def bnReluR (y : NodeMat) (mu var g be : FeatVec) : NodeMat :=
  maximumf
    (addf
      (mulf
        (mulf (subf y (overNodes (asRow mu)))
          (overNodes (asRow (Host.rsqrt (addf var
            (broadcastInDim S128 ![] bcast_S_S128 (constant (F := Ideal) S_ .f32 0x3727C5AC#32)))))))
        (overNodes (asRow g)))
      (overNodes (asRow be)))
    (broadcastInDim S100000x128 ![] bcast_S_S100000x128 (constant (F := Ideal) S_ .f32 0x00000000#32))

/-- One layer from the edges' sources and destinations: aggregate, convolve, normalise by the convolution's own
    column mean and variance, rectify. -/
def layerBody (src dst : IVec S1600000 32) (h : NodeMat) (wl wr : FVec Ideal S128x128 .f32) (b g be : FeatVec) : NodeMat :=
  bnReluR (convR h (aggBody src dst h) wl wr b) (meanR (convR h (aggBody src dst h) wl wr b))
    (varR (convR h (aggBody src dst h) wl wr b)) g be

/-- One layer as a function of the edge array. -/
def layerR (e : IVec S2x1600000 32) (h : NodeMat) (wl wr : FVec Ideal S128x128 .f32) (b g be : FeatVec) : NodeMat :=
  layerBody (srcR e) (dstR e) h wl wr b g be

/-- The classifier h · wᵀ + b into two classes. -/
def clsR (h : NodeMat) (w : FVec Ideal S2x128 .f32) (b : FVec Ideal S2 .f32) : FVec Ideal S100000x2 .f32 :=
  addf (Host.dotGeneral dot_S100000x128_S128x2_S100000x2_1_0_0_1_n_n none h
      (transpose S128x2 [1, 0] w transposes_S2x128_S128x2_1_0))
    (broadcastInDim S100000x2 ![0, 1] bcast_S1x2_S100000x2_0_1 (broadcastInDim S1x2 ![1] bcast_S2_S1x2_1 b))

/-- The whole network: embedding, three layers, classifier. -/
def netR (x : NodeMat) (e : IVec S2x1600000 32) (ew : FVec Ideal S128x128 .f32) (eb : FeatVec)
    (w1l w1r : FVec Ideal S128x128 .f32) (b1 g1 be1 : FeatVec)
    (w2l w2r : FVec Ideal S128x128 .f32) (b2 g2 be2 : FeatVec)
    (w3l w3r : FVec Ideal S128x128 .f32) (b3 g3 be3 : FeatVec)
    (cw : FVec Ideal S2x128 .f32) (cb : FVec Ideal S2 .f32) : FVec Ideal S100000x2 .f32 :=
  clsR (layerR e (layerR e (layerR e (denseR x ew eb) w1l w1r b1 g1 be1) w2l w2r b2 g2 be2) w3l w3r b3 g3 be3) cw cb

end Cert.ReferenceIdeal.HandRun

end
-- ==== Proof.RefOps.lean ====
/-
  The reference program as lists of its host operations: @main's statements in order, each call replaced by the
  callee's operations over that call's own buffers (the variance's body, which itself calls the select wrapper, and
  the rectifier's body). The list is cut where the mathematics changes stage (edge rows, embedding, and per layer the
  aggregation, convolution, mean, variance, normalisation, and last the classifier) and where @main is cut
  into its four windows. Beside each piece, the list of the buffers its operations write, in the same order.
-/
import proofs.«136904_j51402168598679_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- 4 operations of window 0: the two rows of the edge array, each as a vector. -/
def edges : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000 ]
/-- The buffers that piece writes, in order. -/
abbrev edges_W : List (Ref sig .tc) := [main_v0, main_v1, main_v2, main_v3]

/-- 5 operations of window 0: the embedding. -/
def emb : List (HloOp τ sig (Elt F)) :=
  [ StableHlo.unary main_arg2 main_v4 ((transpose S128x128 [1, 0] · transposes_S128x128_S128x128_1_0) : (⟨S128x128, .f32⟩ : BufTy).Contents (Elt F) → (⟨S128x128, .f32⟩ : BufTy).Contents (Elt F)),
    StableHlo.binary main_arg0 main_v4 main_v5 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg3 main_v6 (broadcastInDim S1x128 ![1] bcast_S128_S1x128_1 : (⟨S128, .f32⟩ : BufTy).Contents (Elt F) → (⟨S1x128, .f32⟩ : BufTy).Contents (Elt F)),
    StableHlo.unary main_v6 main_v7 (broadcastInDim S100000x128 ![0, 1] bcast_S1x128_S100000x128_0_1 : (⟨S1x128, .f32⟩ : BufTy).Contents (Elt F) → (⟨S100000x128, .f32⟩ : BufTy).Contents (Elt F)),
    StableHlo.binary main_v5 main_v7 main_v8 (addf : (⟨S100000x128, .f32⟩ : BufTy).Contents (Elt F) → (⟨S100000x128, .f32⟩ : BufTy).Contents (Elt F) → (⟨S100000x128, .f32⟩ : BufTy).Contents (Elt F)) ]
/-- The buffers that piece writes, in order. -/
abbrev emb_W : List (Ref sig .tc) := [main_v4, main_v5, main_v6, main_v7, main_v8]

/-- 24 operations of window 0: layer 1, the aggregation. -/
def agg1 : List (HloOp τ sig (Elt F)) :=
  [ StableHlo.nullary main_c (constantI S_ 32 0#32),
    StableHlo.unary main_c main_v9 (broadcastInDim S1600000 ![] bcast_S_S1600000 : (⟨S_, .i32⟩ : BufTy).Contents (Elt F) → (⟨S1600000, .i32⟩ : BufTy).Contents (Elt F)),
    StableHlo.binary main_v1 main_v9 main_v10 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v11 (broadcastInDim S1600000 ![] bcast_S_S1600000 : (⟨S_, .i32⟩ : BufTy).Contents (Elt F) → (⟨S1600000, .i32⟩ : BufTy).Contents (Elt F)),
    StableHlo.binary main_v1 main_v11 main_v12 (addi : (⟨S1600000, .i32⟩ : BufTy).Contents (Elt F) → (⟨S1600000, .i32⟩ : BufTy).Contents (Elt F) → (⟨S1600000, .i32⟩ : BufTy).Contents (Elt F)),
    StableHlo.ternary main_v10 main_v12 main_v1 main_v13 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v13 main_v14 (broadcastInDim S1600000x1 ![0] bcast_S1600000_S1600000x1_0 : (⟨S1600000, .i32⟩ : BufTy).Contents (Elt F) → (⟨S1600000x1, .i32⟩ : BufTy).Contents (Elt F)),
    StableHlo.binary main_v8 main_v14 main_v15 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst (constant S_ .f32 0x00000000#32),
    StableHlo.unary main_cst main_v16 (broadcastInDim S100000x128 ![] bcast_S_S100000x128 : (⟨S_, .f32⟩ : BufTy).Contents (Elt F) → (⟨S100000x128, .f32⟩ : BufTy).Contents (Elt F)),
    StableHlo.unary main_v3 main_v17 (broadcastInDim S1600000x1 ![0] bcast_S1600000_S1600000x1_0 : (⟨S1600000, .i32⟩ : BufTy).Contents (Elt F) → (⟨S1600000x1, .i32⟩ : BufTy).Contents (Elt F)),
    StableHlo.ternary main_v16 main_v17 main_v15 main_v18 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_1 (constant S_ .f32 0x3F800000#32),
    StableHlo.unary main_cst_1 main_v19 (broadcastInDim S1600000x1 ![] bcast_S_S1600000x1 : (⟨S_, .f32⟩ : BufTy).Contents (Elt F) → (⟨S1600000x1, .f32⟩ : BufTy).Contents (Elt F)),
    StableHlo.nullary main_cst_2 (constant S_ .f32 0x00000000#32),
    StableHlo.unary main_cst_2 main_v20 (broadcastInDim S100000x1 ![] bcast_S_S100000x1 : (⟨S_, .f32⟩ : BufTy).Contents (Elt F) → (⟨S100000x1, .f32⟩ : BufTy).Contents (Elt F)),
    StableHlo.unary main_v3 main_v21 (broadcastInDim S1600000x1 ![0] bcast_S1600000_S1600000x1_0 : (⟨S1600000, .i32⟩ : BufTy).Contents (Elt F) → (⟨S1600000x1, .i32⟩ : BufTy).Contents (Elt F)),
    StableHlo.ternary main_v20 main_v21 main_v19 main_v22 ((fun x i u => Host.scatterAdd scatter_S100000x1_S1600000x1_S1600000x1_1_0_0_1 x i u) : (⟨S100000x1, .f32⟩ : BufTy).Contents (Elt F) → (⟨S1600000x1, .i32⟩ : BufTy).Contents (Elt F) → (⟨S1600000x1, .f32⟩ : BufTy).Contents (Elt F) → (⟨S100000x1, .f32⟩ : BufTy).Contents (Elt F)),
    StableHlo.nullary main_cst_3 (constant S_ .f32 0x3F800000#32),
    StableHlo.unary main_cst_3 main_v23 (broadcastInDim S100000x1 ![] bcast_S_S100000x1 : (⟨S_, .f32⟩ : BufTy).Contents (Elt F) → (⟨S100000x1, .f32⟩ : BufTy).Contents (Elt F)),
    StableHlo.binary main_v22 main_v23 main_v24 (maximumf : (⟨S100000x1, .f32⟩ : BufTy).Contents (Elt F) → (⟨S100000x1, .f32⟩ : BufTy).Contents (Elt F) → (⟨S100000x1, .f32⟩ : BufTy).Contents (Elt F)),
    StableHlo.unary main_v24 main_v25 (broadcastInDim S100000x128 ![0, 1] bcast_S100000x1_S100000x128_0_1 : (⟨S100000x1, .f32⟩ : BufTy).Contents (Elt F) → (⟨S100000x128, .f32⟩ : BufTy).Contents (Elt F)),
    StableHlo.binary main_v18 main_v25 main_v26 (Host.divf : (⟨S100000x128, .f32⟩ : BufTy).Contents (Elt F) → (⟨S100000x128, .f32⟩ : BufTy).Contents (Elt F) → (⟨S100000x128, .f32⟩ : BufTy).Contents (Elt F)) ]
/-- The buffers that piece writes, in order. -/
abbrev agg1_W : List (Ref sig .tc) := [main_c, main_v9, main_v10, main_c_0, main_v11, main_v12, main_v13, main_v14, main_v15, main_cst, main_v16, main_v17, main_v18, main_cst_1, main_v19, main_cst_2, main_v20, main_v21, main_v22, main_cst_3, main_v23, main_v24, main_v25, main_v26]

/-- 8 operations of window 0: layer 1, the convolution. -/
def conv1 : List (HloOp τ sig (Elt F)) :=
  [ StableHlo.unary main_arg4 main_v27 ((transpose S128x128 [1, 0] · transposes_S128x128_S128x128_1_0) : (⟨S128x128, .f32⟩ : BufTy).Contents (Elt F) → (⟨S128x128, .f32⟩ : BufTy).Contents (Elt F)),
    StableHlo.binary main_v8 main_v27 main_v28 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg6 main_v29 (broadcastInDim S1x128 ![1] bcast_S128_S1x128_1 : (⟨S128, .f32⟩ : BufTy).Contents (Elt F) → (⟨S1x128, .f32⟩ : BufTy).Contents (Elt F)),
    StableHlo.unary main_v29 main_v30 (broadcastInDim S100000x128 ![0, 1] bcast_S1x128_S100000x128_0_1 : (⟨S1x128, .f32⟩ : BufTy).Contents (Elt F) → (⟨S100000x128, .f32⟩ : BufTy).Contents (Elt F)),
    StableHlo.binary main_v28 main_v30 main_v31 (addf : (⟨S100000x128, .f32⟩ : BufTy).Contents (Elt F) → (⟨S100000x128, .f32⟩ : BufTy).Contents (Elt F) → (⟨S100000x128, .f32⟩ : BufTy).Contents (Elt F)),
    StableHlo.unary main_arg5 main_v32 ((transpose S128x128 [1, 0] · transposes_S128x128_S128x128_1_0) : (⟨S128x128, .f32⟩ : BufTy).Contents (Elt F) → (⟨S128x128, .f32⟩ : BufTy).Contents (Elt F)),
    StableHlo.binary main_v26 main_v32 main_v33 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v31 main_v33 main_v34 (addf : (⟨S100000x128, .f32⟩ : BufTy).Contents (Elt F) → (⟨S100000x128, .f32⟩ : BufTy).Contents (Elt F) → (⟨S100000x128, .f32⟩ : BufTy).Contents (Elt F)) ]
/-- The buffers that piece writes, in order. -/
abbrev conv1_W : List (Ref sig .tc) := [main_v27, main_v28, main_v29, main_v30, main_v31, main_v32, main_v33, main_v34]

/-- 5 operations of window 0: layer 1, the column mean. -/
def mean1 : List (HloOp τ sig (Elt F)) :=
  [ StableHlo.nullary main_cst_4 (constant S_ .f32 0x00000000#32),
    StableHlo.binary main_v34 main_cst_4 main_v35 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_5 (constant S_ .f32 0x47C35000#32),
    StableHlo.unary main_cst_5 main_v36 (broadcastInDim S128 ![] bcast_S_S128 : (⟨S_, .f32⟩ : BufTy).Contents (Elt F) → (⟨S128, .f32⟩ : BufTy).Contents (Elt F)),
    StableHlo.binary main_v35 main_v36 main_v37 (Host.divf : (⟨S128, .f32⟩ : BufTy).Contents (Elt F) → (⟨S128, .f32⟩ : BufTy).Contents (Elt F) → (⟨S128, .f32⟩ : BufTy).Contents (Elt F)) ]
/-- The buffers that piece writes, in order. -/
abbrev mean1_W : List (Ref sig .tc) := [main_cst_4, main_v35, main_cst_5, main_v36, main_v37]

/-- 23 operations of window 0: layer 1, the column variance (a call, and the call inside it). -/
def var1 : List (HloOp τ sig (Elt F)) :=
  [ StableHlo.nullary main_c_6 (constantI S_ 32 0#32),
    StableHlo.TRef.nullary main_call0.cst (constant S_ .f32 0x00000000#32),
    StableHlo.TRef.binary (.of main_v34 : StableHlo.TRef sig ⟨S100000x128, .f32⟩) main_call0.cst main_call0.v0 (fun x v => Host.reduceAdd x v reducesTo_S100000x128_S128_d0 h_S_),
    StableHlo.TRef.unary main_call0.v0 main_call0.v1 (broadcastInDim S1x128 ![1] bcast_S128_S1x128_1),
    StableHlo.TRef.nullary main_call0.cst_0 (constant S_ .f32 0x47C35000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S100000x128 ![0, 1] bcast_S1x128_S100000x128_0_1),
    StableHlo.TRef.binary (.of main_v34 : StableHlo.TRef sig ⟨S100000x128, .f32⟩) main_call0.v4 main_call0.v5 subf,
    StableHlo.TRef.binary main_call0.v5 main_call0.v5 main_call0.v6 mulf,
    StableHlo.TRef.unary (.of main_c_6 : StableHlo.TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b) ]
/-- The buffers that piece writes, in order. -/
abbrev var1_W : List (Ref sig .tc) := [main_c_6, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v38]

/-- 12 operations of window 0: layer 1, the normalisation up to the window's end. -/
def bn1a : List (HloOp τ sig (Elt F)) :=
  [ StableHlo.unary main_v37 main_v39 (broadcastInDim S1x128 ![1] bcast_S128_S1x128_1 : (⟨S128, .f32⟩ : BufTy).Contents (Elt F) → (⟨S1x128, .f32⟩ : BufTy).Contents (Elt F)),
    StableHlo.unary main_v39 main_v40 (broadcastInDim S100000x128 ![0, 1] bcast_S1x128_S100000x128_0_1 : (⟨S1x128, .f32⟩ : BufTy).Contents (Elt F) → (⟨S100000x128, .f32⟩ : BufTy).Contents (Elt F)),
    StableHlo.binary main_v34 main_v40 main_v41 (subf : (⟨S100000x128, .f32⟩ : BufTy).Contents (Elt F) → (⟨S100000x128, .f32⟩ : BufTy).Contents (Elt F) → (⟨S100000x128, .f32⟩ : BufTy).Contents (Elt F)),
    StableHlo.nullary main_cst_7 (constant S_ .f32 0x3727C5AC#32),
    StableHlo.unary main_cst_7 main_v42 (broadcastInDim S128 ![] bcast_S_S128 : (⟨S_, .f32⟩ : BufTy).Contents (Elt F) → (⟨S128, .f32⟩ : BufTy).Contents (Elt F)),
    StableHlo.binary main_v38 main_v42 main_v43 (addf : (⟨S128, .f32⟩ : BufTy).Contents (Elt F) → (⟨S128, .f32⟩ : BufTy).Contents (Elt F) → (⟨S128, .f32⟩ : BufTy).Contents (Elt F)),
    StableHlo.unary main_v43 main_v44 (Host.rsqrt : (⟨S128, .f32⟩ : BufTy).Contents (Elt F) → (⟨S128, .f32⟩ : BufTy).Contents (Elt F)),
    StableHlo.unary main_v44 main_v45 (broadcastInDim S1x128 ![1] bcast_S128_S1x128_1 : (⟨S128, .f32⟩ : BufTy).Contents (Elt F) → (⟨S1x128, .f32⟩ : BufTy).Contents (Elt F)),
    StableHlo.unary main_v45 main_v46 (broadcastInDim S100000x128 ![0, 1] bcast_S1x128_S100000x128_0_1 : (⟨S1x128, .f32⟩ : BufTy).Contents (Elt F) → (⟨S100000x128, .f32⟩ : BufTy).Contents (Elt F)),
    StableHlo.binary main_v41 main_v46 main_v47 (mulf : (⟨S100000x128, .f32⟩ : BufTy).Contents (Elt F) → (⟨S100000x128, .f32⟩ : BufTy).Contents (Elt F) → (⟨S100000x128, .f32⟩ : BufTy).Contents (Elt F)),
    StableHlo.unary main_arg7 main_v48 (broadcastInDim S1x128 ![1] bcast_S128_S1x128_1 : (⟨S128, .f32⟩ : BufTy).Contents (Elt F) → (⟨S1x128, .f32⟩ : BufTy).Contents (Elt F)),
    StableHlo.unary main_v48 main_v49 (broadcastInDim S100000x128 ![0, 1] bcast_S1x128_S100000x128_0_1 : (⟨S1x128, .f32⟩ : BufTy).Contents (Elt F) → (⟨S100000x128, .f32⟩ : BufTy).Contents (Elt F)) ]
/-- The buffers that piece writes, in order. -/
abbrev bn1a_W : List (Ref sig .tc) := [main_v39, main_v40, main_v41, main_cst_7, main_v42, main_v43, main_v44, main_v45, main_v46, main_v47, main_v48, main_v49]

/-- 7 operations of window 1: layer 1, the normalisation's rest and the rectifier (a call). -/
def bn1b : List (HloOp τ sig (Elt F)) :=
  [ StableHlo.binary main_v47 main_v49 main_v50 (mulf : (⟨S100000x128, .f32⟩ : BufTy).Contents (Elt F) → (⟨S100000x128, .f32⟩ : BufTy).Contents (Elt F) → (⟨S100000x128, .f32⟩ : BufTy).Contents (Elt F)),
    StableHlo.unary main_arg8 main_v51 (broadcastInDim S1x128 ![1] bcast_S128_S1x128_1 : (⟨S128, .f32⟩ : BufTy).Contents (Elt F) → (⟨S1x128, .f32⟩ : BufTy).Contents (Elt F)),
    StableHlo.unary main_v51 main_v52 (broadcastInDim S100000x128 ![0, 1] bcast_S1x128_S100000x128_0_1 : (⟨S1x128, .f32⟩ : BufTy).Contents (Elt F) → (⟨S100000x128, .f32⟩ : BufTy).Contents (Elt F)),
    StableHlo.binary main_v50 main_v52 main_v53 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v53 : StableHlo.TRef sig ⟨S100000x128, .f32⟩) main_call1.v0 main_call1.v1 maximumf ]
/-- The buffers that piece writes, in order. -/
abbrev bn1b_W : List (Ref sig .tc) := [main_v50, main_v51, main_v52, main_v53, main_call1_cst, main_call1_v0, main_v54]

/-- 24 operations of window 1: layer 2, the aggregation. -/
def agg2 : List (HloOp τ sig (Elt F)) :=
  [ StableHlo.nullary main_c_8 (constantI S_ 32 0#32),
    StableHlo.unary main_c_8 main_v55 (broadcastInDim S1600000 ![] bcast_S_S1600000 : (⟨S_, .i32⟩ : BufTy).Contents (Elt F) → (⟨S1600000, .i32⟩ : BufTy).Contents (Elt F)),
    StableHlo.binary main_v1 main_v55 main_v56 (cmpi .slt : (⟨S1600000, .i32⟩ : BufTy).Contents (Elt F) → (⟨S1600000, .i32⟩ : BufTy).Contents (Elt F) → (⟨S1600000, .i1⟩ : BufTy).Contents (Elt F)),
    StableHlo.nullary main_c_9 (constantI S_ 32 100000#32),
    StableHlo.unary main_c_9 main_v57 (broadcastInDim S1600000 ![] bcast_S_S1600000 : (⟨S_, .i32⟩ : BufTy).Contents (Elt F) → (⟨S1600000, .i32⟩ : BufTy).Contents (Elt F)),
    StableHlo.binary main_v1 main_v57 main_v58 (addi : (⟨S1600000, .i32⟩ : BufTy).Contents (Elt F) → (⟨S1600000, .i32⟩ : BufTy).Contents (Elt F) → (⟨S1600000, .i32⟩ : BufTy).Contents (Elt F)),
    StableHlo.ternary main_v56 main_v58 main_v1 main_v59 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v59 main_v60 (broadcastInDim S1600000x1 ![0] bcast_S1600000_S1600000x1_0 : (⟨S1600000, .i32⟩ : BufTy).Contents (Elt F) → (⟨S1600000x1, .i32⟩ : BufTy).Contents (Elt F)),
    StableHlo.binary main_v54 main_v60 main_v61 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_10 (constant S_ .f32 0x00000000#32),
    StableHlo.unary main_cst_10 main_v62 (broadcastInDim S100000x128 ![] bcast_S_S100000x128 : (⟨S_, .f32⟩ : BufTy).Contents (Elt F) → (⟨S100000x128, .f32⟩ : BufTy).Contents (Elt F)),
    StableHlo.unary main_v3 main_v63 (broadcastInDim S1600000x1 ![0] bcast_S1600000_S1600000x1_0 : (⟨S1600000, .i32⟩ : BufTy).Contents (Elt F) → (⟨S1600000x1, .i32⟩ : BufTy).Contents (Elt F)),
    StableHlo.ternary main_v62 main_v63 main_v61 main_v64 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_11 (constant S_ .f32 0x3F800000#32),
    StableHlo.unary main_cst_11 main_v65 (broadcastInDim S1600000x1 ![] bcast_S_S1600000x1 : (⟨S_, .f32⟩ : BufTy).Contents (Elt F) → (⟨S1600000x1, .f32⟩ : BufTy).Contents (Elt F)),
    StableHlo.nullary main_cst_12 (constant S_ .f32 0x00000000#32),
    StableHlo.unary main_cst_12 main_v66 (broadcastInDim S100000x1 ![] bcast_S_S100000x1 : (⟨S_, .f32⟩ : BufTy).Contents (Elt F) → (⟨S100000x1, .f32⟩ : BufTy).Contents (Elt F)),
    StableHlo.unary main_v3 main_v67 (broadcastInDim S1600000x1 ![0] bcast_S1600000_S1600000x1_0 : (⟨S1600000, .i32⟩ : BufTy).Contents (Elt F) → (⟨S1600000x1, .i32⟩ : BufTy).Contents (Elt F)),
    StableHlo.ternary main_v66 main_v67 main_v65 main_v68 ((fun x i u => Host.scatterAdd scatter_S100000x1_S1600000x1_S1600000x1_1_0_0_1 x i u) : (⟨S100000x1, .f32⟩ : BufTy).Contents (Elt F) → (⟨S1600000x1, .i32⟩ : BufTy).Contents (Elt F) → (⟨S1600000x1, .f32⟩ : BufTy).Contents (Elt F) → (⟨S100000x1, .f32⟩ : BufTy).Contents (Elt F)),
    StableHlo.nullary main_cst_13 (constant S_ .f32 0x3F800000#32),
    StableHlo.unary main_cst_13 main_v69 (broadcastInDim S100000x1 ![] bcast_S_S100000x1 : (⟨S_, .f32⟩ : BufTy).Contents (Elt F) → (⟨S100000x1, .f32⟩ : BufTy).Contents (Elt F)),
    StableHlo.binary main_v68 main_v69 main_v70 (maximumf : (⟨S100000x1, .f32⟩ : BufTy).Contents (Elt F) → (⟨S100000x1, .f32⟩ : BufTy).Contents (Elt F) → (⟨S100000x1, .f32⟩ : BufTy).Contents (Elt F)),
    StableHlo.unary main_v70 main_v71 (broadcastInDim S100000x128 ![0, 1] bcast_S100000x1_S100000x128_0_1 : (⟨S100000x1, .f32⟩ : BufTy).Contents (Elt F) → (⟨S100000x128, .f32⟩ : BufTy).Contents (Elt F)),
    StableHlo.binary main_v64 main_v71 main_v72 (Host.divf : (⟨S100000x128, .f32⟩ : BufTy).Contents (Elt F) → (⟨S100000x128, .f32⟩ : BufTy).Contents (Elt F) → (⟨S100000x128, .f32⟩ : BufTy).Contents (Elt F)) ]
/-- The buffers that piece writes, in order. -/
abbrev agg2_W : List (Ref sig .tc) := [main_c_8, main_v55, main_v56, main_c_9, main_v57, main_v58, main_v59, main_v60, main_v61, main_cst_10, main_v62, main_v63, main_v64, main_cst_11, main_v65, main_cst_12, main_v66, main_v67, main_v68, main_cst_13, main_v69, main_v70, main_v71, main_v72]

/-- 8 operations of window 1: layer 2, the convolution. -/
def conv2 : List (HloOp τ sig (Elt F)) :=
  [ StableHlo.unary main_arg9 main_v73 ((transpose S128x128 [1, 0] · transposes_S128x128_S128x128_1_0) : (⟨S128x128, .f32⟩ : BufTy).Contents (Elt F) → (⟨S128x128, .f32⟩ : BufTy).Contents (Elt F)),
    StableHlo.binary main_v54 main_v73 main_v74 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg11 main_v75 (broadcastInDim S1x128 ![1] bcast_S128_S1x128_1 : (⟨S128, .f32⟩ : BufTy).Contents (Elt F) → (⟨S1x128, .f32⟩ : BufTy).Contents (Elt F)),
    StableHlo.unary main_v75 main_v76 (broadcastInDim S100000x128 ![0, 1] bcast_S1x128_S100000x128_0_1 : (⟨S1x128, .f32⟩ : BufTy).Contents (Elt F) → (⟨S100000x128, .f32⟩ : BufTy).Contents (Elt F)),
    StableHlo.binary main_v74 main_v76 main_v77 (addf : (⟨S100000x128, .f32⟩ : BufTy).Contents (Elt F) → (⟨S100000x128, .f32⟩ : BufTy).Contents (Elt F) → (⟨S100000x128, .f32⟩ : BufTy).Contents (Elt F)),
    StableHlo.unary main_arg10 main_v78 ((transpose S128x128 [1, 0] · transposes_S128x128_S128x128_1_0) : (⟨S128x128, .f32⟩ : BufTy).Contents (Elt F) → (⟨S128x128, .f32⟩ : BufTy).Contents (Elt F)),
    StableHlo.binary main_v72 main_v78 main_v79 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v77 main_v79 main_v80 (addf : (⟨S100000x128, .f32⟩ : BufTy).Contents (Elt F) → (⟨S100000x128, .f32⟩ : BufTy).Contents (Elt F) → (⟨S100000x128, .f32⟩ : BufTy).Contents (Elt F)) ]
/-- The buffers that piece writes, in order. -/
abbrev conv2_W : List (Ref sig .tc) := [main_v73, main_v74, main_v75, main_v76, main_v77, main_v78, main_v79, main_v80]

/-- 5 operations of window 1: layer 2, the column mean. -/
def mean2 : List (HloOp τ sig (Elt F)) :=
  [ StableHlo.nullary main_cst_14 (constant S_ .f32 0x00000000#32),
    StableHlo.binary main_v80 main_cst_14 main_v81 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_15 (constant S_ .f32 0x47C35000#32),
    StableHlo.unary main_cst_15 main_v82 (broadcastInDim S128 ![] bcast_S_S128 : (⟨S_, .f32⟩ : BufTy).Contents (Elt F) → (⟨S128, .f32⟩ : BufTy).Contents (Elt F)),
    StableHlo.binary main_v81 main_v82 main_v83 (Host.divf : (⟨S128, .f32⟩ : BufTy).Contents (Elt F) → (⟨S128, .f32⟩ : BufTy).Contents (Elt F) → (⟨S128, .f32⟩ : BufTy).Contents (Elt F)) ]
/-- The buffers that piece writes, in order. -/
abbrev mean2_W : List (Ref sig .tc) := [main_cst_14, main_v81, main_cst_15, main_v82, main_v83]

/-- 23 operations of window 1: layer 2, the column variance. -/
def var2 : List (HloOp τ sig (Elt F)) :=
  [ StableHlo.nullary main_c_16 (constantI S_ 32 0#32),
    StableHlo.TRef.nullary main_call2.cst (constant S_ .f32 0x00000000#32),
    StableHlo.TRef.binary (.of main_v80 : StableHlo.TRef sig ⟨S100000x128, .f32⟩) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (.of main_v80 : StableHlo.TRef sig ⟨S100000x128, .f32⟩) main_call2.v4 main_call2.v5 subf,
    StableHlo.TRef.binary main_call2.v5 main_call2.v5 main_call2.v6 mulf,
    StableHlo.TRef.unary (.of main_c_16 : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b) ]
/-- The buffers that piece writes, in order. -/
abbrev var2_W : List (Ref sig .tc) := [main_c_16, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v84]

/-- 16 operations of window 1: layer 2, the normalisation. -/
def bn2a : List (HloOp τ sig (Elt F)) :=
  [ StableHlo.unary main_v83 main_v85 (broadcastInDim S1x128 ![1] bcast_S128_S1x128_1 : (⟨S128, .f32⟩ : BufTy).Contents (Elt F) → (⟨S1x128, .f32⟩ : BufTy).Contents (Elt F)),
    StableHlo.unary main_v85 main_v86 (broadcastInDim S100000x128 ![0, 1] bcast_S1x128_S100000x128_0_1 : (⟨S1x128, .f32⟩ : BufTy).Contents (Elt F) → (⟨S100000x128, .f32⟩ : BufTy).Contents (Elt F)),
    StableHlo.binary main_v80 main_v86 main_v87 (subf : (⟨S100000x128, .f32⟩ : BufTy).Contents (Elt F) → (⟨S100000x128, .f32⟩ : BufTy).Contents (Elt F) → (⟨S100000x128, .f32⟩ : BufTy).Contents (Elt F)),
    StableHlo.nullary main_cst_17 (constant S_ .f32 0x3727C5AC#32),
    StableHlo.unary main_cst_17 main_v88 (broadcastInDim S128 ![] bcast_S_S128 : (⟨S_, .f32⟩ : BufTy).Contents (Elt F) → (⟨S128, .f32⟩ : BufTy).Contents (Elt F)),
    StableHlo.binary main_v84 main_v88 main_v89 (addf : (⟨S128, .f32⟩ : BufTy).Contents (Elt F) → (⟨S128, .f32⟩ : BufTy).Contents (Elt F) → (⟨S128, .f32⟩ : BufTy).Contents (Elt F)),
    StableHlo.unary main_v89 main_v90 (Host.rsqrt : (⟨S128, .f32⟩ : BufTy).Contents (Elt F) → (⟨S128, .f32⟩ : BufTy).Contents (Elt F)),
    StableHlo.unary main_v90 main_v91 (broadcastInDim S1x128 ![1] bcast_S128_S1x128_1 : (⟨S128, .f32⟩ : BufTy).Contents (Elt F) → (⟨S1x128, .f32⟩ : BufTy).Contents (Elt F)),
    StableHlo.unary main_v91 main_v92 (broadcastInDim S100000x128 ![0, 1] bcast_S1x128_S100000x128_0_1 : (⟨S1x128, .f32⟩ : BufTy).Contents (Elt F) → (⟨S100000x128, .f32⟩ : BufTy).Contents (Elt F)),
    StableHlo.binary main_v87 main_v92 main_v93 (mulf : (⟨S100000x128, .f32⟩ : BufTy).Contents (Elt F) → (⟨S100000x128, .f32⟩ : BufTy).Contents (Elt F) → (⟨S100000x128, .f32⟩ : BufTy).Contents (Elt F)),
    StableHlo.unary main_arg12 main_v94 (broadcastInDim S1x128 ![1] bcast_S128_S1x128_1 : (⟨S128, .f32⟩ : BufTy).Contents (Elt F) → (⟨S1x128, .f32⟩ : BufTy).Contents (Elt F)),
    StableHlo.unary main_v94 main_v95 (broadcastInDim S100000x128 ![0, 1] bcast_S1x128_S100000x128_0_1 : (⟨S1x128, .f32⟩ : BufTy).Contents (Elt F) → (⟨S100000x128, .f32⟩ : BufTy).Contents (Elt F)),
    StableHlo.binary main_v93 main_v95 main_v96 (mulf : (⟨S100000x128, .f32⟩ : BufTy).Contents (Elt F) → (⟨S100000x128, .f32⟩ : BufTy).Contents (Elt F) → (⟨S100000x128, .f32⟩ : BufTy).Contents (Elt F)),
    StableHlo.unary main_arg13 main_v97 (broadcastInDim S1x128 ![1] bcast_S128_S1x128_1 : (⟨S128, .f32⟩ : BufTy).Contents (Elt F) → (⟨S1x128, .f32⟩ : BufTy).Contents (Elt F)),
    StableHlo.unary main_v97 main_v98 (broadcastInDim S100000x128 ![0, 1] bcast_S1x128_S100000x128_0_1 : (⟨S1x128, .f32⟩ : BufTy).Contents (Elt F) → (⟨S100000x128, .f32⟩ : BufTy).Contents (Elt F)),
    StableHlo.binary main_v96 main_v98 main_v99 (addf : (⟨S100000x128, .f32⟩ : BufTy).Contents (Elt F) → (⟨S100000x128, .f32⟩ : BufTy).Contents (Elt F) → (⟨S100000x128, .f32⟩ : BufTy).Contents (Elt F)) ]
/-- The buffers that piece writes, in order. -/
abbrev bn2a_W : List (Ref sig .tc) := [main_v85, main_v86, main_v87, main_cst_17, main_v88, main_v89, main_v90, main_v91, main_v92, main_v93, main_v94, main_v95, main_v96, main_v97, main_v98, main_v99]

/-- 3 operations of window 2: layer 2, the rectifier. -/
def bn2b : List (HloOp τ sig (Elt F)) :=
  [ StableHlo.TRef.nullary main_call3.cst (constant S_ .f32 0x00000000#32),
    StableHlo.TRef.unary main_call3.cst main_call3.v0 (broadcastInDim S100000x128 ![] bcast_S_S100000x128),
    StableHlo.TRef.binary (.of main_v99 : StableHlo.TRef sig ⟨S100000x128, .f32⟩) main_call3.v0 main_call3.v1 maximumf ]
/-- The buffers that piece writes, in order. -/
abbrev bn2b_W : List (Ref sig .tc) := [main_call3_cst, main_call3_v0, main_v100]

/-- 24 operations of window 2: layer 3, the aggregation. -/
def agg3 : List (HloOp τ sig (Elt F)) :=
  [ StableHlo.nullary main_c_18 (constantI S_ 32 0#32),
    StableHlo.unary main_c_18 main_v101 (broadcastInDim S1600000 ![] bcast_S_S1600000 : (⟨S_, .i32⟩ : BufTy).Contents (Elt F) → (⟨S1600000, .i32⟩ : BufTy).Contents (Elt F)),
    StableHlo.binary main_v1 main_v101 main_v102 (cmpi .slt : (⟨S1600000, .i32⟩ : BufTy).Contents (Elt F) → (⟨S1600000, .i32⟩ : BufTy).Contents (Elt F) → (⟨S1600000, .i1⟩ : BufTy).Contents (Elt F)),
    StableHlo.nullary main_c_19 (constantI S_ 32 100000#32),
    StableHlo.unary main_c_19 main_v103 (broadcastInDim S1600000 ![] bcast_S_S1600000 : (⟨S_, .i32⟩ : BufTy).Contents (Elt F) → (⟨S1600000, .i32⟩ : BufTy).Contents (Elt F)),
    StableHlo.binary main_v1 main_v103 main_v104 (addi : (⟨S1600000, .i32⟩ : BufTy).Contents (Elt F) → (⟨S1600000, .i32⟩ : BufTy).Contents (Elt F) → (⟨S1600000, .i32⟩ : BufTy).Contents (Elt F)),
    StableHlo.ternary main_v102 main_v104 main_v1 main_v105 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v105 main_v106 (broadcastInDim S1600000x1 ![0] bcast_S1600000_S1600000x1_0 : (⟨S1600000, .i32⟩ : BufTy).Contents (Elt F) → (⟨S1600000x1, .i32⟩ : BufTy).Contents (Elt F)),
    StableHlo.binary main_v100 main_v106 main_v107 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_20 (constant S_ .f32 0x00000000#32),
    StableHlo.unary main_cst_20 main_v108 (broadcastInDim S100000x128 ![] bcast_S_S100000x128 : (⟨S_, .f32⟩ : BufTy).Contents (Elt F) → (⟨S100000x128, .f32⟩ : BufTy).Contents (Elt F)),
    StableHlo.unary main_v3 main_v109 (broadcastInDim S1600000x1 ![0] bcast_S1600000_S1600000x1_0 : (⟨S1600000, .i32⟩ : BufTy).Contents (Elt F) → (⟨S1600000x1, .i32⟩ : BufTy).Contents (Elt F)),
    StableHlo.ternary main_v108 main_v109 main_v107 main_v110 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_21 (constant S_ .f32 0x3F800000#32),
    StableHlo.unary main_cst_21 main_v111 (broadcastInDim S1600000x1 ![] bcast_S_S1600000x1 : (⟨S_, .f32⟩ : BufTy).Contents (Elt F) → (⟨S1600000x1, .f32⟩ : BufTy).Contents (Elt F)),
    StableHlo.nullary main_cst_22 (constant S_ .f32 0x00000000#32),
    StableHlo.unary main_cst_22 main_v112 (broadcastInDim S100000x1 ![] bcast_S_S100000x1 : (⟨S_, .f32⟩ : BufTy).Contents (Elt F) → (⟨S100000x1, .f32⟩ : BufTy).Contents (Elt F)),
    StableHlo.unary main_v3 main_v113 (broadcastInDim S1600000x1 ![0] bcast_S1600000_S1600000x1_0 : (⟨S1600000, .i32⟩ : BufTy).Contents (Elt F) → (⟨S1600000x1, .i32⟩ : BufTy).Contents (Elt F)),
    StableHlo.ternary main_v112 main_v113 main_v111 main_v114 ((fun x i u => Host.scatterAdd scatter_S100000x1_S1600000x1_S1600000x1_1_0_0_1 x i u) : (⟨S100000x1, .f32⟩ : BufTy).Contents (Elt F) → (⟨S1600000x1, .i32⟩ : BufTy).Contents (Elt F) → (⟨S1600000x1, .f32⟩ : BufTy).Contents (Elt F) → (⟨S100000x1, .f32⟩ : BufTy).Contents (Elt F)),
    StableHlo.nullary main_cst_23 (constant S_ .f32 0x3F800000#32),
    StableHlo.unary main_cst_23 main_v115 (broadcastInDim S100000x1 ![] bcast_S_S100000x1 : (⟨S_, .f32⟩ : BufTy).Contents (Elt F) → (⟨S100000x1, .f32⟩ : BufTy).Contents (Elt F)),
    StableHlo.binary main_v114 main_v115 main_v116 (maximumf : (⟨S100000x1, .f32⟩ : BufTy).Contents (Elt F) → (⟨S100000x1, .f32⟩ : BufTy).Contents (Elt F) → (⟨S100000x1, .f32⟩ : BufTy).Contents (Elt F)),
    StableHlo.unary main_v116 main_v117 (broadcastInDim S100000x128 ![0, 1] bcast_S100000x1_S100000x128_0_1 : (⟨S100000x1, .f32⟩ : BufTy).Contents (Elt F) → (⟨S100000x128, .f32⟩ : BufTy).Contents (Elt F)),
    StableHlo.binary main_v110 main_v117 main_v118 (Host.divf : (⟨S100000x128, .f32⟩ : BufTy).Contents (Elt F) → (⟨S100000x128, .f32⟩ : BufTy).Contents (Elt F) → (⟨S100000x128, .f32⟩ : BufTy).Contents (Elt F)) ]
/-- The buffers that piece writes, in order. -/
abbrev agg3_W : List (Ref sig .tc) := [main_c_18, main_v101, main_v102, main_c_19, main_v103, main_v104, main_v105, main_v106, main_v107, main_cst_20, main_v108, main_v109, main_v110, main_cst_21, main_v111, main_cst_22, main_v112, main_v113, main_v114, main_cst_23, main_v115, main_v116, main_v117, main_v118]

/-- 8 operations of window 2: layer 3, the convolution. -/
def conv3 : List (HloOp τ sig (Elt F)) :=
  [ StableHlo.unary main_arg14 main_v119 ((transpose S128x128 [1, 0] · transposes_S128x128_S128x128_1_0) : (⟨S128x128, .f32⟩ : BufTy).Contents (Elt F) → (⟨S128x128, .f32⟩ : BufTy).Contents (Elt F)),
    StableHlo.binary main_v100 main_v119 main_v120 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg16 main_v121 (broadcastInDim S1x128 ![1] bcast_S128_S1x128_1 : (⟨S128, .f32⟩ : BufTy).Contents (Elt F) → (⟨S1x128, .f32⟩ : BufTy).Contents (Elt F)),
    StableHlo.unary main_v121 main_v122 (broadcastInDim S100000x128 ![0, 1] bcast_S1x128_S100000x128_0_1 : (⟨S1x128, .f32⟩ : BufTy).Contents (Elt F) → (⟨S100000x128, .f32⟩ : BufTy).Contents (Elt F)),
    StableHlo.binary main_v120 main_v122 main_v123 (addf : (⟨S100000x128, .f32⟩ : BufTy).Contents (Elt F) → (⟨S100000x128, .f32⟩ : BufTy).Contents (Elt F) → (⟨S100000x128, .f32⟩ : BufTy).Contents (Elt F)),
    StableHlo.unary main_arg15 main_v124 ((transpose S128x128 [1, 0] · transposes_S128x128_S128x128_1_0) : (⟨S128x128, .f32⟩ : BufTy).Contents (Elt F) → (⟨S128x128, .f32⟩ : BufTy).Contents (Elt F)),
    StableHlo.binary main_v118 main_v124 main_v125 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v123 main_v125 main_v126 (addf : (⟨S100000x128, .f32⟩ : BufTy).Contents (Elt F) → (⟨S100000x128, .f32⟩ : BufTy).Contents (Elt F) → (⟨S100000x128, .f32⟩ : BufTy).Contents (Elt F)) ]
/-- The buffers that piece writes, in order. -/
abbrev conv3_W : List (Ref sig .tc) := [main_v119, main_v120, main_v121, main_v122, main_v123, main_v124, main_v125, main_v126]

/-- 5 operations of window 2: layer 3, the column mean. -/
def mean3 : List (HloOp τ sig (Elt F)) :=
  [ StableHlo.nullary main_cst_24 (constant S_ .f32 0x00000000#32),
    StableHlo.binary main_v126 main_cst_24 main_v127 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_25 (constant S_ .f32 0x47C35000#32),
    StableHlo.unary main_cst_25 main_v128 (broadcastInDim S128 ![] bcast_S_S128 : (⟨S_, .f32⟩ : BufTy).Contents (Elt F) → (⟨S128, .f32⟩ : BufTy).Contents (Elt F)),
    StableHlo.binary main_v127 main_v128 main_v129 (Host.divf : (⟨S128, .f32⟩ : BufTy).Contents (Elt F) → (⟨S128, .f32⟩ : BufTy).Contents (Elt F) → (⟨S128, .f32⟩ : BufTy).Contents (Elt F)) ]
/-- The buffers that piece writes, in order. -/
abbrev mean3_W : List (Ref sig .tc) := [main_cst_24, main_v127, main_cst_25, main_v128, main_v129]

/-- 23 operations of window 2: layer 3, the column variance. -/
def var3 : List (HloOp τ sig (Elt F)) :=
  [ StableHlo.nullary main_c_26 (constantI S_ 32 0#32),
    StableHlo.TRef.nullary main_call4.cst (constant S_ .f32 0x00000000#32),
    StableHlo.TRef.binary (.of main_v126 : StableHlo.TRef sig ⟨S100000x128, .f32⟩) main_call4.cst main_call4.v0 (fun x v => Host.reduceAdd x v reducesTo_S100000x128_S128_d0 h_S_),
    StableHlo.TRef.unary main_call4.v0 main_call4.v1 (broadcastInDim S1x128 ![1] bcast_S128_S1x128_1),
    StableHlo.TRef.nullary main_call4.cst_0 (constant S_ .f32 0x47C35000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S100000x128 ![0, 1] bcast_S1x128_S100000x128_0_1),
    StableHlo.TRef.binary (.of main_v126 : StableHlo.TRef sig ⟨S100000x128, .f32⟩) main_call4.v4 main_call4.v5 subf,
    StableHlo.TRef.binary main_call4.v5 main_call4.v5 main_call4.v6 mulf,
    StableHlo.TRef.unary (.of main_c_26 : StableHlo.TRef sig ⟨S_, .i32⟩) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b) ]
/-- The buffers that piece writes, in order. -/
abbrev var3_W : List (Ref sig .tc) := [main_c_26, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v130]

/-- 16 operations of window 2: layer 3, the normalisation. -/
def bn3a : List (HloOp τ sig (Elt F)) :=
  [ StableHlo.unary main_v129 main_v131 (broadcastInDim S1x128 ![1] bcast_S128_S1x128_1 : (⟨S128, .f32⟩ : BufTy).Contents (Elt F) → (⟨S1x128, .f32⟩ : BufTy).Contents (Elt F)),
    StableHlo.unary main_v131 main_v132 (broadcastInDim S100000x128 ![0, 1] bcast_S1x128_S100000x128_0_1 : (⟨S1x128, .f32⟩ : BufTy).Contents (Elt F) → (⟨S100000x128, .f32⟩ : BufTy).Contents (Elt F)),
    StableHlo.binary main_v126 main_v132 main_v133 (subf : (⟨S100000x128, .f32⟩ : BufTy).Contents (Elt F) → (⟨S100000x128, .f32⟩ : BufTy).Contents (Elt F) → (⟨S100000x128, .f32⟩ : BufTy).Contents (Elt F)),
    StableHlo.nullary main_cst_27 (constant S_ .f32 0x3727C5AC#32),
    StableHlo.unary main_cst_27 main_v134 (broadcastInDim S128 ![] bcast_S_S128 : (⟨S_, .f32⟩ : BufTy).Contents (Elt F) → (⟨S128, .f32⟩ : BufTy).Contents (Elt F)),
    StableHlo.binary main_v130 main_v134 main_v135 (addf : (⟨S128, .f32⟩ : BufTy).Contents (Elt F) → (⟨S128, .f32⟩ : BufTy).Contents (Elt F) → (⟨S128, .f32⟩ : BufTy).Contents (Elt F)),
    StableHlo.unary main_v135 main_v136 (Host.rsqrt : (⟨S128, .f32⟩ : BufTy).Contents (Elt F) → (⟨S128, .f32⟩ : BufTy).Contents (Elt F)),
    StableHlo.unary main_v136 main_v137 (broadcastInDim S1x128 ![1] bcast_S128_S1x128_1 : (⟨S128, .f32⟩ : BufTy).Contents (Elt F) → (⟨S1x128, .f32⟩ : BufTy).Contents (Elt F)),
    StableHlo.unary main_v137 main_v138 (broadcastInDim S100000x128 ![0, 1] bcast_S1x128_S100000x128_0_1 : (⟨S1x128, .f32⟩ : BufTy).Contents (Elt F) → (⟨S100000x128, .f32⟩ : BufTy).Contents (Elt F)),
    StableHlo.binary main_v133 main_v138 main_v139 (mulf : (⟨S100000x128, .f32⟩ : BufTy).Contents (Elt F) → (⟨S100000x128, .f32⟩ : BufTy).Contents (Elt F) → (⟨S100000x128, .f32⟩ : BufTy).Contents (Elt F)),
    StableHlo.unary main_arg17 main_v140 (broadcastInDim S1x128 ![1] bcast_S128_S1x128_1 : (⟨S128, .f32⟩ : BufTy).Contents (Elt F) → (⟨S1x128, .f32⟩ : BufTy).Contents (Elt F)),
    StableHlo.unary main_v140 main_v141 (broadcastInDim S100000x128 ![0, 1] bcast_S1x128_S100000x128_0_1 : (⟨S1x128, .f32⟩ : BufTy).Contents (Elt F) → (⟨S100000x128, .f32⟩ : BufTy).Contents (Elt F)),
    StableHlo.binary main_v139 main_v141 main_v142 (mulf : (⟨S100000x128, .f32⟩ : BufTy).Contents (Elt F) → (⟨S100000x128, .f32⟩ : BufTy).Contents (Elt F) → (⟨S100000x128, .f32⟩ : BufTy).Contents (Elt F)),
    StableHlo.unary main_arg18 main_v143 (broadcastInDim S1x128 ![1] bcast_S128_S1x128_1 : (⟨S128, .f32⟩ : BufTy).Contents (Elt F) → (⟨S1x128, .f32⟩ : BufTy).Contents (Elt F)),
    StableHlo.unary main_v143 main_v144 (broadcastInDim S100000x128 ![0, 1] bcast_S1x128_S100000x128_0_1 : (⟨S1x128, .f32⟩ : BufTy).Contents (Elt F) → (⟨S100000x128, .f32⟩ : BufTy).Contents (Elt F)),
    StableHlo.binary main_v142 main_v144 main_v145 (addf : (⟨S100000x128, .f32⟩ : BufTy).Contents (Elt F) → (⟨S100000x128, .f32⟩ : BufTy).Contents (Elt F) → (⟨S100000x128, .f32⟩ : BufTy).Contents (Elt F)) ]
/-- The buffers that piece writes, in order. -/
abbrev bn3a_W : List (Ref sig .tc) := [main_v131, main_v132, main_v133, main_cst_27, main_v134, main_v135, main_v136, main_v137, main_v138, main_v139, main_v140, main_v141, main_v142, main_v143, main_v144, main_v145]

/-- 3 operations of window 2: layer 3, the rectifier. -/
def bn3b : List (HloOp τ sig (Elt F)) :=
  [ StableHlo.TRef.nullary main_call5.cst (constant S_ .f32 0x00000000#32),
    StableHlo.TRef.unary main_call5.cst main_call5.v0 (broadcastInDim S100000x128 ![] bcast_S_S100000x128),
    StableHlo.TRef.binary (.of main_v145 : StableHlo.TRef sig ⟨S100000x128, .f32⟩) main_call5.v0 main_call5.v1 maximumf ]
/-- The buffers that piece writes, in order. -/
abbrev bn3b_W : List (Ref sig .tc) := [main_call5_cst, main_call5_v0, main_v146]

/-- 3 operations of window 2: the classifier up to the window's end. -/
def clsA : List (HloOp τ sig (Elt F)) :=
  [ StableHlo.unary main_arg19 main_v147 ((transpose S128x2 [1, 0] · transposes_S2x128_S128x2_1_0) : (⟨S2x128, .f32⟩ : BufTy).Contents (Elt F) → (⟨S128x2, .f32⟩ : BufTy).Contents (Elt F)),
    StableHlo.binary main_v146 main_v147 main_v148 ((fun l r => Host.dotGeneral dot_S100000x128_S128x2_S100000x2_1_0_0_1_n_n none l r) : (⟨S100000x128, .f32⟩ : BufTy).Contents (Elt F) → (⟨S128x2, .f32⟩ : BufTy).Contents (Elt F) → (⟨S100000x2, .f32⟩ : BufTy).Contents (Elt F)),
    StableHlo.unary main_arg20 main_v149 (broadcastInDim S1x2 ![1] bcast_S2_S1x2_1 : (⟨S2, .f32⟩ : BufTy).Contents (Elt F) → (⟨S1x2, .f32⟩ : BufTy).Contents (Elt F)) ]
/-- The buffers that piece writes, in order. -/
abbrev clsA_W : List (Ref sig .tc) := [main_v147, main_v148, main_v149]

/-- 2 operations of window 3: the classifier's rest. -/
def clsB : List (HloOp τ sig (Elt F)) :=
  [ StableHlo.unary main_v149 main_v150 (broadcastInDim S100000x2 ![0, 1] bcast_S1x2_S100000x2_0_1 : (⟨S1x2, .f32⟩ : BufTy).Contents (Elt F) → (⟨S100000x2, .f32⟩ : BufTy).Contents (Elt F)),
    StableHlo.binary main_v148 main_v150 main_v151 (addf : (⟨S100000x2, .f32⟩ : BufTy).Contents (Elt F) → (⟨S100000x2, .f32⟩ : BufTy).Contents (Elt F) → (⟨S100000x2, .f32⟩ : BufTy).Contents (Elt F)) ]
/-- The buffers that piece writes, in order. -/
abbrev clsB_W : List (Ref sig .tc) := [main_v150, main_v151]

end Cert.ReferenceIdeal.HandRun

end
-- ==== Proof.RefLine.lean ====
/-
  The reference program IS the line of its operations, and what follows from that without looking at any value.
  @main's four windows are, each by unfolding, the operations of its pieces in order (a call unfolds to the
  callee's body, the callee's call to its callee's), so @main is the whole line. The line scopes no buffer and no
  semaphore, touches TensorCore buffers only and chooses no result freely — what the run of a straight line asks.
  Each piece writes only the buffers listed beside it, so it leaves every other buffer as it was; and the whole
  line's effect on the buffer contents is the pieces' effects in turn.
-/
import proofs.«136904_j51402168598679_1_alg».proof.Proof.RefOps

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Two lines run one after the other leave what the second leaves of what the first leaves. -/
theorem after_app {Val : EltTy → Type} : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_app l₁ l₂]

/-- A property of every element of two lists is one of every element of their concatenation. -/
theorem forall_app {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

theorem mem_app {α : Type} {p : α → Prop} {l₁ l₂ : List α} (h₁ : ∀ x ∈ l₁, p x) (h₂ : ∀ x ∈ l₂, p x) : ∀ x ∈ l₁ ++ l₂, p x :=
  fun x hx => (List.mem_append.mp hx).elim (h₁ x) (h₂ x)

/-! ## Each piece: TensorCore buffers only, nothing chosen freely, only its listed buffers written -/

set_option hygiene false in
open Lean in
/-- What is proved of each piece of the operation list, by the same four arguments every time: it touches TensorCore
    buffers only (each builder's own lemma); it chooses no result freely (by cases on the literal list); it writes only
    the buffers of its list `‹piece›_W` (each builder writes its result buffer, which is in the list); so it leaves
    every buffer outside that list as it was. -/
macro "piece_facts " n:ident : command => do
  let sub := mkIdent (n.getId.appendAfter "_sub")
  let fresh := mkIdent (n.getId.appendAfter "_fresh")
  let writes := mkIdent (n.getId.appendAfter "_writes")
  let keep := mkIdent (n.getId.appendAfter "_keep")
  let w := mkIdent (n.getId.appendAfter "_W")
  `(theorem $sub : ($n (F := F)).Forall fun op => op.bufs ⊆ tcRefs τ sig := by
      unfold $n
      simp only [List.Forall, nullary_bufs_sub, unary_bufs_sub, binary_bufs_sub, ternary_bufs_sub, reshape_bufs_sub, and_self]
    theorem $fresh : ∀ op ∈ ($n (F := F)), op.fresh = ∅ := by
      intro _ h; (repeat (cases h with | head => rfl | tail _ h => ?_)); exact nomatch h
    theorem $writes : ($n (F := F)).Forall fun op => op.writes ⊆ (($w).map (Proc.devRef (τ := τ) .tc)).toFinset := by
      unfold $n
      simp only [List.Forall, nullary_writes, unary_writes, binary_writes, ternary_writes, reshape_writes,
        Finset.singleton_subset_iff, List.mem_toFinset, List.map_cons, List.map_nil, List.mem_cons, eq_self, true_or, or_true,
        and_self]
    theorem $keep (W : Valuation τ sig (Elt F)) {r : Ref sig .tc} (h : r ∉ $w) :
        after $n W (no_index (Proc.devRef .tc r)) = W (Proc.devRef .tc r) :=
      after_of_writes_sub $n W $writes h)

piece_facts edges
piece_facts emb
piece_facts agg1
piece_facts conv1
piece_facts mean1
piece_facts var1
piece_facts bn1a
piece_facts bn1b
piece_facts agg2
piece_facts conv2
piece_facts mean2
piece_facts var2
piece_facts bn2a
piece_facts bn2b
piece_facts agg3
piece_facts conv3
piece_facts mean3
piece_facts var3
piece_facts bn3a
piece_facts bn3b
piece_facts clsA
piece_facts clsB

/-! ## The windows, and the whole line -/

/-- The operations of @main's first window: statements 1 to 60, the variance call unfolded. -/
def win0 : List (HloOp τ sig (Elt F)) := edges ++ emb ++ agg1 ++ conv1 ++ mean1 ++ var1 ++ bn1a
/-- The operations of the second window: statements 61 to 120. -/
def win1 : List (HloOp τ sig (Elt F)) := bn1b ++ agg2 ++ conv2 ++ mean2 ++ var2 ++ bn2a
/-- The operations of the third window: statements 121 to 180. -/
def win2 : List (HloOp τ sig (Elt F)) := bn2b ++ agg3 ++ conv3 ++ mean3 ++ var3 ++ bn3a ++ bn3b ++ clsA
/-- The operations of the last window: statements 181 and 182 (183 returns). -/
def win3 : List (HloOp τ sig (Elt F)) := clsB

/-- @main's 251 operations, in order. -/
def ops : List (HloOp τ sig (Elt F)) := win0 ++ (win1 ++ (win2 ++ win3))

set_option maxRecDepth 8192 in
theorem main_part0_eq (c : Dev nD) : main_part0 (F := F) c = seq win0 := rfl
set_option maxRecDepth 8192 in
theorem main_part1_eq (c : Dev nD) : main_part1 (F := F) c = seq win1 := rfl
set_option maxRecDepth 8192 in
theorem main_part2_eq (c : Dev nD) : main_part2 (F := F) c = seq win2 := rfl
set_option maxRecDepth 8192 in
theorem main_part3_eq (c : Dev nD) : main_part3 (F := F) c = seq win3 := rfl

/-- @main is the line: its four windows in order are the four windows' lines in order. -/
theorem main_eq (c : Dev nD) : main (F := F) c = seq ops := by
  simp only [ops, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

theorem win0_sub : (win0 (F := F)).Forall fun op => op.bufs ⊆ tcRefs τ sig :=
  forall_app (forall_app (forall_app (forall_app (forall_app (forall_app edges_sub emb_sub) agg1_sub) conv1_sub) mean1_sub) var1_sub) bn1a_sub
theorem win1_sub : (win1 (F := F)).Forall fun op => op.bufs ⊆ tcRefs τ sig :=
  forall_app (forall_app (forall_app (forall_app (forall_app bn1b_sub agg2_sub) conv2_sub) mean2_sub) var2_sub) bn2a_sub
theorem win2_sub : (win2 (F := F)).Forall fun op => op.bufs ⊆ tcRefs τ sig :=
  forall_app (forall_app (forall_app (forall_app (forall_app (forall_app (forall_app bn2b_sub agg3_sub) conv3_sub) mean3_sub) var3_sub) bn3a_sub) bn3b_sub) clsA_sub
theorem win3_sub : (win3 (F := F)).Forall fun op => op.bufs ⊆ tcRefs τ sig := clsB_sub
theorem ops_sub : (ops (F := F)).Forall fun op => op.bufs ⊆ tcRefs τ sig :=
  forall_app win0_sub (forall_app win1_sub (forall_app win2_sub win3_sub))

theorem win0_fresh : ∀ op ∈ (win0 (F := F)), op.fresh = ∅ :=
  mem_app (mem_app (mem_app (mem_app (mem_app (mem_app edges_fresh emb_fresh) agg1_fresh) conv1_fresh) mean1_fresh) var1_fresh) bn1a_fresh
theorem win1_fresh : ∀ op ∈ (win1 (F := F)), op.fresh = ∅ :=
  mem_app (mem_app (mem_app (mem_app (mem_app bn1b_fresh agg2_fresh) conv2_fresh) mean2_fresh) var2_fresh) bn2a_fresh
theorem win2_fresh : ∀ op ∈ (win2 (F := F)), op.fresh = ∅ :=
  mem_app (mem_app (mem_app (mem_app (mem_app (mem_app (mem_app bn2b_fresh agg3_fresh) conv3_fresh) mean3_fresh) var3_fresh) bn3a_fresh) bn3b_fresh) clsA_fresh
theorem win3_fresh : ∀ op ∈ (win3 (F := F)), op.fresh = ∅ := clsB_fresh
theorem ops_fresh : ∀ op ∈ (ops (F := F)), op.fresh = ∅ :=
  mem_app win0_fresh (mem_app win1_fresh (mem_app win2_fresh win3_fresh))

/-- The whole line's effect on the buffer contents is the pieces' effects in turn. -/
theorem after_ops (V : Valuation τ sig (Elt F)) :
    after ops V = after clsB (after clsA (after bn3b (after bn3a (after var3 (after mean3 (after conv3 (after agg3 (after bn2b (after bn2a (after var2 (after mean2 (after conv2 (after agg2 (after bn1b (after bn1a (after var1 (after mean1 (after conv1 (after agg1 (after emb (after edges (V)))))))))))))))))))))) := by
  simp only [ops, win0, win1, win2, win3, after_app]

end Cert.ReferenceIdeal.HandRun

end
-- ==== Proof.RefRun.lean ====
/-
  The reference program's run, read back stage by stage. Each piece of the operation list, run from any buffer
  contents, leaves its result buffer at the stage's function of the buffers it reads and every other buffer as it was;
  a layer's six pieces in a row leave the layer's function of the incoming features, the edges' sources and
  destinations and the layer's five parameter arrays; so the whole list leaves the result buffer at the network's
  function of the twenty-one argument arrays and the arguments unchanged. Every weakly fair execution of @main
  terminates in such a state.
-/
import proofs.«136904_j51402168598679_1_alg».proof.Proof.RefStages
import proofs.«136904_j51402168598679_1_alg».proof.Proof.RefLine

noncomputable section

namespace Cert.ReferenceIdeal.HandRun

open Cert.ReferenceIdeal Cert.ReferenceIdeal.Gen Idealize.ShloMosaic Idealize.ShloMosaic.TcCoe Idealize.SL.Sem Idealize.ShloMosaic.StableHlo

/-! ## The edge rows, the embedding, the classifier -/

theorem edges_src (W : Valuation τ sig (Elt Ideal)) :
    after (edges (F := Ideal)) W (no_index (Proc.devRef .tc main_v1)) = srcR (W (Proc.devRef .tc main_arg1)) := by
  unfold edges; after_results_simp; rfl

theorem edges_dst (W : Valuation τ sig (Elt Ideal)) :
    after (edges (F := Ideal)) W (no_index (Proc.devRef .tc main_v3)) = dstR (W (Proc.devRef .tc main_arg1)) := by
  unfold edges; after_results_simp; rfl

theorem emb_val (W : Valuation τ sig (Elt Ideal)) :
    after (emb (F := Ideal)) W (no_index (Proc.devRef .tc main_v8)) = denseR (W (Proc.devRef .tc main_arg0)) (W (Proc.devRef .tc main_arg2)) (W (Proc.devRef .tc main_arg3)) := by
  unfold emb; after_results_simp; rfl

theorem cls_val (W : Valuation τ sig (Elt Ideal)) :
    after (clsB (F := Ideal)) (after (clsA (F := Ideal)) W) (no_index (Proc.devRef .tc main_v151))
      = clsR (W (Proc.devRef .tc main_v146)) (W (Proc.devRef .tc main_arg19)) (W (Proc.devRef .tc main_arg20)) := by
  unfold clsB clsA; after_results_simp; rfl

/-! ## Layer 1 -/

theorem agg1_val (W : Valuation τ sig (Elt Ideal)) :
    after (agg1 (F := Ideal)) W (no_index (Proc.devRef .tc main_v26)) = aggBody (W (Proc.devRef .tc main_v1)) (W (Proc.devRef .tc main_v3)) (W (Proc.devRef .tc main_v8)) := by
  unfold agg1; after_results_simp; rfl

theorem conv1_val (W : Valuation τ sig (Elt Ideal)) :
    after (conv1 (F := Ideal)) W (no_index (Proc.devRef .tc main_v34))
      = convR (W (Proc.devRef .tc main_v8)) (W (Proc.devRef .tc main_v26)) (W (Proc.devRef .tc main_arg4)) (W (Proc.devRef .tc main_arg5)) (W (Proc.devRef .tc main_arg6)) := by
  unfold conv1; after_results_simp; rfl

theorem mean1_val (W : Valuation τ sig (Elt Ideal)) :
    after (mean1 (F := Ideal)) W (no_index (Proc.devRef .tc main_v37)) = meanR (W (Proc.devRef .tc main_v34)) := by
  unfold mean1; after_results_simp; rfl

theorem var1_val (W : Valuation τ sig (Elt Ideal)) :
    after (var1 (F := Ideal)) W (no_index (Proc.devRef .tc main_v38)) = varR (W (Proc.devRef .tc main_v34)) := by
  unfold var1; after_results_simp; rfl

theorem bn1_val (W : Valuation τ sig (Elt Ideal)) :
    after (bn1b (F := Ideal)) (after (bn1a (F := Ideal)) W) (no_index (Proc.devRef .tc main_v54))
      = bnReluR (W (Proc.devRef .tc main_v34)) (W (Proc.devRef .tc main_v37)) (W (Proc.devRef .tc main_v38)) (W (Proc.devRef .tc main_arg7)) (W (Proc.devRef .tc main_arg8)) := by
  unfold bn1b bn1a; after_results_simp; rfl

/-- Layer 1's six pieces in a row. -/
theorem layer1_val (W : Valuation τ sig (Elt Ideal)) :
    after (bn1b (F := Ideal)) (after (bn1a (F := Ideal)) (after (var1 (F := Ideal)) (after (mean1 (F := Ideal)) (after (conv1 (F := Ideal)) (after (agg1 (F := Ideal)) W)))))
        (no_index (Proc.devRef .tc main_v54))
      = layerBody (W (Proc.devRef .tc main_v1)) (W (Proc.devRef .tc main_v3)) (W (Proc.devRef .tc main_v8)) (W (Proc.devRef .tc main_arg4)) (W (Proc.devRef .tc main_arg5)) (W (Proc.devRef .tc main_arg6)) (W (Proc.devRef .tc main_arg7)) (W (Proc.devRef .tc main_arg8)) := by
  simp (disch := decide) only [bn1_val, var1_val, mean1_val, conv1_val, agg1_val,
    bn1a_keep, var1_keep, mean1_keep, conv1_keep, agg1_keep]
  rfl

/-- The buffers layer 1's six pieces write. -/
def layer1_W : List (Ref sig .tc) := agg1_W ++ conv1_W ++ mean1_W ++ var1_W ++ bn1a_W ++ bn1b_W

/-- Layer 1's six pieces leave the buffers they do not write as they were. -/
theorem layer1_keep (W : Valuation τ sig (Elt Ideal)) {r : Ref sig .tc}
    (h : r ∉ layer1_W) :
    after (bn1b (F := Ideal)) (after (bn1a (F := Ideal)) (after (var1 (F := Ideal)) (after (mean1 (F := Ideal)) (after (conv1 (F := Ideal)) (after (agg1 (F := Ideal)) W)))))
        (no_index (Proc.devRef .tc r)) = W (Proc.devRef .tc r) := by
  simp only [layer1_W, List.mem_append, not_or] at h
  obtain ⟨⟨⟨⟨⟨h1, h2⟩, h3⟩, h4⟩, h5⟩, h6⟩ := h
  rw [bn1b_keep _ h6, bn1a_keep _ h5, var1_keep _ h4, mean1_keep _ h3, conv1_keep _ h2, agg1_keep _ h1]

/-! ## Layer 2 -/

theorem agg2_val (W : Valuation τ sig (Elt Ideal)) :
    after (agg2 (F := Ideal)) W (no_index (Proc.devRef .tc main_v72)) = aggBody (W (Proc.devRef .tc main_v1)) (W (Proc.devRef .tc main_v3)) (W (Proc.devRef .tc main_v54)) := by
  unfold agg2; after_results_simp; rfl

theorem conv2_val (W : Valuation τ sig (Elt Ideal)) :
    after (conv2 (F := Ideal)) W (no_index (Proc.devRef .tc main_v80))
      = convR (W (Proc.devRef .tc main_v54)) (W (Proc.devRef .tc main_v72)) (W (Proc.devRef .tc main_arg9)) (W (Proc.devRef .tc main_arg10)) (W (Proc.devRef .tc main_arg11)) := by
  unfold conv2; after_results_simp; rfl

theorem mean2_val (W : Valuation τ sig (Elt Ideal)) :
    after (mean2 (F := Ideal)) W (no_index (Proc.devRef .tc main_v83)) = meanR (W (Proc.devRef .tc main_v80)) := by
  unfold mean2; after_results_simp; rfl

theorem var2_val (W : Valuation τ sig (Elt Ideal)) :
    after (var2 (F := Ideal)) W (no_index (Proc.devRef .tc main_v84)) = varR (W (Proc.devRef .tc main_v80)) := by
  unfold var2; after_results_simp; rfl

theorem bn2_val (W : Valuation τ sig (Elt Ideal)) :
    after (bn2b (F := Ideal)) (after (bn2a (F := Ideal)) W) (no_index (Proc.devRef .tc main_v100))
      = bnReluR (W (Proc.devRef .tc main_v80)) (W (Proc.devRef .tc main_v83)) (W (Proc.devRef .tc main_v84)) (W (Proc.devRef .tc main_arg12)) (W (Proc.devRef .tc main_arg13)) := by
  unfold bn2b bn2a; after_results_simp; rfl

/-- Layer 2's six pieces in a row. -/
theorem layer2_val (W : Valuation τ sig (Elt Ideal)) :
    after (bn2b (F := Ideal)) (after (bn2a (F := Ideal)) (after (var2 (F := Ideal)) (after (mean2 (F := Ideal)) (after (conv2 (F := Ideal)) (after (agg2 (F := Ideal)) W)))))
        (no_index (Proc.devRef .tc main_v100))
      = layerBody (W (Proc.devRef .tc main_v1)) (W (Proc.devRef .tc main_v3)) (W (Proc.devRef .tc main_v54)) (W (Proc.devRef .tc main_arg9)) (W (Proc.devRef .tc main_arg10)) (W (Proc.devRef .tc main_arg11)) (W (Proc.devRef .tc main_arg12)) (W (Proc.devRef .tc main_arg13)) := by
  simp (disch := decide) only [bn2_val, var2_val, mean2_val, conv2_val, agg2_val,
    bn2a_keep, var2_keep, mean2_keep, conv2_keep, agg2_keep]
  rfl

/-- The buffers layer 2's six pieces write. -/
def layer2_W : List (Ref sig .tc) := agg2_W ++ conv2_W ++ mean2_W ++ var2_W ++ bn2a_W ++ bn2b_W

/-- Layer 2's six pieces leave the buffers they do not write as they were. -/
theorem layer2_keep (W : Valuation τ sig (Elt Ideal)) {r : Ref sig .tc}
    (h : r ∉ layer2_W) :
    after (bn2b (F := Ideal)) (after (bn2a (F := Ideal)) (after (var2 (F := Ideal)) (after (mean2 (F := Ideal)) (after (conv2 (F := Ideal)) (after (agg2 (F := Ideal)) W)))))
        (no_index (Proc.devRef .tc r)) = W (Proc.devRef .tc r) := by
  simp only [layer2_W, List.mem_append, not_or] at h
  obtain ⟨⟨⟨⟨⟨h1, h2⟩, h3⟩, h4⟩, h5⟩, h6⟩ := h
  rw [bn2b_keep _ h6, bn2a_keep _ h5, var2_keep _ h4, mean2_keep _ h3, conv2_keep _ h2, agg2_keep _ h1]

/-! ## Layer 3 -/

theorem agg3_val (W : Valuation τ sig (Elt Ideal)) :
    after (agg3 (F := Ideal)) W (no_index (Proc.devRef .tc main_v118)) = aggBody (W (Proc.devRef .tc main_v1)) (W (Proc.devRef .tc main_v3)) (W (Proc.devRef .tc main_v100)) := by
  unfold agg3; after_results_simp; rfl

theorem conv3_val (W : Valuation τ sig (Elt Ideal)) :
    after (conv3 (F := Ideal)) W (no_index (Proc.devRef .tc main_v126))
      = convR (W (Proc.devRef .tc main_v100)) (W (Proc.devRef .tc main_v118)) (W (Proc.devRef .tc main_arg14)) (W (Proc.devRef .tc main_arg15)) (W (Proc.devRef .tc main_arg16)) := by
  unfold conv3; after_results_simp; rfl

theorem mean3_val (W : Valuation τ sig (Elt Ideal)) :
    after (mean3 (F := Ideal)) W (no_index (Proc.devRef .tc main_v129)) = meanR (W (Proc.devRef .tc main_v126)) := by
  unfold mean3; after_results_simp; rfl

theorem var3_val (W : Valuation τ sig (Elt Ideal)) :
    after (var3 (F := Ideal)) W (no_index (Proc.devRef .tc main_v130)) = varR (W (Proc.devRef .tc main_v126)) := by
  unfold var3; after_results_simp; rfl

theorem bn3_val (W : Valuation τ sig (Elt Ideal)) :
    after (bn3b (F := Ideal)) (after (bn3a (F := Ideal)) W) (no_index (Proc.devRef .tc main_v146))
      = bnReluR (W (Proc.devRef .tc main_v126)) (W (Proc.devRef .tc main_v129)) (W (Proc.devRef .tc main_v130)) (W (Proc.devRef .tc main_arg17)) (W (Proc.devRef .tc main_arg18)) := by
  unfold bn3b bn3a; after_results_simp; rfl

/-- Layer 3's six pieces in a row. -/
theorem layer3_val (W : Valuation τ sig (Elt Ideal)) :
    after (bn3b (F := Ideal)) (after (bn3a (F := Ideal)) (after (var3 (F := Ideal)) (after (mean3 (F := Ideal)) (after (conv3 (F := Ideal)) (after (agg3 (F := Ideal)) W)))))
        (no_index (Proc.devRef .tc main_v146))
      = layerBody (W (Proc.devRef .tc main_v1)) (W (Proc.devRef .tc main_v3)) (W (Proc.devRef .tc main_v100)) (W (Proc.devRef .tc main_arg14)) (W (Proc.devRef .tc main_arg15)) (W (Proc.devRef .tc main_arg16)) (W (Proc.devRef .tc main_arg17)) (W (Proc.devRef .tc main_arg18)) := by
  simp (disch := decide) only [bn3_val, var3_val, mean3_val, conv3_val, agg3_val,
    bn3a_keep, var3_keep, mean3_keep, conv3_keep, agg3_keep]
  rfl

/-- The buffers layer 3's six pieces write. -/
def layer3_W : List (Ref sig .tc) := agg3_W ++ conv3_W ++ mean3_W ++ var3_W ++ bn3a_W ++ bn3b_W

/-- Layer 3's six pieces leave the buffers they do not write as they were. -/
theorem layer3_keep (W : Valuation τ sig (Elt Ideal)) {r : Ref sig .tc}
    (h : r ∉ layer3_W) :
    after (bn3b (F := Ideal)) (after (bn3a (F := Ideal)) (after (var3 (F := Ideal)) (after (mean3 (F := Ideal)) (after (conv3 (F := Ideal)) (after (agg3 (F := Ideal)) W)))))
        (no_index (Proc.devRef .tc r)) = W (Proc.devRef .tc r) := by
  simp only [layer3_W, List.mem_append, not_or] at h
  obtain ⟨⟨⟨⟨⟨h1, h2⟩, h3⟩, h4⟩, h5⟩, h6⟩ := h
  rw [bn3b_keep _ h6, bn3a_keep _ h5, var3_keep _ h4, mean3_keep _ h3, conv3_keep _ h2, agg3_keep _ h1]

/-! ## The whole line -/

/-- Every buffer the line writes: no argument is among them. -/
def ops_W : List (Ref sig .tc) := edges_W ++ emb_W ++ layer1_W ++ layer2_W ++ layer3_W ++ clsA_W ++ clsB_W

/-- The line leaves the buffers it does not write as they were. -/
theorem ops_keep (V : Valuation τ sig (Elt Ideal)) {r : Ref sig .tc} (h : r ∉ ops_W) :
    after (ops (F := Ideal)) V (Proc.devRef .tc r) = V (Proc.devRef .tc r) := by
  simp only [ops_W, List.mem_append, not_or] at h
  obtain ⟨⟨⟨⟨⟨⟨h1, h2⟩, h3⟩, h4⟩, h5⟩, h6⟩, h7⟩ := h
  rw [after_ops, clsB_keep _ h7, clsA_keep _ h6, layer3_keep _ h5, layer2_keep _ h4, layer1_keep _ h3, emb_keep _ h2,
    edges_keep _ h1]

/-- The line leaves the result buffer at the network's function of the argument buffers. -/
theorem ops_out (V : Valuation τ sig (Elt Ideal)) :
    after (ops (F := Ideal)) V (Proc.devRef .tc main_v151)
      = netR (V (Proc.devRef .tc main_arg0))
          (V (Proc.devRef .tc main_arg1))
          (V (Proc.devRef .tc main_arg2))
          (V (Proc.devRef .tc main_arg3))
          (V (Proc.devRef .tc main_arg4))
          (V (Proc.devRef .tc main_arg5))
          (V (Proc.devRef .tc main_arg6))
          (V (Proc.devRef .tc main_arg7))
          (V (Proc.devRef .tc main_arg8))
          (V (Proc.devRef .tc main_arg9))
          (V (Proc.devRef .tc main_arg10))
          (V (Proc.devRef .tc main_arg11))
          (V (Proc.devRef .tc main_arg12))
          (V (Proc.devRef .tc main_arg13))
          (V (Proc.devRef .tc main_arg14))
          (V (Proc.devRef .tc main_arg15))
          (V (Proc.devRef .tc main_arg16))
          (V (Proc.devRef .tc main_arg17))
          (V (Proc.devRef .tc main_arg18))
          (V (Proc.devRef .tc main_arg19))
          (V (Proc.devRef .tc main_arg20)) := by
  rw [after_ops]
  simp (disch := decide) only [cls_val, layer3_val, layer2_val, layer1_val, emb_val, edges_src, edges_dst,
    layer3_keep, layer2_keep, layer1_keep, emb_keep, edges_keep]
  rfl

/-- The result of the reference's run, as the network's function of the argument arrays at launch. -/
def out (m' : (ℓ : Loc nD τ sig) → Buf (Elt Ideal) ℓ) (c : Dev nD) : FVec Ideal S100000x2 .f32 :=
  netR (m' ((c.tc : Thread nD τ).loc main_arg0))
    (m' ((c.tc : Thread nD τ).loc main_arg1))
    (m' ((c.tc : Thread nD τ).loc main_arg2))
    (m' ((c.tc : Thread nD τ).loc main_arg3))
    (m' ((c.tc : Thread nD τ).loc main_arg4))
    (m' ((c.tc : Thread nD τ).loc main_arg5))
    (m' ((c.tc : Thread nD τ).loc main_arg6))
    (m' ((c.tc : Thread nD τ).loc main_arg7))
    (m' ((c.tc : Thread nD τ).loc main_arg8))
    (m' ((c.tc : Thread nD τ).loc main_arg9))
    (m' ((c.tc : Thread nD τ).loc main_arg10))
    (m' ((c.tc : Thread nD τ).loc main_arg11))
    (m' ((c.tc : Thread nD τ).loc main_arg12))
    (m' ((c.tc : Thread nD τ).loc main_arg13))
    (m' ((c.tc : Thread nD τ).loc main_arg14))
    (m' ((c.tc : Thread nD τ).loc main_arg15))
    (m' ((c.tc : Thread nD τ).loc main_arg16))
    (m' ((c.tc : Thread nD τ).loc main_arg17))
    (m' ((c.tc : Thread nD τ).loc main_arg18))
    (m' ((c.tc : Thread nD τ).loc main_arg19))
    (m' ((c.tc : Thread nD τ).loc main_arg20))

/-- On every device, from any memory with zero counters: every weakly fair execution of @main terminates with the
    result buffer at the network's function of the argument arrays, and the argument arrays unchanged. -/
theorem run (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
      r.2.mem ((c.tc : Thread nD τ).loc main_v151) = out m' c
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11)
      ∧ r.2.mem ((c.tc : Thread nD τ).loc main_arg12) = m' ((c.tc : Thread nD τ).loc main_arg12)
      ∧ r.2.mem ((c.tc : Thread nD τ).loc main_arg13) = m' ((c.tc : Thread nD τ).loc main_arg13)
      ∧ r.2.mem ((c.tc : Thread nD τ).loc main_arg14) = m' ((c.tc : Thread nD τ).loc main_arg14)
      ∧ r.2.mem ((c.tc : Thread nD τ).loc main_arg15) = m' ((c.tc : Thread nD τ).loc main_arg15)
      ∧ r.2.mem ((c.tc : Thread nD τ).loc main_arg16) = m' ((c.tc : Thread nD τ).loc main_arg16)
      ∧ r.2.mem ((c.tc : Thread nD τ).loc main_arg17) = m' ((c.tc : Thread nD τ).loc main_arg17)
      ∧ r.2.mem ((c.tc : Thread nD τ).loc main_arg18) = m' ((c.tc : Thread nD τ).loc main_arg18)
      ∧ r.2.mem ((c.tc : Thread nD τ).loc main_arg19) = m' ((c.tc : Thread nD τ).loc main_arg19)
      ∧ r.2.mem ((c.tc : Thread nD τ).loc main_arg20) = m' ((c.tc : Thread nD τ).loc main_arg20)) :=
  (θ_run defs _ _).mono (fun _ h c => ⟨(h c main_v151).trans (ops_out (launchContents m' c)),
      (h c main_arg0).trans (ops_keep (launchContents m' c) (by decide)),
      (h c main_arg1).trans (ops_keep (launchContents m' c) (by decide)),
      (h c main_arg2).trans (ops_keep (launchContents m' c) (by decide)),
      (h c main_arg3).trans (ops_keep (launchContents m' c) (by decide)),
      (h c main_arg4).trans (ops_keep (launchContents m' c) (by decide)),
      (h c main_arg5).trans (ops_keep (launchContents m' c) (by decide)),
      (h c main_arg6).trans (ops_keep (launchContents m' c) (by decide)),
      (h c main_arg7).trans (ops_keep (launchContents m' c) (by decide)),
      (h c main_arg8).trans (ops_keep (launchContents m' c) (by decide)),
      (h c main_arg9).trans (ops_keep (launchContents m' c) (by decide)),
      (h c main_arg10).trans (ops_keep (launchContents m' c) (by decide)),
      (h c main_arg11).trans (ops_keep (launchContents m' c) (by decide)),
      (h c main_arg12).trans (ops_keep (launchContents m' c) (by decide)),
      (h c main_arg13).trans (ops_keep (launchContents m' c) (by decide)),
      (h c main_arg14).trans (ops_keep (launchContents m' c) (by decide)),
      (h c main_arg15).trans (ops_keep (launchContents m' c) (by decide)),
      (h c main_arg16).trans (ops_keep (launchContents m' c) (by decide)),
      (h c main_arg17).trans (ops_keep (launchContents m' c) (by decide)),
      (h c main_arg18).trans (ops_keep (launchContents m' c) (by decide)),
      (h c main_arg19).trans (ops_keep (launchContents m' c) (by decide)),
      (h c main_arg20).trans (ops_keep (launchContents m' c) (by decide))⟩)
    (run_seq scopedRefs_eq scopedSems_eq defs main (fun _ => ops) main_eq (fun _ => ops_sub) m' ρ' (fun _ => ops_fresh))

end Cert.ReferenceIdeal.HandRun

end
-- ==== Proof.LibBnRead.lean ====
/-
  Reading a batch-normalisation's affine map at an index, in the form a host program spells it.

  A per-feature vector of length d (a mean, a reciprocal standard deviation, a scale, a shift) is applied to an
  [N, d] array by broadcasting it first to one row, [1, d], and then along the rows, [N, d]. Read at (p, k), each
  such broadcast is the vector's entry k, whatever the row p; a scalar broadcast to any shape is the scalar. So the
  normalised array at (p, k) is  ((z (p, k) − mean k) · rsqrt (var k + ε)) · g k + b k  on the extended reals, every
  operation the pointwise one. Independent of any program.
-/
import Idealize.ShloMosaic.Lib.ValueIdx
import Idealize.ShloMosaic.Lib.Pipeline.Value
import Idealize.ShloMosaic.PureOps.Ideal
import Idealize.ShloMosaic.PureOps.Ideal.Laws

noncomputable section

namespace Cert.Lib

open Idealize.ShloMosaic Idealize.ShloMosaic.ValueIdx

variable {α : Type}

/-- A length-a vector broadcast to one row [1, a] reads, at (u, i), its entry i. -/
theorem bcast_a_1a_apply {a : ℕ} (x : (⟨1, ![a]⟩ : Shape).Idx → α)
    (h : (⟨1, ![a]⟩ : Shape).BroadcastsInDim ⟨2, ![1, a]⟩ ![1]) (u : Fin 1) (i : Fin a) :
    broadcastInDim ⟨2, ![1, a]⟩ ![1] h x (ix2 u i) = x (ix1 i) := by
  refine broadcastInDim_apply ![1] h x (ix2 u i) (ix1 i) fun ax => ?_
  match ax with
  | ⟨0, _⟩ =>
    show i.val = if a = 1 then 0 else i.val
    split
    · have := i.isLt; omega
    · rfl

/-- One row [1, b] broadcast along the rows to [a, b] reads, at (p, c), the row's entry c. -/
theorem bcast_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A scalar broadcast to any shape reads, everywhere, the scalar. -/
theorem bcast_scalar_apply {t : Shape} (x : (⟨0, ![]⟩ : Shape).Idx → α)
    (h : (⟨0, ![]⟩ : Shape).BroadcastsInDim t ![]) (j : t.Idx) :
    broadcastInDim t ![] h x j = x ix0 := by
  unfold broadcastInDim
  exact congrArg x (funext fun a => a.elim0)

/-- The normalisation's affine map at (p, k): the per-feature vectors enter at k only. -/
theorem bn_affine_apply {N d : ℕ} (z : FVec Ideal ⟨2, ![N, d]⟩ .f32) (mean var g b : FVec Ideal ⟨1, ![d]⟩ .f32)
    (h0 : (⟨0, ![]⟩ : Shape).BroadcastsInDim ⟨1, ![d]⟩ ![])
    (h1 : (⟨1, ![d]⟩ : Shape).BroadcastsInDim ⟨2, ![1, d]⟩ ![1])
    (h2 : (⟨2, ![1, d]⟩ : Shape).BroadcastsInDim ⟨2, ![N, d]⟩ ![0, 1]) (w : BitVec 32) (p : Fin N) (k : Fin d) :
    addf (mulf (mulf (subf z (broadcastInDim ⟨2, ![N, d]⟩ ![0, 1] h2 (broadcastInDim ⟨2, ![1, d]⟩ ![1] h1 mean)))
        (broadcastInDim ⟨2, ![N, d]⟩ ![0, 1] h2 (broadcastInDim ⟨2, ![1, d]⟩ ![1] h1
          (Host.rsqrt (addf var (broadcastInDim ⟨1, ![d]⟩ ![] h0 (constant (F := Ideal) ⟨0, ![]⟩ .f32 w)))))))
        (broadcastInDim ⟨2, ![N, d]⟩ ![0, 1] h2 (broadcastInDim ⟨2, ![1, d]⟩ ![1] h1 g)))
      (broadcastInDim ⟨2, ![N, d]⟩ ![0, 1] h2 (broadcastInDim ⟨2, ![1, d]⟩ ![1] h1 b)) (ix2 p k)
    = ((z (ix2 p k) - mean (ix1 k)) * Ideal.rsqrt (var (ix1 k) + Ideal.ofBits .f32 w)) * g (ix1 k) + b (ix1 k) := by
  simp only [addf_apply, mulf_apply, subf_apply]
  rw [bcast_1b_ab_apply _ h2 p k, bcast_1b_ab_apply _ h2 p k, bcast_1b_ab_apply _ h2 p k, bcast_1b_ab_apply _ h2 p k,
    bcast_a_1a_apply _ h1 0 k, bcast_a_1a_apply _ h1 0 k, bcast_a_1a_apply _ h1 0 k, bcast_a_1a_apply _ h1 0 k]
  rfl

end Cert.Lib

end
-- ==== Proof.RefRead.lean ====
/-
  The reference network's stages read index by index. Each stage is a composition of whole-array operations; at an
  index (p, q) a matrix product is a sum over the shared axis, a transposed weight matrix is read at (q, k), a
  per-feature vector broadcast to a row and then along the rows is read at q, a reduction over the rows is the sum
  over p, and every arithmetic operation is the pointwise one on the extended reals. So the dense layer, the
  convolution, the column mean, the column variance (mean of squared deviations: its divisor is the row count minus
  an integer zero, and the guard "divisor positive" holds) and the normalisation are the functions of the shared
  specification, and the network is the composition of those.
-/
import proofs.«136904_j51402168598679_1_alg».proof.Proof.RefStages
import proofs.«136904_j51402168598679_1_alg».proof.Proof.Net
import proofs.«136904_j51402168598679_1_alg».proof.Proof.Consts
import proofs.«136904_j51402168598679_1_alg».proof.Proof.LibPlainDot
import proofs.«136904_j51402168598679_1_alg».proof.Proof.LibBnRead
import Idealize.ShloMosaic.Lib.IdealHost
import Idealize.ShloMosaic.Lib.Pipeline.Value
import Idealize.ShloMosaic.PureOps.Ideal.Laws

set_option maxRecDepth 16384

noncomputable section

namespace Cert.ReferenceIdeal.HandRead

open Cert.ReferenceIdeal Cert.ReferenceIdeal.Gen Cert.ReferenceIdeal.HandRun
open Idealize.ShloMosaic Idealize.ShloMosaic.ValueIdx
open Cert.Spec Cert.Net

/-! ## The non-pointwise operations at an index -/

/-- A transposed square weight matrix at (k, q) is the matrix at (q, k). -/
theorem transposeSq_apply (w : FVec Ideal S128x128 .f32) (h : S128x128.Transposes [1, 0] S128x128) (k q : Fin 128) :
    transpose S128x128 [1, 0] w h (ix2 k q) = w (ix2 q k) := by
  refine transpose_apply [1, 0] w h (ix2 k q) (ix2 q k) fun b => ?_
  match b with
  | ⟨0, _⟩ => rfl
  | ⟨1, _⟩ => rfl

/-- The transposed classifier weights at (k, q) are the weights at (q, k). -/
theorem transposeCls_apply (w : FVec Ideal S2x128 .f32) (h : S2x128.Transposes [1, 0] S128x2) (k : Fin 128) (q : Fin 2) :
    transpose S128x2 [1, 0] w h (ix2 k q) = w (ix2 q k) := by
  refine transpose_apply [1, 0] w h (ix2 k q) (ix2 q k) fun b => ?_
  match b with
  | ⟨0, _⟩ => rfl
  | ⟨1, _⟩ => rfl

/-- The product with a transposed square weight matrix at (p, q): row p against the weights' row q. -/
theorem dotSq_apply (x : NodeMat) (w : FVec Ideal S128x128 .f32) (p : Fin 100000) (q : Fin 128) :
    Host.dotGeneral dot_S100000x128_S128x128_S100000x128_1_0_0_1_n_n none x
        (transpose S128x128 [1, 0] w transposes_S128x128_S128x128_1_0) (ix2 p q)
      = ∑ k : Fin 128, x (ix2 p k) * w (ix2 q k) := by
  refine (Cert.Lib.dotGeneral_plain_apply (M := 100000) (K := 128) (N := 128)
    dot_S100000x128_S128x128_S100000x128_1_0_0_1_n_n_wf none .single x
    (transpose S128x128 [1, 0] w transposes_S128x128_S128x128_1_0) p q).trans ?_
  exact Finset.sum_congr rfl fun k _ => by rw [transposeSq_apply]

/-- The product with the transposed classifier weights at (p, q). -/
theorem dotCls_apply (x : NodeMat) (w : FVec Ideal S2x128 .f32) (p : Fin 100000) (q : Fin 2) :
    Host.dotGeneral dot_S100000x128_S128x2_S100000x2_1_0_0_1_n_n none x
        (transpose S128x2 [1, 0] w transposes_S2x128_S128x2_1_0) (ix2 p q)
      = ∑ k : Fin 128, x (ix2 p k) * w (ix2 q k) := by
  refine (Cert.Lib.dotGeneral_plain_apply (M := 100000) (K := 128) (N := 2)
    dot_S100000x128_S128x2_S100000x2_1_0_0_1_n_n_wf none .single x
    (transpose S128x2 [1, 0] w transposes_S2x128_S128x2_1_0) p q).trans ?_
  exact Finset.sum_congr rfl fun k _ => by rw [transposeCls_apply]

/-- The sum over the rows, from a zero start, at column q. -/
theorem colReduce_apply (y : NodeMat) (q : Fin 128) :
    Host.reduceAdd y (constant (F := Ideal) S_ .f32 0x00000000#32) reducesTo_S100000x128_S128_d0 h_S_ (ix1 q)
      = ∑ p : Fin 100000, y (ix2 p q) := by
  have hr : S100000x128.Reduces [0] S128 := by decide
  rw [hostReduceAdd_apply, Ideal.hostReduceAdd_single reducesTo_S100000x128_S128_d0 hr, constant_apply,
    Ideal.ofBits_zero_f32, zero_add]
  refine Finset.sum_congr rfl fun p _ => congrArg y (funext fun a => Fin.ext ?_)
  match a with
  | ⟨0, _⟩ => rfl
  | ⟨1, _⟩ => rfl

/-! ## The stages -/

/-- The dense layer. -/
theorem denseR_eq (x : NodeMat) (w : FVec Ideal S128x128 .f32) (b : FeatVec) :
    denseR x w b = Cert.Spec.dense x w (Cert.Spec.row b) := by
  funext j
  obtain ⟨p, q, rfl⟩ : ∃ (p : Fin 100000) (q : Fin 128), j = ix2 p q := ⟨j 0, j 1, eq_ix2 j⟩
  rw [dense_apply, row_apply]
  unfold denseR
  dsimp only [overNodes, asRow]
  rw [addf_apply, Cert.Lib.bcast_1b_ab_apply, Cert.Lib.bcast_a_1a_apply, dotSq_apply]

/-- The classifier. -/
theorem clsR_eq (h : NodeMat) (w : FVec Ideal S2x128 .f32) (b : FVec Ideal S2 .f32) :
    clsR h w b = Cert.Spec.dense h w (Cert.Spec.row b) := by
  funext j
  obtain ⟨p, q, rfl⟩ : ∃ (p : Fin 100000) (q : Fin 2), j = ix2 p q := ⟨j 0, j 1, eq_ix2 j⟩
  rw [dense_apply, row_apply]
  unfold clsR
  rw [addf_apply, Cert.Lib.bcast_1b_ab_apply, Cert.Lib.bcast_a_1a_apply, dotCls_apply]

/-- The convolution: the reference adds the bias before the neighbours' term; addition on the extended reals is
    commutative and associative, so the grouping does not matter. -/
theorem convR_eq (h a : NodeMat) (wl wr : FVec Ideal S128x128 .f32) (b : FeatVec) :
    convR h a wl wr b = Cert.Spec.conv h a wl wr (Cert.Spec.row b) := by
  funext j
  obtain ⟨p, q, rfl⟩ : ∃ (p : Fin 100000) (q : Fin 128), j = ix2 p q := ⟨j 0, j 1, eq_ix2 j⟩
  rw [conv_apply, row_apply]
  unfold convR
  dsimp only [overNodes, asRow]
  rw [addf_apply, addf_apply, Cert.Lib.bcast_1b_ab_apply, Cert.Lib.bcast_a_1a_apply, dotSq_apply, dotSq_apply,
    add_right_comm]

/-- The column mean, as a row. -/
theorem meanR_eq (y : NodeMat) :
    Cert.Spec.row (meanR y) = Cert.Spec.mean (Ideal.ofBits .f32 0x47C35000#32) y := by
  funext j
  obtain ⟨u, q, rfl⟩ : ∃ (u : Fin 1) (q : Fin 128), j = ix2 u q := ⟨j 0, j 1, eq_ix2 j⟩
  rw [row_apply]
  show _ = Ideal.div (∑ p : Fin 100000, y (ix2 p q)) (Ideal.ofBits .f32 0x47C35000#32)
  unfold meanR
  rw [hostDivf_apply, colReduce_apply, Cert.Lib.bcast_scalar_apply, constant_apply]

/-- A deviation from the column mean. -/
theorem devR_apply (y : NodeMat) (p : Fin 100000) (q : Fin 128) :
    devR y (ix2 p q) = y (ix2 p q) - Cert.Spec.mean (Ideal.ofBits .f32 0x47C35000#32) y (ix2 0 q) := by
  show _ = y (ix2 p q) - Ideal.div (∑ p : Fin 100000, y (ix2 p q)) (Ideal.ofBits .f32 0x47C35000#32)
  unfold devR
  dsimp only [overNodes, asRow]
  rw [subf_apply, Cert.Lib.bcast_1b_ab_apply, hostDivf_apply, Cert.Lib.bcast_a_1a_apply, colReduce_apply,
    Cert.Lib.bcast_scalar_apply, constant_apply]

/-- The variance's divisor is the row count: the correction subtracted from it is the integer zero. -/
theorem cntR_apply : cntR ix0 = Ideal.ofBits .f32 0x47C35000#32 := by
  unfold cntR
  rw [subf_apply, constant_apply, sitofp_apply]
  show Ideal.ofBits .f32 0x47C35000#32 - (((0#32 : BitVec 32).toInt : ℝ) : EReal) = _
  simp

/-- The divisor is positive, so the guarded quotient is taken. -/
theorem cnt_pos : FloatOps.cmpf .ogt (cntR ix0) (constant (F := Ideal) S_ .f32 0x00000000#32 ix0) = 1#1 := by
  rw [cntR_apply, constant_apply, Ideal.cmpf_def, Ideal.ofBits_zero_f32, Cert.Consts.ofBits_rows]
  show BitVec.ofBool (decide ((0 : EReal) < ((100000 : ℝ) : EReal))) = 1#1
  rw [decide_eq_true (by exact_mod_cast (by norm_num : (0 : ℝ) < 100000))]
  rfl

/-- The column variance, as a row: the mean of the squared deviations. -/
theorem varR_eq (y : NodeMat) :
    Cert.Spec.row (varR y) = Cert.Spec.varOfDeviations (Ideal.ofBits .f32 0x47C35000#32) y := by
  funext j
  obtain ⟨u, q, rfl⟩ : ∃ (u : Fin 1) (q : Fin 128), j = ix2 u q := ⟨j 0, j 1, eq_ix2 j⟩
  rw [row_apply]
  show _ = Ideal.div (∑ p : Fin 100000,
      (y (ix2 p q) - Cert.Spec.mean (Ideal.ofBits .f32 0x47C35000#32) y (ix2 0 q))
        * (y (ix2 p q) - Cert.Spec.mean (Ideal.ofBits .f32 0x47C35000#32) y (ix2 0 q)))
    (Ideal.ofBits .f32 0x47C35000#32)
  unfold varR
  rw [select_apply, Cert.Lib.bcast_scalar_apply, cmpf_apply, cnt_pos]
  show Host.divf _ _ (ix1 q) = _
  rw [hostDivf_apply, colReduce_apply, Cert.Lib.bcast_scalar_apply, cntR_apply]
  refine congrArg (fun s => Ideal.div s (Ideal.ofBits .f32 0x47C35000#32)) ?_
  exact Finset.sum_congr rfl fun p _ => by rw [mulf_apply, devR_apply]

/-- Normalise, scale, shift, rectify. -/
theorem bnReluR_eq (y : NodeMat) (mu var g be : FeatVec) :
    bnReluR y mu var g be
      = Cert.Spec.bnRelu (Ideal.ofBits .f32 0x3727C5AC#32) y (Cert.Spec.row mu) (Cert.Spec.row var) (Cert.Spec.row g)
          (Cert.Spec.row be) := by
  funext j
  obtain ⟨p, q, rfl⟩ : ∃ (p : Fin 100000) (q : Fin 128), j = ix2 p q := ⟨j 0, j 1, eq_ix2 j⟩
  rw [bnRelu_apply, row_apply, row_apply, row_apply, row_apply]
  unfold bnReluR
  rw [maximumf_apply, Cert.Lib.bcast_scalar_apply, constant_apply, Ideal.ofBits_zero_f32]
  congr 1
  exact Cert.Lib.bn_affine_apply (N := 100000) (d := 128) y mu var g be bcast_S_S128 bcast_S128_S1x128_1
    bcast_S1x128_S100000x128_0_1 0x3727C5AC#32 p q

/-- One layer. -/
theorem layerR_eq (e : IVec S2x1600000 32) (h : NodeMat) (wl wr : FVec Ideal S128x128 .f32) (b g be : FeatVec) :
    layerR e h wl wr b g be
      = Cert.Net.layerDev (aggR e) (Ideal.ofBits .f32 0x47C35000#32) (Ideal.ofBits .f32 0x3727C5AC#32) h wl wr
          (Cert.Spec.row b) (Cert.Spec.row g) (Cert.Spec.row be) := by
  show bnReluR (convR h (aggR e h) wl wr b) (meanR (convR h (aggR e h) wl wr b)) (varR (convR h (aggR e h) wl wr b)) g be = _
  rw [bnReluR_eq, meanR_eq, varR_eq, convR_eq]
  rfl

/-- The whole network. -/
theorem netR_eq (x : NodeMat) (e : IVec S2x1600000 32) (ew : FVec Ideal S128x128 .f32) (eb : FeatVec)
    (w1l w1r : FVec Ideal S128x128 .f32) (b1 g1 be1 : FeatVec)
    (w2l w2r : FVec Ideal S128x128 .f32) (b2 g2 be2 : FeatVec)
    (w3l w3r : FVec Ideal S128x128 .f32) (b3 g3 be3 : FeatVec)
    (cw : FVec Ideal S2x128 .f32) (cb : FVec Ideal S2 .f32) :
    netR x e ew eb w1l w1r b1 g1 be1 w2l w2r b2 g2 be2 w3l w3r b3 g3 be3 cw cb
      = Cert.Net.netDev (aggR e) (Ideal.ofBits .f32 0x47C35000#32) (Ideal.ofBits .f32 0x3727C5AC#32) x ew
          (Cert.Spec.row eb) w1l w1r (Cert.Spec.row b1) (Cert.Spec.row g1) (Cert.Spec.row be1)
          w2l w2r (Cert.Spec.row b2) (Cert.Spec.row g2) (Cert.Spec.row be2)
          w3l w3r (Cert.Spec.row b3) (Cert.Spec.row g3) (Cert.Spec.row be3) cw (Cert.Spec.row cb) := by
  unfold netR
  rw [clsR_eq, layerR_eq, layerR_eq, layerR_eq, denseR_eq]
  rfl

end Cert.ReferenceIdeal.HandRead

end
-- ==== Proof.AggSame.lean ====
/-
  The two programs aggregate with the same operations: the same slices of the edge array, the same gather,
  scatter-adds, maximum and quotient, each program spelling its own copies of the dimension records. So the
  reference's aggregation is the kernel program's, as functions of the edge array and the feature matrix.
-/
import proofs.«136904_j51402168598679_1_alg».proof.Proof.RefStages
import proofs.«136904_j51402168598679_1_alg».proof.Proof.KStretch

set_option maxRecDepth 16384

noncomputable section

namespace Cert.AggSame

open Idealize.ShloMosaic

theorem agg_same (e : IVec Cert.KernelIdeal.S2x1600000 32) :
    (Cert.ReferenceIdeal.HandRun.aggR e : Cert.Spec.Mat 100000 128 → Cert.Spec.Mat 100000 128)
      = Cert.KernelIdeal.Agg.aggBody (Cert.KernelIdeal.Stretch.srcOf e) (Cert.KernelIdeal.Stretch.dstOf e) :=
  rfl

end Cert.AggSame

end
-- ==== Proof.SpecMath.lean ====
/-
  Why the two spellings of the network agree on real inputs. Every stage maps matrices of reals to matrices of
  reals (finite sums of products, a quotient by the nonzero row count, the reciprocal square root of a positive
  number, a maximum). On a real convolution output the two variances agree (the variance identity), the variance
  is nonnegative, so variance plus the positive constant is positive and the normalised layer is again real. The
  layers then agree one after the other, each feeding a real matrix to the next.
-/
import proofs.«136904_j51402168598679_1_alg».proof.Proof.Net
import proofs.«136904_j51402168598679_1_alg».proof.Proof.LibRealVar

noncomputable section

namespace Cert.SpecMath

open Idealize.ShloMosaic Idealize.ShloMosaic.ValueIdx Cert.Spec Cert.Net Cert.RealMath

variable {n k o d : ℕ}

theorem row_real {v : (⟨1, ![d]⟩ : Shape).Idx → EReal} (hv : ∀ i, IsReal (v i)) : AllReal (row v) :=
  fun _ => hv _

theorem dense_real {x : Mat n k} {w : Mat o k} {b : Mat 1 o} (hx : AllReal x) (hw : AllReal w) (hb : AllReal b) :
    AllReal (dense x w b) := by
  intro j
  show IsReal ((∑ t : Fin k, x (ix2 (j 0) t) * w (ix2 (j 1) t)) + b (ix2 0 (j 1)))
  exact isReal_add (isReal_sum _ _ fun t _ => isReal_mul (hx _) (hw _)) (hb _)

theorem conv_real {h a : Mat n k} {wl wr : Mat o k} {b : Mat 1 o} (hh : AllReal h) (ha : AllReal a)
    (hwl : AllReal wl) (hwr : AllReal wr) (hb : AllReal b) : AllReal (conv h a wl wr b) := by
  intro j
  show IsReal (((∑ t : Fin k, h (ix2 (j 0) t) * wl (ix2 (j 1) t)) + (∑ t : Fin k, a (ix2 (j 0) t) * wr (ix2 (j 1) t)))
    + b (ix2 0 (j 1)))
  exact isReal_add (isReal_add (isReal_sum _ _ fun t _ => isReal_mul (hh _) (hwl _))
    (isReal_sum _ _ fun t _ => isReal_mul (ha _) (hwr _))) (hb _)

theorem mean_real {y : Mat n d} (hy : AllReal y) {cr : ℝ} (hc : cr ≠ 0) : AllReal (mean (cr : EReal) y) := by
  intro j
  show IsReal (Ideal.div (∑ p : Fin n, y (ix2 p (j 1))) (cr : EReal))
  exact isReal_div (isReal_sum _ _ fun p _ => hy _) hc

/-- On a real matrix the two variances are one function. -/
theorem var_eq (y : Mat n d) (hy : AllReal y) (cr : ℝ) (hc : cr ≠ 0) (hn : (n : ℝ) = cr) :
    varOfSquares (cr : EReal) y = varOfDeviations (cr : EReal) y := by
  funext j
  exact (var_identity (fun p => y (ix2 p (j 1))) cr (fun p => hy _) hc hn).symm

/-- The variance of a real matrix is a nonnegative real. -/
theorem var_real (y : Mat n d) (hy : AllReal y) (cr : ℝ) (hc : 0 < cr) (j : (⟨2, ![1, d]⟩ : Shape).Idx) :
    ∃ v : ℝ, 0 ≤ v ∧ varOfDeviations (cr : EReal) y j = (v : EReal) :=
  var_nonneg (fun p => y (ix2 p (j 1))) cr (fun p => hy _) hc

theorem bnRelu_real {er : ℝ} (her : 0 < er) {y : Mat n d} {mu var g be : Mat 1 d}
    (hy : AllReal y) (hmu : AllReal mu) (hvar : ∀ j, ∃ v : ℝ, 0 ≤ v ∧ var j = (v : EReal)) (hg : AllReal g)
    (hbe : AllReal be) : AllReal (bnRelu (er : EReal) y mu var g be) := by
  intro j
  show IsReal (max (((y j - mu (ix2 0 (j 1))) * Ideal.rsqrt (var (ix2 0 (j 1)) + (er : EReal))) * g (ix2 0 (j 1))
    + be (ix2 0 (j 1))) 0)
  obtain ⟨v, hv0, hv⟩ := hvar (ix2 0 (j 1))
  have hr : IsReal (Ideal.rsqrt (var (ix2 0 (j 1)) + (er : EReal))) := by
    rw [hv, ← EReal.coe_add]; exact isReal_rsqrt (by linarith)
  exact isReal_max (isReal_add (isReal_mul (isReal_mul (isReal_sub (hy _) (hmu _)) hr) (hg _)) (hbe _)) isReal_zero

/-- One layer: on real inputs the two spellings agree and the result is real. -/
theorem layer_eq_real (A : Mat n k → Mat n k) (hA : ∀ h, AllReal h → AllReal (A h)) (cr er : ℝ) (hcr : 0 < cr)
    (hn : (n : ℝ) = cr) (her : 0 < er) {h : Mat n k} {wl wr : Mat k k} {b g be : Mat 1 k} (hh : AllReal h)
    (hwl : AllReal wl) (hwr : AllReal wr) (hb : AllReal b) (hg : AllReal g) (hbe : AllReal be) :
    layerSq A (cr : EReal) (er : EReal) h wl wr b g be = layerDev A (cr : EReal) (er : EReal) h wl wr b g be
      ∧ AllReal (layerDev A (cr : EReal) (er : EReal) h wl wr b g be) := by
  have hy : AllReal (conv h (A h) wl wr b) := conv_real hh (hA h hh) hwl hwr hb
  refine ⟨?_, ?_⟩
  · unfold layerSq layerDev
    rw [var_eq _ hy cr hcr.ne' hn]
  · unfold layerDev
    exact bnRelu_real her hy (mean_real hy hcr.ne') (fun j => var_real _ hy cr hcr j) hg hbe

/-- The network: on real arguments the two spellings agree. -/
theorem net_eq {f : ℕ} (A : Mat n k → Mat n k) (hA : ∀ h, AllReal h → AllReal (A h)) (cr er : ℝ) (hcr : 0 < cr)
    (hn : (n : ℝ) = cr) (her : 0 < er) {x : Mat n f} {ew : Mat k f} {eb : Mat 1 k}
    {w1l w1r : Mat k k} {b1 g1 be1 : Mat 1 k} {w2l w2r : Mat k k} {b2 g2 be2 : Mat 1 k}
    {w3l w3r : Mat k k} {b3 g3 be3 : Mat 1 k} (cw : Mat o k) (cb : Mat 1 o)
    (hx : AllReal x) (hew : AllReal ew) (heb : AllReal eb)
    (h1l : AllReal w1l) (h1r : AllReal w1r) (hb1 : AllReal b1) (hg1 : AllReal g1) (hbe1 : AllReal be1)
    (h2l : AllReal w2l) (h2r : AllReal w2r) (hb2 : AllReal b2) (hg2 : AllReal g2) (hbe2 : AllReal be2)
    (h3l : AllReal w3l) (h3r : AllReal w3r) (hb3 : AllReal b3) (hg3 : AllReal g3) (hbe3 : AllReal be3) :
    netSq A (cr : EReal) (er : EReal) x ew eb w1l w1r b1 g1 be1 w2l w2r b2 g2 be2 w3l w3r b3 g3 be3 cw cb
      = netDev A (cr : EReal) (er : EReal) x ew eb w1l w1r b1 g1 be1 w2l w2r b2 g2 be2 w3l w3r b3 g3 be3 cw cb := by
  unfold netSq netDev
  obtain ⟨e1, r1⟩ := layer_eq_real A hA cr er hcr hn her (dense_real hx hew heb) h1l h1r hb1 hg1 hbe1
  rw [e1]
  obtain ⟨e2, r2⟩ := layer_eq_real A hA cr er hcr hn her r1 h2l h2r hb2 hg2 hbe2
  rw [e2]
  obtain ⟨e3, -⟩ := layer_eq_real A hA cr er hcr hn her r2 h3l h3r hb3 hg3 hbe3
  rw [e3]

/-- The same, with the two aggregations and the two constants given by name: the aggregations are one function that
    keeps reals real, the count constant denotes the number of rows, the small constant denotes a positive real. -/
theorem net_agree {f : ℕ} (A A' : Mat n k → Mat n k) (hAA : A' = A) (hA : ∀ h, AllReal h → AllReal (A h))
    (cN eps : EReal) (cr er : ℝ) (hc : cN = (cr : EReal)) (he : eps = (er : EReal)) (hcr : 0 < cr)
    (hn : (n : ℝ) = cr) (her : 0 < er) {x : Mat n f} {ew : Mat k f} {eb : Mat 1 k}
    {w1l w1r : Mat k k} {b1 g1 be1 : Mat 1 k} {w2l w2r : Mat k k} {b2 g2 be2 : Mat 1 k}
    {w3l w3r : Mat k k} {b3 g3 be3 : Mat 1 k} (cw : Mat o k) (cb : Mat 1 o)
    (hx : AllReal x) (hew : AllReal ew) (heb : AllReal eb)
    (h1l : AllReal w1l) (h1r : AllReal w1r) (hb1 : AllReal b1) (hg1 : AllReal g1) (hbe1 : AllReal be1)
    (h2l : AllReal w2l) (h2r : AllReal w2r) (hb2 : AllReal b2) (hg2 : AllReal g2) (hbe2 : AllReal be2)
    (h3l : AllReal w3l) (h3r : AllReal w3r) (hb3 : AllReal b3) (hg3 : AllReal g3) (hbe3 : AllReal be3) :
    netSq A cN eps x ew eb w1l w1r b1 g1 be1 w2l w2r b2 g2 be2 w3l w3r b3 g3 be3 cw cb
      = netDev A' cN eps x ew eb w1l w1r b1 g1 be1 w2l w2r b2 g2 be2 w3l w3r b3 g3 be3 cw cb := by
  rw [hAA, hc, he]
  exact net_eq A hA cr er hcr hn her cw cb hx hew heb h1l h1r hb1 hg1 hbe1 h2l h2r hb2 hg2 hbe2 h3l h3r hb3 hg3 hbe3

end Cert.SpecMath

end
-- ==== Proof.LibAllFinite.lean ====
/-
  From a "finite inputs" precondition to real numbers, for an array of any shape over the extended reals.
  Such a precondition is, per float argument, an all-reduction (a reduce by `and` of a one-bit array into a
  result of one index) of the comparison |x| < +∞, entry by entry. An extended real whose absolute value
  max x (−x) is below the word of +∞ is neither −∞ nor +∞ (|−∞| = |+∞| = +∞), hence a real number; so when the
  all-reduction is one, every entry of the argument is a real number.
-/
import Idealize.ShloMosaic.PureOps.Ideal
import Idealize.ShloMosaic.Lib.ReduceAll
import Idealize.ShloMosaic.Lib.ValueIdx
import Idealize.ShloMosaic.Lib.IdealHost

noncomputable section

namespace Cert.Lib.AllFinite

open Idealize.ShloMosaic Idealize.ShloMosaic.ValueIdx

/-- A rank-0 array has one index. -/
instance scalarIdxSubsingleton : Subsingleton (⟨0, ![]⟩ : Shape).Idx := ⟨fun a b => funext fun d => d.elim0⟩

/-- An extended real whose absolute value is below the word of +∞ is a real number. -/
theorem real_of_abs_lt_top (x : EReal)
    (h : Ideal.cmp .olt (max x (-x)) (Ideal.ofBits .f32 0x7F800000#32) = 1#1) : ∃ r : ℝ, x = (r : EReal) := by
  have hT : Ideal.ofBits .f32 0x7F800000#32 = ⊤ := by simp [Ideal.ofBits, Ideal.ieee]
  rw [hT] at h
  induction x using EReal.rec with
  | bot => simp [Ideal.cmp] at h
  | coe r => exact ⟨r, rfl⟩
  | top => simp [Ideal.cmp] at h

/-- `jnp.all(|x| < +∞)` being one — the host's all-reduction, over any axes, into one index, of the comparison of
    the host's absolute value of `x` with the broadcast word of +∞ — makes every entry of `x` a real number. -/
theorem real_of_all {s : Shape} {axes : List (Fin s.rank)} (x : s.Idx → EReal)
    (hb : (⟨0, ![]⟩ : Shape).BroadcastsInDim s ![]) (hr : s.ReducesTo axes ⟨0, ![]⟩)
    (hu : 0 < (⟨0, ![]⟩ : Shape).numel)
    (e : Host.reduce IntOp.andi (cmpf (F := Ideal) (φ := .f32) .olt (Host.absf (F := Ideal) (φ := .f32) x)
        (broadcastInDim s ![] hb (constant (F := Ideal) ⟨0, ![]⟩ .f32 0x7F800000#32)))
        (constantI ⟨0, ![]⟩ 1 1#1) hr hu ix0 = 1#1) (i : s.Idx) : ∃ r : ℝ, x i = (r : EReal) := by
  have hi := Host.reduce_andi_all _ _ hr hu ix0 e i
  have hc : broadcastInDim s ![] hb (constant (F := Ideal) ⟨0, ![]⟩ .f32 0x7F800000#32) i
      = Ideal.ofBits .f32 0x7F800000#32 := broadcastInDim_scalar_apply hb _ i
  refine real_of_abs_lt_top (x i) ?_
  rw [← hc]
  exact hi

end Cert.Lib.AllFinite

end
-- ==== Proof.PreReal.lean ====
/-
  What the precondition says: it is the conjunction, over the twenty float arguments, of "every entry's absolute
  value is below +∞"; each conjunct makes every entry of its argument a real number.
-/
import proofs.«136904_j51402168598679_1_alg».proof.Pre_finite_inputs
import proofs.«136904_j51402168598679_1_alg».proof.Proof.Gen.Pre_finite_inputs
import proofs.«136904_j51402168598679_1_alg».proof.Proof.LibAllFinite
import Idealize.ShloMosaic.Lib.Affine

set_option maxRecDepth 16384

noncomputable section

namespace Cert.PreReal

open Idealize.ShloMosaic Idealize.ShloMosaic.ValueIdx Cert.Pre_finite_inputs Cert.Pre_finite_inputs.Facts
  Cert.Lib.AllFinite

/-- Under the precondition every entry of every float argument is a real number. -/
theorem args_real (a0 : FVec Ideal S100000x128 .f32) (a1 : IVec S2x1600000 32) (a2 : FVec Ideal S128x128 .f32)
    (a3 : FVec Ideal S128 .f32) (a4 : FVec Ideal S128x128 .f32) (a5 : FVec Ideal S128x128 .f32)
    (a6 : FVec Ideal S128 .f32) (a7 : FVec Ideal S128 .f32) (a8 : FVec Ideal S128 .f32)
    (a9 : FVec Ideal S128x128 .f32) (a10 : FVec Ideal S128x128 .f32) (a11 : FVec Ideal S128 .f32)
    (a12 : FVec Ideal S128 .f32) (a13 : FVec Ideal S128 .f32) (a14 : FVec Ideal S128x128 .f32)
    (a15 : FVec Ideal S128x128 .f32) (a16 : FVec Ideal S128 .f32) (a17 : FVec Ideal S128 .f32)
    (a18 : FVec Ideal S128 .f32) (a19 : FVec Ideal S2x128 .f32) (a20 : FVec Ideal S2 .f32)
    (h : fn (F := Ideal) a0 a1 a2 a3 a4 a5 a6 a7 a8 a9 a10 a11 a12 a13 a14 a15 a16 a17 a18 a19 a20 = fun _ => 1#1) :
    (∀ i, ∃ r : ℝ, a0 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) ∧ (∀ i, ∃ r : ℝ, a6 i = (r : EReal))
      ∧ (∀ i, ∃ r : ℝ, a7 i = (r : EReal)) ∧ (∀ i, ∃ r : ℝ, a8 i = (r : EReal)) ∧ (∀ i, ∃ r : ℝ, a9 i = (r : EReal))
      ∧ (∀ i, ∃ r : ℝ, a10 i = (r : EReal)) ∧ (∀ i, ∃ r : ℝ, a11 i = (r : EReal)) ∧ (∀ i, ∃ r : ℝ, a12 i = (r : EReal))
      ∧ (∀ i, ∃ r : ℝ, a13 i = (r : EReal)) ∧ (∀ i, ∃ r : ℝ, a14 i = (r : EReal)) ∧ (∀ i, ∃ r : ℝ, a15 i = (r : EReal))
      ∧ (∀ i, ∃ r : ℝ, a16 i = (r : EReal)) ∧ (∀ i, ∃ r : ℝ, a17 i = (r : EReal)) ∧ (∀ i, ∃ r : ℝ, a18 i = (r : EReal))
      ∧ (∀ i, ∃ r : ℝ, a19 i = (r : EReal)) ∧ (∀ i, ∃ r : ℝ, a20 i = (r : EReal)) := by
  have h0 := congrFun h ix0
  dsimp only [fn, fn_part1, fn_part2, fn_part3, fn_part4, fn_part5] at h0
  obtain ⟨h0, e20⟩ := IntOp.andi_eq_one.mp h0
  obtain ⟨h0, e19⟩ := IntOp.andi_eq_one.mp h0
  obtain ⟨h0, e18⟩ := IntOp.andi_eq_one.mp h0
  obtain ⟨h0, e17⟩ := IntOp.andi_eq_one.mp h0
  obtain ⟨h0, e16⟩ := IntOp.andi_eq_one.mp h0
  obtain ⟨h0, e15⟩ := IntOp.andi_eq_one.mp h0
  obtain ⟨h0, e14⟩ := IntOp.andi_eq_one.mp h0
  obtain ⟨h0, e13⟩ := IntOp.andi_eq_one.mp h0
  obtain ⟨h0, e12⟩ := IntOp.andi_eq_one.mp h0
  obtain ⟨h0, e11⟩ := IntOp.andi_eq_one.mp h0
  obtain ⟨h0, e10⟩ := IntOp.andi_eq_one.mp h0
  obtain ⟨h0, e9⟩ := IntOp.andi_eq_one.mp h0
  obtain ⟨h0, e8⟩ := IntOp.andi_eq_one.mp h0
  obtain ⟨h0, e7⟩ := IntOp.andi_eq_one.mp h0
  obtain ⟨h0, e6⟩ := IntOp.andi_eq_one.mp h0
  obtain ⟨h0, e5⟩ := IntOp.andi_eq_one.mp h0
  obtain ⟨h0, e4⟩ := IntOp.andi_eq_one.mp h0
  obtain ⟨h0, e3⟩ := IntOp.andi_eq_one.mp h0
  obtain ⟨e0, e2⟩ := IntOp.andi_eq_one.mp h0
  exact ⟨real_of_all a0 bcast_S_S100000x128 reducesTo_S100000x128_S_d0_1 h_S_ e0,
    real_of_all a2 bcast_S_S128x128 reducesTo_S128x128_S_d0_1 h_S_ e2,
    real_of_all a3 bcast_S_S128 reducesTo_S128_S_d0 h_S_ e3,
    real_of_all a4 bcast_S_S128x128 reducesTo_S128x128_S_d0_1 h_S_ e4,
    real_of_all a5 bcast_S_S128x128 reducesTo_S128x128_S_d0_1 h_S_ e5,
    real_of_all a6 bcast_S_S128 reducesTo_S128_S_d0 h_S_ e6,
    real_of_all a7 bcast_S_S128 reducesTo_S128_S_d0 h_S_ e7,
    real_of_all a8 bcast_S_S128 reducesTo_S128_S_d0 h_S_ e8,
    real_of_all a9 bcast_S_S128x128 reducesTo_S128x128_S_d0_1 h_S_ e9,
    real_of_all a10 bcast_S_S128x128 reducesTo_S128x128_S_d0_1 h_S_ e10,
    real_of_all a11 bcast_S_S128 reducesTo_S128_S_d0 h_S_ e11,
    real_of_all a12 bcast_S_S128 reducesTo_S128_S_d0 h_S_ e12,
    real_of_all a13 bcast_S_S128 reducesTo_S128_S_d0 h_S_ e13,
    real_of_all a14 bcast_S_S128x128 reducesTo_S128x128_S_d0_1 h_S_ e14,
    real_of_all a15 bcast_S_S128x128 reducesTo_S128x128_S_d0_1 h_S_ e15,
    real_of_all a16 bcast_S_S128 reducesTo_S128_S_d0 h_S_ e16,
    real_of_all a17 bcast_S_S128 reducesTo_S128_S_d0 h_S_ e17,
    real_of_all a18 bcast_S_S128 reducesTo_S128_S_d0 h_S_ e18,
    real_of_all a19 bcast_S_S2x128 reducesTo_S2x128_S_d0_1 h_S_ e19,
    real_of_all a20 bcast_S_S2 reducesTo_S2_S_d0 h_S_ e20⟩

end Cert.PreReal

end
-- ==== Proof.lean ====
/-
  A three-layer graph-convolution network (dense embedding; three times: mean aggregation over incoming edges,
  convolution h · wlᵀ + agg · wrᵀ + b, batch normalisation over the 100000 nodes, rectifier; dense classifier),
  computed by eight tiled kernels among host operations on one side and by plain array operations on the other.
  At the extended reals the two results are the same function of the arguments, the only difference being the
  variance: mean of squares minus squared mean against mean of squared deviations. The two agree by distributivity,
  which needs every entry of the convolution's output to be a real number; the precondition makes every float
  argument real, and every stage keeps reals real (sums of products; a quotient by max (in-degree, 1) ≥ 1; a
  quotient by the row count; the reciprocal square root of variance + ε > 0, the variance of reals being ≥ 0).
  The kernel program's result is read off its run boundary by boundary; the reference's off its operations.
-/
import proofs.«136904_j51402168598679_1_alg».proof.Defs
import proofs.«136904_j51402168598679_1_alg».proof.Proof.Gen.Kernel
import proofs.«136904_j51402168598679_1_alg».proof.Proof.Gen.Kernel.Frame
import proofs.«136904_j51402168598679_1_alg».proof.Proof.Gen.KernelIdeal
import proofs.«136904_j51402168598679_1_alg».proof.Proof.Gen.KernelIdeal.Frame
import proofs.«136904_j51402168598679_1_alg».proof.Proof.Gen.ReferenceIdeal
import proofs.«136904_j51402168598679_1_alg».proof.Proof.Gen.Pre_finite_inputs
import proofs.«136904_j51402168598679_1_alg».proof.Proof.KRun
import proofs.«136904_j51402168598679_1_alg».proof.Proof.KValue
import proofs.«136904_j51402168598679_1_alg».proof.Proof.RefRun
import proofs.«136904_j51402168598679_1_alg».proof.Proof.RefRead
import proofs.«136904_j51402168598679_1_alg».proof.Proof.AggSame
import proofs.«136904_j51402168598679_1_alg».proof.Proof.SpecMath
import proofs.«136904_j51402168598679_1_alg».proof.Proof.PreReal
import proofs.«136904_j51402168598679_1_alg».proof.Proof.Consts
import Idealize.ShloMosaic.Adequacy
import Idealize.ShloMosaic.Init

set_option maxRecDepth 16384

noncomputable section

namespace Cert.Proof

open Idealize.ShloMosaic Idealize.SL.Sem Cert.Spec Cert.Net Cert.SpecMath

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m g _ =>
  (θ_run (Cert.ReferenceIdeal.defs (F := Ideal)) _ _).mono (fun _ h c => (h c).2) (Cert.ReferenceIdeal.HandRun.run m g)

theorem preserves : Cert.preserves_Kernel_KernelIdeal := trivial

theorem algebraic : Cert.algebraic_KernelIdeal_ReferenceIdeal := by
  intro m ρ m' ρ' hpre hagree
  refine ⟨fun c => Cert.ReferenceIdeal.HandRun.out m' c, ?_, Cert.ReferenceIdeal.HandRun.run m' ρ'⟩
  refine (θ_run (Cert.KernelIdeal.defs (F := Ideal)) _ _).mono (fun r h c => ⟨(h c).1.trans ?_, (h c).2⟩)
    (Cert.KernelIdeal.ValuedRun.run_valued m ρ)
  -- the kernel program's result is its network of the arguments; the reference's is its network of its arguments
  refine (Cert.KernelIdeal.Fold.kernel_value m ρ c).trans ?_
  dsimp only [Cert.ReferenceIdeal.HandRun.out]
  rw [Cert.ReferenceIdeal.HandRead.netR_eq]
  -- the two memories agree on the arguments
  obtain ⟨a0, a1, a2, a3, a4, a5, a6, a7, a8, a9, a10, a11, a12, a13, a14, a15, a16, a17, a18, a19, a20⟩ := hagree c
  rw [a0, a1, a2, a3, a4, a5, a6, a7, a8, a9, a10, a11, a12, a13, a14, a15, a16, a17, a18, a19, a20]
  -- every float argument is real
  obtain ⟨r0, r2, r3, r4, r5, r6, r7, r8, r9, r10, r11, r12, r13, r14, r15, r16, r17, r18, r19, r20⟩ :=
    Cert.PreReal.args_real _ _ _ _ _ _ _ _ _ _ _ _ _ _ _ _ _ _ _ _ _ (hpre c)
  -- the aggregation is one function on both sides and keeps reals real; 100000 rows; ε positive
  obtain ⟨er, her, he⟩ := Cert.Consts.ofBits_eps
  exact net_agree
    (Cert.KernelIdeal.Agg.aggBody (Cert.KernelIdeal.Stretch.srcOf (m ((c.tc : Thread Cert.KernelIdeal.nD Cert.KernelIdeal.τ).loc Cert.KernelIdeal.main_arg1)))
      (Cert.KernelIdeal.Stretch.dstOf (m ((c.tc : Thread Cert.KernelIdeal.nD Cert.KernelIdeal.τ).loc Cert.KernelIdeal.main_arg1))))
    (Cert.ReferenceIdeal.HandRun.aggR (m ((c.tc : Thread Cert.KernelIdeal.nD Cert.KernelIdeal.τ).loc Cert.KernelIdeal.main_arg1)))
    (Cert.AggSame.agg_same _) (fun h hh j => Cert.KernelIdeal.Agg.aggBody_real _ _ h hh j)
    (Ideal.ofBits .f32 0x47C35000#32) (Ideal.ofBits .f32 0x3727C5AC#32) 100000 er Cert.Consts.ofBits_rows he
    (by norm_num) (by norm_num) her _ _ r0 r2 (row_real r3) r4 r5 (row_real r6) (row_real r7) (row_real r8) r9 r10
    (row_real r11) (row_real r12) (row_real r13) r14 r15 (row_real r16) (row_real r17) (row_real r18)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
